-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v122)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v122) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v104) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8x262144x3 : Shape := ⟨3, ![8, 262144, 3]⟩
abbrev S8x4096 : Shape := ⟨2, ![8, 4096]⟩
abbrev S_ : Shape := ⟨0, ![]⟩

class Facts : Prop where
  bcast_S_S8x262144x3 : S_.BroadcastsInDim S8x262144x3 (![] : Fin 0 → Fin S8x262144x3.rank)
  reducesTo_S8x262144x3_S_d0_1_2 : S8x262144x3.ReducesTo [0, 1, 2] S_
  h_S_ : 0 < S_.numel
  bcast_S_S8x4096 : S_.BroadcastsInDim S8x4096 (![] : Fin 0 → Fin S8x4096.rank)
  reducesTo_S8x4096_S_d0_1 : S8x4096.ReducesTo [0, 1] S_

variable [Facts]

def fn {F : FTy → Type} [FloatOps F] (main_arg0 : FVec F S8x262144x3 .f32) (main_arg1 : IVec S8x4096 32) : IVec S_ 1 :=
  let main_v0 : FVec F S8x262144x3 .f32 := Host.absf main_arg0
  let main_cst : FVec F S_ .f32 := constant S_ .f32 0x7F800000#32
  let main_v1 : FVec F S8x262144x3 .f32 := broadcastInDim S8x262144x3 ![] bcast_S_S8x262144x3 main_cst
  let main_v2 : IVec S8x262144x3 1 := cmpf .olt main_v0 main_v1
  let main_c : IVec S_ 1 := constantI S_ 1 1#1
  let main_v3 : IVec S_ 1 := (fun x v => Host.reduce IntOp.andi x v reducesTo_S8x262144x3_S_d0_1_2 h_S_) main_v2 main_c
  let main_c_0 : IVec S_ 32 := constantI S_ 32 0#32
  let main_v4 : IVec S8x4096 32 := broadcastInDim S8x4096 ![] bcast_S_S8x4096 main_c_0
  let main_v5 : IVec S8x4096 1 := cmpi .sge main_arg1 main_v4
  let main_c_1 : IVec S_ 1 := constantI S_ 1 1#1
  let main_v6 : IVec S_ 1 := (fun x v => Host.reduce IntOp.andi x v reducesTo_S8x4096_S_d0_1 h_S_) main_v5 main_c_1
  let main_v7 : IVec S_ 1 := andi main_v3 main_v6
  let main_c_2 : IVec S_ 32 := constantI S_ 32 262144#32
  let main_v8 : IVec S8x4096 32 := broadcastInDim S8x4096 ![] bcast_S_S8x4096 main_c_2
  let main_v9 : IVec S8x4096 1 := cmpi .slt main_arg1 main_v8
  let main_c_3 : IVec S_ 1 := constantI S_ 1 1#1
  let main_v10 : IVec S_ 1 := (fun x v => Host.reduce IntOp.andi x v reducesTo_S8x4096_S_d0_1 h_S_) main_v9 main_c_3
  let main_v11 : IVec S_ 1 := andi main_v7 main_v10
  main_v11
-- ==== Kernel.lean ====
abbrev S8x262144x3 : Shape := ⟨3, ![8, 262144, 3]⟩
abbrev S8x4096 : Shape := ⟨2, ![8, 4096]⟩
abbrev S8x1x3 : Shape := ⟨3, ![8, 1, 3]⟩
abbrev S1x8192x3 : Shape := ⟨3, ![1, 8192, 3]⟩
abbrev S1x1x3 : Shape := ⟨3, ![1, 1, 3]⟩
abbrev S1x3 : Shape := ⟨2, ![1, 3]⟩
abbrev S8x10x64x128 : Shape := ⟨4, ![8, 10, 64, 128]⟩
abbrev S1x2048x3 : Shape := ⟨3, ![1, 2048, 3]⟩
abbrev S1x10x64x128 : Shape := ⟨4, ![1, 10, 64, 128]⟩
abbrev S2048x3 : Shape := ⟨2, ![2048, 3]⟩
abbrev S3 : Shape := ⟨1, ![3]⟩
abbrev S2048x1 : Shape := ⟨2, ![2048, 1]⟩
abbrev S2048 : Shape := ⟨1, ![2048]⟩
abbrev S2048x64 : Shape := ⟨2, ![2048, 64]⟩
abbrev S2048x128 : Shape := ⟨2, ![2048, 128]⟩
abbrev S64x128 : Shape := ⟨2, ![64, 128]⟩
abbrev S1x1x64x128 : Shape := ⟨4, ![1, 1, 64, 128]⟩
abbrev S8x64x128x10 : Shape := ⟨4, ![8, 64, 128, 10]⟩
abbrev S8x8192x10 : Shape := ⟨3, ![8, 8192, 10]⟩
abbrev S8x8192x1 : Shape := ⟨3, ![8, 8192, 1]⟩
abbrev S8x8192 : Shape := ⟨2, ![8, 8192]⟩
abbrev S8x8192x3 : Shape := ⟨3, ![8, 8192, 3]⟩
abbrev S8x8192x6 : Shape := ⟨3, ![8, 8192, 6]⟩
abbrev S_ : Shape := ⟨0, ![]⟩
abbrev S8192 : Shape := ⟨1, ![8192]⟩
abbrev S8192x1 : Shape := ⟨2, ![8192, 1]⟩
abbrev S8192x3 : Shape := ⟨2, ![8192, 3]⟩
abbrev S8x8192x9 : Shape := ⟨3, ![8, 8192, 9]⟩
abbrev S8x8192x12 : Shape := ⟨3, ![8, 8192, 12]⟩
abbrev S8x4096x1 : Shape := ⟨3, ![8, 4096, 1]⟩
abbrev S1 : Shape := ⟨1, ![1]⟩
abbrev S1x1x1 : Shape := ⟨3, ![1, 1, 1]⟩
abbrev S8x4096x3 : Shape := ⟨3, ![8, 4096, 3]⟩
abbrev S8x4096x12 : Shape := ⟨3, ![8, 4096, 12]⟩
abbrev S8x4096x12x1 : Shape := ⟨4, ![8, 4096, 12, 1]⟩
abbrev S1x1x1x1 : Shape := ⟨4, ![1, 1, 1, 1]⟩

abbrev nBuf : Space → Nat
  | .hbm => 255
  | .vmem => 9
  | .smem => 0
  | _ => 0

abbrev hbmTy0_0 (i : Nat) : BufTy := match i % 128 with
  | 0 => ⟨S8x262144x3, .f32⟩
  | 1 => ⟨S8x4096, .i32⟩
  | 2 => ⟨S8x1x3, .f32⟩
  | 3 => ⟨S8x10x64x128, .f32⟩
  | 4 => ⟨S8x64x128x10, .f32⟩
  | 5 => ⟨S8x8192x10, .f32⟩
  | 6 => ⟨S8x8192x1, .f32⟩
  | 7 => ⟨S8x8192, .f32⟩
  | 8 => ⟨S8x8192x3, .f32⟩
  | 9 => ⟨S8x8192x6, .f32⟩
  | 10 => ⟨S_, .f32⟩
  | 11 => ⟨S8x8192, .f32⟩
  | 12 => ⟨S8x8192, .f32⟩
  | 13 => ⟨S8x8192x1, .f32⟩
  | 14 => ⟨S8x8192x3, .f32⟩
  | 15 => ⟨S8x8192x3, .f32⟩
  | 16 => ⟨S8x8192x6, .f32⟩
  | 17 => ⟨S8x8192x6, .f32⟩
  | 18 => ⟨S8x8192x1, .f32⟩
  | 19 => ⟨S8x8192, .f32⟩
  | 20 => ⟨S8x8192x1, .f32⟩
  | 21 => ⟨S8x8192, .f32⟩
  | 22 => ⟨S8x8192, .f32⟩
  | 23 => ⟨S8x8192x1, .f32⟩
  | 24 => ⟨S8x8192, .f32⟩
  | 25 => ⟨S8x8192x1, .f32⟩
  | 26 => ⟨S8x8192, .f32⟩
  | 27 => ⟨S8x8192, .f32⟩
  | 28 => ⟨S8x8192x1, .f32⟩
  | 29 => ⟨S8x8192, .f32⟩
  | 30 => ⟨S8x8192x1, .f32⟩
  | 31 => ⟨S8x8192, .f32⟩
  | 32 => ⟨S8x8192, .f32⟩
  | 33 => ⟨S8x8192x1, .f32⟩
  | 34 => ⟨S8x8192, .f32⟩
  | 35 => ⟨S8x8192x1, .f32⟩
  | 36 => ⟨S8x8192, .f32⟩
  | 37 => ⟨S8x8192, .f32⟩
  | 38 => ⟨S8x8192x1, .f32⟩
  | 39 => ⟨S8x8192, .f32⟩
  | 40 => ⟨S8x8192x1, .f32⟩
  | 41 => ⟨S8x8192, .f32⟩
  | 42 => ⟨S8x8192, .f32⟩
  | 43 => ⟨S8x8192x1, .f32⟩
  | 44 => ⟨S8x8192, .f32⟩
  | 45 => ⟨S8x8192x1, .f32⟩
  | 46 => ⟨S8x8192, .f32⟩
  | 47 => ⟨S8x8192, .f32⟩
  | 48 => ⟨S8x8192x1, .f32⟩
  | 49 => ⟨S8x8192x1, .f32⟩
  | 50 => ⟨S8x8192x1, .f32⟩
  | 51 => ⟨S8x8192x1, .f32⟩
  | 52 => ⟨S8x8192x1, .f32⟩
  | 53 => ⟨S8x8192x1, .f32⟩
  | 54 => ⟨S8x8192x6, .f32⟩
  | 55 => ⟨S8x8192x6, .f32⟩
  | 56 => ⟨S8192, .i32⟩
  | 57 => ⟨S_, .i32⟩
  | 58 => ⟨S_, .i32⟩
  | 59 => ⟨S8192, .i32⟩
  | 60 => ⟨S8192, .i32⟩
  | 61 => ⟨S8192, .i32⟩
  | 62 => ⟨S_, .i32⟩
  | 63 => ⟨S8192, .i32⟩
  | 64 => ⟨S8192, .i1⟩
  | 65 => ⟨S8192, .i32⟩
  | 66 => ⟨S8192, .i32⟩
  | 67 => ⟨S_, .i32⟩
  | 68 => ⟨S8192, .i32⟩
  | 69 => ⟨S8192, .i1⟩
  | 70 => ⟨S8192, .i1⟩
  | 71 => ⟨S_, .i32⟩
  | 72 => ⟨S8192, .i32⟩
  | 73 => ⟨S8192, .i32⟩
  | 74 => ⟨S8192, .i32⟩
  | 75 => ⟨S_, .i32⟩
  | 76 => ⟨S_, .i32⟩
  | 77 => ⟨S8192, .i32⟩
  | 78 => ⟨S8192, .i32⟩
  | 79 => ⟨S8192, .i32⟩
  | 80 => ⟨S_, .i32⟩
  | 81 => ⟨S8192, .i32⟩
  | 82 => ⟨S8192, .i1⟩
  | 83 => ⟨S8192, .i32⟩
  | 84 => ⟨S8192, .i32⟩
  | 85 => ⟨S_, .i32⟩
  | 86 => ⟨S8192, .i32⟩
  | 87 => ⟨S8192, .i1⟩
  | 88 => ⟨S8192, .i1⟩
  | 89 => ⟨S_, .i32⟩
  | 90 => ⟨S8192, .i32⟩
  | 91 => ⟨S8192, .i32⟩
  | 92 => ⟨S8192, .i32⟩
  | 93 => ⟨S_, .i32⟩
  | 94 => ⟨S_, .i32⟩
  | 95 => ⟨S_, .i32⟩
  | 96 => ⟨S_, .i1⟩
  | 97 => ⟨S_, .i32⟩
  | 98 => ⟨S_, .i32⟩
  | 99 => ⟨S8192, .i32⟩
  | 100 => ⟨S8192, .i32⟩
  | 101 => ⟨S_, .i32⟩
  | 102 => ⟨S8192, .i32⟩
  | 103 => ⟨S8192, .i1⟩
  | 104 => ⟨S_, .i32⟩
  | 105 => ⟨S8192, .i32⟩
  | 106 => ⟨S8192, .i1⟩
  | 107 => ⟨S_, .i32⟩
  | 108 => ⟨S_, .i1⟩
  | 109 => ⟨S8192, .i1⟩
  | 110 => ⟨S8192, .i1⟩
  | 111 => ⟨S8192, .i1⟩
  | 112 => ⟨S8192, .i32⟩
  | 113 => ⟨S8192, .i32⟩
  | 114 => ⟨S8192, .i32⟩
  | 115 => ⟨S_, .i32⟩
  | 116 => ⟨S_, .i32⟩
  | 117 => ⟨S_, .i32⟩
  | 118 => ⟨S_, .i1⟩
  | 119 => ⟨S_, .i32⟩
  | 120 => ⟨S_, .i32⟩
  | 121 => ⟨S8192, .i32⟩
  | 122 => ⟨S8192, .i32⟩
  | 123 => ⟨S_, .i32⟩
  | 124 => ⟨S8192, .i32⟩
  | 125 => ⟨S8192, .i1⟩
  | 126 => ⟨S_, .i32⟩
  | 127 => ⟨S8192, .i32⟩
  | _ => ⟨S8x262144x3, .f32⟩

abbrev hbmTy0_1 (i : Nat) : BufTy := match i % 128 with
  | 0 => ⟨S8192, .i1⟩
  | 1 => ⟨S_, .i32⟩
  | 2 => ⟨S_, .i1⟩
  | 3 => ⟨S8192, .i1⟩
  | 4 => ⟨S8192, .i1⟩
  | 5 => ⟨S8192, .i1⟩
  | 6 => ⟨S8192, .i32⟩
  | 7 => ⟨S8192, .i32⟩
  | 8 => ⟨S8192, .i32⟩
  | 9 => ⟨S8192x1, .i32⟩
  | 10 => ⟨S8192x1, .i32⟩
  | 11 => ⟨S8192x1, .i32⟩
  | 12 => ⟨S8192x3, .i32⟩
  | 13 => ⟨S8192x3, .f32⟩
  | 14 => ⟨S_, .f32⟩
  | 15 => ⟨S8192x3, .f32⟩
  | 16 => ⟨S8192x3, .f32⟩
  | 17 => ⟨S1x8192x3, .f32⟩
  | 18 => ⟨S8x8192x3, .f32⟩
  | 19 => ⟨S8x8192x3, .f32⟩
  | 20 => ⟨S8x8192x3, .f32⟩
  | 21 => ⟨S8x8192x3, .f32⟩
  | 22 => ⟨S8x8192x1, .f32⟩
  | 23 => ⟨S8x8192, .f32⟩
  | 24 => ⟨S8x8192x1, .f32⟩
  | 25 => ⟨S8x8192, .f32⟩
  | 26 => ⟨S8x8192x1, .f32⟩
  | 27 => ⟨S8x8192, .f32⟩
  | 28 => ⟨S8x8192x1, .f32⟩
  | 29 => ⟨S8x8192, .f32⟩
  | 30 => ⟨S8x8192x1, .f32⟩
  | 31 => ⟨S8x8192, .f32⟩
  | 32 => ⟨S8x8192x1, .f32⟩
  | 33 => ⟨S8x8192, .f32⟩
  | 34 => ⟨S8x8192x1, .f32⟩
  | 35 => ⟨S8x8192, .f32⟩
  | 36 => ⟨S8x8192x1, .f32⟩
  | 37 => ⟨S8x8192, .f32⟩
  | 38 => ⟨S8x8192x1, .f32⟩
  | 39 => ⟨S8x8192, .f32⟩
  | 40 => ⟨S8x8192x1, .f32⟩
  | 41 => ⟨S8x8192x1, .f32⟩
  | 42 => ⟨S8x8192x1, .f32⟩
  | 43 => ⟨S8x8192x1, .f32⟩
  | 44 => ⟨S8x8192x1, .f32⟩
  | 45 => ⟨S8x8192x1, .f32⟩
  | 46 => ⟨S8x8192x1, .f32⟩
  | 47 => ⟨S8x8192x1, .f32⟩
  | 48 => ⟨S8x8192x1, .f32⟩
  | 49 => ⟨S8x8192x9, .f32⟩
  | 50 => ⟨S8x8192x12, .f32⟩
  | 51 => ⟨S8x4096x1, .i32⟩
  | 52 => ⟨S_, .i32⟩
  | 53 => ⟨S8x4096x1, .i32⟩
  | 54 => ⟨S8x4096x1, .i1⟩
  | 55 => ⟨S_, .i32⟩
  | 56 => ⟨S8x4096x1, .i32⟩
  | 57 => ⟨S8x4096x1, .i32⟩
  | 58 => ⟨S8x4096x1, .i32⟩
  | 59 => ⟨S1, .i32⟩
  | 60 => ⟨S_, .i32⟩
  | 61 => ⟨S8x4096x1, .i32⟩
  | 62 => ⟨S8x4096x1, .i1⟩
  | 63 => ⟨S1x1x1, .i32⟩
  | 64 => ⟨S8x4096x1, .i32⟩
  | 65 => ⟨S8x4096x1, .i1⟩
  | 66 => ⟨S8x4096x1, .i1⟩
  | 67 => ⟨S_, .i1⟩
  | 68 => ⟨S8x4096, .i1⟩
  | 69 => ⟨S8x4096x3, .f32⟩
  | 70 => ⟨S8x4096x3, .i1⟩
  | 71 => ⟨S_, .f32⟩
  | 72 => ⟨S8x4096x3, .f32⟩
  | 73 => ⟨S8x4096x3, .f32⟩
  | 74 => ⟨S8x4096x3, .f32⟩
  | 75 => ⟨S8x4096x3, .f32⟩
  | 76 => ⟨S_, .f32⟩
  | 77 => ⟨S8x4096x3, .f32⟩
  | 78 => ⟨S8x4096x3, .f32⟩
  | 79 => ⟨S8x4096x3, .f32⟩
  | 80 => ⟨S8x4096x3, .i32⟩
  | 81 => ⟨S_, .i32⟩
  | 82 => ⟨S_, .i32⟩
  | 83 => ⟨S_, .i32⟩
  | 84 => ⟨S8x4096x3, .i32⟩
  | 85 => ⟨S8x4096x3, .i32⟩
  | 86 => ⟨S_, .i32⟩
  | 87 => ⟨S8x4096x3, .i32⟩
  | 88 => ⟨S8x4096x3, .i32⟩
  | 89 => ⟨S8x4096x1, .i32⟩
  | 90 => ⟨S8x4096, .i32⟩
  | 91 => ⟨S_, .i32⟩
  | 92 => ⟨S8x4096, .i32⟩
  | 93 => ⟨S8x4096, .i32⟩
  | 94 => ⟨S8x4096x1, .i32⟩
  | 95 => ⟨S8x4096, .i32⟩
  | 96 => ⟨S8x4096, .i32⟩
  | 97 => ⟨S_, .i32⟩
  | 98 => ⟨S8x4096, .i32⟩
  | 99 => ⟨S8x4096, .i32⟩
  | 100 => ⟨S8x4096x1, .i32⟩
  | 101 => ⟨S8x4096, .i32⟩
  | 102 => ⟨S8x4096, .i32⟩
  | 103 => ⟨S8x4096x1, .i32⟩
  | 104 => ⟨S8x4096x12, .i32⟩
  | 105 => ⟨S_, .i32⟩
  | 106 => ⟨S8x4096x12, .i32⟩
  | 107 => ⟨S8x4096x12, .i1⟩
  | 108 => ⟨S_, .i32⟩
  | 109 => ⟨S8x4096x12, .i32⟩
  | 110 => ⟨S8x4096x12, .i32⟩
  | 111 => ⟨S8x4096x12, .i32⟩
  | 112 => ⟨S8x4096x12x1, .i32⟩
  | 113 => ⟨S1, .i32⟩
  | 114 => ⟨S_, .i32⟩
  | 115 => ⟨S8x4096x12x1, .i32⟩
  | 116 => ⟨S8x4096x12x1, .i1⟩
  | 117 => ⟨S1x1x1x1, .i32⟩
  | 118 => ⟨S8x4096x12x1, .i32⟩
  | 119 => ⟨S8x4096x12x1, .i1⟩
  | 120 => ⟨S8x4096x12x1, .i1⟩
  | 121 => ⟨S_, .i1⟩
  | 122 => ⟨S8x4096x12, .i1⟩
  | 123 => ⟨S8x4096x12, .f32⟩
  | 124 => ⟨S_, .f32⟩
  | 125 => ⟨S8x4096x12, .f32⟩
  | 126 => ⟨S8x4096x12, .f32⟩
  | _ => ⟨S8x262144x3, .f32⟩

abbrev hbmTy (i : Nat) : BufTy := match i / 128 with
  | 0 => hbmTy0_0 i
  | 1 => hbmTy0_1 i
  | _ => ⟨S8x262144x3, .f32⟩

abbrev bufTy : (tb : Table) → Fin (tcTables nBuf tb) → BufTy
  | .hbm, ⟨i, _⟩ => hbmTy i
  | .local _ .vmem, ⟨0, _⟩ => ⟨S1x8192x3, .f32⟩
  | .local _ .vmem, ⟨1, _⟩ => ⟨S1x8192x3, .f32⟩
  | .local _ .vmem, ⟨2, _⟩ => ⟨S1x1x3, .f32⟩
  | .local _ .vmem, ⟨3, _⟩ => ⟨S1x1x3, .f32⟩
  | .local _ .vmem, ⟨4, _⟩ => ⟨S1x2048x3, .f32⟩
  | .local _ .vmem, ⟨5, _⟩ => ⟨S1x2048x3, .f32⟩
  | .local _ .vmem, ⟨6, _⟩ => ⟨S1x1x3, .f32⟩
  | .local _ .vmem, ⟨7, _⟩ => ⟨S1x10x64x128, .f32⟩
  | .local _ .vmem, ⟨8, _⟩ => ⟨S1x10x64x128, .f32⟩
  | _, _ => ⟨S8x262144x3, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_cst : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_v12 : Ref sig .tc := ⟨.hbm, 15, rfl⟩
abbrev main_v13 : Ref sig .tc := ⟨.hbm, 16, rfl⟩
abbrev main_v14 : Ref sig .tc := ⟨.hbm, 17, rfl⟩
abbrev main_v15 : Ref sig .tc := ⟨.hbm, 18, rfl⟩
abbrev main_v16 : Ref sig .tc := ⟨.hbm, 19, rfl⟩
abbrev main_v17 : Ref sig .tc := ⟨.hbm, 20, rfl⟩
abbrev main_v18 : Ref sig .tc := ⟨.hbm, 21, rfl⟩
abbrev main_v19 : Ref sig .tc := ⟨.hbm, 22, rfl⟩
abbrev main_v20 : Ref sig .tc := ⟨.hbm, 23, rfl⟩
abbrev main_v21 : Ref sig .tc := ⟨.hbm, 24, rfl⟩
abbrev main_v22 : Ref sig .tc := ⟨.hbm, 25, rfl⟩
abbrev main_v23 : Ref sig .tc := ⟨.hbm, 26, rfl⟩
abbrev main_v24 : Ref sig .tc := ⟨.hbm, 27, rfl⟩
abbrev main_v25 : Ref sig .tc := ⟨.hbm, 28, rfl⟩
abbrev main_v26 : Ref sig .tc := ⟨.hbm, 29, rfl⟩
abbrev main_v27 : Ref sig .tc := ⟨.hbm, 30, rfl⟩
abbrev main_v28 : Ref sig .tc := ⟨.hbm, 31, rfl⟩
abbrev main_v29 : Ref sig .tc := ⟨.hbm, 32, rfl⟩
abbrev main_v30 : Ref sig .tc := ⟨.hbm, 33, rfl⟩
abbrev main_v31 : Ref sig .tc := ⟨.hbm, 34, rfl⟩
abbrev main_v32 : Ref sig .tc := ⟨.hbm, 35, rfl⟩
abbrev main_v33 : Ref sig .tc := ⟨.hbm, 36, rfl⟩
abbrev main_v34 : Ref sig .tc := ⟨.hbm, 37, rfl⟩
abbrev main_v35 : Ref sig .tc := ⟨.hbm, 38, rfl⟩
abbrev main_v36 : Ref sig .tc := ⟨.hbm, 39, rfl⟩
abbrev main_v37 : Ref sig .tc := ⟨.hbm, 40, rfl⟩
abbrev main_v38 : Ref sig .tc := ⟨.hbm, 41, rfl⟩
abbrev main_v39 : Ref sig .tc := ⟨.hbm, 42, rfl⟩
abbrev main_v40 : Ref sig .tc := ⟨.hbm, 43, rfl⟩
abbrev main_v41 : Ref sig .tc := ⟨.hbm, 44, rfl⟩
abbrev main_v42 : Ref sig .tc := ⟨.hbm, 45, rfl⟩
abbrev main_v43 : Ref sig .tc := ⟨.hbm, 46, rfl⟩
abbrev main_v44 : Ref sig .tc := ⟨.hbm, 47, rfl⟩
abbrev main_v45 : Ref sig .tc := ⟨.hbm, 48, rfl⟩
abbrev main_v46 : Ref sig .tc := ⟨.hbm, 49, rfl⟩
abbrev main_v47 : Ref sig .tc := ⟨.hbm, 50, rfl⟩
abbrev main_v48 : Ref sig .tc := ⟨.hbm, 51, rfl⟩
abbrev main_v49 : Ref sig .tc := ⟨.hbm, 52, rfl⟩
abbrev main_v50 : Ref sig .tc := ⟨.hbm, 53, rfl⟩
abbrev main_v51 : Ref sig .tc := ⟨.hbm, 54, rfl⟩
abbrev main_v52 : Ref sig .tc := ⟨.hbm, 55, rfl⟩
abbrev main_v53 : Ref sig .tc := ⟨.hbm, 56, rfl⟩
abbrev main_c : Ref sig .tc := ⟨.hbm, 57, rfl⟩
abbrev main_call0_v0 : Ref sig .tc := ⟨.hbm, 58, rfl⟩
abbrev main_call0_v1 : Ref sig .tc := ⟨.hbm, 59, rfl⟩
abbrev main_call0_v2 : Ref sig .tc := ⟨.hbm, 60, rfl⟩
abbrev main_call0_v3 : Ref sig .tc := ⟨.hbm, 61, rfl⟩
abbrev main_call0_v4 : Ref sig .tc := ⟨.hbm, 62, rfl⟩
abbrev main_call0_v5 : Ref sig .tc := ⟨.hbm, 63, rfl⟩
abbrev main_call0_v6 : Ref sig .tc := ⟨.hbm, 64, rfl⟩
abbrev main_call0_v7 : Ref sig .tc := ⟨.hbm, 65, rfl⟩
abbrev main_call0_v8 : Ref sig .tc := ⟨.hbm, 66, rfl⟩
abbrev main_call0_c : Ref sig .tc := ⟨.hbm, 67, rfl⟩
abbrev main_call0_v9 : Ref sig .tc := ⟨.hbm, 68, rfl⟩
abbrev main_call0_v10 : Ref sig .tc := ⟨.hbm, 69, rfl⟩
abbrev main_call0_v11 : Ref sig .tc := ⟨.hbm, 70, rfl⟩
abbrev main_call0_c_0 : Ref sig .tc := ⟨.hbm, 71, rfl⟩
abbrev main_call0_v12 : Ref sig .tc := ⟨.hbm, 72, rfl⟩
abbrev main_call0_v13 : Ref sig .tc := ⟨.hbm, 73, rfl⟩
abbrev main_v54 : Ref sig .tc := ⟨.hbm, 74, rfl⟩
abbrev main_c_0 : Ref sig .tc := ⟨.hbm, 75, rfl⟩
abbrev main_call1_v0 : Ref sig .tc := ⟨.hbm, 76, rfl⟩
abbrev main_call1_v1 : Ref sig .tc := ⟨.hbm, 77, rfl⟩
abbrev main_call1_v2 : Ref sig .tc := ⟨.hbm, 78, rfl⟩
abbrev main_call1_v3 : Ref sig .tc := ⟨.hbm, 79, rfl⟩
abbrev main_call1_v4 : Ref sig .tc := ⟨.hbm, 80, rfl⟩
abbrev main_call1_v5 : Ref sig .tc := ⟨.hbm, 81, rfl⟩
abbrev main_call1_v6 : Ref sig .tc := ⟨.hbm, 82, rfl⟩
abbrev main_call1_v7 : Ref sig .tc := ⟨.hbm, 83, rfl⟩
abbrev main_call1_v8 : Ref sig .tc := ⟨.hbm, 84, rfl⟩
abbrev main_call1_c : Ref sig .tc := ⟨.hbm, 85, rfl⟩
abbrev main_call1_v9 : Ref sig .tc := ⟨.hbm, 86, rfl⟩
abbrev main_call1_v10 : Ref sig .tc := ⟨.hbm, 87, rfl⟩
abbrev main_call1_v11 : Ref sig .tc := ⟨.hbm, 88, rfl⟩
abbrev main_call1_c_0 : Ref sig .tc := ⟨.hbm, 89, rfl⟩
abbrev main_call1_v12 : Ref sig .tc := ⟨.hbm, 90, rfl⟩
abbrev main_call1_v13 : Ref sig .tc := ⟨.hbm, 91, rfl⟩
abbrev main_v55 : Ref sig .tc := ⟨.hbm, 92, rfl⟩
abbrev main_c_1 : Ref sig .tc := ⟨.hbm, 93, rfl⟩
abbrev main_call2_v0 : Ref sig .tc := ⟨.hbm, 94, rfl⟩
abbrev main_call2_c : Ref sig .tc := ⟨.hbm, 95, rfl⟩
abbrev main_call2_v1 : Ref sig .tc := ⟨.hbm, 96, rfl⟩
abbrev main_call2_c_0 : Ref sig .tc := ⟨.hbm, 97, rfl⟩
abbrev main_call2_v2 : Ref sig .tc := ⟨.hbm, 98, rfl⟩
abbrev main_call2_v3 : Ref sig .tc := ⟨.hbm, 99, rfl⟩
abbrev main_call2_v4 : Ref sig .tc := ⟨.hbm, 100, rfl⟩
abbrev main_call2_c_1 : Ref sig .tc := ⟨.hbm, 101, rfl⟩
abbrev main_call2_v5 : Ref sig .tc := ⟨.hbm, 102, rfl⟩
abbrev main_call2_v6 : Ref sig .tc := ⟨.hbm, 103, rfl⟩
abbrev main_call2_c_2 : Ref sig .tc := ⟨.hbm, 104, rfl⟩
abbrev main_call2_v7 : Ref sig .tc := ⟨.hbm, 105, rfl⟩
abbrev main_call2_v8 : Ref sig .tc := ⟨.hbm, 106, rfl⟩
abbrev main_call2_c_3 : Ref sig .tc := ⟨.hbm, 107, rfl⟩
abbrev main_call2_v9 : Ref sig .tc := ⟨.hbm, 108, rfl⟩
abbrev main_call2_v10 : Ref sig .tc := ⟨.hbm, 109, rfl⟩
abbrev main_call2_v11 : Ref sig .tc := ⟨.hbm, 110, rfl⟩
abbrev main_call2_v12 : Ref sig .tc := ⟨.hbm, 111, rfl⟩
abbrev main_call2_v13 : Ref sig .tc := ⟨.hbm, 112, rfl⟩
abbrev main_call2_v14 : Ref sig .tc := ⟨.hbm, 113, rfl⟩
abbrev main_v56 : Ref sig .tc := ⟨.hbm, 114, rfl⟩
abbrev main_c_2 : Ref sig .tc := ⟨.hbm, 115, rfl⟩
abbrev main_call3_v0 : Ref sig .tc := ⟨.hbm, 116, rfl⟩
abbrev main_call3_c : Ref sig .tc := ⟨.hbm, 117, rfl⟩
abbrev main_call3_v1 : Ref sig .tc := ⟨.hbm, 118, rfl⟩
abbrev main_call3_c_0 : Ref sig .tc := ⟨.hbm, 119, rfl⟩
abbrev main_call3_v2 : Ref sig .tc := ⟨.hbm, 120, rfl⟩
abbrev main_call3_v3 : Ref sig .tc := ⟨.hbm, 121, rfl⟩
abbrev main_call3_v4 : Ref sig .tc := ⟨.hbm, 122, rfl⟩
abbrev main_call3_c_1 : Ref sig .tc := ⟨.hbm, 123, rfl⟩
abbrev main_call3_v5 : Ref sig .tc := ⟨.hbm, 124, rfl⟩
abbrev main_call3_v6 : Ref sig .tc := ⟨.hbm, 125, rfl⟩
abbrev main_call3_c_2 : Ref sig .tc := ⟨.hbm, 126, rfl⟩
abbrev main_call3_v7 : Ref sig .tc := ⟨.hbm, 127, rfl⟩
abbrev main_call3_v8 : Ref sig .tc := ⟨.hbm, 128, rfl⟩
abbrev main_call3_c_3 : Ref sig .tc := ⟨.hbm, 129, rfl⟩
abbrev main_call3_v9 : Ref sig .tc := ⟨.hbm, 130, rfl⟩
abbrev main_call3_v10 : Ref sig .tc := ⟨.hbm, 131, rfl⟩
abbrev main_call3_v11 : Ref sig .tc := ⟨.hbm, 132, rfl⟩
abbrev main_call3_v12 : Ref sig .tc := ⟨.hbm, 133, rfl⟩
abbrev main_call3_v13 : Ref sig .tc := ⟨.hbm, 134, rfl⟩
abbrev main_call3_v14 : Ref sig .tc := ⟨.hbm, 135, rfl⟩
abbrev main_v57 : Ref sig .tc := ⟨.hbm, 136, rfl⟩
abbrev main_v58 : Ref sig .tc := ⟨.hbm, 137, rfl⟩
abbrev main_v59 : Ref sig .tc := ⟨.hbm, 138, rfl⟩
abbrev main_v60 : Ref sig .tc := ⟨.hbm, 139, rfl⟩
abbrev main_v61 : Ref sig .tc := ⟨.hbm, 140, rfl⟩
abbrev main_v62 : Ref sig .tc := ⟨.hbm, 141, rfl⟩
abbrev main_cst_3 : Ref sig .tc := ⟨.hbm, 142, rfl⟩
abbrev main_v63 : Ref sig .tc := ⟨.hbm, 143, rfl⟩
abbrev main_v64 : Ref sig .tc := ⟨.hbm, 144, rfl⟩
abbrev main_v65 : Ref sig .tc := ⟨.hbm, 145, rfl⟩
abbrev main_v66 : Ref sig .tc := ⟨.hbm, 146, rfl⟩
abbrev main_v67 : Ref sig .tc := ⟨.hbm, 147, rfl⟩
abbrev main_v68 : Ref sig .tc := ⟨.hbm, 148, rfl⟩
abbrev main_v69 : Ref sig .tc := ⟨.hbm, 149, rfl⟩
abbrev main_v70 : Ref sig .tc := ⟨.hbm, 150, rfl⟩
abbrev main_v71 : Ref sig .tc := ⟨.hbm, 151, rfl⟩
abbrev main_v72 : Ref sig .tc := ⟨.hbm, 152, rfl⟩
abbrev main_v73 : Ref sig .tc := ⟨.hbm, 153, rfl⟩
abbrev main_v74 : Ref sig .tc := ⟨.hbm, 154, rfl⟩
abbrev main_v75 : Ref sig .tc := ⟨.hbm, 155, rfl⟩
abbrev main_v76 : Ref sig .tc := ⟨.hbm, 156, rfl⟩
abbrev main_v77 : Ref sig .tc := ⟨.hbm, 157, rfl⟩
abbrev main_v78 : Ref sig .tc := ⟨.hbm, 158, rfl⟩
abbrev main_v79 : Ref sig .tc := ⟨.hbm, 159, rfl⟩
abbrev main_v80 : Ref sig .tc := ⟨.hbm, 160, rfl⟩
abbrev main_v81 : Ref sig .tc := ⟨.hbm, 161, rfl⟩
abbrev main_v82 : Ref sig .tc := ⟨.hbm, 162, rfl⟩
abbrev main_v83 : Ref sig .tc := ⟨.hbm, 163, rfl⟩
abbrev main_v84 : Ref sig .tc := ⟨.hbm, 164, rfl⟩
abbrev main_v85 : Ref sig .tc := ⟨.hbm, 165, rfl⟩
abbrev main_v86 : Ref sig .tc := ⟨.hbm, 166, rfl⟩
abbrev main_v87 : Ref sig .tc := ⟨.hbm, 167, rfl⟩
abbrev main_v88 : Ref sig .tc := ⟨.hbm, 168, rfl⟩
abbrev main_v89 : Ref sig .tc := ⟨.hbm, 169, rfl⟩
abbrev main_v90 : Ref sig .tc := ⟨.hbm, 170, rfl⟩
abbrev main_v91 : Ref sig .tc := ⟨.hbm, 171, rfl⟩
abbrev main_v92 : Ref sig .tc := ⟨.hbm, 172, rfl⟩
abbrev main_v93 : Ref sig .tc := ⟨.hbm, 173, rfl⟩
abbrev main_v94 : Ref sig .tc := ⟨.hbm, 174, rfl⟩
abbrev main_v95 : Ref sig .tc := ⟨.hbm, 175, rfl⟩
abbrev main_v96 : Ref sig .tc := ⟨.hbm, 176, rfl⟩
abbrev main_v97 : Ref sig .tc := ⟨.hbm, 177, rfl⟩
abbrev main_v98 : Ref sig .tc := ⟨.hbm, 178, rfl⟩
abbrev main_v99 : Ref sig .tc := ⟨.hbm, 179, rfl⟩
abbrev main_call4_c : Ref sig .tc := ⟨.hbm, 180, rfl⟩
abbrev main_call4_v0 : Ref sig .tc := ⟨.hbm, 181, rfl⟩
abbrev main_call4_v1 : Ref sig .tc := ⟨.hbm, 182, rfl⟩
abbrev main_call4_c_0 : Ref sig .tc := ⟨.hbm, 183, rfl⟩
abbrev main_call4_v2 : Ref sig .tc := ⟨.hbm, 184, rfl⟩
abbrev main_call4_v3 : Ref sig .tc := ⟨.hbm, 185, rfl⟩
abbrev main_call4_v4 : Ref sig .tc := ⟨.hbm, 186, rfl⟩
abbrev main_call4_c_1 : Ref sig .tc := ⟨.hbm, 187, rfl⟩
abbrev main_call4_c_2 : Ref sig .tc := ⟨.hbm, 188, rfl⟩
abbrev main_call4_v5 : Ref sig .tc := ⟨.hbm, 189, rfl⟩
abbrev main_call4_v6 : Ref sig .tc := ⟨.hbm, 190, rfl⟩
abbrev main_call4_v7 : Ref sig .tc := ⟨.hbm, 191, rfl⟩
abbrev main_call4_v8 : Ref sig .tc := ⟨.hbm, 192, rfl⟩
abbrev main_call4_v9 : Ref sig .tc := ⟨.hbm, 193, rfl⟩
abbrev main_call4_v10 : Ref sig .tc := ⟨.hbm, 194, rfl⟩
abbrev main_call4_c_3 : Ref sig .tc := ⟨.hbm, 195, rfl⟩
abbrev main_call4_v11 : Ref sig .tc := ⟨.hbm, 196, rfl⟩
abbrev main_call4_v12 : Ref sig .tc := ⟨.hbm, 197, rfl⟩
abbrev main_call4_v13 : Ref sig .tc := ⟨.hbm, 198, rfl⟩
abbrev main_call4_cst : Ref sig .tc := ⟨.hbm, 199, rfl⟩
abbrev main_call4_v14 : Ref sig .tc := ⟨.hbm, 200, rfl⟩
abbrev main_v100 : Ref sig .tc := ⟨.hbm, 201, rfl⟩
abbrev main_v101 : Ref sig .tc := ⟨.hbm, 202, rfl⟩
abbrev main_v102 : Ref sig .tc := ⟨.hbm, 203, rfl⟩
abbrev main_cst_4 : Ref sig .tc := ⟨.hbm, 204, rfl⟩
abbrev main_v103 : Ref sig .tc := ⟨.hbm, 205, rfl⟩
abbrev main_v104 : Ref sig .tc := ⟨.hbm, 206, rfl⟩
abbrev main_v105 : Ref sig .tc := ⟨.hbm, 207, rfl⟩
abbrev main_v106 : Ref sig .tc := ⟨.hbm, 208, rfl⟩
abbrev main_c_5 : Ref sig .tc := ⟨.hbm, 209, rfl⟩
abbrev main_c_6 : Ref sig .tc := ⟨.hbm, 210, rfl⟩
abbrev main_call5_v0 : Ref sig .tc := ⟨.hbm, 211, rfl⟩
abbrev main_call5_v1 : Ref sig .tc := ⟨.hbm, 212, rfl⟩
abbrev main_call5_v2 : Ref sig .tc := ⟨.hbm, 213, rfl⟩
abbrev main_call5_v3 : Ref sig .tc := ⟨.hbm, 214, rfl⟩
abbrev main_call5_v4 : Ref sig .tc := ⟨.hbm, 215, rfl⟩
abbrev main_v107 : Ref sig .tc := ⟨.hbm, 216, rfl⟩
abbrev main_v108 : Ref sig .tc := ⟨.hbm, 217, rfl⟩
abbrev main_v109 : Ref sig .tc := ⟨.hbm, 218, rfl⟩
abbrev main_c_7 : Ref sig .tc := ⟨.hbm, 219, rfl⟩
abbrev main_v110 : Ref sig .tc := ⟨.hbm, 220, rfl⟩
abbrev main_v111 : Ref sig .tc := ⟨.hbm, 221, rfl⟩
abbrev main_v112 : Ref sig .tc := ⟨.hbm, 222, rfl⟩
abbrev main_v113 : Ref sig .tc := ⟨.hbm, 223, rfl⟩
abbrev main_v114 : Ref sig .tc := ⟨.hbm, 224, rfl⟩
abbrev main_c_8 : Ref sig .tc := ⟨.hbm, 225, rfl⟩
abbrev main_v115 : Ref sig .tc := ⟨.hbm, 226, rfl⟩
abbrev main_v116 : Ref sig .tc := ⟨.hbm, 227, rfl⟩
abbrev main_v117 : Ref sig .tc := ⟨.hbm, 228, rfl⟩
abbrev main_v118 : Ref sig .tc := ⟨.hbm, 229, rfl⟩
abbrev main_v119 : Ref sig .tc := ⟨.hbm, 230, rfl⟩
abbrev main_v120 : Ref sig .tc := ⟨.hbm, 231, rfl⟩
abbrev main_v121 : Ref sig .tc := ⟨.hbm, 232, rfl⟩
abbrev main_call6_c : Ref sig .tc := ⟨.hbm, 233, rfl⟩
abbrev main_call6_v0 : Ref sig .tc := ⟨.hbm, 234, rfl⟩
abbrev main_call6_v1 : Ref sig .tc := ⟨.hbm, 235, rfl⟩
abbrev main_call6_c_0 : Ref sig .tc := ⟨.hbm, 236, rfl⟩
abbrev main_call6_v2 : Ref sig .tc := ⟨.hbm, 237, rfl⟩
abbrev main_call6_v3 : Ref sig .tc := ⟨.hbm, 238, rfl⟩
abbrev main_call6_v4 : Ref sig .tc := ⟨.hbm, 239, rfl⟩
abbrev main_call6_v5 : Ref sig .tc := ⟨.hbm, 240, rfl⟩
abbrev main_call6_c_1 : Ref sig .tc := ⟨.hbm, 241, rfl⟩
abbrev main_call6_c_2 : Ref sig .tc := ⟨.hbm, 242, rfl⟩
abbrev main_call6_v6 : Ref sig .tc := ⟨.hbm, 243, rfl⟩
abbrev main_call6_v7 : Ref sig .tc := ⟨.hbm, 244, rfl⟩
abbrev main_call6_v8 : Ref sig .tc := ⟨.hbm, 245, rfl⟩
abbrev main_call6_v9 : Ref sig .tc := ⟨.hbm, 246, rfl⟩
abbrev main_call6_v10 : Ref sig .tc := ⟨.hbm, 247, rfl⟩
abbrev main_call6_v11 : Ref sig .tc := ⟨.hbm, 248, rfl⟩
abbrev main_call6_c_3 : Ref sig .tc := ⟨.hbm, 249, rfl⟩
abbrev main_call6_v12 : Ref sig .tc := ⟨.hbm, 250, rfl⟩
abbrev main_call6_v13 : Ref sig .tc := ⟨.hbm, 251, rfl⟩
abbrev main_call6_cst : Ref sig .tc := ⟨.hbm, 252, rfl⟩
abbrev main_call6_v14 : Ref sig .tc := ⟨.hbm, 253, rfl⟩
abbrev main_v122 : Ref sig .tc := ⟨.hbm, 254, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc1_stg0_0 : Ref sig .tc := ⟨.vmem, 4, rfl⟩
abbrev cc1_stg0_1 : Ref sig .tc := ⟨.vmem, 5, rfl⟩
abbrev cc1_stg1_0 : Ref sig .tc := ⟨.vmem, 6, rfl⟩
abbrev cc1_stg2_0 : Ref sig .tc := ⟨.vmem, 7, rfl⟩
abbrev cc1_stg2_1 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc1_sem0_0 : DmaSem sig := 4
abbrev cc1_sem0_1 : DmaSem sig := 5
abbrev cc1_sem1_0 : DmaSem sig := 6
abbrev cc1_sem2_0 : DmaSem sig := 7
abbrev cc1_sem2_1 : DmaSem sig := 8

abbrev nD : Nat := 1
abbrev τ : Topo := Topo.v7x

variable {F : FTy → Type} [FloatOps F]

abbrev grid0 : Pipeline.Grid := ⟨2, ![8, 32], ![false, false]⟩

def k0_cond1 (i : grid0.Coords) : BitVec 1 :=
  let arg1 : BitVec 32 := BitVec.ofNat 32 (i 1).val
  let c0_i32 : BitVec 32 := 0#32
  let v3 : BitVec 1 := Scalar.cmpi .eq arg1 c0_i32
  let v4 : BitVec 32 := Scalar.extui v3
  let c0_i32_2 : BitVec 32 := 0#32
  let v5 : BitVec 1 := Scalar.cmpi .ne v4 c0_i32_2
  v5

def k0_cond2 (i : grid0.Coords) : BitVec 1 :=
  let arg1 : BitVec 32 := BitVec.ofNat 32 (i 1).val
  let c0_i32_3 : BitVec 32 := 0#32
  let v6 : BitVec 1 := Scalar.cmpi .ne arg1 c0_i32_3
  let v7 : BitVec 32 := Scalar.extui v6
  let c0_i32_4 : BitVec 32 := 0#32
  let v8 : BitVec 1 := Scalar.cmpi .ne v7 c0_i32_4
  v8

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x8192x3 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x1x3 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev grid1 : Pipeline.Grid := ⟨2, ![8, 128], ![false, false]⟩

def cc1_transform_0 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc1_transform_1 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc1_transform_2 (i : grid1.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

abbrev stage1_0 : Fin 2 → Memref sig .tc .vmem S1x2048x3 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, true]

abbrev stage1_1 : Fin 1 → Memref sig .tc .vmem S1x1x3 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![true, false]

abbrev stage1_2 : Fin 2 → Memref sig .tc .vmem S1x10x64x128 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, false]

class Facts₀ : Prop where
  inb_S1x8192x3_S1x8192x3_0_0_0 : ∀ a, (![0, 0, 0] : Fin 3 → Nat) a + S1x8192x3.size a ≤ S1x8192x3.size a
  h_S1x8192x3 : 0 < S1x8192x3.numel
  reduces_S1x8192x3_S1x3 : S1x8192x3.Reduces [1] S1x3
  shapeCasts_S1x3_S1x1x3 : S1x3.ShapeCasts S1x1x3
  inb_S1x1x3_S1x1x3_0_0_0 : ∀ a, (![0, 0, 0] : Fin 3 → Nat) a + S1x1x3.size a ≤ S1x1x3.size a
  h_S1x1x3 : 0 < S1x1x3.numel
  shapeCasts_S1x1x3_S1x1x3 : S1x1x3.ShapeCasts S1x1x3
  inb_S1x10x64x128_S1x10x64x128_0_0_0_0 : ∀ a, (![0, 0, 0, 0] : Fin 4 → Nat) a + S1x10x64x128.size a ≤ S1x10x64x128.size a
  h_S1x10x64x128 : 0 < S1x10x64x128.numel
  inb_S1x2048x3_S1x2048x3_0_0_0 : ∀ a, (![0, 0, 0] : Fin 3 → Nat) a + S1x2048x3.size a ≤ S1x2048x3.size a
  h_S1x2048x3 : 0 < S1x2048x3.numel
  shapeCasts_S1x2048x3_S2048x3 : S1x2048x3.ShapeCasts S2048x3
  shapeCasts_S1x1x3_S3 : S1x1x3.ShapeCasts S3
  shapeCasts_S3_S1x3 : S3.ShapeCasts S1x3
  broadcasts_S1x3_S2048x3 : S1x3.Broadcasts S2048x3
  slices_S2048x3_o0_0_S2048x1 : S2048x3.Slices ![0, 0] S2048x1
  shapeCasts_S2048x1_S2048 : S2048x1.ShapeCasts S2048
  slices_S2048x3_o0_1_S2048x1 : S2048x3.Slices ![0, 1] S2048x1
  slices_S2048x3_o0_2_S2048x1 : S2048x3.Slices ![0, 2] S2048x1
  natLt_1_32 : 1 < 32
  iota_S2048x64_d1_w32 : S2048x64.Iotas .tc 32 [1]
  iota_S2048x128_d1_w32 : S2048x128.Iotas .tc 32 [1]
  shapeCasts_S2048_S2048x1 : S2048.ShapeCasts S2048x1
  broadcasts_S2048x1_S2048x64 : S2048x1.Broadcasts S2048x64
  bitsLt_bf16_f32 : FTy.bits .bf16 < FTy.bits .f32
  broadcasts_S2048x1_S2048x128 : S2048x1.Broadcasts S2048x128
  inb_S1x10x64x128_S1x1x64x128_0_0_0_0 : ∀ a, (![0, 0, 0, 0] : Fin 4 → Nat) a + S1x1x64x128.size a ≤ S1x10x64x128.size a
  h_S1x1x64x128 : 0 < S1x1x64x128.numel
  shapeCasts_S1x1x64x128_S64x128 : S1x1x64x128.ShapeCasts S64x128
  shapeCasts_S64x128_S1x1x64x128 : S64x128.ShapeCasts S1x1x64x128
  inb_S1x10x64x128_S1x1x64x128_0_1_0_0 : ∀ a, (![0, 1, 0, 0] : Fin 4 → Nat) a + S1x1x64x128.size a ≤ S1x10x64x128.size a
  inb_S1x10x64x128_S1x1x64x128_0_2_0_0 : ∀ a, (![0, 2, 0, 0] : Fin 4 → Nat) a + S1x1x64x128.size a ≤ S1x10x64x128.size a
  inb_S1x10x64x128_S1x1x64x128_0_3_0_0 : ∀ a, (![0, 3, 0, 0] : Fin 4 → Nat) a + S1x1x64x128.size a ≤ S1x10x64x128.size a
  inb_S1x10x64x128_S1x1x64x128_0_4_0_0 : ∀ a, (![0, 4, 0, 0] : Fin 4 → Nat) a + S1x1x64x128.size a ≤ S1x10x64x128.size a
  inb_S1x10x64x128_S1x1x64x128_0_5_0_0 : ∀ a, (![0, 5, 0, 0] : Fin 4 → Nat) a + S1x1x64x128.size a ≤ S1x10x64x128.size a
  inb_S1x10x64x128_S1x1x64x128_0_6_0_0 : ∀ a, (![0, 6, 0, 0] : Fin 4 → Nat) a + S1x1x64x128.size a ≤ S1x10x64x128.size a
  inb_S1x10x64x128_S1x1x64x128_0_7_0_0 : ∀ a, (![0, 7, 0, 0] : Fin 4 → Nat) a + S1x1x64x128.size a ≤ S1x10x64x128.size a
  inb_S1x10x64x128_S1x1x64x128_0_8_0_0 : ∀ a, (![0, 8, 0, 0] : Fin 4 → Nat) a + S1x1x64x128.size a ≤ S1x10x64x128.size a
  inb_S1x10x64x128_S1x1x64x128_0_9_0_0 : ∀ a, (![0, 9, 0, 0] : Fin 4 → Nat) a + S1x1x64x128.size a ≤ S1x10x64x128.size a
  transposes_S8x10x64x128_S8x64x128x10_0_2_3_1 : S8x10x64x128.Transposes [0, 2, 3, 1] S8x64x128x10
  shapeCasts_S8x64x128x10_S8x8192x10 : S8x64x128x10.ShapeCasts S8x8192x10
  slices_S8x8192x10_S8x8192x1_0_0_0 : S8x8192x10.Slices ![0, 0, 0] S8x8192x1
  shapeCasts_S8x8192x1_S8x8192 : S8x8192x1.ShapeCasts S8x8192
  slices_S8x8192x10_S8x8192x3_0_0_1 : S8x8192x10.Slices ![0, 0, 1] S8x8192x3
  slices_S8x8192x10_S8x8192x6_0_0_4 : S8x8192x10.Slices ![0, 0, 4] S8x8192x6
  bcast_S_S8x8192 : S_.BroadcastsInDim S8x8192 (![] : Fin 0 → Fin S8x8192.rank)
  bcast_S8x8192_S8x8192x1_0_1 : S8x8192.BroadcastsInDim S8x8192x1 (![0, 1] : Fin 2 → Fin S8x8192x1.rank)
  bcast_S8x8192x1_S8x8192x3_0_1_2 : S8x8192x1.BroadcastsInDim S8x8192x3 (![0, 1, 2] : Fin 3 → Fin S8x8192x3.rank)
  bcast_S8x8192x1_S8x8192x6_0_1_2 : S8x8192x1.BroadcastsInDim S8x8192x6 (![0, 1, 2] : Fin 3 → Fin S8x8192x6.rank)
  slices_S8x8192x3_S8x8192x1_0_0_0 : S8x8192x3.Slices ![0, 0, 0] S8x8192x1
  slices_S8x8192x3_S8x8192x1_0_0_1 : S8x8192x3.Slices ![0, 0, 1] S8x8192x1
  slices_S8x8192x3_S8x8192x1_0_0_2 : S8x8192x3.Slices ![0, 0, 2] S8x8192x1
  concatenates_S8x8192x1_S8x8192x1_S8x8192x1_S8x8192x1_S8x8192x1_S8x8192x1_S8x8192x6_d2 : Shape.Concatenates [S8x8192x1, S8x8192x1, S8x8192x1, S8x8192x1, S8x8192x1, S8x8192x1] S8x8192x6 2
  bcast_S_S8192 : S_.BroadcastsInDim S8192 (![] : Fin 0 → Fin S8192.rank)
  bcast_S8192_S8192x1_0 : S8192.BroadcastsInDim S8192x1 (![0] : Fin 1 → Fin S8192x1.rank)
  concatenates_S8192x1_S8192x1_S8192x1_S8192x3_d1 : Shape.Concatenates [S8192x1, S8192x1, S8192x1] S8192x3 1
  bcast_S_S8192x3 : S_.BroadcastsInDim S8192x3 (![] : Fin 0 → Fin S8192x3.rank)
  bcast_S8192x3_S1x8192x3_1_2 : S8192x3.BroadcastsInDim S1x8192x3 (![1, 2] : Fin 2 → Fin S1x8192x3.rank)
  bcast_S1x8192x3_S8x8192x3_0_1_2 : S1x8192x3.BroadcastsInDim S8x8192x3 (![0, 1, 2] : Fin 3 → Fin S8x8192x3.rank)
  bcast_S8x1x3_S8x8192x3_0_1_2 : S8x1x3.BroadcastsInDim S8x8192x3 (![0, 1, 2] : Fin 3 → Fin S8x8192x3.rank)
  slices_S8x8192x6_S8x8192x1_0_0_0 : S8x8192x6.Slices ![0, 0, 0] S8x8192x1
  slices_S8x8192x6_S8x8192x1_0_0_1 : S8x8192x6.Slices ![0, 0, 1] S8x8192x1
  slices_S8x8192x6_S8x8192x1_0_0_2 : S8x8192x6.Slices ![0, 0, 2] S8x8192x1
  slices_S8x8192x6_S8x8192x1_0_0_3 : S8x8192x6.Slices ![0, 0, 3] S8x8192x1
  slices_S8x8192x6_S8x8192x1_0_0_4 : S8x8192x6.Slices ![0, 0, 4] S8x8192x1
  slices_S8x8192x6_S8x8192x1_0_0_5 : S8x8192x6.Slices ![0, 0, 5] S8x8192x1
  concatenates_S8x8192x1_S8x8192x1_S8x8192x1_S8x8192x1_S8x8192x1_S8x8192x1_S8x8192x1_S8x8192x1_S8x8192x1_S8x8192x9_d2 : Shape.Concatenates [S8x8192x1, S8x8192x1, S8x8192x1, S8x8192x1, S8x8192x1, S8x8192x1, S8x8192x1, S8x8192x1, S8x8192x1] S8x8192x9 2
  concatenates_S8x8192x3_S8x8192x9_S8x8192x12_d2 : Shape.Concatenates [S8x8192x3, S8x8192x9] S8x8192x12 2
  bcast_S8x4096_S8x4096x1_0_1 : S8x4096.BroadcastsInDim S8x4096x1 (![0, 1] : Fin 2 → Fin S8x4096x1.rank)
  bcast_S_S8x4096x1 : S_.BroadcastsInDim S8x4096x1 (![] : Fin 0 → Fin S8x4096x1.rank)
  bcast_S1_S1x1x1_2 : S1.BroadcastsInDim S1x1x1 (![2] : Fin 1 → Fin S1x1x1.rank)
  bcast_S1x1x1_S8x4096x1_0_1_2 : S1x1x1.BroadcastsInDim S8x4096x1 (![0, 1, 2] : Fin 3 → Fin S8x4096x1.rank)
  reducesTo_S8x4096x1_S8x4096_d2 : S8x4096x1.ReducesTo [2] S8x4096
  h_S_ : 0 < S_.numel
  bcast_S8x4096_S8x4096x3_0_1 : S8x4096.BroadcastsInDim S8x4096x3 (![0, 1] : Fin 2 → Fin S8x4096x3.rank)
  bcast_S_S8x4096x3 : S_.BroadcastsInDim S8x4096x3 (![] : Fin 0 → Fin S8x4096x3.rank)
  bcast_S8x1x3_S8x4096x3_0_1_2 : S8x1x3.BroadcastsInDim S8x4096x3 (![0, 1, 2] : Fin 3 → Fin S8x4096x3.rank)
  slices_S8x4096x3_S8x4096x1_0_0_0 : S8x4096x3.Slices ![0, 0, 0] S8x4096x1
  shapeCasts_S8x4096x1_S8x4096 : S8x4096x1.ShapeCasts S8x4096
  bcast_S_S8x4096 : S_.BroadcastsInDim S8x4096 (![] : Fin 0 → Fin S8x4096.rank)
  slices_S8x4096x3_S8x4096x1_0_0_1 : S8x4096x3.Slices ![0, 0, 1] S8x4096x1
  slices_S8x4096x3_S8x4096x1_0_0_2 : S8x4096x3.Slices ![0, 0, 2] S8x4096x1
  bcast_S8x4096x1_S8x4096x12_0_1_2 : S8x4096x1.BroadcastsInDim S8x4096x12 (![0, 1, 2] : Fin 3 → Fin S8x4096x12.rank)
  bcast_S_S8x4096x12 : S_.BroadcastsInDim S8x4096x12 (![] : Fin 0 → Fin S8x4096x12.rank)
  shapeCasts_S8x4096x12_S8x4096x12x1 : S8x4096x12.ShapeCasts S8x4096x12x1
  bcast_S_S8x4096x12x1 : S_.BroadcastsInDim S8x4096x12x1 (![] : Fin 0 → Fin S8x4096x12x1.rank)
  bcast_S1_S1x1x1x1_3 : S1.BroadcastsInDim S1x1x1x1 (![3] : Fin 1 → Fin S1x1x1x1.rank)
  bcast_S1x1x1x1_S8x4096x12x1_0_1_2_3 : S1x1x1x1.BroadcastsInDim S8x4096x12x1 (![0, 1, 2, 3] : Fin 4 → Fin S8x4096x12x1.rank)
  reducesTo_S8x4096x12x1_S8x4096x12_d3 : S8x4096x12x1.ReducesTo [3] S8x4096x12
  dot_S2048x64_S2048x128_S64x128_0_0_1_1_n_n_wf : DotDims.WF S2048x64 S2048x128 S64x128 [0] [0] [1] [1] [] []
  gather_S8x262144x3_S8x4096x1_S8x4096x3_2_1_0_0_1_2_113_wf : GatherDims.WF S8x262144x3 S8x4096x1 S8x4096x3 [2] [1] [0] [1] [0] 2 ![1, 1, 3]
  gather_S8x8192x12_S8x4096x12x1_S8x4096x12_n_1_02_02_1_3_111_wf : GatherDims.WF S8x8192x12 S8x4096x12x1 S8x4096x12 [] [1] [0, 2] [1] [0, 2] 3 ![1, 1, 1]
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x8192x3.size a ≤ S8x262144x3.size a
  hwx0_0 : ∀ i : grid0.Coords, EltTy.bits .f32 = 32 ∨ (Rect.block (s := S8x262144x3) S1x8192x3.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x1x3.size a ≤ S8x1x3.size a
  hwx0_1 : ∀ i : grid0.Coords, EltTy.bits .f32 = 32 ∨ (Rect.block (s := S8x1x3) S1x1x3.size (cc0_transform_1 i) (hinb0_1 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S1x2048x3.size a ≤ S8x262144x3.size a
  hwx1_0 : ∀ i : grid1.Coords, EltTy.bits .f32 = 32 ∨ (Rect.block (s := S8x262144x3) S1x2048x3.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S1x1x3.size a ≤ S8x1x3.size a
  hwx1_1 : ∀ i : grid1.Coords, EltTy.bits .f32 = 32 ∨ (Rect.block (s := S8x1x3) S1x1x3.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S1x10x64x128.size a ≤ S8x10x64x128.size a
  hwx1_2 : ∀ i : grid1.Coords, EltTy.bits .f32 = 32 ∨ (Rect.block (s := S8x10x64x128) S1x10x64x128.size (cc1_transform_2 i) (hinb1_2 i)).WholeWords (EltTy.packing .f32)

variable [Facts₀]

def dot_S2048x64_S2048x128_S64x128_0_0_1_1_n_n : DotDims S2048x64 S2048x128 S64x128 where
  lhsContracting := [0]
  rhsContracting := [0]
  lhsNonContracting := [1]
  rhsNonContracting := [1]
  lhsBatch := []
  rhsBatch := []
  wf := dot_S2048x64_S2048x128_S64x128_0_0_1_1_n_n_wf
def gather_S8x262144x3_S8x4096x1_S8x4096x3_2_1_0_0_1_2_113 : GatherDims S8x262144x3 S8x4096x1 S8x4096x3 where
  offsetDims := [2]
  collapsedSliceDims := [1]
  operandBatchingDims := [0]
  startIndicesBatchingDims := [0]
  startIndexMap := [1]
  indexVectorDim := 2
  sliceSizes := ![1, 1, 3]
  wf := gather_S8x262144x3_S8x4096x1_S8x4096x3_2_1_0_0_1_2_113_wf
def gather_S8x8192x12_S8x4096x12x1_S8x4096x12_n_1_02_02_1_3_111 : GatherDims S8x8192x12 S8x4096x12x1 S8x4096x12 where
  offsetDims := []
  collapsedSliceDims := [1]
  operandBatchingDims := [0, 2]
  startIndicesBatchingDims := [0, 2]
  startIndexMap := [1]
  indexVectorDim := 3
  sliceSizes := ![1, 1, 1]
  wf := gather_S8x8192x12_S8x4096x12x1_S8x4096x12_n_1_02_02_1_3_111_wf

abbrev win0_0 : Pipeline.Window sig grid0 :=
  Pipeline.Window.ofSpec (Memref.whole main_arg0) S1x8192x3.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S1x1x3.size cc0_transform_1 reads0_1 true false 2 stage0_1 sem0_1
    hrank0 hreads0_1 hinb0_1 nbuf0_1 (Memref.isWhole_whole _) hwx0_1 hstage0_1

abbrev win0 : Fin 2 → Pipeline.Window sig grid0 := fun | 0 => win0_0 | 1 => win0_1 | ⟨_ + 2, h⟩ => absurd h (Nat.not_lt.2 (Nat.le_add_left _ _))
abbrev spec0 : Fin 2 → Pipeline.WinSpec sig grid0.rank := fun w => (win0 w).toWinSpec

abbrev idle0 : Fin 2 → grid0.Coords → Bool := fun | 0 => fun _ => false | 1 => fun i => !(k0_cond1 i == 1#1) && !(k0_cond2 i == 1#1) | ⟨_ + 2, h⟩ => absurd h (Nat.not_lt.2 (Nat.le_add_left _ _))

abbrev win1_0 : Pipeline.Window sig grid1 :=
  Pipeline.Window.ofSpec (Memref.whole main_arg0) S1x2048x3.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v0) S1x1x3.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v1) S1x10x64x128.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

class Facts : Prop extends Facts₀ where

variable [Facts]
-- ==== ReferenceIdeal.lean ====
abbrev S8x262144x3 : Shape := ⟨3, ![8, 262144, 3]⟩
abbrev S8x4096 : Shape := ⟨2, ![8, 4096]⟩
abbrev S_ : Shape := ⟨0, ![]⟩
abbrev S8x3 : Shape := ⟨2, ![8, 3]⟩
abbrev S8x1x3 : Shape := ⟨3, ![8, 1, 3]⟩
abbrev S8x262144x1 : Shape := ⟨3, ![8, 262144, 1]⟩
abbrev S8x262144 : Shape := ⟨2, ![8, 262144]⟩
abbrev S8 : Shape := ⟨1, ![8]⟩
abbrev S8x1 : Shape := ⟨2, ![8, 1]⟩
abbrev S2097152 : Shape := ⟨1, ![2097152]⟩
abbrev S2097152x3 : Shape := ⟨2, ![2097152, 3]⟩
abbrev S64000 : Shape := ⟨1, ![64000]⟩
abbrev S2097152x1 : Shape := ⟨2, ![2097152, 1]⟩
abbrev S64000x3 : Shape := ⟨2, ![64000, 3]⟩
abbrev S2097152x3x1 : Shape := ⟨3, ![2097152, 3, 1]⟩
abbrev S2097152x1x3 : Shape := ⟨3, ![2097152, 1, 3]⟩
abbrev S2097152x3x3 : Shape := ⟨3, ![2097152, 3, 3]⟩
abbrev S2097152x9 : Shape := ⟨2, ![2097152, 9]⟩
abbrev S64000x9 : Shape := ⟨2, ![64000, 9]⟩
abbrev S64000x1 : Shape := ⟨2, ![64000, 1]⟩
abbrev S64000x3x1 : Shape := ⟨3, ![64000, 3, 1]⟩
abbrev S64000x1x3 : Shape := ⟨3, ![64000, 1, 3]⟩
abbrev S64000x3x3 : Shape := ⟨3, ![64000, 3, 3]⟩
abbrev S64000x12 : Shape := ⟨2, ![64000, 12]⟩
abbrev S8x20x20x20x12 : Shape := ⟨5, ![8, 20, 20, 20, 12]⟩
abbrev S8x4096x1 : Shape := ⟨3, ![8, 4096, 1]⟩
abbrev S1 : Shape := ⟨1, ![1]⟩
abbrev S1x1x1 : Shape := ⟨3, ![1, 1, 1]⟩
abbrev S8x4096x3 : Shape := ⟨3, ![8, 4096, 3]⟩
abbrev S8x4096x4 : Shape := ⟨3, ![8, 4096, 4]⟩
abbrev S8x4096x12 : Shape := ⟨3, ![8, 4096, 12]⟩

abbrev nBuf : Space → Nat
  | .hbm => 161
  | .vmem => 0
  | .smem => 0
  | _ => 0

abbrev hbmTy0_0 (i : Nat) : BufTy := match i % 128 with
  | 0 => ⟨S8x262144x3, .f32⟩
  | 1 => ⟨S8x4096, .i32⟩
  | 2 => ⟨S_, .f32⟩
  | 3 => ⟨S8x3, .f32⟩
  | 4 => ⟨S8x1x3, .f32⟩
  | 5 => ⟨S8x262144x3, .f32⟩
  | 6 => ⟨S8x262144x3, .f32⟩
  | 7 => ⟨S_, .f32⟩
  | 8 => ⟨S8x262144x3, .f32⟩
  | 9 => ⟨S8x262144x3, .f32⟩
  | 10 => ⟨S8x262144x3, .f32⟩
  | 11 => ⟨S8x262144x3, .i32⟩
  | 12 => ⟨S_, .i32⟩
  | 13 => ⟨S_, .i32⟩
  | 14 => ⟨S_, .i32⟩
  | 15 => ⟨S8x262144x3, .i32⟩
  | 16 => ⟨S8x262144x3, .i32⟩
  | 17 => ⟨S_, .i32⟩
  | 18 => ⟨S8x262144x3, .i32⟩
  | 19 => ⟨S8x262144x3, .i32⟩
  | 20 => ⟨S8x262144x1, .i32⟩
  | 21 => ⟨S8x262144, .i32⟩
  | 22 => ⟨S_, .i32⟩
  | 23 => ⟨S8x262144, .i32⟩
  | 24 => ⟨S8x262144, .i32⟩
  | 25 => ⟨S8x262144x1, .i32⟩
  | 26 => ⟨S8x262144, .i32⟩
  | 27 => ⟨S8x262144, .i32⟩
  | 28 => ⟨S_, .i32⟩
  | 29 => ⟨S8x262144, .i32⟩
  | 30 => ⟨S8x262144, .i32⟩
  | 31 => ⟨S8x262144x1, .i32⟩
  | 32 => ⟨S8x262144, .i32⟩
  | 33 => ⟨S8x262144, .i32⟩
  | 34 => ⟨S8, .i32⟩
  | 35 => ⟨S8x1, .i32⟩
  | 36 => ⟨S_, .i32⟩
  | 37 => ⟨S8x1, .i32⟩
  | 38 => ⟨S8x1, .i32⟩
  | 39 => ⟨S8x262144, .i32⟩
  | 40 => ⟨S8x262144, .i32⟩
  | 41 => ⟨S2097152, .i32⟩
  | 42 => ⟨S2097152x3, .f32⟩
  | 43 => ⟨S_, .f32⟩
  | 44 => ⟨S2097152, .f32⟩
  | 45 => ⟨S_, .f32⟩
  | 46 => ⟨S64000, .f32⟩
  | 47 => ⟨S2097152x1, .i32⟩
  | 48 => ⟨S64000, .f32⟩
  | 49 => ⟨S_, .f32⟩
  | 50 => ⟨S64000x3, .f32⟩
  | 51 => ⟨S2097152x1, .i32⟩
  | 52 => ⟨S64000x3, .f32⟩
  | 53 => ⟨S2097152x3x1, .f32⟩
  | 54 => ⟨S2097152x1x3, .f32⟩
  | 55 => ⟨S2097152x3x3, .f32⟩
  | 56 => ⟨S2097152x3x3, .f32⟩
  | 57 => ⟨S2097152x3x3, .f32⟩
  | 58 => ⟨S2097152x9, .f32⟩
  | 59 => ⟨S_, .f32⟩
  | 60 => ⟨S64000x9, .f32⟩
  | 61 => ⟨S2097152x1, .i32⟩
  | 62 => ⟨S64000x9, .f32⟩
  | 63 => ⟨S_, .f32⟩
  | 64 => ⟨S64000, .f32⟩
  | 65 => ⟨S64000, .f32⟩
  | 66 => ⟨S64000x1, .f32⟩
  | 67 => ⟨S64000x3, .f32⟩
  | 68 => ⟨S64000x3, .f32⟩
  | 69 => ⟨S64000x9, .f32⟩
  | 70 => ⟨S64000x9, .f32⟩
  | 71 => ⟨S64000x3x1, .f32⟩
  | 72 => ⟨S64000x1x3, .f32⟩
  | 73 => ⟨S64000x3x3, .f32⟩
  | 74 => ⟨S64000x3x3, .f32⟩
  | 75 => ⟨S64000x3x3, .f32⟩
  | 76 => ⟨S64000x9, .f32⟩
  | 77 => ⟨S64000x9, .f32⟩
  | 78 => ⟨S64000x12, .f32⟩
  | 79 => ⟨S8x20x20x20x12, .f32⟩
  | 80 => ⟨S8x4096x1, .i32⟩
  | 81 => ⟨S_, .i32⟩
  | 82 => ⟨S8x4096x1, .i32⟩
  | 83 => ⟨S8x4096x1, .i1⟩
  | 84 => ⟨S_, .i32⟩
  | 85 => ⟨S8x4096x1, .i32⟩
  | 86 => ⟨S8x4096x1, .i32⟩
  | 87 => ⟨S8x4096x1, .i32⟩
  | 88 => ⟨S1, .i32⟩
  | 89 => ⟨S_, .i32⟩
  | 90 => ⟨S8x4096x1, .i32⟩
  | 91 => ⟨S8x4096x1, .i1⟩
  | 92 => ⟨S1x1x1, .i32⟩
  | 93 => ⟨S8x4096x1, .i32⟩
  | 94 => ⟨S8x4096x1, .i1⟩
  | 95 => ⟨S8x4096x1, .i1⟩
  | 96 => ⟨S_, .i1⟩
  | 97 => ⟨S8x4096, .i1⟩
  | 98 => ⟨S8x4096x3, .f32⟩
  | 99 => ⟨S8x4096x3, .i1⟩
  | 100 => ⟨S_, .f32⟩
  | 101 => ⟨S8x4096x3, .f32⟩
  | 102 => ⟨S8x4096x3, .f32⟩
  | 103 => ⟨S8x4096x3, .f32⟩
  | 104 => ⟨S8x4096x3, .f32⟩
  | 105 => ⟨S_, .f32⟩
  | 106 => ⟨S8x4096x3, .f32⟩
  | 107 => ⟨S8x4096x3, .f32⟩
  | 108 => ⟨S8x4096x3, .f32⟩
  | 109 => ⟨S8x4096x3, .i32⟩
  | 110 => ⟨S_, .i32⟩
  | 111 => ⟨S_, .i32⟩
  | 112 => ⟨S_, .i32⟩
  | 113 => ⟨S8x4096x3, .i32⟩
  | 114 => ⟨S8x4096x3, .i32⟩
  | 115 => ⟨S_, .i32⟩
  | 116 => ⟨S8x4096x3, .i32⟩
  | 117 => ⟨S8x4096x3, .i32⟩
  | 118 => ⟨S8, .i32⟩
  | 119 => ⟨S8x1, .i32⟩
  | 120 => ⟨S8x4096x1, .i32⟩
  | 121 => ⟨S8x4096, .i32⟩
  | 122 => ⟨S8x4096x1, .i32⟩
  | 123 => ⟨S8x4096, .i32⟩
  | 124 => ⟨S8x4096x1, .i32⟩
  | 125 => ⟨S8x4096, .i32⟩
  | 126 => ⟨S_, .i32⟩
  | 127 => ⟨S8x1, .i32⟩
  | _ => ⟨S8x262144x3, .f32⟩

abbrev hbmTy0_1 (i : Nat) : BufTy := match i % 128 with
  | 0 => ⟨S8x1, .i1⟩
  | 1 => ⟨S_, .i32⟩
  | 2 => ⟨S8x1, .i32⟩
  | 3 => ⟨S8x1, .i32⟩
  | 4 => ⟨S8x1, .i32⟩
  | 5 => ⟨S_, .i32⟩
  | 6 => ⟨S8x4096, .i32⟩
  | 7 => ⟨S8x4096, .i1⟩
  | 8 => ⟨S_, .i32⟩
  | 9 => ⟨S8x4096, .i32⟩
  | 10 => ⟨S8x4096, .i32⟩
  | 11 => ⟨S8x4096, .i32⟩
  | 12 => ⟨S_, .i32⟩
  | 13 => ⟨S8x4096, .i32⟩
  | 14 => ⟨S8x4096, .i1⟩
  | 15 => ⟨S_, .i32⟩
  | 16 => ⟨S8x4096, .i32⟩
  | 17 => ⟨S8x4096, .i32⟩
  | 18 => ⟨S8x4096, .i32⟩
  | 19 => ⟨S_, .i32⟩
  | 20 => ⟨S8x4096, .i32⟩
  | 21 => ⟨S8x4096, .i1⟩
  | 22 => ⟨S_, .i32⟩
  | 23 => ⟨S8x4096, .i32⟩
  | 24 => ⟨S8x4096, .i32⟩
  | 25 => ⟨S8x4096, .i32⟩
  | 26 => ⟨S8x4096, .i32⟩
  | 27 => ⟨S8x4096x1, .i32⟩
  | 28 => ⟨S8x4096x1, .i32⟩
  | 29 => ⟨S8x4096x1, .i32⟩
  | 30 => ⟨S8x4096x1, .i32⟩
  | 31 => ⟨S8x4096x4, .i32⟩
  | 32 => ⟨S8x4096x12, .f32⟩
  | _ => ⟨S8x262144x3, .f32⟩

abbrev hbmTy (i : Nat) : BufTy := match i / 128 with
  | 0 => hbmTy0_0 i
  | 1 => hbmTy0_1 i
  | _ => ⟨S8x262144x3, .f32⟩

abbrev bufTy : (tb : Table) → Fin (tcTables nBuf tb) → BufTy
  | .hbm, ⟨i, _⟩ => hbmTy i
  | _, _ => ⟨S8x262144x3, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_cst_0 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_c : Ref sig .tc := ⟨.hbm, 12, rfl⟩
abbrev main_c_1 : Ref sig .tc := ⟨.hbm, 13, rfl⟩
abbrev main_call0_v0 : Ref sig .tc := ⟨.hbm, 14, rfl⟩
abbrev main_call0_v1 : Ref sig .tc := ⟨.hbm, 15, rfl⟩
abbrev main_call0_v2 : Ref sig .tc := ⟨.hbm, 16, rfl⟩
abbrev main_call0_v3 : Ref sig .tc := ⟨.hbm, 17, rfl⟩
abbrev main_call0_v4 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_c_2 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_c_3 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_c_4 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_cst_5 : Ref sig .tc := ⟨.hbm, 43, rfl⟩
abbrev main_v29 : Ref sig .tc := ⟨.hbm, 44, rfl⟩
abbrev main_cst_6 : Ref sig .tc := ⟨.hbm, 45, rfl⟩
abbrev main_v30 : Ref sig .tc := ⟨.hbm, 46, rfl⟩
abbrev main_v31 : Ref sig .tc := ⟨.hbm, 47, rfl⟩
abbrev main_v32 : Ref sig .tc := ⟨.hbm, 48, rfl⟩
abbrev main_cst_7 : Ref sig .tc := ⟨.hbm, 49, rfl⟩
abbrev main_v33 : Ref sig .tc := ⟨.hbm, 50, rfl⟩
abbrev main_v34 : Ref sig .tc := ⟨.hbm, 51, rfl⟩
abbrev main_v35 : Ref sig .tc := ⟨.hbm, 52, rfl⟩
abbrev main_v36 : Ref sig .tc := ⟨.hbm, 53, rfl⟩
abbrev main_v37 : Ref sig .tc := ⟨.hbm, 54, rfl⟩
abbrev main_v38 : Ref sig .tc := ⟨.hbm, 55, rfl⟩
abbrev main_v39 : Ref sig .tc := ⟨.hbm, 56, rfl⟩
abbrev main_v40 : Ref sig .tc := ⟨.hbm, 57, rfl⟩
abbrev main_v41 : Ref sig .tc := ⟨.hbm, 58, rfl⟩
abbrev main_cst_8 : Ref sig .tc := ⟨.hbm, 59, rfl⟩
abbrev main_v42 : Ref sig .tc := ⟨.hbm, 60, rfl⟩
abbrev main_v43 : Ref sig .tc := ⟨.hbm, 61, rfl⟩
abbrev main_v44 : Ref sig .tc := ⟨.hbm, 62, rfl⟩
abbrev main_cst_9 : Ref sig .tc := ⟨.hbm, 63, rfl⟩
abbrev main_v45 : Ref sig .tc := ⟨.hbm, 64, rfl⟩
abbrev main_v46 : Ref sig .tc := ⟨.hbm, 65, rfl⟩
abbrev main_v47 : Ref sig .tc := ⟨.hbm, 66, rfl⟩
abbrev main_v48 : Ref sig .tc := ⟨.hbm, 67, rfl⟩
abbrev main_v49 : Ref sig .tc := ⟨.hbm, 68, rfl⟩
abbrev main_v50 : Ref sig .tc := ⟨.hbm, 69, rfl⟩
abbrev main_v51 : Ref sig .tc := ⟨.hbm, 70, rfl⟩
abbrev main_v52 : Ref sig .tc := ⟨.hbm, 71, rfl⟩
abbrev main_v53 : Ref sig .tc := ⟨.hbm, 72, rfl⟩
abbrev main_v54 : Ref sig .tc := ⟨.hbm, 73, rfl⟩
abbrev main_v55 : Ref sig .tc := ⟨.hbm, 74, rfl⟩
abbrev main_v56 : Ref sig .tc := ⟨.hbm, 75, rfl⟩
abbrev main_v57 : Ref sig .tc := ⟨.hbm, 76, rfl⟩
abbrev main_v58 : Ref sig .tc := ⟨.hbm, 77, rfl⟩
abbrev main_v59 : Ref sig .tc := ⟨.hbm, 78, rfl⟩
abbrev main_v60 : Ref sig .tc := ⟨.hbm, 79, rfl⟩
abbrev main_v61 : Ref sig .tc := ⟨.hbm, 80, rfl⟩
abbrev main_call1_c : Ref sig .tc := ⟨.hbm, 81, rfl⟩
abbrev main_call1_v0 : Ref sig .tc := ⟨.hbm, 82, rfl⟩
abbrev main_call1_v1 : Ref sig .tc := ⟨.hbm, 83, rfl⟩
abbrev main_call1_c_0 : Ref sig .tc := ⟨.hbm, 84, rfl⟩
abbrev main_call1_v2 : Ref sig .tc := ⟨.hbm, 85, rfl⟩
abbrev main_call1_v3 : Ref sig .tc := ⟨.hbm, 86, rfl⟩
abbrev main_call1_v4 : Ref sig .tc := ⟨.hbm, 87, rfl⟩
abbrev main_call1_c_1 : Ref sig .tc := ⟨.hbm, 88, rfl⟩
abbrev main_call1_c_2 : Ref sig .tc := ⟨.hbm, 89, rfl⟩
abbrev main_call1_v5 : Ref sig .tc := ⟨.hbm, 90, rfl⟩
abbrev main_call1_v6 : Ref sig .tc := ⟨.hbm, 91, rfl⟩
abbrev main_call1_v7 : Ref sig .tc := ⟨.hbm, 92, rfl⟩
abbrev main_call1_v8 : Ref sig .tc := ⟨.hbm, 93, rfl⟩
abbrev main_call1_v9 : Ref sig .tc := ⟨.hbm, 94, rfl⟩
abbrev main_call1_v10 : Ref sig .tc := ⟨.hbm, 95, rfl⟩
abbrev main_call1_c_3 : Ref sig .tc := ⟨.hbm, 96, rfl⟩
abbrev main_call1_v11 : Ref sig .tc := ⟨.hbm, 97, rfl⟩
abbrev main_call1_v12 : Ref sig .tc := ⟨.hbm, 98, rfl⟩
abbrev main_call1_v13 : Ref sig .tc := ⟨.hbm, 99, rfl⟩
abbrev main_call1_cst : Ref sig .tc := ⟨.hbm, 100, rfl⟩
abbrev main_call1_v14 : Ref sig .tc := ⟨.hbm, 101, rfl⟩
abbrev main_v62 : Ref sig .tc := ⟨.hbm, 102, rfl⟩
abbrev main_v63 : Ref sig .tc := ⟨.hbm, 103, rfl⟩
abbrev main_v64 : Ref sig .tc := ⟨.hbm, 104, rfl⟩
abbrev main_cst_10 : Ref sig .tc := ⟨.hbm, 105, rfl⟩
abbrev main_v65 : Ref sig .tc := ⟨.hbm, 106, rfl⟩
abbrev main_v66 : Ref sig .tc := ⟨.hbm, 107, rfl⟩
abbrev main_v67 : Ref sig .tc := ⟨.hbm, 108, rfl⟩
abbrev main_v68 : Ref sig .tc := ⟨.hbm, 109, rfl⟩
abbrev main_c_11 : Ref sig .tc := ⟨.hbm, 110, rfl⟩
abbrev main_c_12 : Ref sig .tc := ⟨.hbm, 111, rfl⟩
abbrev main_call2_v0 : Ref sig .tc := ⟨.hbm, 112, rfl⟩
abbrev main_call2_v1 : Ref sig .tc := ⟨.hbm, 113, rfl⟩
abbrev main_call2_v2 : Ref sig .tc := ⟨.hbm, 114, rfl⟩
abbrev main_call2_v3 : Ref sig .tc := ⟨.hbm, 115, rfl⟩
abbrev main_call2_v4 : Ref sig .tc := ⟨.hbm, 116, rfl⟩
abbrev main_v69 : Ref sig .tc := ⟨.hbm, 117, rfl⟩
abbrev main_v70 : Ref sig .tc := ⟨.hbm, 118, rfl⟩
abbrev main_v71 : Ref sig .tc := ⟨.hbm, 119, rfl⟩
abbrev main_v72 : Ref sig .tc := ⟨.hbm, 120, rfl⟩
abbrev main_v73 : Ref sig .tc := ⟨.hbm, 121, rfl⟩
abbrev main_v74 : Ref sig .tc := ⟨.hbm, 122, rfl⟩
abbrev main_v75 : Ref sig .tc := ⟨.hbm, 123, rfl⟩
abbrev main_v76 : Ref sig .tc := ⟨.hbm, 124, rfl⟩
abbrev main_v77 : Ref sig .tc := ⟨.hbm, 125, rfl⟩
abbrev main_c_13 : Ref sig .tc := ⟨.hbm, 126, rfl⟩
abbrev main_v78 : Ref sig .tc := ⟨.hbm, 127, rfl⟩
abbrev main_v79 : Ref sig .tc := ⟨.hbm, 128, rfl⟩
abbrev main_c_14 : Ref sig .tc := ⟨.hbm, 129, rfl⟩
abbrev main_v80 : Ref sig .tc := ⟨.hbm, 130, rfl⟩
abbrev main_v81 : Ref sig .tc := ⟨.hbm, 131, rfl⟩
abbrev main_v82 : Ref sig .tc := ⟨.hbm, 132, rfl⟩
abbrev main_c_15 : Ref sig .tc := ⟨.hbm, 133, rfl⟩
abbrev main_v83 : Ref sig .tc := ⟨.hbm, 134, rfl⟩
abbrev main_v84 : Ref sig .tc := ⟨.hbm, 135, rfl⟩
abbrev main_c_16 : Ref sig .tc := ⟨.hbm, 136, rfl⟩
abbrev main_v85 : Ref sig .tc := ⟨.hbm, 137, rfl⟩
abbrev main_v86 : Ref sig .tc := ⟨.hbm, 138, rfl⟩
abbrev main_v87 : Ref sig .tc := ⟨.hbm, 139, rfl⟩
abbrev main_c_17 : Ref sig .tc := ⟨.hbm, 140, rfl⟩
abbrev main_v88 : Ref sig .tc := ⟨.hbm, 141, rfl⟩
abbrev main_v89 : Ref sig .tc := ⟨.hbm, 142, rfl⟩
abbrev main_c_18 : Ref sig .tc := ⟨.hbm, 143, rfl⟩
abbrev main_v90 : Ref sig .tc := ⟨.hbm, 144, rfl⟩
abbrev main_v91 : Ref sig .tc := ⟨.hbm, 145, rfl⟩
abbrev main_v92 : Ref sig .tc := ⟨.hbm, 146, rfl⟩
abbrev main_c_19 : Ref sig .tc := ⟨.hbm, 147, rfl⟩
abbrev main_v93 : Ref sig .tc := ⟨.hbm, 148, rfl⟩
abbrev main_v94 : Ref sig .tc := ⟨.hbm, 149, rfl⟩
abbrev main_c_20 : Ref sig .tc := ⟨.hbm, 150, rfl⟩
abbrev main_v95 : Ref sig .tc := ⟨.hbm, 151, rfl⟩
abbrev main_v96 : Ref sig .tc := ⟨.hbm, 152, rfl⟩
abbrev main_v97 : Ref sig .tc := ⟨.hbm, 153, rfl⟩
abbrev main_v98 : Ref sig .tc := ⟨.hbm, 154, rfl⟩
abbrev main_v99 : Ref sig .tc := ⟨.hbm, 155, rfl⟩
abbrev main_v100 : Ref sig .tc := ⟨.hbm, 156, rfl⟩
abbrev main_v101 : Ref sig .tc := ⟨.hbm, 157, rfl⟩
abbrev main_v102 : Ref sig .tc := ⟨.hbm, 158, rfl⟩
abbrev main_v103 : Ref sig .tc := ⟨.hbm, 159, rfl⟩
abbrev main_v104 : Ref sig .tc := ⟨.hbm, 160, rfl⟩

abbrev nD : Nat := 1
abbrev τ : Topo := Topo.v7x

variable {F : FTy → Type} [FloatOps F]

class Facts₀ : Prop where
  reducesTo_S8x262144x3_S8x3_d1 : S8x262144x3.ReducesTo [1] S8x3
  h_S_ : 0 < S_.numel
  bcast_S8x3_S8x1x3_0_2 : S8x3.BroadcastsInDim S8x1x3 (![0, 2] : Fin 2 → Fin S8x1x3.rank)
  bcast_S8x1x3_S8x262144x3_0_1_2 : S8x1x3.BroadcastsInDim S8x262144x3 (![0, 1, 2] : Fin 3 → Fin S8x262144x3.rank)
  bcast_S_S8x262144x3 : S_.BroadcastsInDim S8x262144x3 (![] : Fin 0 → Fin S8x262144x3.rank)
  slices_S8x262144x3_S8x262144x1_0_0_0 : S8x262144x3.Slices ![0, 0, 0] S8x262144x1
  shapeCasts_S8x262144x1_S8x262144 : S8x262144x1.ShapeCasts S8x262144
  bcast_S_S8x262144 : S_.BroadcastsInDim S8x262144 (![] : Fin 0 → Fin S8x262144.rank)
  slices_S8x262144x3_S8x262144x1_0_0_1 : S8x262144x3.Slices ![0, 0, 1] S8x262144x1
  slices_S8x262144x3_S8x262144x1_0_0_2 : S8x262144x3.Slices ![0, 0, 2] S8x262144x1
  bcast_S8_S8x1_0 : S8.BroadcastsInDim S8x1 (![0] : Fin 1 → Fin S8x1.rank)
  bcast_S_S8x1 : S_.BroadcastsInDim S8x1 (![] : Fin 0 → Fin S8x1.rank)
  bcast_S8x1_S8x262144_0_1 : S8x1.BroadcastsInDim S8x262144 (![0, 1] : Fin 2 → Fin S8x262144.rank)
  shapeCasts_S8x262144_S2097152 : S8x262144.ShapeCasts S2097152
  shapeCasts_S8x262144x3_S2097152x3 : S8x262144x3.ShapeCasts S2097152x3
  bcast_S_S2097152 : S_.BroadcastsInDim S2097152 (![] : Fin 0 → Fin S2097152.rank)
  bcast_S_S64000 : S_.BroadcastsInDim S64000 (![] : Fin 0 → Fin S64000.rank)
  bcast_S2097152_S2097152x1_0 : S2097152.BroadcastsInDim S2097152x1 (![0] : Fin 1 → Fin S2097152x1.rank)
  bcast_S_S64000x3 : S_.BroadcastsInDim S64000x3 (![] : Fin 0 → Fin S64000x3.rank)
  bcast_S2097152x3_S2097152x3x1_0_1 : S2097152x3.BroadcastsInDim S2097152x3x1 (![0, 1] : Fin 2 → Fin S2097152x3x1.rank)
  bcast_S2097152x3_S2097152x1x3_0_2 : S2097152x3.BroadcastsInDim S2097152x1x3 (![0, 2] : Fin 2 → Fin S2097152x1x3.rank)
  bcast_S2097152x3x1_S2097152x3x3_0_1_2 : S2097152x3x1.BroadcastsInDim S2097152x3x3 (![0, 1, 2] : Fin 3 → Fin S2097152x3x3.rank)
  bcast_S2097152x1x3_S2097152x3x3_0_1_2 : S2097152x1x3.BroadcastsInDim S2097152x3x3 (![0, 1, 2] : Fin 3 → Fin S2097152x3x3.rank)
  shapeCasts_S2097152x3x3_S2097152x9 : S2097152x3x3.ShapeCasts S2097152x9
  bcast_S_S64000x9 : S_.BroadcastsInDim S64000x9 (![] : Fin 0 → Fin S64000x9.rank)
  bcast_S64000_S64000x1_0 : S64000.BroadcastsInDim S64000x1 (![0] : Fin 1 → Fin S64000x1.rank)
  bcast_S64000x1_S64000x3_0_1 : S64000x1.BroadcastsInDim S64000x3 (![0, 1] : Fin 2 → Fin S64000x3.rank)
  bcast_S64000x1_S64000x9_0_1 : S64000x1.BroadcastsInDim S64000x9 (![0, 1] : Fin 2 → Fin S64000x9.rank)
  bcast_S64000x3_S64000x3x1_0_1 : S64000x3.BroadcastsInDim S64000x3x1 (![0, 1] : Fin 2 → Fin S64000x3x1.rank)
  bcast_S64000x3_S64000x1x3_0_2 : S64000x3.BroadcastsInDim S64000x1x3 (![0, 2] : Fin 2 → Fin S64000x1x3.rank)
  bcast_S64000x3x1_S64000x3x3_0_1_2 : S64000x3x1.BroadcastsInDim S64000x3x3 (![0, 1, 2] : Fin 3 → Fin S64000x3x3.rank)
  bcast_S64000x1x3_S64000x3x3_0_1_2 : S64000x1x3.BroadcastsInDim S64000x3x3 (![0, 1, 2] : Fin 3 → Fin S64000x3x3.rank)
  shapeCasts_S64000x3x3_S64000x9 : S64000x3x3.ShapeCasts S64000x9
  concatenates_S64000x3_S64000x9_S64000x12_d1 : Shape.Concatenates [S64000x3, S64000x9] S64000x12 1
  shapeCasts_S64000x12_S8x20x20x20x12 : S64000x12.ShapeCasts S8x20x20x20x12
  bcast_S8x4096_S8x4096x1_0_1 : S8x4096.BroadcastsInDim S8x4096x1 (![0, 1] : Fin 2 → Fin S8x4096x1.rank)
  bcast_S_S8x4096x1 : S_.BroadcastsInDim S8x4096x1 (![] : Fin 0 → Fin S8x4096x1.rank)
  bcast_S1_S1x1x1_2 : S1.BroadcastsInDim S1x1x1 (![2] : Fin 1 → Fin S1x1x1.rank)
  bcast_S1x1x1_S8x4096x1_0_1_2 : S1x1x1.BroadcastsInDim S8x4096x1 (![0, 1, 2] : Fin 3 → Fin S8x4096x1.rank)
  reducesTo_S8x4096x1_S8x4096_d2 : S8x4096x1.ReducesTo [2] S8x4096
  bcast_S8x4096_S8x4096x3_0_1 : S8x4096.BroadcastsInDim S8x4096x3 (![0, 1] : Fin 2 → Fin S8x4096x3.rank)
  bcast_S_S8x4096x3 : S_.BroadcastsInDim S8x4096x3 (![] : Fin 0 → Fin S8x4096x3.rank)
  bcast_S8x1x3_S8x4096x3_0_1_2 : S8x1x3.BroadcastsInDim S8x4096x3 (![0, 1, 2] : Fin 3 → Fin S8x4096x3.rank)
  slices_S8x4096x3_S8x4096x1_0_0_0 : S8x4096x3.Slices ![0, 0, 0] S8x4096x1
  shapeCasts_S8x4096x1_S8x4096 : S8x4096x1.ShapeCasts S8x4096
  slices_S8x4096x3_S8x4096x1_0_0_1 : S8x4096x3.Slices ![0, 0, 1] S8x4096x1
  slices_S8x4096x3_S8x4096x1_0_0_2 : S8x4096x3.Slices ![0, 0, 2] S8x4096x1
  bcast_S_S8x4096 : S_.BroadcastsInDim S8x4096 (![] : Fin 0 → Fin S8x4096.rank)
  bcast_S8x1_S8x4096_0_1 : S8x1.BroadcastsInDim S8x4096 (![0, 1] : Fin 2 → Fin S8x4096.rank)
  concatenates_S8x4096x1_S8x4096x1_S8x4096x1_S8x4096x1_S8x4096x4_d2 : Shape.Concatenates [S8x4096x1, S8x4096x1, S8x4096x1, S8x4096x1] S8x4096x4 2
  scatter_S64000_S2097152x1_S2097152_n_0_0_1_wf : ScatterDims.WF S64000 S2097152x1 S2097152 [] [0] [0] 1
  scatter_S64000x3_S2097152x1_S2097152x3_1_0_0_1_wf : ScatterDims.WF S64000x3 S2097152x1 S2097152x3 [1] [0] [0] 1
  scatter_S64000x9_S2097152x1_S2097152x9_1_0_0_1_wf : ScatterDims.WF S64000x9 S2097152x1 S2097152x9 [1] [0] [0] 1
  gather_S8x262144x3_S8x4096x1_S8x4096x3_2_1_0_0_1_2_113_wf : GatherDims.WF S8x262144x3 S8x4096x1 S8x4096x3 [2] [1] [0] [1] [0] 2 ![1, 1, 3]
  gather_S8x20x20x20x12_S8x4096x4_S8x4096x12_2_0123_n_n_0123_2_111112_wf : GatherDims.WF S8x20x20x20x12 S8x4096x4 S8x4096x12 [2] [0, 1, 2, 3] [] [0, 1, 2, 3] [] 2 ![1, 1, 1, 1, 12]

variable [Facts₀]

def scatter_S64000_S2097152x1_S2097152_n_0_0_1 : ScatterDims S64000 S2097152x1 S2097152 where
  updateWindowDims := []
  insertedWindowDims := [0]
  scatterDimsToOperandDims := [0]
  indexVectorDim := 1
  wf := scatter_S64000_S2097152x1_S2097152_n_0_0_1_wf
def scatter_S64000x3_S2097152x1_S2097152x3_1_0_0_1 : ScatterDims S64000x3 S2097152x1 S2097152x3 where
  updateWindowDims := [1]
  insertedWindowDims := [0]
  scatterDimsToOperandDims := [0]
  indexVectorDim := 1
  wf := scatter_S64000x3_S2097152x1_S2097152x3_1_0_0_1_wf
def scatter_S64000x9_S2097152x1_S2097152x9_1_0_0_1 : ScatterDims S64000x9 S2097152x1 S2097152x9 where
  updateWindowDims := [1]
  insertedWindowDims := [0]
  scatterDimsToOperandDims := [0]
  indexVectorDim := 1
  wf := scatter_S64000x9_S2097152x1_S2097152x9_1_0_0_1_wf
def gather_S8x262144x3_S8x4096x1_S8x4096x3_2_1_0_0_1_2_113 : GatherDims S8x262144x3 S8x4096x1 S8x4096x3 where
  offsetDims := [2]
  collapsedSliceDims := [1]
  operandBatchingDims := [0]
  startIndicesBatchingDims := [0]
  startIndexMap := [1]
  indexVectorDim := 2
  sliceSizes := ![1, 1, 3]
  wf := gather_S8x262144x3_S8x4096x1_S8x4096x3_2_1_0_0_1_2_113_wf
def gather_S8x20x20x20x12_S8x4096x4_S8x4096x12_2_0123_n_n_0123_2_111112 : GatherDims S8x20x20x20x12 S8x4096x4 S8x4096x12 where
  offsetDims := [2]
  collapsedSliceDims := [0, 1, 2, 3]
  operandBatchingDims := []
  startIndicesBatchingDims := []
  startIndexMap := [0, 1, 2, 3]
  indexVectorDim := 2
  sliceSizes := ![1, 1, 1, 1, 12]
  wf := gather_S8x20x20x20x12_S8x4096x4_S8x4096x12_2_0123_n_n_0123_2_111112_wf

class Facts : Prop extends Facts₀ where

variable [Facts]
-- ==== Proof.KBitsRegion0.lean ====
/-
  The first kernel (the per-cloud minimum), as a region of the program entered at buffer contents `V`.

  The grid is 8 clouds × 32 tiles of 8192 points. At a tile the body takes the coordinatewise minimum of the tile's points;
  at the first tile of a cloud it stores that into the output block, at every later tile it stores the minimum of the
  block's running contents and the tile's minimum. The output block is written back after the last tile of a cloud.
  So the body has two cases, decided by the tile number being zero or not, and what the output's buffer holds after a
  point is defined by recursion on the point (`outsAt0`): the first case starts afresh, the second continues from the
  point before. This module proves that the body, in each case, runs without fault and leaves exactly that (the body
  obligation of the pipeline's proof data `dat0`).
-/
import proofs.«134341_j34419867910943_2_alg».proof.Proof.Gen.Kernel.Launch
import proofs.«134341_j34419867910943_2_alg».proof.Proof.Gen.Kernel.Skeleton
import proofs.«134341_j34419867910943_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the contents of the program's buffers when the region is entered
variable (V : (c : Dev nD) → (b : Ref sig .tc) → Buf (Elt F) ((c : Thread nD τ).loc b))

/-! ## The windows' blocks -/

/-- Window `w`'s block at point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The input window's buffer holds its block at every point, for any proof data over `V` that leaves the block in place. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

/-! ## The two cases -/

/-- The first branch is taken exactly at the first tile of a cloud, -/
theorem hcond0_1 : ∀ t : Fin cfg0.N, k0_cond1 (grid0.coords t) = 1#1 ↔ t.val % 32 = 0 :=
  (by decide +kernel : ∀ t : Fin grid0.N, k0_cond1 (grid0.coords t) = 1#1 ↔ t.val % 32 = 0)
/-- the second at every other tile. -/
theorem hcond0_2 : ∀ t : Fin cfg0.N, k0_cond2 (grid0.coords t) = 1#1 ↔ ¬ t.val % 32 = 0 :=
  (by decide +kernel : ∀ t : Fin grid0.N, k0_cond2 (grid0.coords t) = 1#1 ↔ ¬ t.val % 32 = 0)
/-- The output window is stored into at every point: one of the two branches is always taken. -/
theorem live0_1 : ∀ i : grid0.Coords, cfg0.idle 1 i = false :=
  (by decide +kernel : ∀ i : grid0.Coords, idle0 1 i = false)

abbrev VO0_1 : View sig .tc .vmem S1x1x3 .f32 := (Memref.whole cc0_stg1_0 : Memref sig .tc .vmem S1x1x3 .f32).view
abbrev ms0_0 (t : Fin cfg0.N) : Memref sig .tc .vmem S1x8192x3 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S1x1x3 .f32 := win0_1.stage (cfg0.slots t 1)
abbrev hs0_1 (t : Fin cfg0.N) : (ms0_1 t).IsWhole := hstage0_1 ((cfg0.slots t 1).cast nbuf0_1)

set_option maxHeartbeats 1000000 in
/-- THE FIRST TILE OF A CLOUD. On whole buffers, the input's at its contents and the output's at anything, the body runs
    and leaves the input's as it was and the output's with the pieces it stored (the list is what the run finds). -/
noncomputable def kernelRun0_A (c : Dev nD) (i : grid0.Coords) (arg2 : Memref sig .tc .vmem S1x8192x3 .f32) (harg2 : arg2.IsWhole) (arg3 : Memref sig .tc .vmem S1x1x3 .f32) (harg3 : arg3.IsWhole)
    (hc1 : k0_cond1 i = 1#1) (hc2 : ¬ k0_cond2 i = 1#1) (x0 : Vec F S1x8192x3 .f32) :
    { L1 : List (View.Piece (Elt F) S1x1x3 .f32) //
      ∀ (E : Set ℕ) (K : PUnit → sProp 𝕄),
        iprop(owns (c : Thread nD τ) arg2 fullShare x0 ∗ (∃ d, owns (c : Thread nD τ) arg3 fullShare d)
            ∗ (iprop(owns (c : Thread nD τ) arg2 fullShare x0 ∗ (∃ f, arg3.view.loc (c : Thread nD τ) ↦[arg3.view.set]{fullShare} arg3.view.writes (Elt F) f L1)) -∗ K ⟨⟩))
          ⊢ wp frame (wpE (defs₀ (F := F)) Variants.none c none) E (cc0__min_kernel i arg2 harg2 arg3 harg3) K } := by
  refine ⟨?_, fun E K => ?run⟩
  case run =>
    simp only [cc0__min_kernel_eq_skeleton]; unfold cc0__min_kernel_skel
    unfold owns
    iintro ⟨⟨%f0, %hf0, H0⟩, ⟨%d1, %f1, -, H1⟩, Hk⟩
    obtain rfl := harg2.eq_unread hf0
    sl_exec (disch := first | exact hc1 | exact hc2)
    sl_step
    iapply Hk
    isplitl [H0]
    · iexists _; isplitr; · ipureintro; exact harg2.read_unread _
      iexact H0
    iexists _; iexact H1

set_option maxHeartbeats 1000000 in
/-- A LATER TILE. The same, the output's buffer at its running contents `xo1`, which the body reads. -/
noncomputable def kernelRun0_B (c : Dev nD) (i : grid0.Coords) (arg2 : Memref sig .tc .vmem S1x8192x3 .f32) (harg2 : arg2.IsWhole) (arg3 : Memref sig .tc .vmem S1x1x3 .f32) (harg3 : arg3.IsWhole)
    (hc1 : ¬ k0_cond1 i = 1#1) (hc2 : k0_cond2 i = 1#1) (x0 : Vec F S1x8192x3 .f32) (xo1 : Vec F S1x1x3 .f32) :
    { L1 : List (View.Piece (Elt F) S1x1x3 .f32) //
      ∀ (E : Set ℕ) (K : PUnit → sProp 𝕄),
        iprop(owns (c : Thread nD τ) arg2 fullShare x0 ∗ owns (c : Thread nD τ) arg3 fullShare xo1
            ∗ (iprop(owns (c : Thread nD τ) arg2 fullShare x0 ∗ (∃ f, arg3.view.loc (c : Thread nD τ) ↦[arg3.view.set]{fullShare} arg3.view.writes (Elt F) f L1)) -∗ K ⟨⟩))
          ⊢ wp frame (wpE (defs₀ (F := F)) Variants.none c none) E (cc0__min_kernel i arg2 harg2 arg3 harg3) K } := by
  refine ⟨?_, fun E K => ?run⟩
  case run =>
    simp only [cc0__min_kernel_eq_skeleton]; unfold cc0__min_kernel_skel
    unfold owns
    iintro ⟨⟨%f0, %hf0, H0⟩, ⟨%f1, %hf1, H1⟩, Hk⟩
    obtain rfl := harg2.eq_unread hf0; obtain rfl := harg3.eq_unread hf1
    sl_exec (disch := first | exact hc1 | exact hc2)
    sl_step
    iapply Hk
    isplitl [H0]
    · iexists _; isplitr; · ipureintro; exact harg2.read_unread _
      iexact H0
    iexists _; iexact H1

/-- The first case's pieces tile the output block, so they cover it. -/
theorem cover0_A_1 (c : Dev nD) (i : grid0.Coords) (arg2 : Memref sig .tc .vmem S1x8192x3 .f32) (harg2 : arg2.IsWhole) (arg3 : Memref sig .tc .vmem S1x1x3 .f32) (harg3 : arg3.IsWhole)
    (hc1 : k0_cond1 i = 1#1) (hc2 : ¬ k0_cond2 i = 1#1) (x0 : Vec F S1x8192x3 .f32) (y : S1x1x3.Idx) :
    ∃ pc ∈ (kernelRun0_A c i arg2 harg2 arg3 harg3 hc1 hc2 x0).1, y ∈ pc.1.set :=
  View.cover_of_tiledL (kernelRun0_A c i arg2 harg2 arg3 harg3 hc1 hc2 x0).1 S1x1x3.size (by sl_kernel_rfl) y

/-- What the first case leaves in the output's buffer. -/
def out0_A_1 (c : Dev nD) (i : grid0.Coords) (arg2 : Memref sig .tc .vmem S1x8192x3 .f32) (harg2 : arg2.IsWhole) (arg3 : Memref sig .tc .vmem S1x1x3 .f32) (harg3 : arg3.IsWhole)
    (hc1 : k0_cond1 i = 1#1) (hc2 : ¬ k0_cond2 i = 1#1) (x0 : Vec F S1x8192x3 .f32) : Vec F S1x1x3 .f32 :=
  VO0_1.read (Elt F) (VO0_1.writes (Elt F) VO0_1.junk (kernelRun0_A c i arg2 harg2 arg3 harg3 hc1 hc2 x0).1)

/-- The second case's pieces tile the output block, so they cover it. -/
theorem cover0_B_1 (c : Dev nD) (i : grid0.Coords) (arg2 : Memref sig .tc .vmem S1x8192x3 .f32) (harg2 : arg2.IsWhole) (arg3 : Memref sig .tc .vmem S1x1x3 .f32) (harg3 : arg3.IsWhole)
    (hc1 : ¬ k0_cond1 i = 1#1) (hc2 : k0_cond2 i = 1#1) (x0 : Vec F S1x8192x3 .f32) (xo1 : Vec F S1x1x3 .f32) (y : S1x1x3.Idx) :
    ∃ pc ∈ (kernelRun0_B c i arg2 harg2 arg3 harg3 hc1 hc2 x0 xo1).1, y ∈ pc.1.set :=
  View.cover_of_tiledL (kernelRun0_B c i arg2 harg2 arg3 harg3 hc1 hc2 x0 xo1).1 S1x1x3.size (by sl_kernel_rfl) y

/-- What the second case leaves in the output's buffer. -/
def out0_B_1 (c : Dev nD) (i : grid0.Coords) (arg2 : Memref sig .tc .vmem S1x8192x3 .f32) (harg2 : arg2.IsWhole) (arg3 : Memref sig .tc .vmem S1x1x3 .f32) (harg3 : arg3.IsWhole)
    (hc1 : ¬ k0_cond1 i = 1#1) (hc2 : k0_cond2 i = 1#1) (x0 : Vec F S1x8192x3 .f32) (xo1 : Vec F S1x1x3 .f32) : Vec F S1x1x3 .f32 :=
  VO0_1.read (Elt F) (VO0_1.writes (Elt F) VO0_1.junk (kernelRun0_B c i arg2 harg2 arg3 harg3 hc1 hc2 x0 xo1).1)

/-! ## What the output holds after each point -/

/-- THE ACCUMULATION: the output's buffer after the body at position `n`. -/
def outsAt0 (c : Dev nD) : (n : ℕ) → n < cfg0.N → Vec F S1x1x3 .f32
  | 0, hn => out0_A_1 c (grid0.coords ⟨0, hn⟩) (ms0_0 ⟨0, hn⟩) (hs0_0 ⟨0, hn⟩) (ms0_1 ⟨0, hn⟩) (hs0_1 ⟨0, hn⟩)
      ((hcond0_1 ⟨0, hn⟩).mpr (Nat.zero_mod _)) (fun h => ((hcond0_2 ⟨0, hn⟩).mp h) (Nat.zero_mod _)) (iblk0 V c 0 ⟨0, hn⟩)
  | n + 1, hn =>
    if h0 : (n + 1) % 32 = 0 then
      out0_A_1 c (grid0.coords ⟨n + 1, hn⟩) (ms0_0 ⟨n + 1, hn⟩) (hs0_0 ⟨n + 1, hn⟩) (ms0_1 ⟨n + 1, hn⟩) (hs0_1 ⟨n + 1, hn⟩)
        ((hcond0_1 ⟨n + 1, hn⟩).mpr h0) (fun h => ((hcond0_2 ⟨n + 1, hn⟩).mp h) h0) (iblk0 V c 0 ⟨n + 1, hn⟩)
    else
      out0_B_1 c (grid0.coords ⟨n + 1, hn⟩) (ms0_0 ⟨n + 1, hn⟩) (hs0_0 ⟨n + 1, hn⟩) (ms0_1 ⟨n + 1, hn⟩) (hs0_1 ⟨n + 1, hn⟩)
        (fun h => h0 ((hcond0_1 ⟨n + 1, hn⟩).mp h)) ((hcond0_2 ⟨n + 1, hn⟩).mpr h0) (iblk0 V c 0 ⟨n + 1, hn⟩) (outsAt0 c n (Nat.lt_of_succ_lt hn))

theorem outsAt0_A (c : Dev nD) (t : Fin cfg0.N) (h0 : t.val % 32 = 0) :
    outsAt0 V c t.val t.isLt = out0_A_1 c (grid0.coords t) (ms0_0 t) (hs0_0 t) (ms0_1 t) (hs0_1 t)
      ((hcond0_1 t).mpr h0) (fun h => ((hcond0_2 t).mp h) h0) (iblk0 V c 0 t) := by
  obtain ⟨n, hn⟩ := t
  cases n with
  | zero => exact rfl
  | succ n => exact (dif_pos h0).trans rfl

theorem outsAt0_B (c : Dev nD) (t : Fin cfg0.N) (h0 : ¬t.val % 32 = 0) :
    outsAt0 V c t.val t.isLt = out0_B_1 c (grid0.coords t) (ms0_0 t) (hs0_0 t) (ms0_1 t) (hs0_1 t)
      (fun h => h0 ((hcond0_1 t).mp h)) ((hcond0_2 t).mpr h0) (iblk0 V c 0 t)
      (outsAt0 V c (t.val - 1) (Nat.lt_of_le_of_lt (Nat.sub_le _ _) t.isLt)) := by
  obtain ⟨n, hn⟩ := t
  cases n with
  | zero => exact (by exfalso; (try dsimp only at h0); exact absurd (Nat.zero_mod _) h0)
  | succ n => exact (dif_neg h0).trans rfl

/-! ## The pipeline's proof data -/

/-- The proof data of the first pipeline on core `c`: the arrays as the region finds them; after the body at point `t`
    the input's buffer at its block and the output's at `outsAt0`; the invariant the scoped rest and the generator
    register; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => (outsAt0 V c t.val t.isLt)
  Φ _ := Pipeline.ΦA spec0 c
  q _ := fullShare
  owed _ := 0

theorem A_eq0 (c : Dev nD) (w : Fin cfg0.W) : (dat0 V c).A w = V c (Pipeline.arrRef spec0 w) := by
  dsimp only [dat0]
theorem after0_0 (c : Dev nD) (t : Fin cfg0.N) : (dat0 V c).after 0 t = iblk0 V c 0 t := by dsimp only [dat0]
theorem after0_1 (c : Dev nD) (t : Fin cfg0.N) : (dat0 V c).after 1 t = (outsAt0 V c t.val t.isLt) := by dsimp only [dat0]

theorem before0_0 (c : Dev nD) (t : Fin cfg0.N) (d) : (dat0 V c).before 0 t d = iblk0 V c 0 t :=
  before0_0_of V (dat0 V c) (A_eq0 V c 0) (after0_0 V c) t d

/-- At a later tile the output's buffer holds what the body left at the point before: it was not written back between. -/
theorem before0_1_B (c : Dev nD) (t : Fin cfg0.N) (h0 : ¬t.val % 32 = 0) (d) :
    (dat0 V c).before 1 t d = (outsAt0 V c (t.val - 1) (Nat.lt_of_le_of_lt (Nat.sub_le _ _) t.isLt)) := by
  have hN : t.val < 256 := lt_of_lt_of_eq t.isLt (show cfg0.N = 256 from N_0)
  rw [Dat.before_out_kept _ 1 rfl t (by omega) (Bool.eq_false_iff.mpr fun h => by have := (flush0_1 _).mp h; dsimp only at this; omega)
    live0_1 (fun _ _ => rfl)]
  dsimp only [dat0]

/-! ## The body obligation -/

def bodyPre0 (c : Dev nD) (t : Fin cfg0.N) : sProp 𝕄 :=
  iprop((dat0 V c).Φ t.castSucc ∗ (dat0 V c).owesAt () t.castSucc
    ∗ (∃ d, owns (c : Thread nD τ) (ms0_0 t) fullShare ((dat0 V c).before 0 t d))
    ∗ (∃ d, owns (c : Thread nD τ) (ms0_1 t) fullShare ((dat0 V c).before 1 t d)))

def bodyPost0 (c : Dev nD) (t : Fin cfg0.N) : sProp 𝕄 :=
  iprop((dat0 V c).Φ t.succ ∗ (dat0 V c).owesAt () t.succ
    ∗ (dat0 V c).leavesExact 0 t
    ∗ (dat0 V c).leavesExact 1 t)

/-- The input window is never idle: it is left at what the body leaves. -/
theorem leaves0_0 (c : Dev nD) (t : Fin cfg0.N) :
    (dat0 V c).leavesExact 0 t = owns (c : Thread nD τ) (ms0_0 t) fullShare ((dat0 V c).after 0 t) := rfl
/-- The output window is stored into at every point (`live0_1`): it too is left at what the body leaves. -/
theorem leaves0_1 (c : Dev nD) (t : Fin cfg0.N) :
    (dat0 V c).leavesExact 1 t = owns (c : Thread nD τ) (ms0_1 t) fullShare ((dat0 V c).after 1 t) := by
  unfold Dat.leavesExact; rw [live0_1 (cfg0.grid.coords t)]

set_option maxHeartbeats 800000 in
/-- The body at any point: the input's buffer holds its block; the tile number says which case the point is in; at a
    later tile the output's buffer holds what the point before left; so that case's run applies. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  rw [leaves0_0, leaves0_1]
  simp only [before0_0]
  rw [show (dat0 V c).Φ t.succ = (dat0 V c).Φ t.castSucc from rfl,
    show (dat0 V c).owesAt () t.succ = (dat0 V c).owesAt () t.castSucc from rfl,
    after0_0, after0_1]
  have hN : t.val < 256 := lt_of_lt_of_eq t.isLt (show cfg0.N = 256 from N_0)
  by_cases h0 : t.val % 32 = 0
  · rw [outsAt0_A V c t h0]
    unfold out0_A_1
    iintro ⟨HΦ, Ho, ⟨%d0, H0⟩, ⟨%d1, H1⟩⟩
    iapply ((kernelRun0_A c (grid0.coords t) _ _ _ _ ((hcond0_1 t).mpr h0) (fun h => ((hcond0_2 t).mp h) h0) (iblk0 V c 0 t)).2 Set.univ _)
    isplitl [H0]; · iexact H0
    isplitl [H1]; · iexists _; iexact H1
    iintro ⟨H0, ⟨%e1, H1⟩⟩
    isplitl [HΦ]; · iexact HΦ
    isplitl [Ho]; · iexact Ho
    isplitl [H0]; · iexact H0
    unfold owns; iexists _; isplitr
    swap; · iexact H1
    ipureintro; exact View.read_writes_of_cover _ _ _ _ _ (cover0_A_1 c _ _ _ _ _ _ _ _)
  · rw [outsAt0_B V c t h0]
    simp only [before0_1_B V c t h0]
    unfold out0_B_1
    iintro ⟨HΦ, Ho, ⟨%d0, H0⟩, ⟨%d1, H1⟩⟩
    iapply ((kernelRun0_B c (grid0.coords t) _ _ _ _ (fun h => h0 ((hcond0_1 t).mp h)) ((hcond0_2 t).mpr h0) (iblk0 V c 0 t) _).2 Set.univ _)
    isplitl [H0]; · iexact H0
    isplitl [H1]; · iexact H1
    iintro ⟨H0, ⟨%e1, H1⟩⟩
    isplitl [HΦ]; · iexact HΦ
    isplitl [Ho]; · iexact Ho
    isplitl [H0]; · iexact H0
    unfold owns; iexists _; isplitr
    swap; · iexact H1
    ipureintro; exact View.read_writes_of_cover _ _ _ _ _ (cover0_B_1 c _ _ _ _ _ _ _ _ _)

set_option maxHeartbeats 1000000 in
/-- The library's body obligation, at every point. -/
theorem body_obligation0 (c : Dev nD) : BodyObligation (dat0 (F := F) V c) (defs₀ (F := F)) Variants.none () Set.univ := fun t => by
  rw [bigSep_W0, bigSep_W0]
  exact sound_body0 V c t

end Cert.Kernel.Hand

end
-- ==== Proof.KBitsRegion1Runs.lean ====
/-
  The second kernel (the histogram), as a region of the program entered at buffer contents `V`.

  The grid is 8 clouds × 128 tiles of 2048 points. At a tile the body computes each point's cell, splits the cell number
  into a high and a low part, and for each of the ten histogrammed quantities adds to the output block's slice the product
  of the two one-hot matrices weighted by the quantity. At the first tile of a cloud it first stores zeros over the whole
  output block. The block is written back after the last tile of a cloud. So the body has two cases, decided by the tile
  number being zero or not, and what the output's buffer holds after a point is defined by recursion on the point
  (`outsAt1`). This module proves that the body, in each case, runs without fault and leaves exactly that.
-/
import proofs.«134341_j34419867910943_2_alg».proof.Proof.Gen.Kernel.Launch
import proofs.«134341_j34419867910943_2_alg».proof.Proof.Gen.Kernel.Skeleton
import proofs.«134341_j34419867910943_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the contents of the program's buffers when the region is entered
variable (V : (c : Dev nD) → (b : Ref sig .tc) → Buf (Elt F) ((c : Thread nD τ).loc b))

/-! ## The windows' blocks -/

/-- Window `w`'s block at point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- The points window's buffer holds its block at every point, -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
/-- and so does the corner window's, fetched once per cloud. -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

/-! ## The two cases -/

/-- The body's branch: the tile number is zero. -/
abbrev cond1_0 (i : grid1.Coords) : Prop := (Scalar.cmpi .ne (Scalar.extui (Scalar.cmpi .eq (BitVec.ofNat 32 (i 1).val) 0#32)) 0#32) = 1#1
/-- It holds exactly at the first tile of a cloud. -/
theorem hcond1_0 : ∀ t : Fin cfg1.N, cond1_0 (grid1.coords t) ↔ t.val % 128 = 0 :=
  (by decide +kernel : ∀ t : Fin grid1.N, cond1_0 (grid1.coords t) ↔ t.val % 128 = 0)

abbrev VO1_2 : View sig .tc .vmem S1x10x64x128 .f32 := (Memref.whole cc1_stg2_0 : Memref sig .tc .vmem S1x10x64x128 .f32).view
abbrev ms1_0 (t : Fin cfg1.N) : Memref sig .tc .vmem S1x2048x3 .f32 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .vmem S1x1x3 .f32 := win1_1.stage (cfg1.slots t 1)
abbrev hs1_1 (t : Fin cfg1.N) : (ms1_1 t).IsWhole := hstage1_1 ((cfg1.slots t 1).cast nbuf1_1)
abbrev ms1_2 (t : Fin cfg1.N) : Memref sig .tc .vmem S1x10x64x128 .f32 := win1_2.stage (cfg1.slots t 2)
abbrev hs1_2 (t : Fin cfg1.N) : (ms1_2 t).IsWhole := hstage1_2 ((cfg1.slots t 2).cast nbuf1_2)

set_option maxHeartbeats 4000000 in
/-- THE FIRST TILE OF A CLOUD. On whole buffers, the inputs' at their contents and the output's at anything, the body runs
    and leaves the inputs' as they were and the output's with the pieces it stored (the list is what the run finds). -/
noncomputable def kernelRun1_A (c : Dev nD) (i : grid1.Coords) (arg2 : Memref sig .tc .vmem S1x2048x3 .f32) (harg2 : arg2.IsWhole) (arg3 : Memref sig .tc .vmem S1x1x3 .f32) (harg3 : arg3.IsWhole) (arg4 : Memref sig .tc .vmem S1x10x64x128 .f32) (harg4 : arg4.IsWhole)
    (hc0 : cond1_0 i) (x0 : Vec F S1x2048x3 .f32) (x1 : Vec F S1x1x3 .f32) :
    { L2 : List (View.Piece (Elt F) S1x10x64x128 .f32) //
      ∀ (E : Set ℕ) (K : PUnit → sProp 𝕄),
        iprop(owns (c : Thread nD τ) arg2 fullShare x0 ∗ owns (c : Thread nD τ) arg3 fullShare x1 ∗ (∃ d, owns (c : Thread nD τ) arg4 fullShare d)
            ∗ (iprop(owns (c : Thread nD τ) arg2 fullShare x0 ∗ owns (c : Thread nD τ) arg3 fullShare x1 ∗ (∃ f, arg4.view.loc (c : Thread nD τ) ↦[arg4.view.set]{fullShare} arg4.view.writes (Elt F) f L2)) -∗ K ⟨⟩))
          ⊢ wp frame (wpE (defs₀ (F := F)) Variants.none c none) E (cc1__hist_kernel i arg2 harg2 arg3 harg3 arg4 harg4) K } := by
  refine ⟨?_, fun E K => ?run⟩
  case run =>
    simp only [cc1__hist_kernel_eq_skeleton]; unfold cc1__hist_kernel_skel
    simp only [k1_part1_eq_skeleton, k1_part2_eq_skeleton, k1_part3_eq_skeleton, k1_part4_eq_skeleton, k1_part5_eq_skeleton]
    unfold owns
    iintro ⟨⟨%f0, %hf0, H0⟩, ⟨%f1, %hf1, H1⟩, ⟨%d2, %f2, -, H2⟩, Hk⟩
    obtain rfl := harg2.eq_unread hf0; obtain rfl := harg3.eq_unread hf1
    sl_exec (disch := first | exact hc0)
    sl_step
    iapply Hk
    isplitl [H0]
    · iexists _; isplitr; · ipureintro; exact harg2.read_unread _
      iexact H0
    isplitl [H1]
    · iexists _; isplitr; · ipureintro; exact harg3.read_unread _
      iexact H1
    iexists _; iexact H2

set_option maxHeartbeats 4000000 in
/-- A LATER TILE. The same, the output's buffer at its running contents `xo2`, which the body reads. -/
noncomputable def kernelRun1_B (c : Dev nD) (i : grid1.Coords) (arg2 : Memref sig .tc .vmem S1x2048x3 .f32) (harg2 : arg2.IsWhole) (arg3 : Memref sig .tc .vmem S1x1x3 .f32) (harg3 : arg3.IsWhole) (arg4 : Memref sig .tc .vmem S1x10x64x128 .f32) (harg4 : arg4.IsWhole)
    (hc0 : ¬ cond1_0 i) (x0 : Vec F S1x2048x3 .f32) (x1 : Vec F S1x1x3 .f32) (xo2 : Vec F S1x10x64x128 .f32) :
    { L2 : List (View.Piece (Elt F) S1x10x64x128 .f32) //
      ∀ (E : Set ℕ) (K : PUnit → sProp 𝕄),
        iprop(owns (c : Thread nD τ) arg2 fullShare x0 ∗ owns (c : Thread nD τ) arg3 fullShare x1 ∗ owns (c : Thread nD τ) arg4 fullShare xo2
            ∗ (iprop(owns (c : Thread nD τ) arg2 fullShare x0 ∗ owns (c : Thread nD τ) arg3 fullShare x1 ∗ (∃ f, arg4.view.loc (c : Thread nD τ) ↦[arg4.view.set]{fullShare} arg4.view.writes (Elt F) f L2)) -∗ K ⟨⟩))
          ⊢ wp frame (wpE (defs₀ (F := F)) Variants.none c none) E (cc1__hist_kernel i arg2 harg2 arg3 harg3 arg4 harg4) K } := by
  refine ⟨?_, fun E K => ?run⟩
  case run =>
    simp only [cc1__hist_kernel_eq_skeleton]; unfold cc1__hist_kernel_skel
    simp only [k1_part1_eq_skeleton, k1_part2_eq_skeleton, k1_part3_eq_skeleton, k1_part4_eq_skeleton, k1_part5_eq_skeleton]
    unfold owns
    iintro ⟨⟨%f0, %hf0, H0⟩, ⟨%f1, %hf1, H1⟩, ⟨%f2, %hf2, H2⟩, Hk⟩
    obtain rfl := harg2.eq_unread hf0; obtain rfl := harg3.eq_unread hf1; obtain rfl := harg4.eq_unread hf2
    sl_exec (disch := first | exact hc0)
    sl_step
    iapply Hk
    isplitl [H0]
    · iexists _; isplitr; · ipureintro; exact harg2.read_unread _
      iexact H0
    isplitl [H1]
    · iexists _; isplitr; · ipureintro; exact harg3.read_unread _
      iexact H1
    iexists _; iexact H2

end Cert.Kernel.Hand

end
-- ==== Proof.KBitsRegion1.lean ====
/-
  The second kernel (the histogram) as a region, continued: what its output block holds after each grid point, the
  pipeline's proof data, and the body obligation, from the two case runs of the body.
-/
import proofs.«134341_j34419867910943_2_alg».proof.Proof.KBitsRegion1Runs
import proofs.«134341_j34419867910943_2_alg».proof.Proof.Gen.Kernel.Skeleton
import proofs.«134341_j34419867910943_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- The first case's pieces (the zeros over the whole block, then the ten slices) cover the output block. -/
theorem cover1_A_2 (c : Dev nD) (i : grid1.Coords) (arg2 : Memref sig .tc .vmem S1x2048x3 .f32) (harg2 : arg2.IsWhole) (arg3 : Memref sig .tc .vmem S1x1x3 .f32) (harg3 : arg3.IsWhole) (arg4 : Memref sig .tc .vmem S1x10x64x128 .f32) (harg4 : arg4.IsWhole)
    (hc0 : cond1_0 i) (x0 : Vec F S1x2048x3 .f32) (x1 : Vec F S1x1x3 .f32) (y : S1x10x64x128.Idx) :
    ∃ pc ∈ (kernelRun1_A c i arg2 harg2 arg3 harg3 arg4 harg4 hc0 x0 x1).1, y ∈ pc.1.set :=
  View.cover_of_tiledL (kernelRun1_A c i arg2 harg2 arg3 harg3 arg4 harg4 hc0 x0 x1).1 S1x10x64x128.size (by sl_kernel_rfl) y

/-- What the first case leaves in the output's buffer. -/
def out1_A_2 (c : Dev nD) (i : grid1.Coords) (arg2 : Memref sig .tc .vmem S1x2048x3 .f32) (harg2 : arg2.IsWhole) (arg3 : Memref sig .tc .vmem S1x1x3 .f32) (harg3 : arg3.IsWhole) (arg4 : Memref sig .tc .vmem S1x10x64x128 .f32) (harg4 : arg4.IsWhole)
    (hc0 : cond1_0 i) (x0 : Vec F S1x2048x3 .f32) (x1 : Vec F S1x1x3 .f32) : Vec F S1x10x64x128 .f32 :=
  VO1_2.read (Elt F) (VO1_2.writes (Elt F) VO1_2.junk (kernelRun1_A c i arg2 harg2 arg3 harg3 arg4 harg4 hc0 x0 x1).1)

/-- The second case's pieces (the ten slices) cover the output block. -/
theorem cover1_B_2 (c : Dev nD) (i : grid1.Coords) (arg2 : Memref sig .tc .vmem S1x2048x3 .f32) (harg2 : arg2.IsWhole) (arg3 : Memref sig .tc .vmem S1x1x3 .f32) (harg3 : arg3.IsWhole) (arg4 : Memref sig .tc .vmem S1x10x64x128 .f32) (harg4 : arg4.IsWhole)
    (hc0 : ¬ cond1_0 i) (x0 : Vec F S1x2048x3 .f32) (x1 : Vec F S1x1x3 .f32) (xo2 : Vec F S1x10x64x128 .f32) (y : S1x10x64x128.Idx) :
    ∃ pc ∈ (kernelRun1_B c i arg2 harg2 arg3 harg3 arg4 harg4 hc0 x0 x1 xo2).1, y ∈ pc.1.set :=
  View.cover_of_tiledL (kernelRun1_B c i arg2 harg2 arg3 harg3 arg4 harg4 hc0 x0 x1 xo2).1 S1x1x64x128.size (by sl_kernel_rfl) y

/-- What the second case leaves in the output's buffer. -/
def out1_B_2 (c : Dev nD) (i : grid1.Coords) (arg2 : Memref sig .tc .vmem S1x2048x3 .f32) (harg2 : arg2.IsWhole) (arg3 : Memref sig .tc .vmem S1x1x3 .f32) (harg3 : arg3.IsWhole) (arg4 : Memref sig .tc .vmem S1x10x64x128 .f32) (harg4 : arg4.IsWhole)
    (hc0 : ¬ cond1_0 i) (x0 : Vec F S1x2048x3 .f32) (x1 : Vec F S1x1x3 .f32) (xo2 : Vec F S1x10x64x128 .f32) : Vec F S1x10x64x128 .f32 :=
  VO1_2.read (Elt F) (VO1_2.writes (Elt F) VO1_2.junk (kernelRun1_B c i arg2 harg2 arg3 harg3 arg4 harg4 hc0 x0 x1 xo2).1)

/-! ## What the output holds after each point -/

/-- THE ACCUMULATION: the output's buffer after the body at position `n`. -/
def outsAt1 (c : Dev nD) : (n : ℕ) → n < cfg1.N → Vec F S1x10x64x128 .f32
  | 0, hn => out1_A_2 c (grid1.coords ⟨0, hn⟩) (ms1_0 ⟨0, hn⟩) (hs1_0 ⟨0, hn⟩) (ms1_1 ⟨0, hn⟩) (hs1_1 ⟨0, hn⟩) (ms1_2 ⟨0, hn⟩) (hs1_2 ⟨0, hn⟩)
      ((hcond1_0 ⟨0, hn⟩).mpr (Nat.zero_mod _)) (iblk1 V c 0 ⟨0, hn⟩) (iblk1 V c 1 ⟨0, hn⟩)
  | n + 1, hn =>
    if h0 : (n + 1) % 128 = 0 then
      out1_A_2 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩)
        ((hcond1_0 ⟨n + 1, hn⟩).mpr h0) (iblk1 V c 0 ⟨n + 1, hn⟩) (iblk1 V c 1 ⟨n + 1, hn⟩)
    else
      out1_B_2 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩)
        (fun h => h0 ((hcond1_0 ⟨n + 1, hn⟩).mp h)) (iblk1 V c 0 ⟨n + 1, hn⟩) (iblk1 V c 1 ⟨n + 1, hn⟩) (outsAt1 c n (Nat.lt_of_succ_lt hn))

theorem outsAt1_A (c : Dev nD) (t : Fin cfg1.N) (h0 : t.val % 128 = 0) :
    outsAt1 V c t.val t.isLt = out1_A_2 c (grid1.coords t) (ms1_0 t) (hs1_0 t) (ms1_1 t) (hs1_1 t) (ms1_2 t) (hs1_2 t)
      ((hcond1_0 t).mpr h0) (iblk1 V c 0 t) (iblk1 V c 1 t) := by
  obtain ⟨n, hn⟩ := t
  cases n with
  | zero => exact rfl
  | succ n => exact (dif_pos h0).trans rfl

theorem outsAt1_B (c : Dev nD) (t : Fin cfg1.N) (h0 : ¬t.val % 128 = 0) :
    outsAt1 V c t.val t.isLt = out1_B_2 c (grid1.coords t) (ms1_0 t) (hs1_0 t) (ms1_1 t) (hs1_1 t) (ms1_2 t) (hs1_2 t)
      (fun h => h0 ((hcond1_0 t).mp h)) (iblk1 V c 0 t) (iblk1 V c 1 t)
      (outsAt1 V c (t.val - 1) (Nat.lt_of_le_of_lt (Nat.sub_le _ _) t.isLt)) := by
  obtain ⟨n, hn⟩ := t
  cases n with
  | zero => exact (by exfalso; (try dsimp only at h0); exact absurd (Nat.zero_mod _) h0)
  | succ n => exact (dif_neg h0).trans rfl

/-! ## The pipeline's proof data -/

/-- The proof data of the second pipeline on core `c`: the arrays as the region finds them; after the body at point `t`
    each input's buffer at its block and the output's at `outsAt1`; the invariant the scoped rest and the generator
    register; nothing owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => (outsAt1 V c t.val t.isLt)
  Φ _ := Pipeline.ΦA spec1 c
  q _ := fullShare
  owed _ := 0

theorem A_eq1 (c : Dev nD) (w : Fin cfg1.W) : (dat1 V c).A w = V c (Pipeline.arrRef spec1 w) := by
  dsimp only [dat1]
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = (outsAt1 V c t.val t.isLt) := by dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d

/-- At a later tile the output's buffer holds what the body left at the point before: it was not written back between. -/
theorem before1_2_B (c : Dev nD) (t : Fin cfg1.N) (h0 : ¬t.val % 128 = 0) (d) :
    (dat1 V c).before 2 t d = (outsAt1 V c (t.val - 1) (Nat.lt_of_le_of_lt (Nat.sub_le _ _) t.isLt)) := by
  have hN : t.val < 1024 := lt_of_lt_of_eq t.isLt (show cfg1.N = 1024 from N_1)
  rw [Dat.before_out_kept _ 2 rfl t (by omega) (Bool.eq_false_iff.mpr fun h => by have := (flush1_2 _).mp h; dsimp only at this; omega)
    (fun _ => rfl) (fun _ _ => rfl)]
  dsimp only [dat1]

/-! ## The body obligation -/

def bodyPre1 (c : Dev nD) (t : Fin cfg1.N) : sProp 𝕄 :=
  iprop((dat1 V c).Φ t.castSucc ∗ (dat1 V c).owesAt () t.castSucc
    ∗ (∃ d, owns (c : Thread nD τ) (ms1_0 t) fullShare ((dat1 V c).before 0 t d))
    ∗ (∃ d, owns (c : Thread nD τ) (ms1_1 t) fullShare ((dat1 V c).before 1 t d))
    ∗ (∃ d, owns (c : Thread nD τ) (ms1_2 t) fullShare ((dat1 V c).before 2 t d)))

def bodyPost1 (c : Dev nD) (t : Fin cfg1.N) : sProp 𝕄 :=
  iprop((dat1 V c).Φ t.succ ∗ (dat1 V c).owesAt () t.succ
    ∗ owns (c : Thread nD τ) (ms1_0 t) fullShare ((dat1 V c).after 0 t)
    ∗ owns (c : Thread nD τ) (ms1_1 t) fullShare ((dat1 V c).after 1 t)
    ∗ owns (c : Thread nD τ) (ms1_2 t) fullShare ((dat1 V c).after 2 t))

set_option maxHeartbeats 1600000 in
/-- The body at any point: the inputs' buffers hold their blocks; the tile number says which case the point is in; at a
    later tile the output's buffer holds what the point before left; so that case's run applies. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1]
  rw [show (dat1 V c).Φ t.succ = (dat1 V c).Φ t.castSucc from rfl,
    show (dat1 V c).owesAt () t.succ = (dat1 V c).owesAt () t.castSucc from rfl,
    after1_0, after1_1, after1_2]
  have hN : t.val < 1024 := lt_of_lt_of_eq t.isLt (show cfg1.N = 1024 from N_1)
  by_cases h0 : t.val % 128 = 0
  · rw [outsAt1_A V c t h0]
    unfold out1_A_2
    iintro ⟨HΦ, Ho, ⟨%d0, H0⟩, ⟨%d1, H1⟩, ⟨%d2, H2⟩⟩
    iapply ((kernelRun1_A c (grid1.coords t) _ _ _ _ _ _ ((hcond1_0 t).mpr h0) (iblk1 V c 0 t) (iblk1 V c 1 t)).2 Set.univ _)
    isplitl [H0]; · iexact H0
    isplitl [H1]; · iexact H1
    isplitl [H2]; · iexists _; iexact H2
    iintro ⟨H0, H1, ⟨%e2, H2⟩⟩
    isplitl [HΦ]; · iexact HΦ
    isplitl [Ho]; · iexact Ho
    isplitl [H0]; · iexact H0
    isplitl [H1]; · iexact H1
    unfold owns; iexists _; isplitr
    swap; · iexact H2
    ipureintro; exact View.read_writes_of_cover _ _ _ _ _ (cover1_A_2 c _ _ _ _ _ _ _ _ _ _)
  · rw [outsAt1_B V c t h0]
    simp only [before1_2_B V c t h0]
    unfold out1_B_2
    iintro ⟨HΦ, Ho, ⟨%d0, H0⟩, ⟨%d1, H1⟩, ⟨%d2, H2⟩⟩
    iapply ((kernelRun1_B c (grid1.coords t) _ _ _ _ _ _ (fun h => h0 ((hcond1_0 t).mp h)) (iblk1 V c 0 t) (iblk1 V c 1 t) _).2 Set.univ _)
    isplitl [H0]; · iexact H0
    isplitl [H1]; · iexact H1
    isplitl [H2]; · iexact H2
    iintro ⟨H0, H1, ⟨%e2, H2⟩⟩
    isplitl [HΦ]; · iexact HΦ
    isplitl [Ho]; · iexact Ho
    isplitl [H0]; · iexact H0
    isplitl [H1]; · iexact H1
    unfold owns; iexists _; isplitr
    swap; · iexact H2
    ipureintro; exact View.read_writes_of_cover _ _ _ _ _ (cover1_B_2 c _ _ _ _ _ _ _ _ _ _ _)

set_option maxHeartbeats 4000000 in
/-- The library's body obligation, at every point. -/
theorem body_obligation1 (c : Dev nD) : BodyObligation (dat1 (F := F) V c) (defs₀ (F := F)) Variants.none () Set.univ := fun t => by
  rw [bigSep_W1, bigSep_W1]
  show bodyPre1 V c t ⊢ wp frame (wpE (defs₀ (F := F)) Variants.none c none) Set.univ (bodyAt1 t) (fun _ => bodyPost1 V c t)
  exact sound_body1 V c t

end Cert.Kernel.Hand

end
-- ==== Proof.KBitsFrame.lean ====
/-
  The two kernel regions put into the program's run.

  What the first region leaves (the per-cloud minimum in its output array, every other buffer as entered) is the contents the
  second region is entered at, and what the second leaves (the histogram in its output array) is what the host operations after
  it start from. Each region is a segment of the run: entered holding every unscoped buffer at the entry contents beside the
  generator register and nothing owed, left holding them at the exit contents; its arrays are split out of the unscoped buffers
  at entry and put back at exit. The run then gives the program's frame (it terminates, faults nowhere, the arguments end as
  launched) and the result buffer at what the host operations compute from what the two regions leave.
-/
import proofs.«134341_j34419867910943_2_alg».proof.Proof.KBitsRegion0
import proofs.«134341_j34419867910943_2_alg».proof.Proof.KBitsRegion1
import proofs.«134341_j34419867910943_2_alg».proof.Proof.Gen.Kernel.Regions
import proofs.«134341_j34419867910943_2_alg».proof.Proof.Gen.Kernel.Skeleton
import proofs.«134341_j34419867910943_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

/-! ## What the regions leave -/

/-- The first region's entry contents, read at the TensorCore's references. -/
abbrev Ve0 : (c : Dev nD) → (b : Ref sig .tc) → Buf (Elt F) ((c : Thread nD τ).loc b) := fun c b => V0 m c b
/-- At the first region's exit: its arrays at what the pipeline leaves, every other buffer as entered. -/
def X1 (c : Dev nD) : Valuation τ sig (Elt F) :=
  Pipeline.withArrays spec0 c (V0 m c) fun w => (dat0 (Ve0 m) c).arrAt w cfg0.N
/-- The second region's entry contents: the launch contents with the minimum's array at what the first region left. -/
abbrev Vm1 (c : Dev nD) : Valuation τ sig (Elt F) := Function.update (V0 m c) main_v0 (X1 m c main_v0)
abbrev Ve1 : (c : Dev nD) → (b : Ref sig .tc) → Buf (Elt F) ((c : Thread nD τ).loc b) := fun c b => Vm1 m c b
/-- At the second region's exit. -/
def X2 (c : Dev nD) : Valuation τ sig (Elt F) :=
  Pipeline.withArrays spec1 c (Vm1 m c) fun w => (dat1 (Ve1 m) c).arrAt w cfg1.N
/-- What the regions leave in the buffers they may change: after the first, after the second. -/
def outs : Outs (F := F) := fun J r c => match J with
  | 1 => X1 m c r
  | _ => X2 m c r

abbrev Vx1 : (c : Dev nD) → (b : Ref sig .tc) → Buf (Elt F) ((c : Thread nD τ).loc b) := fun c b => V1 m (outs m) c b
abbrev Vx2 : (c : Dev nD) → (b : Ref sig .tc) → Buf (Elt F) ((c : Thread nD τ).loc b) := fun c b => V2 m (outs m) c b

/-- The minimum's array after the first region is what its pipeline leaves there. -/
theorem X1_v0 (c : Dev nD) : X1 m c (Proc.devRef .tc main_v0) = (dat0 (Ve0 m) c).arrAt 1 cfg0.N := by
  unfold X1; exact Pipeline.withArrays_arr spec0 launch0.win.arr_inj c _ _ 1
/-- The histogram's array after the second region is what its pipeline leaves there. -/
theorem X2_v1 (c : Dev nD) : X2 m c (Proc.devRef .tc main_v1) = (dat1 (Ve1 m) c).arrAt 2 cfg1.N := by
  unfold X2; exact Pipeline.withArrays_arr spec1 launch1.win.arr_inj c _ _ 2

theorem V1_v0 (c : Dev nD) : V1 m (outs m) c (Proc.devRef .tc main_v0) = (dat0 (Ve0 m) c).arrAt 1 cfg0.N := by
  show Function.update (V0 m c) (Proc.devRef .tc main_v0) (X1 m c (Proc.devRef .tc main_v0)) (Proc.devRef .tc main_v0) = _
  rw [Function.update_self]; exact X1_v0 m c
theorem V2_v1 (c : Dev nD) : V2 m (outs m) c (Proc.devRef .tc main_v1) = (dat1 (Ve1 m) c).arrAt 2 cfg1.N := by
  show Function.update (V1 m (outs m) c) (Proc.devRef .tc main_v1) (X2 m c (Proc.devRef .tc main_v1)) (Proc.devRef .tc main_v1) = _
  rw [Function.update_self]; exact X2_v1 m c

/-- At the first region's exit each of its arrays holds what the pipeline leaves, -/
theorem hF0 (c : Dev nD) (w : Fin cfg0.W) : (dat0 (Ve0 m) c).arrAt w cfg0.N = Vx1 m c (Pipeline.arrRef spec0 w) := by
  match w with
  | ⟨0, _⟩ => exact ((dat0 (Ve0 m) c).arrAt_in 0 rfl _).trans ((A_eq0 (Ve0 m) c 0).trans (V1_of m (outs m) c main_arg0 (by decide)).symm)
  | ⟨1, _⟩ => exact (V1_v0 m c).symm
/-- and every other buffer what it held at entry. -/
theorem hrest0 (c : Dev nD) : ∀ b, b ∉ Finset.univ.image (Pipeline.arrRef spec0) → Vx1 m c b = Ve0 m c b := fun b hb =>
  V1_of m (outs m) c b (fun hmem => by
    rw [List.mem_singleton] at hmem; subst hmem
    exact hb (Finset.mem_image.mpr ⟨1, Finset.mem_univ _, rfl⟩))

theorem hF1 (c : Dev nD) (w : Fin cfg1.W) : (dat1 (Ve1 m) c).arrAt w cfg1.N = Vx2 m c (Pipeline.arrRef spec1 w) := by
  match w with
  | ⟨0, _⟩ => exact ((dat1 (Ve1 m) c).arrAt_in 0 rfl _).trans ((A_eq1 (Ve1 m) c 0).trans (V2_of m (outs m) c main_arg0 (by decide)).symm)
  | ⟨1, _⟩ => exact ((dat1 (Ve1 m) c).arrAt_in 1 rfl _).trans ((A_eq1 (Ve1 m) c 1).trans (V2_of m (outs m) c main_v0 (by decide)).symm)
  | ⟨2, _⟩ => exact (V2_v1 m c).symm
theorem hrest1 (c : Dev nD) : ∀ b, b ∉ Finset.univ.image (Pipeline.arrRef spec1) → Vx2 m c b = Vx1 m c b := fun b hb =>
  V2_of m (outs m) c b (fun hmem => by
    rw [List.mem_singleton] at hmem; subst hmem
    exact hb (Finset.mem_image.mpr ⟨2, Finset.mem_univ _, rfl⟩))

/-! ## The proof data family and the thread state -/

/-- Every pipeline's proof data, each at its region's entry contents. -/
def pdats : (p : Fin 2) → (c : Dev nD) → Dat τ (Elt F) Unit ℕ (UR sig nD τ) ℕ (cfgs p) c
  | ⟨0, _⟩ => fun c => dat0 (Ve0 m) c
  | ⟨1, _⟩ => fun c => dat1 (Ve1 m) c
abbrev 𝒱₀ : Variants := Variants.none
abbrev L : GSem nD τ sig → Finset Unit := fun _ => ∅
abbrev lv : GSem nD τ sig → Unit → ℕ := fun _ _ => 0
/-- What rides beside the buffers through every segment: the generator register at some state, and nothing owed. -/
abbrev R (c : Dev nD) : sProp 𝕄 := iprop((∃ r, prngReg c r) ∗ ∃ W, owes (c : Thread nD τ) (0 : CellTallies nD τ sig Unit) W)

/-! ## The regions as segments -/

set_option backward.isDefEq.respectTransparency.types false in
/-- THE FIRST REGION: entered from every unscoped buffer at the launch contents, left at `V1`. -/
def reg0 : Pipeline.RegionSeg (pcfgs (F := F)) adm (pdats m) () defs₀ 𝒱₀ L lv 0 where
  win := launch0.win.to₀
  block_pos := launch0.block_pos
  stage_whole := launch0.stage_whole
  K := PEmpty
  osem k := k.elim
  ho := Pipeline.OwnSemFacts.none _
  hbody c := (body_obligation0 (Ve0 m) c).loose
  hwaits := Pipeline.hwaits_of_owed_zero _ _ _ _ L lv 0 fun _ _ => rfl
  pre c := iprop(StableHlo.held (c : Thread nD τ) (Pipeline.ucRefs τ sig) (V0 m c) ∗ R c)
  post c := iprop(StableHlo.held (c : Thread nD τ) (Pipeline.ucRefs τ sig) (V1 m (outs m) c) ∗ R c)
  X c := iprop(∃ r, prngReg c r)
  Y c := iprop(∃ r, prngReg c r)
  Z c := Pipeline.unscopedRest (Ix := Unit) (Name := ℕ) (U := UR sig nD τ) (Lvl := ℕ) spec0 c (Ve0 m c)
  hentry c := by
    rw [Pipeline.ownSems0_none]
    have hsplit := Pipeline.arrays_of_unscopedBufs (p := 0) (pcfgs (F := F)) adm (pdats m) launch0.win launch0.arr_whole c
      ((pdats m 0 c).share_full fun _ => rfl) (Ve0 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m) ((pdats m 0 c).share_full fun _ => rfl)
      (Ve0 m c) (Vx1 m c) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- THE SECOND REGION: entered from every unscoped buffer at `V1`, left at `V2`. -/
def reg1 : Pipeline.RegionSeg (pcfgs (F := F)) adm (pdats m) () defs₀ 𝒱₀ L lv 1 where
  win := launch1.win.to₀
  block_pos := launch1.block_pos
  stage_whole := launch1.stage_whole
  K := PEmpty
  osem k := k.elim
  ho := Pipeline.OwnSemFacts.none _
  hbody c := (body_obligation1 (Ve1 m) c).loose
  hwaits := Pipeline.hwaits_of_owed_zero _ _ _ _ L lv 1 fun _ _ => rfl
  pre c := iprop(StableHlo.held (c : Thread nD τ) (Pipeline.ucRefs τ sig) (V1 m (outs m) c) ∗ R c)
  post c := iprop(StableHlo.held (c : Thread nD τ) (Pipeline.ucRefs τ sig) (V2 m (outs m) c) ∗ R c)
  X c := iprop(∃ r, prngReg c r)
  Y c := iprop(∃ r, prngReg c r)
  Z c := Pipeline.unscopedRest (Ix := Unit) (Name := ℕ) (U := UR sig nD τ) (Lvl := ℕ) spec1 c (Ve1 m c)
  hentry c := by
    rw [Pipeline.ownSems0_none]
    have hsplit := Pipeline.arrays_of_unscopedBufs (p := 1) (pcfgs (F := F)) adm (pdats m) launch1.win launch1.arr_whole c
      ((pdats m 1 c).share_full fun _ => rfl) (Ve1 m c) fun _ => rfl
    rw [Pipeline.unscopedBufs_held] at hsplit
    rw [show (Vm1 m c : Valuation τ sig (Elt F)) = V1 m (outs m) c from rfl] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m) ((pdats m 1 c).share_full fun _ => rfl)
      (Ve1 m c) (Vx2 m c) ((pdats m 1 c).arrAt · cfg1.N) (hF1 m c) (hrest1 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## The run -/

set_option backward.isDefEq.respectTransparency.types false in
/-- THE FRAME: the program terminates, faults nowhere, and leaves its two argument arrays as launched. -/
theorem frame (ρ : Dev nD → PrngReg) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)) :=
  frame_cond m (Ix := Unit) (U := UR sig nD τ) (Lvl := ℕ) emb₁ () 𝒱₀ L lv (fun _ _ => rfl) ρ (outs m) (pdats m)
    (O₀ := 0) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (E := fun _ c => R c)
    (hE0 := by
      refine Pipeline.initEach L lv fun c => ?_
      iintro ⟨⟨-, HO, -, Hp, -⟩, -⟩
      imodintro
      isplitl [Hp]; · iexists _; iexact Hp
      iexists ∅; iexact HO)
    (hE2 := fun c => by
      iintro ⟨-, HO⟩
      iexact HO)
    (R0 := reg0 m) (hpre0 := fun _ => .rfl) (hpost0 := fun _ => .rfl)
    (R1 := reg1 m) (hpre1 := fun _ => .rfl) (hpost1 := fun _ => .rfl)

end Cert.Kernel.Hand

end
-- ==== Proof.KIdealRegion0.lean ====
/-
  The first kernel (the per-cloud minimum), as a region of the program entered at buffer contents `V`.

  The grid is 8 clouds × 32 tiles of 8192 points. At a tile the body takes the coordinatewise minimum of the tile's points;
  at the first tile of a cloud it stores that into the output block, at every later tile it stores the minimum of the
  block's running contents and the tile's minimum. The output block is written back after the last tile of a cloud.
  So the body has two cases, decided by the tile number being zero or not, and what the output's buffer holds after a
  point is defined by recursion on the point (`outsAt0`): the first case starts afresh, the second continues from the
  point before. This module proves that the body, in each case, runs without fault and leaves exactly that (the body
  obligation of the pipeline's proof data `dat0`).
-/
import proofs.«134341_j34419867910943_2_alg».proof.Proof.Gen.KernelIdeal.Launch
import proofs.«134341_j34419867910943_2_alg».proof.Proof.Gen.KernelIdeal.Skeleton
import proofs.«134341_j34419867910943_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the contents of the program's buffers when the region is entered
variable (V : (c : Dev nD) → (b : Ref sig .tc) → Buf (Elt F) ((c : Thread nD τ).loc b))

/-! ## The windows' blocks -/

/-- Window `w`'s block at point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The input window's buffer holds its block at every point, for any proof data over `V` that leaves the block in place. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

/-! ## The two cases -/

/-- The first branch is taken exactly at the first tile of a cloud, -/
theorem hcond0_1 : ∀ t : Fin cfg0.N, k0_cond1 (grid0.coords t) = 1#1 ↔ t.val % 32 = 0 :=
  (by decide +kernel : ∀ t : Fin grid0.N, k0_cond1 (grid0.coords t) = 1#1 ↔ t.val % 32 = 0)
/-- the second at every other tile. -/
theorem hcond0_2 : ∀ t : Fin cfg0.N, k0_cond2 (grid0.coords t) = 1#1 ↔ ¬ t.val % 32 = 0 :=
  (by decide +kernel : ∀ t : Fin grid0.N, k0_cond2 (grid0.coords t) = 1#1 ↔ ¬ t.val % 32 = 0)
/-- The output window is stored into at every point: one of the two branches is always taken. -/
theorem live0_1 : ∀ i : grid0.Coords, cfg0.idle 1 i = false :=
  (by decide +kernel : ∀ i : grid0.Coords, idle0 1 i = false)

abbrev VO0_1 : View sig .tc .vmem S1x1x3 .f32 := (Memref.whole cc0_stg1_0 : Memref sig .tc .vmem S1x1x3 .f32).view
abbrev ms0_0 (t : Fin cfg0.N) : Memref sig .tc .vmem S1x8192x3 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S1x1x3 .f32 := win0_1.stage (cfg0.slots t 1)
abbrev hs0_1 (t : Fin cfg0.N) : (ms0_1 t).IsWhole := hstage0_1 ((cfg0.slots t 1).cast nbuf0_1)

set_option maxHeartbeats 1000000 in
/-- THE FIRST TILE OF A CLOUD. On whole buffers, the input's at its contents and the output's at anything, the body runs
    and leaves the input's as it was and the output's with the pieces it stored (the list is what the run finds). -/
noncomputable def kernelRun0_A (c : Dev nD) (i : grid0.Coords) (arg2 : Memref sig .tc .vmem S1x8192x3 .f32) (harg2 : arg2.IsWhole) (arg3 : Memref sig .tc .vmem S1x1x3 .f32) (harg3 : arg3.IsWhole)
    (hc1 : k0_cond1 i = 1#1) (hc2 : ¬ k0_cond2 i = 1#1) (x0 : Vec F S1x8192x3 .f32) :
    { L1 : List (View.Piece (Elt F) S1x1x3 .f32) //
      ∀ (E : Set ℕ) (K : PUnit → sProp 𝕄),
        iprop(owns (c : Thread nD τ) arg2 fullShare x0 ∗ (∃ d, owns (c : Thread nD τ) arg3 fullShare d)
            ∗ (iprop(owns (c : Thread nD τ) arg2 fullShare x0 ∗ (∃ f, arg3.view.loc (c : Thread nD τ) ↦[arg3.view.set]{fullShare} arg3.view.writes (Elt F) f L1)) -∗ K ⟨⟩))
          ⊢ wp frame (wpE (defs₀ (F := F)) Variants.none c none) E (cc0__min_kernel i arg2 harg2 arg3 harg3) K } := by
  refine ⟨?_, fun E K => ?run⟩
  case run =>
    simp only [cc0__min_kernel_eq_skeleton]; unfold cc0__min_kernel_skel
    unfold owns
    iintro ⟨⟨%f0, %hf0, H0⟩, ⟨%d1, %f1, -, H1⟩, Hk⟩
    obtain rfl := harg2.eq_unread hf0
    sl_exec (disch := first | exact hc1 | exact hc2)
    sl_step
    iapply Hk
    isplitl [H0]
    · iexists _; isplitr; · ipureintro; exact harg2.read_unread _
      iexact H0
    iexists _; iexact H1

set_option maxHeartbeats 1000000 in
/-- A LATER TILE. The same, the output's buffer at its running contents `xo1`, which the body reads. -/
noncomputable def kernelRun0_B (c : Dev nD) (i : grid0.Coords) (arg2 : Memref sig .tc .vmem S1x8192x3 .f32) (harg2 : arg2.IsWhole) (arg3 : Memref sig .tc .vmem S1x1x3 .f32) (harg3 : arg3.IsWhole)
    (hc1 : ¬ k0_cond1 i = 1#1) (hc2 : k0_cond2 i = 1#1) (x0 : Vec F S1x8192x3 .f32) (xo1 : Vec F S1x1x3 .f32) :
    { L1 : List (View.Piece (Elt F) S1x1x3 .f32) //
      ∀ (E : Set ℕ) (K : PUnit → sProp 𝕄),
        iprop(owns (c : Thread nD τ) arg2 fullShare x0 ∗ owns (c : Thread nD τ) arg3 fullShare xo1
            ∗ (iprop(owns (c : Thread nD τ) arg2 fullShare x0 ∗ (∃ f, arg3.view.loc (c : Thread nD τ) ↦[arg3.view.set]{fullShare} arg3.view.writes (Elt F) f L1)) -∗ K ⟨⟩))
          ⊢ wp frame (wpE (defs₀ (F := F)) Variants.none c none) E (cc0__min_kernel i arg2 harg2 arg3 harg3) K } := by
  refine ⟨?_, fun E K => ?run⟩
  case run =>
    simp only [cc0__min_kernel_eq_skeleton]; unfold cc0__min_kernel_skel
    unfold owns
    iintro ⟨⟨%f0, %hf0, H0⟩, ⟨%f1, %hf1, H1⟩, Hk⟩
    obtain rfl := harg2.eq_unread hf0; obtain rfl := harg3.eq_unread hf1
    sl_exec (disch := first | exact hc1 | exact hc2)
    sl_step
    iapply Hk
    isplitl [H0]
    · iexists _; isplitr; · ipureintro; exact harg2.read_unread _
      iexact H0
    iexists _; iexact H1

/-- The first case's pieces tile the output block, so they cover it. -/
theorem cover0_A_1 (c : Dev nD) (i : grid0.Coords) (arg2 : Memref sig .tc .vmem S1x8192x3 .f32) (harg2 : arg2.IsWhole) (arg3 : Memref sig .tc .vmem S1x1x3 .f32) (harg3 : arg3.IsWhole)
    (hc1 : k0_cond1 i = 1#1) (hc2 : ¬ k0_cond2 i = 1#1) (x0 : Vec F S1x8192x3 .f32) (y : S1x1x3.Idx) :
    ∃ pc ∈ (kernelRun0_A c i arg2 harg2 arg3 harg3 hc1 hc2 x0).1, y ∈ pc.1.set :=
  View.cover_of_tiledL (kernelRun0_A c i arg2 harg2 arg3 harg3 hc1 hc2 x0).1 S1x1x3.size (by sl_kernel_rfl) y

/-- What the first case leaves in the output's buffer. -/
def out0_A_1 (c : Dev nD) (i : grid0.Coords) (arg2 : Memref sig .tc .vmem S1x8192x3 .f32) (harg2 : arg2.IsWhole) (arg3 : Memref sig .tc .vmem S1x1x3 .f32) (harg3 : arg3.IsWhole)
    (hc1 : k0_cond1 i = 1#1) (hc2 : ¬ k0_cond2 i = 1#1) (x0 : Vec F S1x8192x3 .f32) : Vec F S1x1x3 .f32 :=
  VO0_1.read (Elt F) (VO0_1.writes (Elt F) VO0_1.junk (kernelRun0_A c i arg2 harg2 arg3 harg3 hc1 hc2 x0).1)

/-- The second case's pieces tile the output block, so they cover it. -/
theorem cover0_B_1 (c : Dev nD) (i : grid0.Coords) (arg2 : Memref sig .tc .vmem S1x8192x3 .f32) (harg2 : arg2.IsWhole) (arg3 : Memref sig .tc .vmem S1x1x3 .f32) (harg3 : arg3.IsWhole)
    (hc1 : ¬ k0_cond1 i = 1#1) (hc2 : k0_cond2 i = 1#1) (x0 : Vec F S1x8192x3 .f32) (xo1 : Vec F S1x1x3 .f32) (y : S1x1x3.Idx) :
    ∃ pc ∈ (kernelRun0_B c i arg2 harg2 arg3 harg3 hc1 hc2 x0 xo1).1, y ∈ pc.1.set :=
  View.cover_of_tiledL (kernelRun0_B c i arg2 harg2 arg3 harg3 hc1 hc2 x0 xo1).1 S1x1x3.size (by sl_kernel_rfl) y

/-- What the second case leaves in the output's buffer. -/
def out0_B_1 (c : Dev nD) (i : grid0.Coords) (arg2 : Memref sig .tc .vmem S1x8192x3 .f32) (harg2 : arg2.IsWhole) (arg3 : Memref sig .tc .vmem S1x1x3 .f32) (harg3 : arg3.IsWhole)
    (hc1 : ¬ k0_cond1 i = 1#1) (hc2 : k0_cond2 i = 1#1) (x0 : Vec F S1x8192x3 .f32) (xo1 : Vec F S1x1x3 .f32) : Vec F S1x1x3 .f32 :=
  VO0_1.read (Elt F) (VO0_1.writes (Elt F) VO0_1.junk (kernelRun0_B c i arg2 harg2 arg3 harg3 hc1 hc2 x0 xo1).1)

/-! ## What the output holds after each point -/

/-- THE ACCUMULATION: the output's buffer after the body at position `n`. -/
def outsAt0 (c : Dev nD) : (n : ℕ) → n < cfg0.N → Vec F S1x1x3 .f32
  | 0, hn => out0_A_1 c (grid0.coords ⟨0, hn⟩) (ms0_0 ⟨0, hn⟩) (hs0_0 ⟨0, hn⟩) (ms0_1 ⟨0, hn⟩) (hs0_1 ⟨0, hn⟩)
      ((hcond0_1 ⟨0, hn⟩).mpr (Nat.zero_mod _)) (fun h => ((hcond0_2 ⟨0, hn⟩).mp h) (Nat.zero_mod _)) (iblk0 V c 0 ⟨0, hn⟩)
  | n + 1, hn =>
    if h0 : (n + 1) % 32 = 0 then
      out0_A_1 c (grid0.coords ⟨n + 1, hn⟩) (ms0_0 ⟨n + 1, hn⟩) (hs0_0 ⟨n + 1, hn⟩) (ms0_1 ⟨n + 1, hn⟩) (hs0_1 ⟨n + 1, hn⟩)
        ((hcond0_1 ⟨n + 1, hn⟩).mpr h0) (fun h => ((hcond0_2 ⟨n + 1, hn⟩).mp h) h0) (iblk0 V c 0 ⟨n + 1, hn⟩)
    else
      out0_B_1 c (grid0.coords ⟨n + 1, hn⟩) (ms0_0 ⟨n + 1, hn⟩) (hs0_0 ⟨n + 1, hn⟩) (ms0_1 ⟨n + 1, hn⟩) (hs0_1 ⟨n + 1, hn⟩)
        (fun h => h0 ((hcond0_1 ⟨n + 1, hn⟩).mp h)) ((hcond0_2 ⟨n + 1, hn⟩).mpr h0) (iblk0 V c 0 ⟨n + 1, hn⟩) (outsAt0 c n (Nat.lt_of_succ_lt hn))

theorem outsAt0_A (c : Dev nD) (t : Fin cfg0.N) (h0 : t.val % 32 = 0) :
    outsAt0 V c t.val t.isLt = out0_A_1 c (grid0.coords t) (ms0_0 t) (hs0_0 t) (ms0_1 t) (hs0_1 t)
      ((hcond0_1 t).mpr h0) (fun h => ((hcond0_2 t).mp h) h0) (iblk0 V c 0 t) := by
  obtain ⟨n, hn⟩ := t
  cases n with
  | zero => exact rfl
  | succ n => exact (dif_pos h0).trans rfl

theorem outsAt0_B (c : Dev nD) (t : Fin cfg0.N) (h0 : ¬t.val % 32 = 0) :
    outsAt0 V c t.val t.isLt = out0_B_1 c (grid0.coords t) (ms0_0 t) (hs0_0 t) (ms0_1 t) (hs0_1 t)
      (fun h => h0 ((hcond0_1 t).mp h)) ((hcond0_2 t).mpr h0) (iblk0 V c 0 t)
      (outsAt0 V c (t.val - 1) (Nat.lt_of_le_of_lt (Nat.sub_le _ _) t.isLt)) := by
  obtain ⟨n, hn⟩ := t
  cases n with
  | zero => exact (by exfalso; (try dsimp only at h0); exact absurd (Nat.zero_mod _) h0)
  | succ n => exact (dif_neg h0).trans rfl

/-! ## The pipeline's proof data -/

/-- The proof data of the first pipeline on core `c`: the arrays as the region finds them; after the body at point `t`
    the input's buffer at its block and the output's at `outsAt0`; the invariant the scoped rest and the generator
    register; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => (outsAt0 V c t.val t.isLt)
  Φ _ := Pipeline.ΦA spec0 c
  q _ := fullShare
  owed _ := 0

theorem A_eq0 (c : Dev nD) (w : Fin cfg0.W) : (dat0 V c).A w = V c (Pipeline.arrRef spec0 w) := by
  dsimp only [dat0]
theorem after0_0 (c : Dev nD) (t : Fin cfg0.N) : (dat0 V c).after 0 t = iblk0 V c 0 t := by dsimp only [dat0]
theorem after0_1 (c : Dev nD) (t : Fin cfg0.N) : (dat0 V c).after 1 t = (outsAt0 V c t.val t.isLt) := by dsimp only [dat0]

theorem before0_0 (c : Dev nD) (t : Fin cfg0.N) (d) : (dat0 V c).before 0 t d = iblk0 V c 0 t :=
  before0_0_of V (dat0 V c) (A_eq0 V c 0) (after0_0 V c) t d

/-- At a later tile the output's buffer holds what the body left at the point before: it was not written back between. -/
theorem before0_1_B (c : Dev nD) (t : Fin cfg0.N) (h0 : ¬t.val % 32 = 0) (d) :
    (dat0 V c).before 1 t d = (outsAt0 V c (t.val - 1) (Nat.lt_of_le_of_lt (Nat.sub_le _ _) t.isLt)) := by
  have hN : t.val < 256 := lt_of_lt_of_eq t.isLt (show cfg0.N = 256 from N_0)
  rw [Dat.before_out_kept _ 1 rfl t (by omega) (Bool.eq_false_iff.mpr fun h => by have := (flush0_1 _).mp h; dsimp only at this; omega)
    live0_1 (fun _ _ => rfl)]
  dsimp only [dat0]

/-! ## The body obligation -/

def bodyPre0 (c : Dev nD) (t : Fin cfg0.N) : sProp 𝕄 :=
  iprop((dat0 V c).Φ t.castSucc ∗ (dat0 V c).owesAt () t.castSucc
    ∗ (∃ d, owns (c : Thread nD τ) (ms0_0 t) fullShare ((dat0 V c).before 0 t d))
    ∗ (∃ d, owns (c : Thread nD τ) (ms0_1 t) fullShare ((dat0 V c).before 1 t d)))

def bodyPost0 (c : Dev nD) (t : Fin cfg0.N) : sProp 𝕄 :=
  iprop((dat0 V c).Φ t.succ ∗ (dat0 V c).owesAt () t.succ
    ∗ (dat0 V c).leavesExact 0 t
    ∗ (dat0 V c).leavesExact 1 t)

/-- The input window is never idle: it is left at what the body leaves. -/
theorem leaves0_0 (c : Dev nD) (t : Fin cfg0.N) :
    (dat0 V c).leavesExact 0 t = owns (c : Thread nD τ) (ms0_0 t) fullShare ((dat0 V c).after 0 t) := rfl
/-- The output window is stored into at every point (`live0_1`): it too is left at what the body leaves. -/
theorem leaves0_1 (c : Dev nD) (t : Fin cfg0.N) :
    (dat0 V c).leavesExact 1 t = owns (c : Thread nD τ) (ms0_1 t) fullShare ((dat0 V c).after 1 t) := by
  unfold Dat.leavesExact; rw [live0_1 (cfg0.grid.coords t)]

set_option maxHeartbeats 800000 in
/-- The body at any point: the input's buffer holds its block; the tile number says which case the point is in; at a
    later tile the output's buffer holds what the point before left; so that case's run applies. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  rw [leaves0_0, leaves0_1]
  simp only [before0_0]
  rw [show (dat0 V c).Φ t.succ = (dat0 V c).Φ t.castSucc from rfl,
    show (dat0 V c).owesAt () t.succ = (dat0 V c).owesAt () t.castSucc from rfl,
    after0_0, after0_1]
  have hN : t.val < 256 := lt_of_lt_of_eq t.isLt (show cfg0.N = 256 from N_0)
  by_cases h0 : t.val % 32 = 0
  · rw [outsAt0_A V c t h0]
    unfold out0_A_1
    iintro ⟨HΦ, Ho, ⟨%d0, H0⟩, ⟨%d1, H1⟩⟩
    iapply ((kernelRun0_A c (grid0.coords t) _ _ _ _ ((hcond0_1 t).mpr h0) (fun h => ((hcond0_2 t).mp h) h0) (iblk0 V c 0 t)).2 Set.univ _)
    isplitl [H0]; · iexact H0
    isplitl [H1]; · iexists _; iexact H1
    iintro ⟨H0, ⟨%e1, H1⟩⟩
    isplitl [HΦ]; · iexact HΦ
    isplitl [Ho]; · iexact Ho
    isplitl [H0]; · iexact H0
    unfold owns; iexists _; isplitr
    swap; · iexact H1
    ipureintro; exact View.read_writes_of_cover _ _ _ _ _ (cover0_A_1 c _ _ _ _ _ _ _ _)
  · rw [outsAt0_B V c t h0]
    simp only [before0_1_B V c t h0]
    unfold out0_B_1
    iintro ⟨HΦ, Ho, ⟨%d0, H0⟩, ⟨%d1, H1⟩⟩
    iapply ((kernelRun0_B c (grid0.coords t) _ _ _ _ (fun h => h0 ((hcond0_1 t).mp h)) ((hcond0_2 t).mpr h0) (iblk0 V c 0 t) _).2 Set.univ _)
    isplitl [H0]; · iexact H0
    isplitl [H1]; · iexact H1
    iintro ⟨H0, ⟨%e1, H1⟩⟩
    isplitl [HΦ]; · iexact HΦ
    isplitl [Ho]; · iexact Ho
    isplitl [H0]; · iexact H0
    unfold owns; iexists _; isplitr
    swap; · iexact H1
    ipureintro; exact View.read_writes_of_cover _ _ _ _ _ (cover0_B_1 c _ _ _ _ _ _ _ _ _)

set_option maxHeartbeats 1000000 in
/-- The library's body obligation, at every point. -/
theorem body_obligation0 (c : Dev nD) : BodyObligation (dat0 (F := F) V c) (defs₀ (F := F)) Variants.none () Set.univ := fun t => by
  rw [bigSep_W0, bigSep_W0]
  exact sound_body0 V c t

end Cert.KernelIdeal.Hand

end
-- ==== Proof.KIdealRegion1Runs.lean ====
/-
  The second kernel (the histogram), as a region of the program entered at buffer contents `V`.

  The grid is 8 clouds × 128 tiles of 2048 points. At a tile the body computes each point's cell, splits the cell number
  into a high and a low part, and for each of the ten histogrammed quantities adds to the output block's slice the product
  of the two one-hot matrices weighted by the quantity. At the first tile of a cloud it first stores zeros over the whole
  output block. The block is written back after the last tile of a cloud. So the body has two cases, decided by the tile
  number being zero or not, and what the output's buffer holds after a point is defined by recursion on the point
  (`outsAt1`). This module proves that the body, in each case, runs without fault and leaves exactly that.
-/
import proofs.«134341_j34419867910943_2_alg».proof.Proof.Gen.KernelIdeal.Launch
import proofs.«134341_j34419867910943_2_alg».proof.Proof.Gen.KernelIdeal.Skeleton
import proofs.«134341_j34419867910943_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the contents of the program's buffers when the region is entered
variable (V : (c : Dev nD) → (b : Ref sig .tc) → Buf (Elt F) ((c : Thread nD τ).loc b))

/-! ## The windows' blocks -/

/-- Window `w`'s block at point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- The points window's buffer holds its block at every point, -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
/-- and so does the corner window's, fetched once per cloud. -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

/-! ## The two cases -/

/-- The body's branch: the tile number is zero. -/
abbrev cond1_0 (i : grid1.Coords) : Prop := (Scalar.cmpi .ne (Scalar.extui (Scalar.cmpi .eq (BitVec.ofNat 32 (i 1).val) 0#32)) 0#32) = 1#1
/-- It holds exactly at the first tile of a cloud. -/
theorem hcond1_0 : ∀ t : Fin cfg1.N, cond1_0 (grid1.coords t) ↔ t.val % 128 = 0 :=
  (by decide +kernel : ∀ t : Fin grid1.N, cond1_0 (grid1.coords t) ↔ t.val % 128 = 0)

abbrev VO1_2 : View sig .tc .vmem S1x10x64x128 .f32 := (Memref.whole cc1_stg2_0 : Memref sig .tc .vmem S1x10x64x128 .f32).view
abbrev ms1_0 (t : Fin cfg1.N) : Memref sig .tc .vmem S1x2048x3 .f32 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .vmem S1x1x3 .f32 := win1_1.stage (cfg1.slots t 1)
abbrev hs1_1 (t : Fin cfg1.N) : (ms1_1 t).IsWhole := hstage1_1 ((cfg1.slots t 1).cast nbuf1_1)
abbrev ms1_2 (t : Fin cfg1.N) : Memref sig .tc .vmem S1x10x64x128 .f32 := win1_2.stage (cfg1.slots t 2)
abbrev hs1_2 (t : Fin cfg1.N) : (ms1_2 t).IsWhole := hstage1_2 ((cfg1.slots t 2).cast nbuf1_2)

set_option maxHeartbeats 4000000 in
/-- THE FIRST TILE OF A CLOUD. On whole buffers, the inputs' at their contents and the output's at anything, the body runs
    and leaves the inputs' as they were and the output's with the pieces it stored (the list is what the run finds). -/
noncomputable def kernelRun1_A (c : Dev nD) (i : grid1.Coords) (arg2 : Memref sig .tc .vmem S1x2048x3 .f32) (harg2 : arg2.IsWhole) (arg3 : Memref sig .tc .vmem S1x1x3 .f32) (harg3 : arg3.IsWhole) (arg4 : Memref sig .tc .vmem S1x10x64x128 .f32) (harg4 : arg4.IsWhole)
    (hc0 : cond1_0 i) (x0 : Vec F S1x2048x3 .f32) (x1 : Vec F S1x1x3 .f32) :
    { L2 : List (View.Piece (Elt F) S1x10x64x128 .f32) //
      ∀ (E : Set ℕ) (K : PUnit → sProp 𝕄),
        iprop(owns (c : Thread nD τ) arg2 fullShare x0 ∗ owns (c : Thread nD τ) arg3 fullShare x1 ∗ (∃ d, owns (c : Thread nD τ) arg4 fullShare d)
            ∗ (iprop(owns (c : Thread nD τ) arg2 fullShare x0 ∗ owns (c : Thread nD τ) arg3 fullShare x1 ∗ (∃ f, arg4.view.loc (c : Thread nD τ) ↦[arg4.view.set]{fullShare} arg4.view.writes (Elt F) f L2)) -∗ K ⟨⟩))
          ⊢ wp frame (wpE (defs₀ (F := F)) Variants.none c none) E (cc1__hist_kernel i arg2 harg2 arg3 harg3 arg4 harg4) K } := by
  refine ⟨?_, fun E K => ?run⟩
  case run =>
    simp only [cc1__hist_kernel_eq_skeleton]; unfold cc1__hist_kernel_skel
    simp only [k1_part1_eq_skeleton, k1_part2_eq_skeleton, k1_part3_eq_skeleton, k1_part4_eq_skeleton, k1_part5_eq_skeleton]
    unfold owns
    iintro ⟨⟨%f0, %hf0, H0⟩, ⟨%f1, %hf1, H1⟩, ⟨%d2, %f2, -, H2⟩, Hk⟩
    obtain rfl := harg2.eq_unread hf0; obtain rfl := harg3.eq_unread hf1
    sl_exec (disch := first | exact hc0)
    sl_step
    iapply Hk
    isplitl [H0]
    · iexists _; isplitr; · ipureintro; exact harg2.read_unread _
      iexact H0
    isplitl [H1]
    · iexists _; isplitr; · ipureintro; exact harg3.read_unread _
      iexact H1
    iexists _; iexact H2

set_option maxHeartbeats 4000000 in
/-- A LATER TILE. The same, the output's buffer at its running contents `xo2`, which the body reads. -/
noncomputable def kernelRun1_B (c : Dev nD) (i : grid1.Coords) (arg2 : Memref sig .tc .vmem S1x2048x3 .f32) (harg2 : arg2.IsWhole) (arg3 : Memref sig .tc .vmem S1x1x3 .f32) (harg3 : arg3.IsWhole) (arg4 : Memref sig .tc .vmem S1x10x64x128 .f32) (harg4 : arg4.IsWhole)
    (hc0 : ¬ cond1_0 i) (x0 : Vec F S1x2048x3 .f32) (x1 : Vec F S1x1x3 .f32) (xo2 : Vec F S1x10x64x128 .f32) :
    { L2 : List (View.Piece (Elt F) S1x10x64x128 .f32) //
      ∀ (E : Set ℕ) (K : PUnit → sProp 𝕄),
        iprop(owns (c : Thread nD τ) arg2 fullShare x0 ∗ owns (c : Thread nD τ) arg3 fullShare x1 ∗ owns (c : Thread nD τ) arg4 fullShare xo2
            ∗ (iprop(owns (c : Thread nD τ) arg2 fullShare x0 ∗ owns (c : Thread nD τ) arg3 fullShare x1 ∗ (∃ f, arg4.view.loc (c : Thread nD τ) ↦[arg4.view.set]{fullShare} arg4.view.writes (Elt F) f L2)) -∗ K ⟨⟩))
          ⊢ wp frame (wpE (defs₀ (F := F)) Variants.none c none) E (cc1__hist_kernel i arg2 harg2 arg3 harg3 arg4 harg4) K } := by
  refine ⟨?_, fun E K => ?run⟩
  case run =>
    simp only [cc1__hist_kernel_eq_skeleton]; unfold cc1__hist_kernel_skel
    simp only [k1_part1_eq_skeleton, k1_part2_eq_skeleton, k1_part3_eq_skeleton, k1_part4_eq_skeleton, k1_part5_eq_skeleton]
    unfold owns
    iintro ⟨⟨%f0, %hf0, H0⟩, ⟨%f1, %hf1, H1⟩, ⟨%f2, %hf2, H2⟩, Hk⟩
    obtain rfl := harg2.eq_unread hf0; obtain rfl := harg3.eq_unread hf1; obtain rfl := harg4.eq_unread hf2
    sl_exec (disch := first | exact hc0)
    sl_step
    iapply Hk
    isplitl [H0]
    · iexists _; isplitr; · ipureintro; exact harg2.read_unread _
      iexact H0
    isplitl [H1]
    · iexists _; isplitr; · ipureintro; exact harg3.read_unread _
      iexact H1
    iexists _; iexact H2

end Cert.KernelIdeal.Hand

end
-- ==== Proof.KIdealRegion1.lean ====
/-
  The second kernel (the histogram) as a region, continued: what its output block holds after each grid point, the
  pipeline's proof data, and the body obligation, from the two case runs of the body.
-/
import proofs.«134341_j34419867910943_2_alg».proof.Proof.KIdealRegion1Runs
import proofs.«134341_j34419867910943_2_alg».proof.Proof.Gen.KernelIdeal.Skeleton
import proofs.«134341_j34419867910943_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- The first case's pieces (the zeros over the whole block, then the ten slices) cover the output block. -/
theorem cover1_A_2 (c : Dev nD) (i : grid1.Coords) (arg2 : Memref sig .tc .vmem S1x2048x3 .f32) (harg2 : arg2.IsWhole) (arg3 : Memref sig .tc .vmem S1x1x3 .f32) (harg3 : arg3.IsWhole) (arg4 : Memref sig .tc .vmem S1x10x64x128 .f32) (harg4 : arg4.IsWhole)
    (hc0 : cond1_0 i) (x0 : Vec F S1x2048x3 .f32) (x1 : Vec F S1x1x3 .f32) (y : S1x10x64x128.Idx) :
    ∃ pc ∈ (kernelRun1_A c i arg2 harg2 arg3 harg3 arg4 harg4 hc0 x0 x1).1, y ∈ pc.1.set :=
  View.cover_of_tiledL (kernelRun1_A c i arg2 harg2 arg3 harg3 arg4 harg4 hc0 x0 x1).1 S1x10x64x128.size (by sl_kernel_rfl) y

/-- What the first case leaves in the output's buffer. -/
def out1_A_2 (c : Dev nD) (i : grid1.Coords) (arg2 : Memref sig .tc .vmem S1x2048x3 .f32) (harg2 : arg2.IsWhole) (arg3 : Memref sig .tc .vmem S1x1x3 .f32) (harg3 : arg3.IsWhole) (arg4 : Memref sig .tc .vmem S1x10x64x128 .f32) (harg4 : arg4.IsWhole)
    (hc0 : cond1_0 i) (x0 : Vec F S1x2048x3 .f32) (x1 : Vec F S1x1x3 .f32) : Vec F S1x10x64x128 .f32 :=
  VO1_2.read (Elt F) (VO1_2.writes (Elt F) VO1_2.junk (kernelRun1_A c i arg2 harg2 arg3 harg3 arg4 harg4 hc0 x0 x1).1)

/-- The second case's pieces (the ten slices) cover the output block. -/
theorem cover1_B_2 (c : Dev nD) (i : grid1.Coords) (arg2 : Memref sig .tc .vmem S1x2048x3 .f32) (harg2 : arg2.IsWhole) (arg3 : Memref sig .tc .vmem S1x1x3 .f32) (harg3 : arg3.IsWhole) (arg4 : Memref sig .tc .vmem S1x10x64x128 .f32) (harg4 : arg4.IsWhole)
    (hc0 : ¬ cond1_0 i) (x0 : Vec F S1x2048x3 .f32) (x1 : Vec F S1x1x3 .f32) (xo2 : Vec F S1x10x64x128 .f32) (y : S1x10x64x128.Idx) :
    ∃ pc ∈ (kernelRun1_B c i arg2 harg2 arg3 harg3 arg4 harg4 hc0 x0 x1 xo2).1, y ∈ pc.1.set :=
  View.cover_of_tiledL (kernelRun1_B c i arg2 harg2 arg3 harg3 arg4 harg4 hc0 x0 x1 xo2).1 S1x1x64x128.size (by sl_kernel_rfl) y

/-- What the second case leaves in the output's buffer. -/
def out1_B_2 (c : Dev nD) (i : grid1.Coords) (arg2 : Memref sig .tc .vmem S1x2048x3 .f32) (harg2 : arg2.IsWhole) (arg3 : Memref sig .tc .vmem S1x1x3 .f32) (harg3 : arg3.IsWhole) (arg4 : Memref sig .tc .vmem S1x10x64x128 .f32) (harg4 : arg4.IsWhole)
    (hc0 : ¬ cond1_0 i) (x0 : Vec F S1x2048x3 .f32) (x1 : Vec F S1x1x3 .f32) (xo2 : Vec F S1x10x64x128 .f32) : Vec F S1x10x64x128 .f32 :=
  VO1_2.read (Elt F) (VO1_2.writes (Elt F) VO1_2.junk (kernelRun1_B c i arg2 harg2 arg3 harg3 arg4 harg4 hc0 x0 x1 xo2).1)

/-! ## What the output holds after each point -/

/-- THE ACCUMULATION: the output's buffer after the body at position `n`. -/
def outsAt1 (c : Dev nD) : (n : ℕ) → n < cfg1.N → Vec F S1x10x64x128 .f32
  | 0, hn => out1_A_2 c (grid1.coords ⟨0, hn⟩) (ms1_0 ⟨0, hn⟩) (hs1_0 ⟨0, hn⟩) (ms1_1 ⟨0, hn⟩) (hs1_1 ⟨0, hn⟩) (ms1_2 ⟨0, hn⟩) (hs1_2 ⟨0, hn⟩)
      ((hcond1_0 ⟨0, hn⟩).mpr (Nat.zero_mod _)) (iblk1 V c 0 ⟨0, hn⟩) (iblk1 V c 1 ⟨0, hn⟩)
  | n + 1, hn =>
    if h0 : (n + 1) % 128 = 0 then
      out1_A_2 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩)
        ((hcond1_0 ⟨n + 1, hn⟩).mpr h0) (iblk1 V c 0 ⟨n + 1, hn⟩) (iblk1 V c 1 ⟨n + 1, hn⟩)
    else
      out1_B_2 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩)
        (fun h => h0 ((hcond1_0 ⟨n + 1, hn⟩).mp h)) (iblk1 V c 0 ⟨n + 1, hn⟩) (iblk1 V c 1 ⟨n + 1, hn⟩) (outsAt1 c n (Nat.lt_of_succ_lt hn))

theorem outsAt1_A (c : Dev nD) (t : Fin cfg1.N) (h0 : t.val % 128 = 0) :
    outsAt1 V c t.val t.isLt = out1_A_2 c (grid1.coords t) (ms1_0 t) (hs1_0 t) (ms1_1 t) (hs1_1 t) (ms1_2 t) (hs1_2 t)
      ((hcond1_0 t).mpr h0) (iblk1 V c 0 t) (iblk1 V c 1 t) := by
  obtain ⟨n, hn⟩ := t
  cases n with
  | zero => exact rfl
  | succ n => exact (dif_pos h0).trans rfl

theorem outsAt1_B (c : Dev nD) (t : Fin cfg1.N) (h0 : ¬t.val % 128 = 0) :
    outsAt1 V c t.val t.isLt = out1_B_2 c (grid1.coords t) (ms1_0 t) (hs1_0 t) (ms1_1 t) (hs1_1 t) (ms1_2 t) (hs1_2 t)
      (fun h => h0 ((hcond1_0 t).mp h)) (iblk1 V c 0 t) (iblk1 V c 1 t)
      (outsAt1 V c (t.val - 1) (Nat.lt_of_le_of_lt (Nat.sub_le _ _) t.isLt)) := by
  obtain ⟨n, hn⟩ := t
  cases n with
  | zero => exact (by exfalso; (try dsimp only at h0); exact absurd (Nat.zero_mod _) h0)
  | succ n => exact (dif_neg h0).trans rfl

/-! ## The pipeline's proof data -/

/-- The proof data of the second pipeline on core `c`: the arrays as the region finds them; after the body at point `t`
    each input's buffer at its block and the output's at `outsAt1`; the invariant the scoped rest and the generator
    register; nothing owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => (outsAt1 V c t.val t.isLt)
  Φ _ := Pipeline.ΦA spec1 c
  q _ := fullShare
  owed _ := 0

theorem A_eq1 (c : Dev nD) (w : Fin cfg1.W) : (dat1 V c).A w = V c (Pipeline.arrRef spec1 w) := by
  dsimp only [dat1]
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = (outsAt1 V c t.val t.isLt) := by dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d

/-- At a later tile the output's buffer holds what the body left at the point before: it was not written back between. -/
theorem before1_2_B (c : Dev nD) (t : Fin cfg1.N) (h0 : ¬t.val % 128 = 0) (d) :
    (dat1 V c).before 2 t d = (outsAt1 V c (t.val - 1) (Nat.lt_of_le_of_lt (Nat.sub_le _ _) t.isLt)) := by
  have hN : t.val < 1024 := lt_of_lt_of_eq t.isLt (show cfg1.N = 1024 from N_1)
  rw [Dat.before_out_kept _ 2 rfl t (by omega) (Bool.eq_false_iff.mpr fun h => by have := (flush1_2 _).mp h; dsimp only at this; omega)
    (fun _ => rfl) (fun _ _ => rfl)]
  dsimp only [dat1]

/-! ## The body obligation -/

def bodyPre1 (c : Dev nD) (t : Fin cfg1.N) : sProp 𝕄 :=
  iprop((dat1 V c).Φ t.castSucc ∗ (dat1 V c).owesAt () t.castSucc
    ∗ (∃ d, owns (c : Thread nD τ) (ms1_0 t) fullShare ((dat1 V c).before 0 t d))
    ∗ (∃ d, owns (c : Thread nD τ) (ms1_1 t) fullShare ((dat1 V c).before 1 t d))
    ∗ (∃ d, owns (c : Thread nD τ) (ms1_2 t) fullShare ((dat1 V c).before 2 t d)))

def bodyPost1 (c : Dev nD) (t : Fin cfg1.N) : sProp 𝕄 :=
  iprop((dat1 V c).Φ t.succ ∗ (dat1 V c).owesAt () t.succ
    ∗ owns (c : Thread nD τ) (ms1_0 t) fullShare ((dat1 V c).after 0 t)
    ∗ owns (c : Thread nD τ) (ms1_1 t) fullShare ((dat1 V c).after 1 t)
    ∗ owns (c : Thread nD τ) (ms1_2 t) fullShare ((dat1 V c).after 2 t))

set_option maxHeartbeats 1600000 in
/-- The body at any point: the inputs' buffers hold their blocks; the tile number says which case the point is in; at a
    later tile the output's buffer holds what the point before left; so that case's run applies. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1]
  rw [show (dat1 V c).Φ t.succ = (dat1 V c).Φ t.castSucc from rfl,
    show (dat1 V c).owesAt () t.succ = (dat1 V c).owesAt () t.castSucc from rfl,
    after1_0, after1_1, after1_2]
  have hN : t.val < 1024 := lt_of_lt_of_eq t.isLt (show cfg1.N = 1024 from N_1)
  by_cases h0 : t.val % 128 = 0
  · rw [outsAt1_A V c t h0]
    unfold out1_A_2
    iintro ⟨HΦ, Ho, ⟨%d0, H0⟩, ⟨%d1, H1⟩, ⟨%d2, H2⟩⟩
    iapply ((kernelRun1_A c (grid1.coords t) _ _ _ _ _ _ ((hcond1_0 t).mpr h0) (iblk1 V c 0 t) (iblk1 V c 1 t)).2 Set.univ _)
    isplitl [H0]; · iexact H0
    isplitl [H1]; · iexact H1
    isplitl [H2]; · iexists _; iexact H2
    iintro ⟨H0, H1, ⟨%e2, H2⟩⟩
    isplitl [HΦ]; · iexact HΦ
    isplitl [Ho]; · iexact Ho
    isplitl [H0]; · iexact H0
    isplitl [H1]; · iexact H1
    unfold owns; iexists _; isplitr
    swap; · iexact H2
    ipureintro; exact View.read_writes_of_cover _ _ _ _ _ (cover1_A_2 c _ _ _ _ _ _ _ _ _ _)
  · rw [outsAt1_B V c t h0]
    simp only [before1_2_B V c t h0]
    unfold out1_B_2
    iintro ⟨HΦ, Ho, ⟨%d0, H0⟩, ⟨%d1, H1⟩, ⟨%d2, H2⟩⟩
    iapply ((kernelRun1_B c (grid1.coords t) _ _ _ _ _ _ (fun h => h0 ((hcond1_0 t).mp h)) (iblk1 V c 0 t) (iblk1 V c 1 t) _).2 Set.univ _)
    isplitl [H0]; · iexact H0
    isplitl [H1]; · iexact H1
    isplitl [H2]; · iexact H2
    iintro ⟨H0, H1, ⟨%e2, H2⟩⟩
    isplitl [HΦ]; · iexact HΦ
    isplitl [Ho]; · iexact Ho
    isplitl [H0]; · iexact H0
    isplitl [H1]; · iexact H1
    unfold owns; iexists _; isplitr
    swap; · iexact H2
    ipureintro; exact View.read_writes_of_cover _ _ _ _ _ (cover1_B_2 c _ _ _ _ _ _ _ _ _ _ _)

set_option maxHeartbeats 4000000 in
/-- The library's body obligation, at every point. -/
theorem body_obligation1 (c : Dev nD) : BodyObligation (dat1 (F := F) V c) (defs₀ (F := F)) Variants.none () Set.univ := fun t => by
  rw [bigSep_W1, bigSep_W1]
  show bodyPre1 V c t ⊢ wp frame (wpE (defs₀ (F := F)) Variants.none c none) Set.univ (bodyAt1 t) (fun _ => bodyPost1 V c t)
  exact sound_body1 V c t

end Cert.KernelIdeal.Hand

end
-- ==== Proof.KIdealRunCond.lean ====
/-
  The program's run, given its two kernel regions: every execution terminates, the result buffer ends at what the chain of
  host operations computes from what the two kernels leave, and the two argument arrays end as launched. The two regions
  enter as hypotheses (one segment record each); the host operations between and after them are the generated segments.
-/
import proofs.«134341_j34419867910943_2_alg».proof.Proof.Gen.KernelIdeal.Regions

set_option maxRecDepth 1568

noncomputable section

namespace Cert.KernelIdeal.Hand

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Seg HostSeg RegionSeg)

variable {F : FTy → Type} [FloatOps F]

variable (m : (ℓ : Loc nD τ sig) → Buf (Elt F) ℓ)

-- `θ_run_regions_kit_dev`'s implicit arguments are found by unifying its conclusion with this one, which takes unfolding
-- plain definitions in a metavariable's type
set_option backward.isDefEq.respectTransparency.types false in
/-- THE CONDITIONAL RUN. Given, per kernel region, its segment record entered from the thread state before it and left at the
    one after it, every weakly fair execution of the program from memory `m` with zero counters terminates, and every final
    memory holds the result buffer at the last valuation's contents and each argument as launched. -/
theorem run_cond {Ix : Type} [DecidableEq Ix] {U : Type} [URA U] {Lvl : Type} [Preorder Lvl]
    (EP : Emb (URounds (GSem nD τ sig) Unit) (MT nD τ sig Ix (Elt F) ℕ U Lvl)) [EP.LandsIn (upEmb : UEmb _ (MT nD τ sig Ix (Elt F) ℕ U Lvl))]
    (ι : Ix) (𝒱₀ : Variants) (L : GSem nD τ sig → Finset Ix) (lv : GSem nD τ sig → Ix → Lvl) (hL : ∀ g : GSem nD τ sig, g.1.2 ≠ .tc → L g = ∅)
    (ρ : Dev nD → PrngReg) (outs : Outs (F := F))
    (pdats : (p : Fin 2) → (c : Dev nD) → Dat τ (Elt F) Ix ℕ U Lvl (cfgs p) c)
    (O₀ : Dev nD → CellTallies nD τ sig Ix) (G : Dev nD → sProp (MT nD τ sig Ix (Elt F) ℕ U Lvl)) (u₀ : U)
    (hu₀ : (ownU u₀ : sProp (MT nD τ sig Ix (Elt F) ℕ U Lvl)) ⊢ |={Set.univ}=> iprop(BI.own (EP (initOf (Pipeline.cells cfgs cellOf_inj) (Pipeline.launchToks cfgs cellOf_inj))) ∗ bigSep Finset.univ G))
    (E : Fin 3 → Dev nD → sProp (MT nD τ sig Ix (Elt F) ℕ U Lvl))
    (hE0 : iprop((bigSep Finset.univ fun c : Dev nD => iprop(unscopedSems0 c ∗ owes (c : Thread nD τ) (O₀ c) ∅ ∗ Pipeline.launchCred O₀ c ∗ prngReg c (ρ c) ∗ G c)) ∗ levAts L lv)
      ⊢ (|={Set.univ}=> bigSep Finset.univ (E 0) : sProp (MT nD τ sig Ix (Elt F) ℕ U Lvl)))
    (hE2 : ∀ c : Dev nD, E 2 c ⊢ (iprop(∃ W, owes (c : Thread nD τ) (0 : CellTallies nD τ sig Ix) W) : sProp (MT nD τ sig Ix (Elt F) ℕ U Lvl)))
    (R0 : RegionSeg (pcfgs (F := F)) adm pdats ι defs₀ 𝒱₀ L lv 0)
    (hpre0 : ∀ c : Dev nD, iprop(StableHlo.held (c : Thread nD τ) (Pipeline.ucRefs τ sig) (V0 m c) ∗ E 0 c) ⊢ R0.pre c)
    (hpost0 : ∀ c : Dev nD, R0.post c ⊢ iprop(StableHlo.held (c : Thread nD τ) (Pipeline.ucRefs τ sig) (V1 m outs c) ∗ E 1 c))
    (R1 : RegionSeg (pcfgs (F := F)) adm pdats ι defs₀ 𝒱₀ L lv 1)
    (hpre1 : ∀ c : Dev nD, iprop(StableHlo.held (c : Thread nD τ) (Pipeline.ucRefs τ sig) (V1 m outs c) ∗ E 1 c) ⊢ R1.pre c)
    (hpost1 : ∀ c : Dev nD, R1.post c ⊢ iprop(StableHlo.held (c : Thread nD τ) (Pipeline.ucRefs τ sig) (V2 m outs c) ∗ E 2 c)) :
    θ_run defs (onTc (τ := τ) (main (F := F))) ⟨m, fun _ => 0, ρ⟩ (fun r => ∀ c : Dev nD,
      r.2.mem ((c.tc : Thread nD τ).loc main_v122) = V16 m outs c (Proc.devRef .tc main_v122)
      ∧ r.2.mem ((c.tc : Thread nD τ).loc main_arg0) = m ((c.tc : Thread nD τ).loc main_arg0)
      ∧ r.2.mem ((c.tc : Thread nD τ).loc main_arg1) = m ((c.tc : Thread nD τ).loc main_arg1)) := by
  refine Pipeline.θ_run_regions_kit_dev (pcfgs (F := F)) adm pdats ι cellOf_inj EP defs₀ 𝒱₀ L lv m ρ main
    (segs m outs 𝒱₀ L lv E ι pdats R0 R1)
    (fun c Q => by
      rewrite [main_chain c, Seg.run_eq_chain,
        show (segs m outs 𝒱₀ L lv E ι pdats R0 R1 c).map Seg.prog = [
          Prog.lift (.customCall (Pipeline.entry 0) ()),
          Prog.lift (.customCall (Pipeline.entry 1) ()),
          StableHlo.seq hostOps2,
          StableHlo.seq hostOps2_1,
          StableHlo.seq hostOps2_2,
          StableHlo.seq hostOps2_3,
          StableHlo.seq hostOps2_4,
          StableHlo.seq hostOps2_5,
          StableHlo.seq hostOps2_6,
          StableHlo.seq hostOps2_7,
          StableHlo.seq hostOps2_8,
          StableHlo.seq hostOps2_9,
          StableHlo.seq hostOps2_10,
          StableHlo.seq hostOps2_11,
          StableHlo.seq hostOps2_12,
          StableHlo.seq hostOps2_13 ] from rfl]
      exact .rfl)
    (fun c => by simp only [segs, Seg.pipes_host, Seg.pipes_region, Seg.pipes_nil]; decide) O₀ hL G u₀ hu₀
    (T₀ := fun c => iprop(StableHlo.held (c : Thread nD τ) (Pipeline.ucRefs τ sig) (V0 m c) ∗ E 0 c))
    (Tₙ := fun c => StableHlo.held (c : Thread nD τ) (Pipeline.ucRefs τ sig) (V16 m outs c))
    (hch := fun c => ⟨hpre0 c, (hpost0 c).trans (hpre1 c), hpost1 c, .rfl, .rfl, .rfl, .rfl, .rfl, .rfl, .rfl, .rfl, .rfl, .rfl, .rfl, .rfl, .rfl, sep_mono .rfl (hE2 c)⟩)
    (hinit := ?_) (QY := fun c s => s.mem ((c.tc : Thread nD τ).loc main_v122) = V16 m outs c (Proc.devRef .tc main_v122) ∧ s.mem ((c.tc : Thread nD τ).loc main_arg0) = m ((c.tc : Thread nD τ).loc main_arg0) ∧ s.mem ((c.tc : Thread nD τ).loc main_arg1) = m ((c.tc : Thread nD τ).loc main_arg1))
    (hfin := fun c s' => ?_) (hQ := fun _ h => h)
  · -- the launch: the unscoped buffers are `held` at `V0`; the rest makes `E 0` on every core at once
    have hsplit : (bigSep Finset.univ fun c : Dev nD => iprop(unscopedBufs c (fun b => m ((c.tc : Thread nD τ).loc b)) ∗ unscopedSems0 c
          ∗ owes (c.tc : Thread nD τ) (O₀ c) ∅ ∗ Pipeline.launchCred O₀ c ∗ prngReg c (ρ c) ∗ G c))
        ⊢ (iprop((bigSep Finset.univ fun c : Dev nD => StableHlo.held (c : Thread nD τ) (Pipeline.ucRefs τ sig) (V0 m c))
            ∗ bigSep Finset.univ fun c : Dev nD => iprop(unscopedSems0 c ∗ owes (c : Thread nD τ) (O₀ c) ∅ ∗ Pipeline.launchCred O₀ c ∗ prngReg c (ρ c) ∗ G c))
            : sProp (MT nD τ sig Ix (Elt F) ℕ U Lvl)) := by
      rw [← bigSep_sep']
      exact bigSep_mono fun c _ => by rw [← Pipeline.unscopedBufs_held (Ix := Ix) (Name := ℕ) (U := U) (Lvl := Lvl) c (V0 m c)]; exact BI.Entails.refl _
    iintro ⟨H, Hla⟩
    ihave H' := hsplit $$ H
    icases H' with ⟨Hh, Hr⟩
    imod hE0 $$ [Hr Hla] with HE
    · isplitl [Hr]; · iexact Hr
      iexact Hla
    imodintro
    rw [bigSep_sep']
    isplitl [Hh]; · iexact Hh
    iexact HE
  · -- the end: each argument's buffer read off the last valuation
    unfold StableHlo.held
    iintro ⟨Hh, HSI⟩
    ihave Hr := (pointsTo_read_all (Pipeline.ucRefs τ sig) (fun b => ((c : Thread nD τ).1, b)) (V16 m outs c) s') $$ [Hh HSI]
    · isplitl [Hh] <;> iassumption
    icases Hr with ⟨%h, HSI⟩
    imodintro
    isplitr
    · ipureintro
      exact ⟨h (Proc.devRef .tc main_v122) (Finset.mem_filter.mpr ⟨StableHlo.devRef_mem_tcRefs main_v122, by decide⟩),
        (h (Proc.devRef .tc main_arg0) (Finset.mem_filter.mpr ⟨StableHlo.devRef_mem_tcRefs main_arg0, by decide⟩)).trans (V16_main_arg0 m outs c),
        (h (Proc.devRef .tc main_arg1) (Finset.mem_filter.mpr ⟨StableHlo.devRef_mem_tcRefs main_arg1, by decide⟩)).trans (V16_main_arg1 m outs c)⟩
    · iexact HSI

end Cert.KernelIdeal.Hand

end
-- ==== Proof.KIdealFrame.lean ====
/-
  The two kernel regions put into the program's run.

  What the first region leaves (the per-cloud minimum in its output array, every other buffer as entered) is the contents the
  second region is entered at, and what the second leaves (the histogram in its output array) is what the host operations after
  it start from. Each region is a segment of the run: entered holding every unscoped buffer at the entry contents beside the
  generator register and nothing owed, left holding them at the exit contents; its arrays are split out of the unscoped buffers
  at entry and put back at exit. The run then gives the program's frame (it terminates, faults nowhere, the arguments end as
  launched) and the result buffer at what the host operations compute from what the two regions leave.
-/
import proofs.«134341_j34419867910943_2_alg».proof.Proof.KIdealRegion0
import proofs.«134341_j34419867910943_2_alg».proof.Proof.KIdealRegion1
import proofs.«134341_j34419867910943_2_alg».proof.Proof.KIdealRunCond
import proofs.«134341_j34419867910943_2_alg».proof.Proof.Gen.KernelIdeal.Skeleton
import proofs.«134341_j34419867910943_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

/-! ## What the regions leave -/

/-- The first region's entry contents, read at the TensorCore's references. -/
abbrev Ve0 : (c : Dev nD) → (b : Ref sig .tc) → Buf (Elt F) ((c : Thread nD τ).loc b) := fun c b => V0 m c b
/-- At the first region's exit: its arrays at what the pipeline leaves, every other buffer as entered. -/
def X1 (c : Dev nD) : Valuation τ sig (Elt F) :=
  Pipeline.withArrays spec0 c (V0 m c) fun w => (dat0 (Ve0 m) c).arrAt w cfg0.N
/-- The second region's entry contents: the launch contents with the minimum's array at what the first region left. -/
abbrev Vm1 (c : Dev nD) : Valuation τ sig (Elt F) := Function.update (V0 m c) main_v0 (X1 m c main_v0)
abbrev Ve1 : (c : Dev nD) → (b : Ref sig .tc) → Buf (Elt F) ((c : Thread nD τ).loc b) := fun c b => Vm1 m c b
/-- At the second region's exit. -/
def X2 (c : Dev nD) : Valuation τ sig (Elt F) :=
  Pipeline.withArrays spec1 c (Vm1 m c) fun w => (dat1 (Ve1 m) c).arrAt w cfg1.N
/-- What the regions leave in the buffers they may change: after the first, after the second. -/
def outs : Outs (F := F) := fun J r c => match J with
  | 1 => X1 m c r
  | _ => X2 m c r

abbrev Vx1 : (c : Dev nD) → (b : Ref sig .tc) → Buf (Elt F) ((c : Thread nD τ).loc b) := fun c b => V1 m (outs m) c b
abbrev Vx2 : (c : Dev nD) → (b : Ref sig .tc) → Buf (Elt F) ((c : Thread nD τ).loc b) := fun c b => V2 m (outs m) c b

/-- The minimum's array after the first region is what its pipeline leaves there. -/
theorem X1_v0 (c : Dev nD) : X1 m c (Proc.devRef .tc main_v0) = (dat0 (Ve0 m) c).arrAt 1 cfg0.N := by
  unfold X1; exact Pipeline.withArrays_arr spec0 launch0.win.arr_inj c _ _ 1
/-- The histogram's array after the second region is what its pipeline leaves there. -/
theorem X2_v1 (c : Dev nD) : X2 m c (Proc.devRef .tc main_v1) = (dat1 (Ve1 m) c).arrAt 2 cfg1.N := by
  unfold X2; exact Pipeline.withArrays_arr spec1 launch1.win.arr_inj c _ _ 2

theorem V1_v0 (c : Dev nD) : V1 m (outs m) c (Proc.devRef .tc main_v0) = (dat0 (Ve0 m) c).arrAt 1 cfg0.N := by
  show Function.update (V0 m c) (Proc.devRef .tc main_v0) (X1 m c (Proc.devRef .tc main_v0)) (Proc.devRef .tc main_v0) = _
  rw [Function.update_self]; exact X1_v0 m c
theorem V2_v1 (c : Dev nD) : V2 m (outs m) c (Proc.devRef .tc main_v1) = (dat1 (Ve1 m) c).arrAt 2 cfg1.N := by
  show Function.update (V1 m (outs m) c) (Proc.devRef .tc main_v1) (X2 m c (Proc.devRef .tc main_v1)) (Proc.devRef .tc main_v1) = _
  rw [Function.update_self]; exact X2_v1 m c

/-- At the first region's exit each of its arrays holds what the pipeline leaves, -/
theorem hF0 (c : Dev nD) (w : Fin cfg0.W) : (dat0 (Ve0 m) c).arrAt w cfg0.N = Vx1 m c (Pipeline.arrRef spec0 w) := by
  match w with
  | ⟨0, _⟩ => exact ((dat0 (Ve0 m) c).arrAt_in 0 rfl _).trans ((A_eq0 (Ve0 m) c 0).trans (V1_of m (outs m) c main_arg0 (by decide)).symm)
  | ⟨1, _⟩ => exact (V1_v0 m c).symm
/-- and every other buffer what it held at entry. -/
theorem hrest0 (c : Dev nD) : ∀ b, b ∉ Finset.univ.image (Pipeline.arrRef spec0) → Vx1 m c b = Ve0 m c b := fun b hb =>
  V1_of m (outs m) c b (fun hmem => by
    rw [List.mem_singleton] at hmem; subst hmem
    exact hb (Finset.mem_image.mpr ⟨1, Finset.mem_univ _, rfl⟩))

theorem hF1 (c : Dev nD) (w : Fin cfg1.W) : (dat1 (Ve1 m) c).arrAt w cfg1.N = Vx2 m c (Pipeline.arrRef spec1 w) := by
  match w with
  | ⟨0, _⟩ => exact ((dat1 (Ve1 m) c).arrAt_in 0 rfl _).trans ((A_eq1 (Ve1 m) c 0).trans (V2_of m (outs m) c main_arg0 (by decide)).symm)
  | ⟨1, _⟩ => exact ((dat1 (Ve1 m) c).arrAt_in 1 rfl _).trans ((A_eq1 (Ve1 m) c 1).trans (V2_of m (outs m) c main_v0 (by decide)).symm)
  | ⟨2, _⟩ => exact (V2_v1 m c).symm
theorem hrest1 (c : Dev nD) : ∀ b, b ∉ Finset.univ.image (Pipeline.arrRef spec1) → Vx2 m c b = Vx1 m c b := fun b hb =>
  V2_of m (outs m) c b (fun hmem => by
    rw [List.mem_singleton] at hmem; subst hmem
    exact hb (Finset.mem_image.mpr ⟨2, Finset.mem_univ _, rfl⟩))

/-! ## The proof data family and the thread state -/

/-- Every pipeline's proof data, each at its region's entry contents. -/
def pdats : (p : Fin 2) → (c : Dev nD) → Dat τ (Elt F) Unit ℕ (UR sig nD τ) ℕ (cfgs p) c
  | ⟨0, _⟩ => fun c => dat0 (Ve0 m) c
  | ⟨1, _⟩ => fun c => dat1 (Ve1 m) c
abbrev 𝒱₀ : Variants := Variants.none
abbrev L : GSem nD τ sig → Finset Unit := fun _ => ∅
abbrev lv : GSem nD τ sig → Unit → ℕ := fun _ _ => 0
/-- What rides beside the buffers through every segment: the generator register at some state, and nothing owed. -/
abbrev R (c : Dev nD) : sProp 𝕄 := iprop((∃ r, prngReg c r) ∗ ∃ W, owes (c : Thread nD τ) (0 : CellTallies nD τ sig Unit) W)

/-! ## The regions as segments -/

set_option backward.isDefEq.respectTransparency.types false in
/-- THE FIRST REGION: entered from every unscoped buffer at the launch contents, left at `V1`. -/
def reg0 : Pipeline.RegionSeg (pcfgs (F := F)) adm (pdats m) () defs₀ 𝒱₀ L lv 0 where
  win := launch0.win.to₀
  block_pos := launch0.block_pos
  stage_whole := launch0.stage_whole
  K := PEmpty
  osem k := k.elim
  ho := Pipeline.OwnSemFacts.none _
  hbody c := (body_obligation0 (Ve0 m) c).loose
  hwaits := Pipeline.hwaits_of_owed_zero _ _ _ _ L lv 0 fun _ _ => rfl
  pre c := iprop(StableHlo.held (c : Thread nD τ) (Pipeline.ucRefs τ sig) (V0 m c) ∗ R c)
  post c := iprop(StableHlo.held (c : Thread nD τ) (Pipeline.ucRefs τ sig) (V1 m (outs m) c) ∗ R c)
  X c := iprop(∃ r, prngReg c r)
  Y c := iprop(∃ r, prngReg c r)
  Z c := Pipeline.unscopedRest (Ix := Unit) (Name := ℕ) (U := UR sig nD τ) (Lvl := ℕ) spec0 c (Ve0 m c)
  hentry c := by
    rw [Pipeline.ownSems0_none]
    have hsplit := Pipeline.arrays_of_unscopedBufs (p := 0) (pcfgs (F := F)) adm (pdats m) launch0.win launch0.arr_whole c
      ((pdats m 0 c).share_full fun _ => rfl) (Ve0 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m) ((pdats m 0 c).share_full fun _ => rfl)
      (Ve0 m c) (Vx1 m c) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- THE SECOND REGION: entered from every unscoped buffer at `V1`, left at `V2`. -/
def reg1 : Pipeline.RegionSeg (pcfgs (F := F)) adm (pdats m) () defs₀ 𝒱₀ L lv 1 where
  win := launch1.win.to₀
  block_pos := launch1.block_pos
  stage_whole := launch1.stage_whole
  K := PEmpty
  osem k := k.elim
  ho := Pipeline.OwnSemFacts.none _
  hbody c := (body_obligation1 (Ve1 m) c).loose
  hwaits := Pipeline.hwaits_of_owed_zero _ _ _ _ L lv 1 fun _ _ => rfl
  pre c := iprop(StableHlo.held (c : Thread nD τ) (Pipeline.ucRefs τ sig) (V1 m (outs m) c) ∗ R c)
  post c := iprop(StableHlo.held (c : Thread nD τ) (Pipeline.ucRefs τ sig) (V2 m (outs m) c) ∗ R c)
  X c := iprop(∃ r, prngReg c r)
  Y c := iprop(∃ r, prngReg c r)
  Z c := Pipeline.unscopedRest (Ix := Unit) (Name := ℕ) (U := UR sig nD τ) (Lvl := ℕ) spec1 c (Ve1 m c)
  hentry c := by
    rw [Pipeline.ownSems0_none]
    have hsplit := Pipeline.arrays_of_unscopedBufs (p := 1) (pcfgs (F := F)) adm (pdats m) launch1.win launch1.arr_whole c
      ((pdats m 1 c).share_full fun _ => rfl) (Ve1 m c) fun _ => rfl
    rw [Pipeline.unscopedBufs_held] at hsplit
    rw [show (Vm1 m c : Valuation τ sig (Elt F)) = V1 m (outs m) c from rfl] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m) ((pdats m 1 c).share_full fun _ => rfl)
      (Ve1 m c) (Vx2 m c) ((pdats m 1 c).arrAt · cfg1.N) (hF1 m c) (hrest1 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## The run -/

set_option backward.isDefEq.respectTransparency.types false in
/-- THE RUN: every execution of the program terminates without a fault; the result buffer ends at what the host operations
    compute from what the two regions leave (`V16` over `outs`), and both arguments end as launched. -/
theorem run_main (ρ : Dev nD → PrngReg) :
    θ_run defs (onTc (τ := τ) (main (F := F))) ⟨m, fun _ => 0, ρ⟩ (fun r => ∀ c : Dev nD,
      r.2.mem ((c.tc : Thread nD τ).loc main_v122) = V16 m (outs m) c (Proc.devRef .tc main_v122)
      ∧ r.2.mem ((c.tc : Thread nD τ).loc main_arg0) = m ((c.tc : Thread nD τ).loc main_arg0)
      ∧ r.2.mem ((c.tc : Thread nD τ).loc main_arg1) = m ((c.tc : Thread nD τ).loc main_arg1)) :=
  run_cond m (Ix := Unit) (U := UR sig nD τ) (Lvl := ℕ) emb₁ () 𝒱₀ L lv (fun _ _ => rfl) ρ (outs m) (pdats m)
    (O₀ := 0) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (E := fun _ c => R c)
    (hE0 := by
      refine Pipeline.initEach L lv fun c => ?_
      iintro ⟨⟨-, HO, -, Hp, -⟩, -⟩
      imodintro
      isplitl [Hp]; · iexists _; iexact Hp
      iexists ∅; iexact HO)
    (hE2 := fun c => by
      iintro ⟨-, HO⟩
      iexact HO)
    (R0 := reg0 m) (hpre0 := fun _ => .rfl) (hpost0 := fun _ => .rfl)
    (R1 := reg1 m) (hpre1 := fun _ => .rfl) (hpost1 := fun _ => .rfl)

/-- THE FRAME: the program terminates, faults nowhere, and leaves its two argument arrays as launched. -/
theorem frame (ρ : Dev nD → PrngReg) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun _ h c => (h c).2) (run_main m ρ)

end Cert.KernelIdeal.Hand

end
-- ==== Proof.KIdealValue0Pieces.lean ====
/-
  The first kernel's body, read as values: what each of its two cases leaves in the output block.

  At the first tile of a cloud the body stores the tile's coordinatewise minimum (`k0_pay1` of the tile); at a later
  tile it stores the minimum of the block's running contents and the tile's minimum (`k0_pay2`). Each case is one
  store covering the whole block, whose loads read the whole buffers.
-/
import proofs.«134341_j34419867910943_2_alg».proof.Proof.KIdealRegion0
import Idealize.ShloMosaic.Lib.Pipeline.Value

set_option maxRecDepth 16384

noncomputable section

namespace Cert.KernelIdeal.Hand

open Cert.KernelIdeal Cert.KernelIdeal.Gen
open Idealize.ShloMosaic Idealize.ShloMosaic.TcCoe Idealize.SL.Sem
open Idealize.ShloMosaic.Pipeline (Dat)

variable {F : FTy → Type} [FloatOps F]

theorem hz3 : (![0, 0, 0] : Fin 3 → Nat) = fun _ => 0 := funext fun a => by fin_cases a <;> rfl

/-- THE FIRST TILE OF A CLOUD leaves the tile's minimum. -/
theorem out0_A_1_eq (c : Dev nD) (i : grid0.Coords) (a2 : Memref sig .tc .vmem S1x8192x3 .f32) (h2 : a2.IsWhole)
    (a3 : Memref sig .tc .vmem S1x1x3 .f32) (h3 : a3.IsWhole) (hc1 : k0_cond1 i = 1#1) (hc2 : ¬ k0_cond2 i = 1#1)
    (x0 : Vec F S1x8192x3 .f32) : out0_A_1 c i a2 h2 a3 h3 hc1 hc2 x0 = k0_pay1 x0 := by
  unfold out0_A_1
  rw [View.read_writes_eq_canon _ _ _ (cover0_A_1 c i a2 h2 a3 h3 hc1 hc2 x0)]
  unfold kernelRun0_A
  dsimp only
  rw [View.canon_unit_zero hz3]
  simp only [View.readAt_eq_ld, h2.read_unread, View.ld_unit_zero (S := S1x8192x3) hz3]

/-- A LATER TILE leaves the minimum of the running contents and the tile's minimum. -/
theorem out0_B_1_eq (c : Dev nD) (i : grid0.Coords) (a2 : Memref sig .tc .vmem S1x8192x3 .f32) (h2 : a2.IsWhole)
    (a3 : Memref sig .tc .vmem S1x1x3 .f32) (h3 : a3.IsWhole) (hc1 : ¬ k0_cond1 i = 1#1) (hc2 : k0_cond2 i = 1#1)
    (x0 : Vec F S1x8192x3 .f32) (xo : Vec F S1x1x3 .f32) : out0_B_1 c i a2 h2 a3 h3 hc1 hc2 x0 xo = k0_pay2 x0 xo := by
  unfold out0_B_1
  rw [View.read_writes_eq_canon _ _ _ (cover0_B_1 c i a2 h2 a3 h3 hc1 hc2 x0 xo)]
  unfold kernelRun0_B
  dsimp only
  rw [View.canon_unit_zero hz3]
  simp only [View.readAt_eq_ld, h2.read_unread, h3.read_unread, View.ld_unit_zero (S := S1x8192x3) hz3,
    View.ld_unit_zero (S := S1x1x3) hz3]

end Cert.KernelIdeal.Hand

end
-- ==== Proof.KIdealValue0Tile.lean ====
/-
  The first kernel's two payloads, read at the extended reals.

  A minimum is carried by its universal property: `z` is below the minimum of a family exactly when it is below every
  member. The tile's minimum (`k0_pay1`: a reduction by `min` over the tile's 8192 points from `+∞`, then a unit axis
  added) at axis `a` has `z` below it exactly when `z` is below coordinate `a` of every point of the tile; the running
  minimum (`k0_pay2`) is the `min` of the contents and the tile's minimum.
-/
import proofs.«134341_j34419867910943_2_alg».proof.Proof.Gen.KernelIdeal.Skeleton
import Idealize.ShloMosaic.Lib.ValueIdx
import Idealize.ShloMosaic.Lib.ValueLayout
import Idealize.ShloMosaic.PureOps.Ideal.Laws

set_option maxRecDepth 16384

noncomputable section

namespace Cert.KernelIdeal.Hand

open Cert.KernelIdeal Cert.KernelIdeal.Gen
open Idealize.ShloMosaic Idealize.ShloMosaic.TcCoe Idealize.SL.Sem
open Idealize.ShloMosaic.ValueIdx
open Idealize.ShloMosaic.Pipeline (Dat)

/-- The pattern `0x7F800000` is `+∞`. -/
theorem top_f32 : Ideal.ofBits .f32 0x7F800000#32 = ⊤ := by simp [Ideal.ofBits, Ideal.ieee]

/-- A reduction by `min` over ONE axis from `+∞`, by its universal property. -/
theorem le_multiReduction_min_iff {s t : Shape} {a : Fin s.rank} (src : FVec Ideal s .f32) (h : s.Reduces [a] t)
    (hφ : FKind.Formats .f32) (hacc : (0x7F800000#32 : BitVec 32) = FKind.minimumf.neutral .f32 hφ) (j : t.Idx) (z : EReal) :
    z ≤ multiReduction .minimumf [a] t src 0x7F800000#32 h hφ hacc j ↔ ∀ k : Fin (s.size a), z ≤ src (h.lift j k) := by
  rw [multiReduction_minimumf_eq_fold, h.fold_filter_drop_single]
  show z ≤ Finset.fold min (Ideal.ofBits .f32 0x7F800000#32) (src ∘ h.lift j) Finset.univ ↔ _
  rw [Finset.le_fold_min, top_f32]
  exact ⟨fun hh k => hh.2 k (Finset.mem_univ _), fun hh => ⟨le_top, fun k _ => hh k⟩⟩

theorem le_of_eq_iff {x y : EReal} (e : x = y) (z : EReal) : z ≤ x ↔ z ≤ y := by rw [e]

/-- The source index over `(0, a)` with the point `r` inserted is `(0, r, a)`. -/
theorem lift_tile (a : Fin 3) (r : Fin 8192) :
    reduces_S1x8192x3_S1x3.lift (ix2 (0 : Fin 1) a) r = ix3 (0 : Fin 1) r a := by
  funext d
  apply Fin.ext
  match d with
  | ⟨0, _⟩ => rfl
  | ⟨1, _⟩ => rfl
  | ⟨2, _⟩ => rfl

/-- THE TILE'S MINIMUM along axis `a`: `z` is below it exactly when it is below coordinate `a` of every point of the tile. -/
theorem le_pay1_iff (x0 : Vec Ideal S1x8192x3 .f32) (a : Fin 3) (z : EReal) :
    z ≤ k0_pay1 (F := Ideal) x0 (ix3 (0 : Fin 1) (0 : Fin 1) a) ↔ ∀ r : Fin 8192, z ≤ x0 (ix3 (0 : Fin 1) r a) := by
  unfold k0_pay1
  refine (le_of_eq_iff (shapeCast_ab_1ab_apply (a := 1) (b := 3) _ shapeCasts_S1x3_S1x1x3 (0 : Fin 1) (0 : Fin 1) a) z).trans ?_
  refine (le_multiReduction_min_iff x0 reduces_S1x8192x3_S1x3 (.inl rfl) rfl (ix2 (0 : Fin 1) a) z).trans ?_
  exact ⟨fun hh r => by rw [← lift_tile a r]; exact hh r, fun hh k => by
    have := hh k
    rw [← lift_tile a k] at this
    exact this⟩

/-- THE RUNNING MINIMUM: the `min` of the contents and the tile's minimum. -/
theorem pay2_apply (x0 : Vec Ideal S1x8192x3 .f32) (xo : Vec Ideal S1x1x3 .f32) (j : S1x1x3.Idx) :
    k0_pay2 (F := Ideal) x0 xo j = min (xo j) (k0_pay1 (F := Ideal) x0 j) := by
  unfold k0_pay2
  rw [shapeCast_self]
  rfl

end Cert.KernelIdeal.Hand

end
-- ==== Proof.Spec.lean ====
/-
  The two programs as formulas over the extended reals.

  A cloud `b` is 262144 points `x (b, n, ·)` in space. Its corner `minc b` is the coordinatewise minimum of its points.
  A point's cell along axis `a` is `⌊(p − minc) / h⌋` brought into `0 … 19` (`cell`), its cell number the three cells read as
  digits in base 20 (`flat3`). For a sampled point `ptAt` with cell number `v`:

  * THE REFERENCE (`refOut`) returns, over the points of the cloud lying in cell `v`, their mean and the nine second moments
    about it: `Σ x / c` and `Σ x_i x_j / c − mean_i · mean_j`, `c` the number of such points raised to at least one.
  * THE KERNEL (`kerOut`) first moves every point to its cell's own corner, `d = (x − minc) − cell · h`, histograms
    `1, d_a, d_i d_j` per cell number (`Khist`, the six products `i ≤ j` only), takes mean and second moments of the `d`,
    and moves the mean back: `mean_d + digit · h + minc`; the nine moments are the six placed symmetrically.

  The two agree when every coordinate is a real number and every sampled index names a point (module `Bridge`).
-/
import Idealize.ShloMosaic.PureOps.Ideal
import Idealize.ShloMosaic.Lib.ValueIdx

noncomputable section

namespace Cert.Spec

open Idealize.ShloMosaic Idealize.ShloMosaic.ValueIdx

abbrev SX : Shape := ⟨3, ![8, 262144, 3]⟩
abbrev SI : Shape := ⟨2, ![8, 4096]⟩
abbrev SO : Shape := ⟨3, ![8, 4096, 12]⟩
abbrev SM : Shape := ⟨3, ![8, 1, 3]⟩
abbrev SH : Shape := ⟨4, ![8, 10, 64, 128]⟩

/-- Every coordinate is a real number. -/
def Finite (x : SX.Idx → EReal) : Prop := ∀ i, ∃ r : ℝ, x i = (r : EReal)

/-- Every sampled index, read signed, names a point of its cloud. -/
def InRange (idx : SI.Idx → BitVec 32) : Prop :=
  ∀ (b : Fin 8) (m : Fin 4096), 0 ≤ (idx (ix2 b m)).toInt ∧ (idx (ix2 b m)).toInt < 262144

/-- The cell size, as both programs spell it. -/
def h : EReal := Ideal.ofBits .f32 0x3D4CCCCD#32
/-- The number one, as both programs spell it. -/
def one : EReal := Ideal.ofBits .f32 0x3F800000#32

/-- The corner of cloud `b` along axis `a`: the least coordinate of its points. -/
def minc (x : SX.Idx → EReal) (b : Fin 8) (a : Fin 3) : EReal :=
  Finset.univ.inf fun n : Fin 262144 => x (ix3 b n a)

/-- The cell of a coordinate `p` against the corner `mn`, as an integer in `0 … 19`. -/
def cellZ (p mn : EReal) : ℤ :=
  min 19 (max 0 (Ideal.fptosi 32 (Ideal.liftRound Int.floor (Ideal.div (p - mn) h))).toInt)
def cell (p mn : EReal) : ℕ := (cellZ p mn).toNat
/-- Three cells as one cell number. -/
def flat3 (c0 c1 c2 : ℕ) : ℕ := (c0 * 20 + c1) * 20 + c2
/-- The digits of a cell number. -/
def digit (a : Fin 3) (v : ℕ) : ℕ := if a.val = 0 then v / 400 else if a.val = 1 then (v / 20) % 20 else v % 20

def cellZAt (x : SX.Idx → EReal) (b : Fin 8) (n : Fin 262144) (a : Fin 3) : ℤ := cellZ (x (ix3 b n a)) (minc x b a)
def cellAt (x : SX.Idx → EReal) (b : Fin 8) (n : Fin 262144) (a : Fin 3) : ℕ := cell (x (ix3 b n a)) (minc x b a)
def flatAt (x : SX.Idx → EReal) (b : Fin 8) (n : Fin 262144) : ℕ :=
  flat3 (cellAt x b n 0) (cellAt x b n 1) (cellAt x b n 2)

/-- The sampled point `m` of cloud `b`. -/
def ptAt (x : SX.Idx → EReal) (idx : SI.Idx → BitVec 32) (b : Fin 8) (m : Fin 4096) (a : Fin 3) : EReal :=
  if hlt : (idx (ix2 b m)).toNat < 262144 then x (ix3 b ⟨(idx (ix2 b m)).toNat, hlt⟩ a) else ⊥
/-- Its cell number. -/
def vAt (x : SX.Idx → EReal) (idx : SI.Idx → BitVec 32) (b : Fin 8) (m : Fin 4096) : ℕ :=
  flat3 (cell (ptAt x idx b m 0) (minc x b 0)) (cell (ptAt x idx b m 1) (minc x b 1)) (cell (ptAt x idx b m 2) (minc x b 2))

/-! ## The kernel -/

/-- A point's coordinate inside its cell. -/
def dAt (x : SX.Idx → EReal) (b : Fin 8) (n : Fin 262144) (a : Fin 3) : EReal :=
  (x (ix3 b n a) - minc x b a) - (((cellZAt x b n a : ℤ) : ℝ) : EReal) * h

/-- The six products `i ≤ j`. -/
def pairs6 : Fin 6 → Fin 3 × Fin 3 := ![(0, 0), (0, 1), (0, 2), (1, 1), (1, 2), (2, 2)]
/-- Where each of the nine entries finds its product. -/
def sym9 : Fin 9 → Fin 6 := ![0, 1, 2, 1, 3, 4, 2, 4, 5]

/-- The ten quantities histogrammed per point: one, the three `d`, the six products. -/
def feat (x : SX.Idx → EReal) (b : Fin 8) (n : Fin 262144) (f : Fin 10) : EReal :=
  if f.val = 0 then one
  else if h1 : f.val < 4 then dAt x b n ⟨f.val - 1, by omega⟩
  else dAt x b n (pairs6 ⟨f.val - 4, by omega⟩).1 * dAt x b n (pairs6 ⟨f.val - 4, by omega⟩).2

/-- The histogram: quantity `f` summed over the points of cloud `b` in cell number `v`. -/
def Khist (x : SX.Idx → EReal) (b : Fin 8) (f : Fin 10) (v : ℕ) : EReal :=
  ∑ n : Fin 262144, if flatAt x b n = v then feat x b n f else 0

/-- What the first kernel leaves: the corners. -/
def mincArr (x : SX.Idx → EReal) : SM.Idx → EReal := fun j => minc x (j 0) (j 2)
/-- What the second kernel leaves: the histogram, cell number `hi · 128 + lo` at `(hi, lo)`. -/
def histArr (x : SX.Idx → EReal) : SH.Idx → EReal := fun j => Khist x (j 0) (j 1) ((j 2).val * 128 + (j 3).val)

def Kcntc (x : SX.Idx → EReal) (b : Fin 8) (v : ℕ) : EReal := max (Khist x b 0 v) one
def KmeanD (x : SX.Idx → EReal) (b : Fin 8) (v : ℕ) (a : Fin 3) : EReal :=
  Ideal.div (Khist x b ⟨a.val + 1, by omega⟩ v) (Kcntc x b v)
def Kcov6 (x : SX.Idx → EReal) (b : Fin 8) (v : ℕ) (q : Fin 6) : EReal :=
  Ideal.div (Khist x b ⟨q.val + 4, by omega⟩ v) (Kcntc x b v) - KmeanD x b v (pairs6 q).1 * KmeanD x b v (pairs6 q).2
def Kmean (x : SX.Idx → EReal) (b : Fin 8) (v : ℕ) (a : Fin 3) : EReal :=
  KmeanD x b v a + (((digit a v : ℕ) : ℝ) : EReal) * h + minc x b a

/-- THE KERNEL's result. -/
def kerOut (x : SX.Idx → EReal) (idx : SI.Idx → BitVec 32) : SO.Idx → EReal := fun j =>
  let b : Fin 8 := j 0
  let m : Fin 4096 := j 1
  let k : Fin 12 := j 2
  if hk : k.val < 3 then Kmean x b (vAt x idx b m) ⟨k.val, hk⟩
  else Kcov6 x b (vAt x idx b m) (sym9 ⟨k.val - 3, by omega⟩)

/-- The kernel's table: what it holds for cloud `b`, cell number `v`, entry `k` (three means, nine moments). -/
def distsAt (x : SX.Idx → EReal) (b : Fin 8) (v : ℕ) (k : Fin 12) : EReal :=
  if hk : k.val < 3 then Kmean x b v ⟨k.val, hk⟩ else Kcov6 x b v (sym9 ⟨k.val - 3, by omega⟩)

/-- The kernel's result is its table looked up at the sampled point's cell number. -/
theorem kerOut_apply (x : SX.Idx → EReal) (idx : SI.Idx → BitVec 32) (j : SO.Idx) :
    kerOut x idx j = distsAt x (j 0) (vAt x idx (j 0) (j 1)) (j 2) := rfl

theorem cellZ_nonneg (p mn : EReal) : 0 ≤ cellZ p mn := le_min (by norm_num) (le_max_left _ _)
theorem cellZ_le (p mn : EReal) : cellZ p mn ≤ 19 := min_le_left _ _
theorem cell_lt (p mn : EReal) : cell p mn < 20 := by
  have h1 := cellZ_nonneg p mn
  have h2 := cellZ_le p mn
  unfold cell
  omega
theorem flat3_lt {c0 c1 c2 : ℕ} (h0 : c0 < 20) (h1 : c1 < 20) (h2 : c2 < 20) : flat3 c0 c1 c2 < 8000 := by
  unfold flat3; omega
/-- A sampled point's cell number is below 8000, so it is an index of the table's 8192 rows. -/
theorem vAt_lt (x : SX.Idx → EReal) (idx : SI.Idx → BitVec 32) (b : Fin 8) (m : Fin 4096) : vAt x idx b m < 8192 :=
  Nat.lt_trans (flat3_lt (cell_lt _ _) (cell_lt _ _) (cell_lt _ _)) (by norm_num)

/-! ## The reference -/

def Rcnt (x : SX.Idx → EReal) (b : Fin 8) (v : ℕ) : EReal := ∑ n : Fin 262144, if flatAt x b n = v then one else 0
def Rs1 (x : SX.Idx → EReal) (b : Fin 8) (v : ℕ) (a : Fin 3) : EReal :=
  ∑ n : Fin 262144, if flatAt x b n = v then x (ix3 b n a) else 0
def Rs2 (x : SX.Idx → EReal) (b : Fin 8) (v : ℕ) (i j : Fin 3) : EReal :=
  ∑ n : Fin 262144, if flatAt x b n = v then x (ix3 b n i) * x (ix3 b n j) else 0
def Rcntc (x : SX.Idx → EReal) (b : Fin 8) (v : ℕ) : EReal := max (Rcnt x b v) one
def Rmean (x : SX.Idx → EReal) (b : Fin 8) (v : ℕ) (a : Fin 3) : EReal := Ideal.div (Rs1 x b v a) (Rcntc x b v)
def Rcov (x : SX.Idx → EReal) (b : Fin 8) (v : ℕ) (i j : Fin 3) : EReal :=
  Ideal.div (Rs2 x b v i j) (Rcntc x b v) - Rmean x b v i * Rmean x b v j

/-- THE REFERENCE's result. -/
def refOut (x : SX.Idx → EReal) (idx : SI.Idx → BitVec 32) : SO.Idx → EReal := fun j =>
  let b : Fin 8 := j 0
  let m : Fin 4096 := j 1
  let k : Fin 12 := j 2
  if hk : k.val < 3 then Rmean x b (vAt x idx b m) ⟨k.val, hk⟩
  else Rcov x b (vAt x idx b m) ⟨(k.val - 3) / 3, by omega⟩ ⟨(k.val - 3) % 3, by omega⟩

end Cert.Spec

end
-- ==== Proof.KIdealValue0Acc.lean ====
/-
  The first kernel's accumulation, read at the extended reals: after the tile `k` of cloud `b` the output block holds,
  along each axis, the minimum of the cloud's points below `8192 · (k + 1)`.

  The minimum is carried by its universal property (`z` is below it exactly when `z` is below every member). The input
  block at point `t = 32 · b + k` is rows `8192 · k … 8192 · k + 8191` of cloud `b` (`iblk0_apply`). At the first tile the body
  leaves the tile's minimum; at a later one the `min` of what the tile before left and the tile's minimum; so by induction
  on the point the block holds the minimum over all the rows seen so far (`le_outsAt0_iff`), and after the last tile of
  the cloud the minimum over the whole cloud: the corner (`outsAt0_last`).
-/
import proofs.«134341_j34419867910943_2_alg».proof.Proof.KIdealValue0Pieces
import proofs.«134341_j34419867910943_2_alg».proof.Proof.KIdealValue0Tile
import proofs.«134341_j34419867910943_2_alg».proof.Proof.Spec

set_option maxRecDepth 16384

noncomputable section

namespace Cert.KernelIdeal.Hand

open Cert.KernelIdeal Cert.KernelIdeal.Gen
open Idealize.ShloMosaic Idealize.ShloMosaic.TcCoe Idealize.SL.Sem
open Idealize.ShloMosaic.ValueIdx
open Idealize.ShloMosaic.Pipeline (Dat)

-- the contents of the program's buffers when the region is entered
variable (V : (c : Dev nD) → (b : Ref sig .tc) → Buf (Elt Ideal) ((c : Thread nD τ).loc b))

/-- The input window's block index at point `t`: cloud `t / 32`, tile `t % 32`. -/
theorem idx_in0 : ∀ t : Fin cfg0.N, win0_0.index t (0 : Fin 3) = t.val / 32 ∧ win0_0.index t (1 : Fin 3) = t.val % 32
    ∧ win0_0.index t (2 : Fin 3) = 0 :=
  (by decide +kernel : ∀ t : Fin grid0.N, win0_0.index t (0 : Fin 3) = t.val / 32 ∧ win0_0.index t (1 : Fin 3) = t.val % 32
    ∧ win0_0.index t (2 : Fin 3) = 0)

/-- The input block at point `t`, row `r`, axis `a`: point `8192 · (t % 32) + r` of cloud `t / 32`. -/
theorem iblk0_apply (c : Dev nD) (t : Fin cfg0.N) (r : Fin 8192) (a : Fin 3) (b : Fin 8) (hb : b.val = t.val / 32)
    (hn : 8192 * (t.val % 32) + r.val < 262144) :
    iblk0 (F := Ideal) V c 0 t (ix3 (0 : Fin 1) r a)
      = (V c main_arg0 : S8x262144x3.Idx → EReal) (ix3 b ⟨8192 * (t.val % 32) + r.val, hn⟩ a) := by
  unfold iblk0
  rw [View.read_apply]
  show V c main_arg0 _ = V c main_arg0 _
  congr 1
  obtain ⟨e0, e1, e2⟩ := idx_in0 t
  funext d
  apply Fin.ext
  match d with
  | ⟨0, _⟩ => show win0_0.index t (0 : Fin 3) * 1 + 1 * 0 = b.val; rw [e0, hb]; omega
  | ⟨1, _⟩ => show win0_0.index t (1 : Fin 3) * 8192 + 1 * r.val = 8192 * (t.val % 32) + r.val; rw [e1]; omega
  | ⟨2, _⟩ => show win0_0.index t (2 : Fin 3) * 3 + 1 * a.val = a.val; rw [e2]; omega

/-- A tile of a cloud: `z` is below every row of the tile exactly when it is below the cloud's points in the tile's range. -/
theorem tile_iff (x0 : Vec Ideal S1x8192x3 .f32) (X : S8x262144x3.Idx → EReal) (b : Fin 8) (k : ℕ) (hk : k < 32)
    (hx : ∀ (r : Fin 8192) (a : Fin 3) (hn : 8192 * k + r.val < 262144), x0 (ix3 (0 : Fin 1) r a) = X (ix3 b ⟨8192 * k + r.val, hn⟩ a))
    (a : Fin 3) (z : EReal) :
    (∀ r : Fin 8192, z ≤ x0 (ix3 (0 : Fin 1) r a))
      ↔ ∀ m : Fin 262144, 8192 * k ≤ m.val → m.val < 8192 * (k + 1) → z ≤ X (ix3 b m a) := by
  constructor
  · intro h m h1 h2
    have hr : m.val - 8192 * k < 8192 := by omega
    have hn : 8192 * k + (⟨m.val - 8192 * k, hr⟩ : Fin 8192).val < 262144 := by
      show 8192 * k + (m.val - 8192 * k) < 262144
      have := m.isLt
      omega
    have e := hx ⟨m.val - 8192 * k, hr⟩ a hn
    have em : (⟨8192 * k + (⟨m.val - 8192 * k, hr⟩ : Fin 8192).val, hn⟩ : Fin 262144) = m :=
      Fin.ext (by show 8192 * k + (m.val - 8192 * k) = m.val; omega)
    rw [em] at e
    rw [← e]
    exact h _
  · intro h r
    have hr := r.isLt
    have hn : 8192 * k + r.val < 262144 := by omega
    rw [hx r a hn]
    exact h _ (by show 8192 * k ≤ 8192 * k + r.val; omega) (by show 8192 * k + r.val < 8192 * (k + 1); omega)

/-- The first tile of a cloud: the tile's minimum is the minimum of the cloud's first 8192 points. -/
theorem stepA (x0 : Vec Ideal S1x8192x3 .f32) (X : S8x262144x3.Idx → EReal) (b : Fin 8)
    (hx : ∀ (r : Fin 8192) (a : Fin 3) (hn : 8192 * 0 + r.val < 262144), x0 (ix3 (0 : Fin 1) r a) = X (ix3 b ⟨8192 * 0 + r.val, hn⟩ a))
    (a : Fin 3) (z : EReal) :
    z ≤ k0_pay1 (F := Ideal) x0 (ix3 (0 : Fin 1) (0 : Fin 1) a) ↔ ∀ m : Fin 262144, m.val < 8192 * (0 + 1) → z ≤ X (ix3 b m a) := by
  rw [le_pay1_iff, tile_iff x0 X b 0 (by omega) hx a z]
  exact ⟨fun h m hm => h m (by omega) hm, fun h m _ hm => h m hm⟩

/-- A later tile `k`: the `min` of the minimum of the points below `8192 · k` and the tile's minimum is the minimum of the
    points below `8192 · (k + 1)`. -/
theorem stepB (x0 : Vec Ideal S1x8192x3 .f32) (xo : Vec Ideal S1x1x3 .f32) (X : S8x262144x3.Idx → EReal) (b : Fin 8)
    (k : ℕ) (hk : k < 32)
    (hx : ∀ (r : Fin 8192) (a : Fin 3) (hn : 8192 * k + r.val < 262144), x0 (ix3 (0 : Fin 1) r a) = X (ix3 b ⟨8192 * k + r.val, hn⟩ a))
    (a : Fin 3) (z : EReal)
    (ho : z ≤ xo (ix3 (0 : Fin 1) (0 : Fin 1) a) ↔ ∀ m : Fin 262144, m.val < 8192 * k → z ≤ X (ix3 b m a)) :
    z ≤ k0_pay2 (F := Ideal) x0 xo (ix3 (0 : Fin 1) (0 : Fin 1) a) ↔ ∀ m : Fin 262144, m.val < 8192 * (k + 1) → z ≤ X (ix3 b m a) := by
  rw [pay2_apply, le_min_iff, ho, le_pay1_iff, tile_iff x0 X b k hk hx a z]
  constructor
  · rintro ⟨h1, h2⟩ m hm
    by_cases hlt : m.val < 8192 * k
    · exact h1 m hlt
    · exact h2 m (by omega) hm
  · intro h
    exact ⟨fun m hm => h m (by omega), fun m _ hm => h m hm⟩

/-- THE ACCUMULATION, READ: after point `n` (tile `n % 32` of cloud `n / 32`) the output block holds along axis `a` the
    minimum of coordinate `a` over the cloud's points below `8192 · (n % 32 + 1)`. -/
theorem le_outsAt0_iff (c : Dev nD) (n : ℕ) : ∀ (hn : n < cfg0.N) (b : Fin 8) (hb : b.val = n / 32) (a : Fin 3) (z : EReal),
    z ≤ outsAt0 (F := Ideal) V c n hn (ix3 (0 : Fin 1) (0 : Fin 1) a) ↔
      ∀ m : Fin 262144, m.val < 8192 * (n % 32 + 1) → z ≤ (V c main_arg0 : S8x262144x3.Idx → EReal) (ix3 b m a) := by
  induction n with
  | zero =>
    intro hn b hb a z
    rw [outsAt0_A V c ⟨0, hn⟩ rfl, out0_A_1_eq]
    exact stepA (iblk0 (F := Ideal) V c 0 ⟨0, hn⟩) (V c main_arg0) b
      (fun r a' hn' => iblk0_apply V c ⟨0, hn⟩ r a' b hb hn') a z
  | succ n ih =>
    intro hn b hb a z
    have hN : n + 1 < 256 := lt_of_lt_of_eq hn N_0
    by_cases h0 : (n + 1) % 32 = 0
    · rw [outsAt0_A V c ⟨n + 1, hn⟩ h0, out0_A_1_eq, h0]
      exact stepA (iblk0 (F := Ideal) V c 0 ⟨n + 1, hn⟩) (V c main_arg0) b
        (fun r a' hn' => by
          have e := iblk0_apply V c ⟨n + 1, hn⟩ r a' b hb (by show 8192 * ((n + 1) % 32) + r.val < 262144; rw [h0]; exact hn')
          rw [e]
          exact congrArg (fun q => (V c main_arg0 : S8x262144x3.Idx → EReal) (ix3 b q a'))
            (Fin.ext (by show 8192 * ((n + 1) % 32) + r.val = 8192 * 0 + r.val; rw [h0]))) a z
    · rw [outsAt0_B V c ⟨n + 1, hn⟩ h0, out0_B_1_eq]
      have hk : (n + 1) % 32 = n % 32 + 1 := by omega
      have hb' : b.val = n / 32 := by rw [hb]; omega
      have ho := ih (Nat.lt_of_succ_lt hn) b hb' a z
      rw [hk]
      exact stepB (iblk0 (F := Ideal) V c 0 ⟨n + 1, hn⟩) (outsAt0 (F := Ideal) V c n (Nat.lt_of_succ_lt hn)) (V c main_arg0) b
        (n % 32 + 1) (by omega)
        (fun r a' hn' => by
          have e := iblk0_apply V c ⟨n + 1, hn⟩ r a' b hb (by show 8192 * ((n + 1) % 32) + r.val < 262144; rw [hk]; exact hn')
          rw [e]
          exact congrArg (fun q => (V c main_arg0 : S8x262144x3.Idx → EReal) (ix3 b q a'))
            (Fin.ext (by show 8192 * ((n + 1) % 32) + r.val = 8192 * (n % 32 + 1) + r.val; rw [hk]))) a z ho

/-- AFTER THE LAST TILE OF A CLOUD the output block holds the cloud's corner. -/
theorem outsAt0_last (c : Dev nD) (t : Fin cfg0.N) (h31 : t.val % 32 = 31) (b : Fin 8) (hb : b.val = t.val / 32) (a : Fin 3) :
    outsAt0 (F := Ideal) V c t.val t.isLt (ix3 (0 : Fin 1) (0 : Fin 1) a) = Cert.Spec.minc (V c main_arg0) b a := by
  refine eq_of_forall_le_iff fun z => ?_
  rw [le_outsAt0_iff V c t.val t.isLt b hb a z]
  unfold Cert.Spec.minc
  rw [Finset.le_inf_iff]
  exact ⟨fun h m _ => h m (by have := m.isLt; omega), fun h m _ => h m (Finset.mem_univ _)⟩

end Cert.KernelIdeal.Hand

end
-- ==== Proof.KIdealValue0.lean ====
/-
  The first kernel's result array: after the run it holds every cloud's corner (`Spec.mincArr`).

  The output block `(b, 0, 0)` of the `[8, 1, 3]` array is written back once, after the last tile of cloud `b` (the
  points `t ≡ 31 (mod 32)`, `b = t / 32`), when the staging buffer holds the cloud's corner (`outsAt0_last`): what is
  written is that block of the array of corners (`flushed0_eq`). The eight write-backs cover the array, entry `(b, 0, a)`
  by the point `32 · b + 31`, so the array ends holding the corners (`final0`).
-/
import proofs.«134341_j34419867910943_2_alg».proof.Proof.KIdealValue0Acc
import Idealize.ShloMosaic.Lib.Pipeline.Value
import Idealize.ShloMosaic.PureOps.Ideal.Laws

set_option maxRecDepth 16384

noncomputable section

namespace Cert.KernelIdeal.Hand

open Cert.KernelIdeal Cert.KernelIdeal.Gen
open Idealize.ShloMosaic Idealize.ShloMosaic.TcCoe Idealize.SL.Sem
open Idealize.ShloMosaic.ValueIdx
open Idealize.ShloMosaic.Pipeline (Dat)

-- the contents of the program's buffers when the region is entered
variable (V : (c : Dev nD) → (b : Ref sig .tc) → Buf (Elt Ideal) ((c : Thread nD τ).loc b))

/-- The output window's block index at point `t`: cloud `t / 32`. -/
theorem idx_out0 : ∀ t : Fin cfg0.N, win0_1.index t (0 : Fin 3) = t.val / 32 ∧ win0_1.index t (1 : Fin 3) = 0
    ∧ win0_1.index t (2 : Fin 3) = 0 :=
  (by decide +kernel : ∀ t : Fin grid0.N, win0_1.index t (0 : Fin 3) = t.val / 32 ∧ win0_1.index t (1 : Fin 3) = 0
    ∧ win0_1.index t (2 : Fin 3) = 0)

/-- An index of the one-row block is `(0, 0, a)`. -/
theorem blockIdx_eq (j : S1x1x3.Idx) : j = ix3 (0 : Fin 1) (0 : Fin 1) (j 2) := by
  funext d
  apply Fin.ext
  have h0 : (j 0).val < 1 := (j 0).isLt
  have h1 : (j 1).val < 1 := (j 1).isLt
  match d with
  | ⟨0, _⟩ => show (j 0).val = 0; omega
  | ⟨1, _⟩ => show (j 1).val = 0; omega
  | ⟨2, _⟩ => rfl

/-- WHAT A WRITE-BACK WRITES: after the last tile of a cloud, that cloud's block of the array of corners. -/
theorem flushed0_eq (c : Dev nD) (t : Fin cfg0.N) (hf : (cfg0.win 1).flush t = true) :
    (dat0 (F := Ideal) V c).flushed 1 t
      = ((cfg0.win 1).blk t).view.read (Elt Ideal) (Cert.Spec.mincArr (V c main_arg0)) := by
  have h31 : t.val % 32 = 31 := (flush0_1 t).mp hf
  have hN : t.val < 256 := lt_of_lt_of_eq t.isLt N_0
  obtain ⟨e0, e1, e2⟩ := idx_out0 t
  show (cfg0.win 1).cut (grid0.coords t) ((dat0 (F := Ideal) V c).after 1 t) = _
  rw [after0_1]
  funext y
  have eR : ∀ G : Cert.Spec.SM.Idx → EReal,
      ((cfg0.win 1).blk t).view.read (Elt Ideal) G y = G (((cfg0.win 1).blk t).view.emb y) := fun _ => rfl
  refine Eq.trans ?_ (eR (Cert.Spec.mincArr (V c main_arg0))).symm
  unfold Cert.Spec.mincArr
  show outsAt0 (F := Ideal) V c t.val t.isLt ((cfg0.win 1).xinj (grid0.coords t) y) = _
  have hy0 : (y 0).val < 1 := (y 0).isLt
  have hb : ((((cfg0.win 1).blk t).view.emb y) 0).val = t.val / 32 := by
    show win0_1.index t (0 : Fin 3) * 1 + 1 * (y 0).val = t.val / 32
    rw [e0]; omega
  have ha : ((((cfg0.win 1).blk t).view.emb y) 2).val = (y 2).val := by
    show win0_1.index t (2 : Fin 3) * 3 + 1 * (y 2).val = (y 2).val
    rw [e2]; omega
  rw [blockIdx_eq ((cfg0.win 1).xinj (grid0.coords t) y)]
  refine (outsAt0_last V c t h31 ((((cfg0.win 1).blk t).view.emb y) 0) hb _).trans ?_
  exact congrArg (Cert.Spec.minc (V c main_arg0) ((((cfg0.win 1).blk t).view.emb y) 0)) (Fin.ext ha.symm)

/-- THE RESULT ARRAY after the run: every cloud's corner. -/
theorem final0 (V : (c : Dev nD) → (b : Ref sig .tc) → Buf (Elt Ideal) ((c : Thread nD τ).loc b)) (c : Dev nD) :
    (dat0 (F := Ideal) V c).arrAt 1 cfg0.N = Cert.Spec.mincArr (V c main_arg0) :=
  (dat0 (F := Ideal) V c).arrAt_eq_of_cover 1 (Cert.Spec.mincArr (V c main_arg0)) (flushed0_eq V c) fun i => by
    have hi0 : (i 0).val < 8 := (i 0).isLt
    have hi1 : (i 1).val < 1 := (i 1).isLt
    have hi2 : (i 2).val < 3 := (i 2).isLt
    have hlt : 32 * (i 0).val + 31 < cfg0.N := by rw [show cfg0.N = 256 from N_0]; omega
    refine ⟨⟨32 * (i 0).val + 31, hlt⟩, (flush0_1 _).mpr (by show (32 * (i 0).val + 31) % 32 = 31; omega), ?_⟩
    obtain ⟨e0, e1, e2⟩ := idx_out0 ⟨32 * (i 0).val + 31, hlt⟩
    show i ∈ ((View.whole main_v0).slice (win0_1.rect ⟨32 * (i 0).val + 31, hlt⟩)).set
    rw [View.set_slice_whole, Rect.mem_set_unit]
    intro a
    match a with
    | ⟨0, _⟩ =>
      show win0_1.index ⟨32 * (i 0).val + 31, hlt⟩ (0 : Fin 3) * 1 ≤ (i 0).val
        ∧ (i 0).val < win0_1.index ⟨32 * (i 0).val + 31, hlt⟩ (0 : Fin 3) * 1 + 1
      rw [e0]; show (32 * (i 0).val + 31) / 32 * 1 ≤ (i 0).val ∧ (i 0).val < (32 * (i 0).val + 31) / 32 * 1 + 1; omega
    | ⟨1, _⟩ =>
      show win0_1.index ⟨32 * (i 0).val + 31, hlt⟩ (1 : Fin 3) * 1 ≤ (i 1).val
        ∧ (i 1).val < win0_1.index ⟨32 * (i 0).val + 31, hlt⟩ (1 : Fin 3) * 1 + 1
      rw [e1]; omega
    | ⟨2, _⟩ =>
      show win0_1.index ⟨32 * (i 0).val + 31, hlt⟩ (2 : Fin 3) * 3 ≤ (i 2).val
        ∧ (i 2).val < win0_1.index ⟨32 * (i 0).val + 31, hlt⟩ (2 : Fin 3) * 3 + 3
      rw [e2]; omega

end Cert.KernelIdeal.Hand

end
-- ==== Proof.TileSpec.lean ====
/-
  One tile of the histogram kernel as formulas: from the tile's 2048 points `v3` and the cloud's corner `v5`, each point's
  cells, cell number, cell-local coordinates and the ten histogrammed quantities (as in `Cert.Spec`, over the tile's rows),
  and the tile's contribution to a cell number: the quantity summed over the tile's points lying in that cell.
-/
import proofs.«134341_j34419867910943_2_alg».proof.Proof.Spec

noncomputable section

namespace Cert.TileSpec

open Idealize.ShloMosaic Idealize.ShloMosaic.ValueIdx Cert.Spec

abbrev ST : Shape := ⟨3, ![1, 2048, 3]⟩
abbrev SC : Shape := ⟨3, ![1, 1, 3]⟩

def tCellZ (v3 : ST.Idx → EReal) (v5 : SC.Idx → EReal) (r : Fin 2048) (a : Fin 3) : ℤ :=
  cellZ (v3 (ix3 0 r a)) (v5 (ix3 0 0 a))
def tCell (v3 : ST.Idx → EReal) (v5 : SC.Idx → EReal) (r : Fin 2048) (a : Fin 3) : ℕ :=
  cell (v3 (ix3 0 r a)) (v5 (ix3 0 0 a))
def tFlat (v3 : ST.Idx → EReal) (v5 : SC.Idx → EReal) (r : Fin 2048) : ℕ :=
  flat3 (tCell v3 v5 r 0) (tCell v3 v5 r 1) (tCell v3 v5 r 2)
def tD (v3 : ST.Idx → EReal) (v5 : SC.Idx → EReal) (r : Fin 2048) (a : Fin 3) : EReal :=
  (v3 (ix3 0 r a) - v5 (ix3 0 0 a)) - (((tCellZ v3 v5 r a : ℤ) : ℝ) : EReal) * h
def tFeat (v3 : ST.Idx → EReal) (v5 : SC.Idx → EReal) (r : Fin 2048) (f : Fin 10) : EReal :=
  if f.val = 0 then one
  else if h1 : f.val < 4 then tD v3 v5 r ⟨f.val - 1, by omega⟩
  else tD v3 v5 r (pairs6 ⟨f.val - 4, by omega⟩).1 * tD v3 v5 r (pairs6 ⟨f.val - 4, by omega⟩).2
/-- The tile's contribution to cell number `v` of quantity `f`. -/
def tileSum (v3 : ST.Idx → EReal) (v5 : SC.Idx → EReal) (f : Fin 10) (v : ℕ) : EReal :=
  ∑ r : Fin 2048, if tFlat v3 v5 r = v then tFeat v3 v5 r f else 0

end Cert.TileSpec

end
-- ==== Proof.TilePayMat.lean ====
/-
  The histogram kernel's matrix product read at an index. The product contracts the 2048 rows of a tile, the left
  operand transposed: entry `(hi, lo)` of the result is the sum over the rows `r` of `A (r, hi) · B (r, lo)`. Each of the
  ten stored slices is the previous slice plus such a product, whose right operand is the low one-hot matrix with row `r`
  multiplied by that row's quantity.
-/
import proofs.«134341_j34419867910943_2_alg».proof.Proof.Gen.KernelIdeal.Skeleton
import Idealize.ShloMosaic.PureOps.Ideal.Laws
import Idealize.ShloMosaic.Lib.ValueIdx
import Idealize.ShloMosaic.Lib.Pipeline.Value
import Idealize.ShloMosaic.Lib.ValueLayout

noncomputable section

namespace Cert.TilePay

open Idealize.ShloMosaic Idealize.ShloMosaic.ValueIdx Cert.KernelIdeal Cert.KernelIdeal.Gen

/-- The product into the zero accumulator, at `(hi, lo)`: the sum over the rows of the products of the two columns. -/
theorem matmulT_apply {φ₁ φ₂ : FTy} (A : FVec Ideal S2048x64 φ₁) (B : FVec Ideal S2048x128 φ₂) (hi : Fin 64) (lo : Fin 128) :
    matmul dot_S2048x64_S2048x128_S64x128_0_0_1_1_n_n none A B (constant (F := Ideal) S64x128 .f32 0x00000000#32) (ix2 hi lo)
      = ∑ r : Fin 2048, A (ix2 r hi) * B (ix2 r lo) := by
  show FloatOps.matmul _ none A B _ (ix2 hi lo) = _
  rw [Ideal.matmul_constant_zero_apply,
    ← Equiv.sum_comp (contrEquiv1 dot_S2048x64_S2048x128_S64x128_0_0_1_1_n_n 2048 rfl rfl).symm]
  refine Finset.sum_congr rfl fun c _ => ?_
  have c2 := contrEquiv1_symm_val dot_S2048x64_S2048x128_S64x128_0_0_1_1_n_n 2048 rfl rfl c
  have l2 : dot_S2048x64_S2048x128_S64x128_0_0_1_1_n_n.lhsIdx (ix2 hi lo) ((contrEquiv1 _ 2048 rfl rfl).symm c) = ix2 c hi := by
    funext ax; apply Fin.ext
    match ax with
    | ⟨0, _⟩ => simp [DotDims.lhsIdx, dot_S2048x64_S2048x128_S64x128_0_0_1_1_n_n]; exact c2
    | ⟨1, _⟩ => simp [DotDims.lhsIdx, dot_S2048x64_S2048x128_S64x128_0_0_1_1_n_n]; rfl
  have r2 : dot_S2048x64_S2048x128_S64x128_0_0_1_1_n_n.rhsIdx (ix2 hi lo) ((contrEquiv1 _ 2048 rfl rfl).symm c) = ix2 c lo := by
    funext ax; apply Fin.ext
    match ax with
    | ⟨0, _⟩ => simp [DotDims.rhsIdx, dot_S2048x64_S2048x128_S64x128_0_0_1_1_n_n]; exact c2
    | ⟨1, _⟩ => simp [DotDims.rhsIdx, dot_S2048x64_S2048x128_S64x128_0_0_1_1_n_n]; rfl
  rw [l2, r2]

/-! ## The layout operations around the product -/

section Layout
variable {α : Type}

/-- The stored slice `[1, 1, 64, 128]` viewed as a `[64, 128]` matrix. -/
theorem cast_in (x : S1x1x64x128.Idx → α) (h : S1x1x64x128.ShapeCasts S64x128) (hi : Fin 64) (lo : Fin 128) :
    shapeCast S64x128 x h (ix2 hi lo) = x (ix4 (0 : Fin 1) (0 : Fin 1) hi lo) :=
  shapeCast_apply x h _ _ (by
    rw [Shape.rowMajor_val_four, Shape.rowMajor_val_two]
    show ((0 * 1 + 0) * 64 + hi.val) * 128 + lo.val = hi.val * 128 + lo.val
    omega)

/-- A `[64, 128]` matrix viewed as the slice `[1, 1, 64, 128]`. -/
theorem cast_out (x : S64x128.Idx → α) (h : S64x128.ShapeCasts S1x1x64x128) (hi : Fin 64) (lo : Fin 128) :
    shapeCast S1x1x64x128 x h (ix4 (0 : Fin 1) (0 : Fin 1) hi lo) = x (ix2 hi lo) :=
  shapeCast_apply x h _ _ (by
    rw [Shape.rowMajor_val_four, Shape.rowMajor_val_two]
    show hi.val * 128 + lo.val = ((0 * 1 + 0) * 64 + hi.val) * 128 + lo.val
    omega)

/-- A vector over the rows viewed as a one-column matrix. -/
theorem col_cast (y : S2048.Idx → α) (h : S2048.ShapeCasts S2048x1) (r : Fin 2048) (u : Fin 1) :
    shapeCast S2048x1 y h (ix2 r u) = y (ix1 r) :=
  shapeCast_apply y h _ _ (by
    rw [Shape.rowMajor_val_two, Shape.rowMajor_val_one]
    show r.val = r.val * 1 + u.val
    omega)

/-- A one-column matrix repeated along 128 columns. -/
theorem col_bcast128 (z : S2048x1.Idx → α) (h : S2048x1.Broadcasts S2048x128) (r : Fin 2048) (lo : Fin 128) :
    broadcastTo S2048x128 z h (ix2 r lo) = z (ix2 r (0 : Fin 1)) := by
  refine broadcastTo_apply z h (ix2 r lo) (ix2 r (0 : Fin 1)) fun ax => ?_
  match ax with
  | ⟨0, _⟩ => rfl
  | ⟨1, _⟩ => rfl

/-- A one-column matrix repeated along 64 columns. -/
theorem col_bcast64 (z : S2048x1.Idx → α) (h : S2048x1.Broadcasts S2048x64) (r : Fin 2048) (k : Fin 64) :
    broadcastTo S2048x64 z h (ix2 r k) = z (ix2 r (0 : Fin 1)) := by
  refine broadcastTo_apply z h (ix2 r k) (ix2 r (0 : Fin 1)) fun ax => ?_
  match ax with
  | ⟨0, _⟩ => rfl
  | ⟨1, _⟩ => rfl

/-- A vector over the rows repeated along 128 columns: row `r` holds the vector's entry `r`. -/
theorem rows128 (y : S2048.Idx → α) (h1 : S2048.ShapeCasts S2048x1) (h2 : S2048x1.Broadcasts S2048x128) (r : Fin 2048) (lo : Fin 128) :
    broadcastTo S2048x128 (shapeCast S2048x1 y h1) h2 (ix2 r lo) = y (ix1 r) := by
  rw [col_bcast128, col_cast]

end Layout

/-! ## A stored slice: the previous slice plus the product -/

/-- The sum a slice gains from a tile: over the rows, the high one-hot times the low one-hot times the row's quantity. -/
def gain (OH : FVec Ideal S2048x64 .bf16) (OL : FVec Ideal S2048x128 .bf16) (X : FVec Ideal S2048 .f32) (hi : Fin 64) (lo : Fin 128) : EReal :=
  ∑ r : Fin 2048, OH (ix2 r hi) * (OL (ix2 r lo) * X (ix1 r))

theorem pay25_apply (OH : FVec Ideal S2048x64 .bf16) (OL : FVec Ideal S2048x128 .bf16) (X : FVec Ideal S2048 .f32)
    (prev : Vec Ideal S1x1x64x128 .f32) (hi : Fin 64) (lo : Fin 128) :
    k1_pay25 OH OL X prev (ix4 0 0 hi lo) = prev (ix4 0 0 hi lo) + gain OH OL X hi lo := by
  unfold k1_pay25 gain
  rw [cast_out, addf_apply, cast_in, matmulT_apply]
  refine congrArg (prev (ix4 0 0 hi lo) + ·) (Finset.sum_congr rfl fun r _ => ?_)
  rw [mulf_apply, rows128, truncf_apply]

theorem pay26_apply (OH : FVec Ideal S2048x64 .bf16) (OL : FVec Ideal S2048x128 .bf16) (X : FVec Ideal S2048 .f32)
    (prev : Vec Ideal S1x1x64x128 .f32) (hi : Fin 64) (lo : Fin 128) :
    k1_pay26 OH OL X prev (ix4 0 0 hi lo) = prev (ix4 0 0 hi lo) + gain OH OL X hi lo := by
  unfold k1_pay26 gain
  rw [cast_out, addf_apply, cast_in, matmulT_apply]
  refine congrArg (prev (ix4 0 0 hi lo) + ·) (Finset.sum_congr rfl fun r _ => ?_)
  rw [mulf_apply, rows128, truncf_apply]

theorem pay29_apply (OH : FVec Ideal S2048x64 .bf16) (OL : FVec Ideal S2048x128 .bf16) (X : FVec Ideal S2048 .f32)
    (prev : Vec Ideal S1x1x64x128 .f32) (hi : Fin 64) (lo : Fin 128) :
    k1_pay29 OH OL X prev (ix4 0 0 hi lo) = prev (ix4 0 0 hi lo) + gain OH OL X hi lo := by
  unfold k1_pay29 gain
  rw [cast_out, addf_apply, cast_in, matmulT_apply]
  refine congrArg (prev (ix4 0 0 hi lo) + ·) (Finset.sum_congr rfl fun r _ => ?_)
  rw [mulf_apply, rows128, truncf_apply]

theorem pay30_apply (OH : FVec Ideal S2048x64 .bf16) (OL : FVec Ideal S2048x128 .bf16) (X : FVec Ideal S2048 .f32)
    (prev : Vec Ideal S1x1x64x128 .f32) (hi : Fin 64) (lo : Fin 128) :
    k1_pay30 OH OL X prev (ix4 0 0 hi lo) = prev (ix4 0 0 hi lo) + gain OH OL X hi lo := by
  unfold k1_pay30 gain
  rw [cast_out, addf_apply, cast_in, matmulT_apply]
  refine congrArg (prev (ix4 0 0 hi lo) + ·) (Finset.sum_congr rfl fun r _ => ?_)
  rw [mulf_apply, rows128, truncf_apply]

theorem pay31_apply (OH : FVec Ideal S2048x64 .bf16) (OL : FVec Ideal S2048x128 .bf16) (X : FVec Ideal S2048 .f32)
    (prev : Vec Ideal S1x1x64x128 .f32) (hi : Fin 64) (lo : Fin 128) :
    k1_pay31 OH OL X prev (ix4 0 0 hi lo) = prev (ix4 0 0 hi lo) + gain OH OL X hi lo := by
  unfold k1_pay31 gain
  rw [cast_out, addf_apply, cast_in, matmulT_apply]
  refine congrArg (prev (ix4 0 0 hi lo) + ·) (Finset.sum_congr rfl fun r _ => ?_)
  rw [mulf_apply, rows128, truncf_apply]

theorem pay32_apply (OH : FVec Ideal S2048x64 .bf16) (OL : FVec Ideal S2048x128 .bf16) (X : FVec Ideal S2048 .f32)
    (prev : Vec Ideal S1x1x64x128 .f32) (hi : Fin 64) (lo : Fin 128) :
    k1_pay32 OH OL X prev (ix4 0 0 hi lo) = prev (ix4 0 0 hi lo) + gain OH OL X hi lo := by
  unfold k1_pay32 gain
  rw [cast_out, addf_apply, cast_in, matmulT_apply]
  refine congrArg (prev (ix4 0 0 hi lo) + ·) (Finset.sum_congr rfl fun r _ => ?_)
  rw [mulf_apply, rows128, truncf_apply]

theorem pay2_apply (OH : FVec Ideal S2048x64 .bf16) (OL : FVec Ideal S2048x128 .bf16) (X : FVec Ideal S2048 .f32)
    (prev : Vec Ideal S1x1x64x128 .f32) (hi : Fin 64) (lo : Fin 128) :
    k1_pay2 OH OL X prev (ix4 0 0 hi lo) = prev (ix4 0 0 hi lo) + gain OH OL X hi lo := by
  unfold k1_pay2 gain
  rw [cast_out, addf_apply, cast_in, matmulT_apply]
  refine congrArg (prev (ix4 0 0 hi lo) + ·) (Finset.sum_congr rfl fun r _ => ?_)
  rw [mulf_apply, rows128, truncf_apply]

/-- The slice of the third coordinate: its column is multiplied into the low one-hot beforehand. -/
theorem pay28_apply (OH : FVec Ideal S2048x64 .bf16) (OL : FVec Ideal S2048x128 .bf16) (X : FVec Ideal S2048 .f32)
    (prev : Vec Ideal S1x1x64x128 .f32) (hi : Fin 64) (lo : Fin 128) :
    k1_pay28 OH OL (k1_pay27 X) prev (ix4 0 0 hi lo) = prev (ix4 0 0 hi lo) + gain OH OL X hi lo := by
  unfold k1_pay28 k1_pay27 gain
  rw [cast_out, addf_apply, cast_in, matmulT_apply]
  refine congrArg (prev (ix4 0 0 hi lo) + ·) (Finset.sum_congr rfl fun r _ => ?_)
  rw [mulf_apply, rows128, truncf_apply]

/-- The ninth slice: the sum is formed as a matrix and cast to the slice's shape when stored. -/
theorem pay33_apply (OH : FVec Ideal S2048x64 .bf16) (OL : FVec Ideal S2048x128 .bf16) (X : FVec Ideal S2048 .f32)
    (prev : Vec Ideal S1x1x64x128 .f32) (hi : Fin 64) (lo : Fin 128) :
    k1_pay1 (k1_pay33 OH OL X prev) (ix4 0 0 hi lo) = prev (ix4 0 0 hi lo) + gain OH OL X hi lo := by
  unfold k1_pay1 k1_pay33 gain
  rw [cast_out, addf_apply, cast_in, matmulT_apply]
  refine congrArg (prev (ix4 0 0 hi lo) + ·) (Finset.sum_congr rfl fun r _ => ?_)
  rw [mulf_apply, rows128, truncf_apply]

/-- The count's slice: the quantity is the constant one. -/
theorem pay24_apply (v33 : IVec S2048 32) (c : BitVec 32) (v35 v38 v39 : IVec S2048 32)
    (prev : Vec Ideal S1x1x64x128 .f32) (hi : Fin 64) (lo : Fin 128) :
    k1_pay24 (k1_pay23 (F := Ideal) v33 c v35 v38 v39) prev (ix4 0 0 hi lo)
      = prev (ix4 0 0 hi lo)
        + gain (k1_pay12 (F := Ideal) v33 c v35 v38 v39) (k1_pay13 (F := Ideal) v33 c v35 v38 v39)
            (fun _ => Ideal.ofBits .f32 0x3F800000#32) hi lo := by
  unfold k1_pay24 k1_pay23 gain
  rw [cast_out, addf_apply, cast_in, matmulT_apply]
  refine congrArg (prev (ix4 0 0 hi lo) + ·) (Finset.sum_congr rfl fun r _ => ?_)
  rw [mulf_apply, rows128, truncf_apply]
  rfl

end Cert.TilePay

end
-- ==== Proof.TilePayInt.lean ====
/-
  The integer side of one tile of the histogram kernel: each point's three cells (the floor of the quotient, converted,
  raised to 0 and lowered to 19), its cell number `(c0·20 + c1)·20 + c2` in 32-bit arithmetic that does not wrap, the
  split of the cell number `v < 8000` into `v / 128` and `v % 128` (the floor-division correction never fires on a
  nonnegative dividend), and the two one-hot matrices as 0/1 extended reals.
-/
import proofs.«134341_j34419867910943_2_alg».proof.Proof.Gen.KernelIdeal.Skeleton
import proofs.«134341_j34419867910943_2_alg».proof.Proof.TileSpec
import proofs.«134341_j34419867910943_2_alg».proof.Proof.TilePayMat
import Idealize.ShloMosaic.PureOps.Ideal.Laws
import Idealize.ShloMosaic.Lib.ValueIdx
import Idealize.ShloMosaic.Lib.Pipeline.Value
import Idealize.ShloMosaic.Lib.ValueLayout
import Idealize.ShloMosaic.Lib.Decide

noncomputable section

namespace Cert.TilePay

open Idealize.ShloMosaic Idealize.ShloMosaic.ValueIdx Cert.KernelIdeal Cert.KernelIdeal.Gen Cert.TileSpec

/-! ## The difference from the corner -/

section Layout
variable {α : Type}

/-- The corner `[1, 1, 3]` viewed as a vector of three. -/
theorem corner_cast (x : S1x1x3.Idx → α) (h : S1x1x3.ShapeCasts S3) (a : Fin 3) :
    shapeCast S3 x h (ix1 a) = x (ix3 (0 : Fin 1) (0 : Fin 1) a) :=
  shapeCast_apply x h _ _ (by
    rw [Shape.rowMajor_val_three, Shape.rowMajor_val_one]
    show (0 * 1 + 0) * 3 + a.val = a.val
    omega)

/-- A one-column matrix viewed as a vector over the rows. -/
theorem col_uncast (z : S2048x1.Idx → α) (h : S2048x1.ShapeCasts S2048) (r : Fin 2048) :
    shapeCast S2048 z h (ix1 r) = z (ix2 r (0 : Fin 1)) :=
  shapeCast_apply z h _ _ (by
    rw [Shape.rowMajor_val_two, Shape.rowMajor_val_one]
    show r.val * 1 + 0 = r.val
    omega)

/-- Column `a` of a `[2048, 3]` matrix, as a vector over the rows. -/
theorem column_apply (X : S2048x3.Idx → α) (o : Nat) (hs : S2048x3.Slices ![0, o] S2048x1)
    (hc : S2048x1.ShapeCasts S2048) (r : Fin 2048) (a : Fin 3) (ha : a.val = o) :
    shapeCast S2048 (extractStridedSlice S2048x1 ![0, o] X hs) hc (ix1 r) = X (ix2 r a) := by
  rw [col_uncast]
  exact slice2_axis1_apply o X hs r (0 : Fin 1) a (by rw [ha]; rfl)

end Layout

/-- A point's coordinate less the corner's. -/
theorem pay4_apply (v3 : Vec Ideal S1x2048x3 .f32) (v5 : Vec Ideal S1x1x3 .f32) (r : Fin 2048) (a : Fin 3) :
    k1_pay4 v3 v5 (ix2 r a) = v3 (ix3 0 r a) - v5 (ix3 0 0 a) := by
  unfold k1_pay4
  rw [subf_apply, shapeCast_1ab_ab_apply, broadcastTo_1b_ab_apply, shapeCast_a_1a_apply, corner_cast]

/-! ## The cells -/

/-- The cell of a coordinate as the kernel computes it. -/
def cellW (p mn : EReal) : BitVec 32 :=
  IntOp.minsi 19#32 (IntOp.maxsi 0#32 (Ideal.fptosi 32 (Ideal.liftRound Int.floor (Ideal.div (p - mn) Spec.h))))

theorem toInt_minsi (a b : BitVec 32) : (IntOp.minsi a b).toInt = min a.toInt b.toInt := by
  unfold IntOp.minsi
  by_cases hs : a.slt b
  · rw [if_pos hs]; rw [BitVec.slt_iff_toInt_lt] at hs; omega
  · rw [if_neg hs]; rw [BitVec.slt_iff_toInt_lt] at hs; omega

theorem toInt_maxsi (a b : BitVec 32) : (IntOp.maxsi a b).toInt = max a.toInt b.toInt := by
  unfold IntOp.maxsi
  by_cases hs : b.slt a
  · rw [if_pos hs]; rw [BitVec.slt_iff_toInt_lt] at hs; omega
  · rw [if_neg hs]; rw [BitVec.slt_iff_toInt_lt] at hs; omega

/-- Read signed, the kernel's cell is the formula's. -/
theorem cellW_toInt (p mn : EReal) : (cellW p mn).toInt = Spec.cellZ p mn := by
  unfold cellW Spec.cellZ
  rw [toInt_minsi, toInt_maxsi]
  rfl

/-- The kernel's cell is the word of the formula's natural number. -/
theorem cellW_eq (p mn : EReal) : cellW p mn = BitVec.ofNat 32 (Spec.cell p mn) := by
  apply BitVec.eq_of_toNat_eq
  have h0 := Spec.cellZ_nonneg p mn
  have h1 := Spec.cellZ_le p mn
  have h := cellW_toInt p mn
  have hc := BitVec.toInt_eq_toNat_cond (cellW p mn)
  rw [BitVec.toNat_ofNat]
  unfold Spec.cell
  split at hc <;> omega

theorem pay5_apply (v3 : Vec Ideal S1x2048x3 .f32) (v5 : Vec Ideal S1x1x3 .f32) (r : Fin 2048) (a : Fin 3) :
    k1_pay5 v3 v5 (ix2 r a) = cellW (v3 (ix3 0 r a)) (v5 (ix3 0 0 a)) := by
  unfold k1_pay5 cellW
  show IntOp.minsi 19#32 (IntOp.maxsi 0#32 (Ideal.fptosi 32 (Ideal.liftRound Int.floor
    (Ideal.div (k1_pay4 v3 v5 (ix2 r a)) (Ideal.ofBits .f32 0x3D4CCCCD#32))))) = _
  rw [pay4_apply]
  rfl

/-! ## The cell number -/

theorem addi_apply {s : Shape} {w : Nat} (x y : IVec s w) (i : s.Idx) : addi x y i = IntOp.addi (x i) (y i) := rfl
theorem muli_apply {s : Shape} {w : Nat} (x y : IVec s w) (i : s.Idx) : muli x y i = IntOp.muli (x i) (y i) := rfl

/-- The three cells read as digits in base 20: below 8000, so the 32-bit sum is the number itself. -/
theorem pay7_apply (v3 : Vec Ideal S1x2048x3 .f32) (v5 : Vec Ideal S1x1x3 .f32) (r : Fin 2048) :
    k1_pay7 v3 v5 (ix1 r) = BitVec.ofNat 32 (tFlat v3 v5 r) := by
  unfold k1_pay7
  rw [addi_apply, muli_apply, addi_apply, muli_apply,
    column_apply _ 0 _ _ r 0 rfl, column_apply _ 1 _ _ r 1 rfl, column_apply _ 2 _ _ r 2 rfl,
    pay5_apply, pay5_apply, pay5_apply, cellW_eq, cellW_eq, cellW_eq]
  apply BitVec.eq_of_toNat_eq
  have h0 := Spec.cell_lt (v3 (ix3 0 r 0)) (v5 (ix3 0 0 0))
  have h1 := Spec.cell_lt (v3 (ix3 0 r 1)) (v5 (ix3 0 0 1))
  have h2 := Spec.cell_lt (v3 (ix3 0 r 2)) (v5 (ix3 0 0 2))
  unfold tFlat Spec.flat3 tCell IntOp.addi IntOp.muli
  simp only [broadcast, BitVec.toNat_add, BitVec.toNat_mul, BitVec.toNat_ofNat]
  omega

theorem tFlat_lt (v3 : Vec Ideal S1x2048x3 .f32) (v5 : Vec Ideal S1x1x3 .f32) (r : Fin 2048) : tFlat v3 v5 r < 8000 :=
  Spec.flat3_lt (Spec.cell_lt _ _) (Spec.cell_lt _ _) (Spec.cell_lt _ _)

end Cert.TilePay

end
-- ==== Proof.TilePayDiv.lean ====
/-
  The split of a cell number `v < 8000` into the row `v / 128` and the column `v % 128` of the histogram's
  `64 × 128` slice, on 32-bit words. The kernel divides with the signed quotient rounded toward zero and corrects it
  to the floor (subtract one when the signs of the dividend and of 128 differ and the remainder is not zero). On a
  nonnegative dividend the signed quotient is the unsigned one and the correction never fires: at zero the remainder
  is zero, above zero the dividend's sign is that of 128. The column is the dividend less 128 times the row, which
  does not wrap.
-/
import Idealize.ShloMosaic.PureOps.Ideal

namespace Cert.TilePay

open Idealize.ShloMosaic

/-- The floor division by 128 as the kernel spells it on one word. -/
def fdiv128 (x : BitVec 32) : BitVec 32 :=
  Scalar.select
    (IntOp.andi
      (IntOp.cmpi .ne (IntOp.subi ((IntOp.cmpi .sgt x 0#32).setWidth 32) ((IntOp.cmpi .slt x 0#32).setWidth 32))
        (Scalar.subi (Scalar.extui (Scalar.cmpi .sgt 128#32 0#32)) (Scalar.extui (Scalar.cmpi .slt 128#32 0#32))))
      (IntOp.cmpi .ne (IntOp.remsi .vector x 128#32) 0#32))
    (IntOp.subi (IntOp.divsi .vector x 128#32) 1#32)
    (IntOp.divsi .vector x 128#32)

/-- The column: the word less 128 times its row. -/
def flo128 (x : BitVec 32) : BitVec 32 := IntOp.subi x (IntOp.muli (fdiv128 x) 128#32)

theorem fdiv128_ofNat (n : Fin 8000) : fdiv128 (BitVec.ofNat 32 n.val) = BitVec.ofNat 32 (n.val / 128) := by
  have hn := n.isLt
  generalize hx0 : BitVec.ofNat 32 n.val = x
  have hx : x.toNat = n.val := by rw [← hx0, BitVec.toNat_ofNat]; omega
  have hmsb : x.msb = false := by
    rw [BitVec.msb_eq_decide]; simp only [hx, decide_eq_false_iff_not]; omega
  have hi : x.toInt = (n.val : Int) := by
    have := BitVec.toInt_eq_toNat_cond x
    split at this <;> omega
  have hnc : ¬ IntOp.SDivCorner x 128#32 := by
    intro h
    rcases h with h | ⟨_, h⟩ <;> exact absurd h (by decide)
  -- the signed quotient of a nonnegative word by 128 is the unsigned one
  have hdiv : IntOp.divsi .vector x 128#32 = BitVec.ofNat 32 (n.val / 128) := by
    unfold IntOp.divsi
    have h128 : (128#32 : BitVec 32).msb = false := by decide
    rw [if_neg hnc, BitVec.sdiv_eq, hmsb, h128]
    show x / 128#32 = _
    apply BitVec.eq_of_toNat_eq
    rw [BitVec.toNat_udiv, hx, BitVec.toNat_ofNat]
    show n.val / 128 = n.val / 128 % 2 ^ 32
    omega
  have hslt : IntOp.cmpi .slt x 0#32 = 0#1 := by
    unfold IntOp.cmpi
    have : x.slt 0#32 = false := by
      rw [BitVec.slt_eq_decide]; simp [hi]
    simp [this]
  unfold fdiv128
  by_cases h0 : n.val = 0
  · -- at zero everything is a closed word
    have : x = 0#32 := by apply BitVec.eq_of_toNat_eq; rw [hx, h0]; rfl
    subst this
    rw [h0]
    decide
  · -- above zero the two signs agree, so the first test of the correction fails
    have hsgt : IntOp.cmpi .sgt x 0#32 = 1#1 := by
      unfold IntOp.cmpi
      have : (0#32 : BitVec 32).slt x = true := by
        rw [BitVec.slt_eq_decide]; simp [hi]; omega
      simp [this]
    rw [hsgt, hslt, hdiv]
    have hc : IntOp.cmpi .ne (IntOp.subi ((1#1 : BitVec 1).setWidth 32) ((0#1 : BitVec 1).setWidth 32))
        (Scalar.subi (Scalar.extui (Scalar.cmpi .sgt 128#32 0#32)) (Scalar.extui (Scalar.cmpi .slt 128#32 0#32))) = 0#1 := by decide
    rw [hc]
    have ha : ∀ q : BitVec 1, IntOp.andi 0#1 q = 0#1 := by decide
    rw [ha]
    rfl

theorem flo128_ofNat (n : Fin 8000) : flo128 (BitVec.ofNat 32 n.val) = BitVec.ofNat 32 (n.val % 128) := by
  unfold flo128
  rw [fdiv128_ofNat n]
  apply BitVec.eq_of_toNat_eq
  have hn := n.isLt
  unfold IntOp.subi IntOp.muli
  simp only [BitVec.toNat_sub, BitVec.toNat_mul, BitVec.toNat_ofNat]
  omega

end Cert.TilePay
-- ==== Proof.TilePayHot.lean ====
/-
  The two one-hot matrices of a tile as 0/1 extended reals: row `r` of the high one has its 1 in column `v / 128`,
  row `r` of the low one in column `v % 128`, `v` the row's cell number. So the product of the two entries at
  `(r, hi)` and `(r, lo)` with any quantity is the quantity when `v = hi · 128 + lo` and zero otherwise, and the sum a
  slice gains from a tile is the quantity summed over the tile's points lying in that cell.
-/
import proofs.«134341_j34419867910943_2_alg».proof.Proof.TilePayInt
import proofs.«134341_j34419867910943_2_alg».proof.Proof.TilePayDiv

noncomputable section

namespace Cert.TilePay

open Idealize.ShloMosaic Idealize.ShloMosaic.ValueIdx Cert.KernelIdeal Cert.KernelIdeal.Gen Cert.TileSpec

/-- The comparison of two words as a 0/1 extended real. -/
def hot (a b : BitVec 32) : EReal := ((((IntOp.cmpi .eq a b).setWidth 32).toInt : ℝ) : EReal)

theorem hot_eq (a b : BitVec 32) : hot a b = if a = b then 1 else 0 := by
  unfold hot IntOp.cmpi
  by_cases h : a = b
  · simp [h]
  · have hb : (a == b) = false := beq_eq_false_iff_ne.mpr h
    simp [h, hb]

/-- Words of naturals below `2 ^ 32` are equal exactly when the naturals are. -/
theorem ofNat_eq_iff {m k : Nat} (hm : m < 2 ^ 32) (hk : k < 2 ^ 32) : BitVec.ofNat 32 m = BitVec.ofNat 32 k ↔ m = k := by
  constructor
  · intro h
    have := congrArg BitVec.toNat h
    rw [BitVec.toNat_ofNat, BitVec.toNat_ofNat, Nat.mod_eq_of_lt hm, Nat.mod_eq_of_lt hk] at this
    exact this
  · intro h; rw [h]

section
variable (v3 : Vec Ideal S1x2048x3 .f32) (v5 : Vec Ideal S1x1x3 .f32)

/-- The row of the slice: the cell number's floor division by 128, at each point. -/
theorem pay11_apply (r : Fin 2048) :
    k1_pay11 (k1_pay7 v3 v5) 128#32 (k1_pay8 v3 v5) (k1_pay9 v3 v5) k1_pay10 (ix1 r) = BitVec.ofNat 32 (tFlat v3 v5 r / 128) := by
  have e : k1_pay11 (k1_pay7 v3 v5) 128#32 (k1_pay8 v3 v5) (k1_pay9 v3 v5) k1_pay10 (ix1 r) = fdiv128 (k1_pay7 v3 v5 (ix1 r)) := rfl
  rw [e, pay7_apply]
  exact fdiv128_ofNat ⟨tFlat v3 v5 r, tFlat_lt v3 v5 r⟩

/-- The high one-hot matrix at `(r, k)`. -/
theorem pay12_apply (r : Fin 2048) (k : Fin 64) :
    k1_pay12 (F := Ideal) (k1_pay7 v3 v5) 128#32 (k1_pay8 v3 v5) (k1_pay9 v3 v5) k1_pay10 (ix2 r k)
      = if tFlat v3 v5 r / 128 = k.val then 1 else 0 := by
  unfold k1_pay12
  show hot (broadcastTo S2048x64 (shapeCast S2048x1 (k1_pay11 (k1_pay7 v3 v5) 128#32 (k1_pay8 v3 v5) (k1_pay9 v3 v5) k1_pay10) _) _ (ix2 r k))
    (iota .tc S2048x64 32 [1] _ (ix2 r k)) = _
  rw [col_bcast64, col_cast, iota_single_apply, pay11_apply, hot_eq]
  have hlt := tFlat_lt v3 v5 r
  have hk := k.isLt
  refine if_congr ?_ rfl rfl
  exact ofNat_eq_iff (by omega) (by show k.val < 2 ^ 32; omega)

/-- The low one-hot matrix at `(r, k)`. -/
theorem pay13_apply (r : Fin 2048) (k : Fin 128) :
    k1_pay13 (F := Ideal) (k1_pay7 v3 v5) 128#32 (k1_pay8 v3 v5) (k1_pay9 v3 v5) k1_pay10 (ix2 r k)
      = if tFlat v3 v5 r % 128 = k.val then 1 else 0 := by
  unfold k1_pay13
  show hot (broadcastTo S2048x128 (shapeCast S2048x1
      (subi (k1_pay7 v3 v5) (muli (k1_pay11 (k1_pay7 v3 v5) 128#32 (k1_pay8 v3 v5) (k1_pay9 v3 v5) k1_pay10) (broadcast S2048 128#32))) _) _ (ix2 r k))
    (iota .tc S2048x128 32 [1] _ (ix2 r k)) = _
  rw [col_bcast128, col_cast, iota_single_apply, hot_eq]
  have e : subi (k1_pay7 v3 v5) (muli (k1_pay11 (k1_pay7 v3 v5) 128#32 (k1_pay8 v3 v5) (k1_pay9 v3 v5) k1_pay10) (broadcast S2048 128#32)) (ix1 r)
      = flo128 (k1_pay7 v3 v5 (ix1 r)) := rfl
  rw [e, pay7_apply, flo128_ofNat ⟨tFlat v3 v5 r, tFlat_lt v3 v5 r⟩]
  have hlt := tFlat_lt v3 v5 r
  have hk := k.isLt
  refine if_congr ?_ rfl rfl
  exact ofNat_eq_iff (by show tFlat v3 v5 r % 128 < 2 ^ 32; omega) (by show k.val < 2 ^ 32; omega)

/-- What a slice gains from a tile: the quantity summed over the tile's points whose cell number is `hi · 128 + lo`. -/
theorem gain_eq (X : FVec Ideal S2048 .f32) (hi : Fin 64) (lo : Fin 128) :
    gain (k1_pay12 (F := Ideal) (k1_pay7 v3 v5) 128#32 (k1_pay8 v3 v5) (k1_pay9 v3 v5) k1_pay10)
        (k1_pay13 (F := Ideal) (k1_pay7 v3 v5) 128#32 (k1_pay8 v3 v5) (k1_pay9 v3 v5) k1_pay10) X hi lo
      = ∑ r : Fin 2048, if tFlat v3 v5 r = hi.val * 128 + lo.val then X (ix1 r) else 0 := by
  unfold gain
  refine Finset.sum_congr rfl fun r _ => ?_
  rw [pay12_apply, pay13_apply]
  have hlo := lo.isLt
  by_cases h : tFlat v3 v5 r = hi.val * 128 + lo.val
  · rw [if_pos h, if_pos (by omega), if_pos (by omega), one_mul, one_mul]
  · rw [if_neg h]
    by_cases h1 : tFlat v3 v5 r / 128 = hi.val
    · rw [if_pos h1, if_neg (by omega), zero_mul, mul_zero]
    · rw [if_neg h1, zero_mul]

end

end Cert.TilePay

end
-- ==== Proof.TilePayD.lean ====
/-
  The float side of one tile of the histogram kernel: each point's coordinates inside its cell, `d = (x − corner) − cell · h`,
  its three columns, and the six products of two columns.
-/
import proofs.«134341_j34419867910943_2_alg».proof.Proof.TilePayInt

noncomputable section

namespace Cert.TilePay

open Idealize.ShloMosaic Idealize.ShloMosaic.ValueIdx Cert.KernelIdeal Cert.KernelIdeal.Gen Cert.TileSpec

/-- A point's coordinate inside its cell. -/
theorem pay6_apply (v3 : Vec Ideal S1x2048x3 .f32) (v5 : Vec Ideal S1x1x3 .f32) (r : Fin 2048) (a : Fin 3) :
    k1_pay6 v3 v5 (ix2 r a) = tD v3 v5 r a := by
  unfold k1_pay6
  show k1_pay4 v3 v5 (ix2 r a) - (((k1_pay5 v3 v5 (ix2 r a)).toInt : ℝ) : EReal) * Ideal.ofBits .f32 0x3D4CCCCD#32 = _
  rw [pay4_apply, pay5_apply, cellW_toInt]
  rfl

section
variable (D : FVec Ideal S2048x3 .f32) (r : Fin 2048)

theorem pay14_apply : k1_pay14 D (ix1 r) = D (ix2 r 0) := by
  unfold k1_pay14; exact column_apply D 0 _ _ r 0 rfl
theorem pay15_apply : k1_pay15 D (ix1 r) = D (ix2 r 1) := by
  unfold k1_pay15; exact column_apply D 1 _ _ r 1 rfl
theorem pay16_apply : k1_pay16 D (ix1 r) = D (ix2 r 2) := by
  unfold k1_pay16; exact column_apply D 2 _ _ r 2 rfl

theorem pay17_apply : k1_pay17 D (ix1 r) = D (ix2 r 0) * D (ix2 r 0) := by
  unfold k1_pay17; rw [mulf_apply, pay14_apply]
theorem pay18_apply : k1_pay18 D (ix1 r) = D (ix2 r 0) * D (ix2 r 1) := by
  unfold k1_pay18; rw [mulf_apply, pay14_apply, pay15_apply]
theorem pay19_apply : k1_pay19 D (ix1 r) = D (ix2 r 0) * D (ix2 r 2) := by
  unfold k1_pay19; rw [mulf_apply, pay14_apply, pay16_apply]
theorem pay20_apply : k1_pay20 D (ix1 r) = D (ix2 r 1) * D (ix2 r 1) := by
  unfold k1_pay20; rw [mulf_apply, pay15_apply]
theorem pay21_apply : k1_pay21 D (ix1 r) = D (ix2 r 1) * D (ix2 r 2) := by
  unfold k1_pay21; rw [mulf_apply, pay15_apply, pay16_apply]
theorem pay22_apply : k1_pay22 D (ix1 r) = D (ix2 r 2) * D (ix2 r 2) := by
  unfold k1_pay22; rw [mulf_apply, pay16_apply]

end

end Cert.TilePay

end
-- ==== Proof.TilePay.lean ====
/-
  One tile of the histogram kernel: each of the ten stored slices is, at `(hi, lo)`, the previous slice plus the tile's
  contribution to cell number `hi · 128 + lo` — the count, the three cell-local coordinates and their six products,
  summed over the tile's points lying in that cell.
-/
import proofs.«134341_j34419867910943_2_alg».proof.Proof.TilePayHot
import proofs.«134341_j34419867910943_2_alg».proof.Proof.TilePayD

noncomputable section

namespace Cert.TilePay

open Idealize.ShloMosaic Idealize.ShloMosaic.ValueIdx Cert.KernelIdeal Cert.KernelIdeal.Gen Cert.TileSpec

section
variable (v3 : Vec Ideal S1x2048x3 .f32) (v5 : Vec Ideal S1x1x3 .f32) (prev : Vec Ideal S1x1x64x128 .f32)

/-- A slice's gain, when the quantity in each row is the tile's quantity `f` of that point. -/
theorem tile_of_gain (X : FVec Ideal S2048 .f32) (f : Fin 10) (hX : ∀ r : Fin 2048, X (ix1 r) = tFeat v3 v5 r f)
    (hi : Fin 64) (lo : Fin 128) :
    gain (k1_pay12 (F := Ideal) (k1_pay7 v3 v5) 128#32 (k1_pay8 v3 v5) (k1_pay9 v3 v5) k1_pay10)
        (k1_pay13 (F := Ideal) (k1_pay7 v3 v5) 128#32 (k1_pay8 v3 v5) (k1_pay9 v3 v5) k1_pay10) X hi lo
      = tileSum v3 v5 f (hi.val * 128 + lo.val) := by
  rw [gain_eq]
  unfold tileSum
  exact Finset.sum_congr rfl fun r _ => by rw [hX r]

theorem pay_0 (hi : Fin 64) (lo : Fin 128) :
    k1_pay24 (k1_pay23 (F := Ideal) (k1_pay7 v3 v5) 128#32 (k1_pay8 v3 v5) (k1_pay9 v3 v5) k1_pay10) prev (ix4 0 0 hi lo)
      = prev (ix4 0 0 hi lo) + tileSum v3 v5 0 (hi.val * 128 + lo.val) := by
  rw [pay24_apply, tile_of_gain v3 v5 _ 0 (fun r => rfl)]

theorem pay_1 (hi : Fin 64) (lo : Fin 128) :
    k1_pay25 (k1_pay12 (F := Ideal) (k1_pay7 v3 v5) 128#32 (k1_pay8 v3 v5) (k1_pay9 v3 v5) k1_pay10) (k1_pay13 (F := Ideal) (k1_pay7 v3 v5) 128#32 (k1_pay8 v3 v5) (k1_pay9 v3 v5) k1_pay10) (k1_pay14 (k1_pay6 v3 v5)) prev (ix4 0 0 hi lo)
      = prev (ix4 0 0 hi lo) + tileSum v3 v5 1 (hi.val * 128 + lo.val) := by
  rw [pay25_apply, tile_of_gain v3 v5 _ 1 (fun r => by rw [pay14_apply, pay6_apply]; rfl)]

theorem pay_2 (hi : Fin 64) (lo : Fin 128) :
    k1_pay26 (k1_pay12 (F := Ideal) (k1_pay7 v3 v5) 128#32 (k1_pay8 v3 v5) (k1_pay9 v3 v5) k1_pay10) (k1_pay13 (F := Ideal) (k1_pay7 v3 v5) 128#32 (k1_pay8 v3 v5) (k1_pay9 v3 v5) k1_pay10) (k1_pay15 (k1_pay6 v3 v5)) prev (ix4 0 0 hi lo)
      = prev (ix4 0 0 hi lo) + tileSum v3 v5 2 (hi.val * 128 + lo.val) := by
  rw [pay26_apply, tile_of_gain v3 v5 _ 2 (fun r => by rw [pay15_apply, pay6_apply]; rfl)]

theorem pay_3 (hi : Fin 64) (lo : Fin 128) :
    k1_pay28 (k1_pay12 (F := Ideal) (k1_pay7 v3 v5) 128#32 (k1_pay8 v3 v5) (k1_pay9 v3 v5) k1_pay10) (k1_pay13 (F := Ideal) (k1_pay7 v3 v5) 128#32 (k1_pay8 v3 v5) (k1_pay9 v3 v5) k1_pay10) (k1_pay27 (k1_pay16 (k1_pay6 v3 v5))) prev (ix4 0 0 hi lo)
      = prev (ix4 0 0 hi lo) + tileSum v3 v5 3 (hi.val * 128 + lo.val) := by
  rw [pay28_apply, tile_of_gain v3 v5 _ 3 (fun r => by rw [pay16_apply, pay6_apply]; rfl)]

theorem pay_4 (hi : Fin 64) (lo : Fin 128) :
    k1_pay29 (k1_pay12 (F := Ideal) (k1_pay7 v3 v5) 128#32 (k1_pay8 v3 v5) (k1_pay9 v3 v5) k1_pay10) (k1_pay13 (F := Ideal) (k1_pay7 v3 v5) 128#32 (k1_pay8 v3 v5) (k1_pay9 v3 v5) k1_pay10) (k1_pay17 (k1_pay6 v3 v5)) prev (ix4 0 0 hi lo)
      = prev (ix4 0 0 hi lo) + tileSum v3 v5 4 (hi.val * 128 + lo.val) := by
  rw [pay29_apply, tile_of_gain v3 v5 _ 4 (fun r => by rw [pay17_apply, pay6_apply]; rfl)]

theorem pay_5 (hi : Fin 64) (lo : Fin 128) :
    k1_pay30 (k1_pay12 (F := Ideal) (k1_pay7 v3 v5) 128#32 (k1_pay8 v3 v5) (k1_pay9 v3 v5) k1_pay10) (k1_pay13 (F := Ideal) (k1_pay7 v3 v5) 128#32 (k1_pay8 v3 v5) (k1_pay9 v3 v5) k1_pay10) (k1_pay18 (k1_pay6 v3 v5)) prev (ix4 0 0 hi lo)
      = prev (ix4 0 0 hi lo) + tileSum v3 v5 5 (hi.val * 128 + lo.val) := by
  rw [pay30_apply, tile_of_gain v3 v5 _ 5 (fun r => by rw [pay18_apply, pay6_apply, pay6_apply]; rfl)]

theorem pay_6 (hi : Fin 64) (lo : Fin 128) :
    k1_pay31 (k1_pay12 (F := Ideal) (k1_pay7 v3 v5) 128#32 (k1_pay8 v3 v5) (k1_pay9 v3 v5) k1_pay10) (k1_pay13 (F := Ideal) (k1_pay7 v3 v5) 128#32 (k1_pay8 v3 v5) (k1_pay9 v3 v5) k1_pay10) (k1_pay19 (k1_pay6 v3 v5)) prev (ix4 0 0 hi lo)
      = prev (ix4 0 0 hi lo) + tileSum v3 v5 6 (hi.val * 128 + lo.val) := by
  rw [pay31_apply, tile_of_gain v3 v5 _ 6 (fun r => by rw [pay19_apply, pay6_apply, pay6_apply]; rfl)]

theorem pay_7 (hi : Fin 64) (lo : Fin 128) :
    k1_pay32 (k1_pay12 (F := Ideal) (k1_pay7 v3 v5) 128#32 (k1_pay8 v3 v5) (k1_pay9 v3 v5) k1_pay10) (k1_pay13 (F := Ideal) (k1_pay7 v3 v5) 128#32 (k1_pay8 v3 v5) (k1_pay9 v3 v5) k1_pay10) (k1_pay20 (k1_pay6 v3 v5)) prev (ix4 0 0 hi lo)
      = prev (ix4 0 0 hi lo) + tileSum v3 v5 7 (hi.val * 128 + lo.val) := by
  rw [pay32_apply, tile_of_gain v3 v5 _ 7 (fun r => by rw [pay20_apply, pay6_apply]; rfl)]

theorem pay_8 (hi : Fin 64) (lo : Fin 128) :
    k1_pay1 (k1_pay33 (k1_pay12 (F := Ideal) (k1_pay7 v3 v5) 128#32 (k1_pay8 v3 v5) (k1_pay9 v3 v5) k1_pay10) (k1_pay13 (F := Ideal) (k1_pay7 v3 v5) 128#32 (k1_pay8 v3 v5) (k1_pay9 v3 v5) k1_pay10) (k1_pay21 (k1_pay6 v3 v5)) prev) (ix4 0 0 hi lo)
      = prev (ix4 0 0 hi lo) + tileSum v3 v5 8 (hi.val * 128 + lo.val) := by
  rw [pay33_apply, tile_of_gain v3 v5 _ 8 (fun r => by rw [pay21_apply, pay6_apply, pay6_apply]; rfl)]

theorem pay_9 (hi : Fin 64) (lo : Fin 128) :
    k1_pay2 (k1_pay12 (F := Ideal) (k1_pay7 v3 v5) 128#32 (k1_pay8 v3 v5) (k1_pay9 v3 v5) k1_pay10) (k1_pay13 (F := Ideal) (k1_pay7 v3 v5) 128#32 (k1_pay8 v3 v5) (k1_pay9 v3 v5) k1_pay10) (k1_pay22 (k1_pay6 v3 v5)) prev (ix4 0 0 hi lo)
      = prev (ix4 0 0 hi lo) + tileSum v3 v5 9 (hi.val * 128 + lo.val) := by
  rw [pay2_apply, tile_of_gain v3 v5 _ 9 (fun r => by rw [pay22_apply, pay6_apply]; rfl)]

end

end Cert.TilePay

end
-- ==== Proof.KIdealValue1Out.lean ====
/-
  The second kernel's two cases, read as values at the extended reals: after a tile the output block holds, at every entry, what
  it held before (nothing, at the first tile of a cloud) plus the tile's contribution to that entry's quantity and cell number.
-/
import proofs.«134341_j34419867910943_2_alg».proof.Proof.KIdealRegion1
import proofs.«134341_j34419867910943_2_alg».proof.Proof.TileSpec
import proofs.«134341_j34419867910943_2_alg».proof.Proof.TilePay
import Idealize.ShloMosaic.Lib.Pipeline.Value
import Idealize.ShloMosaic.PureOps.Ideal.Laws
import proofs.«134341_j34419867910943_2_alg».proof.Proof.Gen.KernelIdeal.Skeleton
import proofs.«134341_j34419867910943_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

open Cert.TileSpec

/-- What a later tile leaves: the running contents plus the tile's contribution. -/
def accG (x0 : Vec Ideal S1x2048x3 .f32) (x1 : Vec Ideal S1x1x3 .f32) (xo2 : Vec Ideal S1x10x64x128 .f32) :
    Vec Ideal S1x10x64x128 .f32 :=
  fun j => xo2 j + tileSum x0 x1 (j 1) ((j 2).val * 128 + (j 3).val)

/-- What the first tile of a cloud leaves: the tile's contribution alone. -/
def firstG (x0 : Vec Ideal S1x2048x3 .f32) (x1 : Vec Ideal S1x1x3 .f32) : Vec Ideal S1x10x64x128 .f32 :=
  fun j => tileSum x0 x1 (j 1) ((j 2).val * 128 + (j 3).val)

/-- THE TILE ARITHMETIC, as the two cases use it: each of the ten stored payloads, as a function of the slice's previous
    contents, adds to every entry the tile's contribution to that entry's quantity and cell number. -/
structure Pays (x0 : Vec Ideal S1x2048x3 .f32) (x1 : Vec Ideal S1x1x3 .f32) : Prop where
  p0 : ∀ (prev : Vec Ideal S1x1x64x128 .f32) (hi : Fin 64) (lo : Fin 128),
    (k1_pay24 (k1_pay23 (k1_pay7 x0 x1) 128#32 (k1_pay8 x0 x1) (k1_pay9 x0 x1) k1_pay10) prev : FVec Ideal S1x1x64x128 .f32) (ValueIdx.ix4 (0 : Fin 1) (0 : Fin 1) hi lo)
      = prev (ValueIdx.ix4 (0 : Fin 1) (0 : Fin 1) hi lo) + tileSum x0 x1 0 (hi.val * 128 + lo.val)
  p1 : ∀ (prev : Vec Ideal S1x1x64x128 .f32) (hi : Fin 64) (lo : Fin 128),
    (k1_pay25 (k1_pay12 (k1_pay7 x0 x1) 128#32 (k1_pay8 x0 x1) (k1_pay9 x0 x1) k1_pay10) (k1_pay13 (k1_pay7 x0 x1) 128#32 (k1_pay8 x0 x1) (k1_pay9 x0 x1) k1_pay10) (k1_pay14 (k1_pay6 x0 x1)) prev : FVec Ideal S1x1x64x128 .f32) (ValueIdx.ix4 (0 : Fin 1) (0 : Fin 1) hi lo)
      = prev (ValueIdx.ix4 (0 : Fin 1) (0 : Fin 1) hi lo) + tileSum x0 x1 1 (hi.val * 128 + lo.val)
  p2 : ∀ (prev : Vec Ideal S1x1x64x128 .f32) (hi : Fin 64) (lo : Fin 128),
    (k1_pay26 (k1_pay12 (k1_pay7 x0 x1) 128#32 (k1_pay8 x0 x1) (k1_pay9 x0 x1) k1_pay10) (k1_pay13 (k1_pay7 x0 x1) 128#32 (k1_pay8 x0 x1) (k1_pay9 x0 x1) k1_pay10) (k1_pay15 (k1_pay6 x0 x1)) prev : FVec Ideal S1x1x64x128 .f32) (ValueIdx.ix4 (0 : Fin 1) (0 : Fin 1) hi lo)
      = prev (ValueIdx.ix4 (0 : Fin 1) (0 : Fin 1) hi lo) + tileSum x0 x1 2 (hi.val * 128 + lo.val)
  p3 : ∀ (prev : Vec Ideal S1x1x64x128 .f32) (hi : Fin 64) (lo : Fin 128),
    (k1_pay28 (k1_pay12 (k1_pay7 x0 x1) 128#32 (k1_pay8 x0 x1) (k1_pay9 x0 x1) k1_pay10) (k1_pay13 (k1_pay7 x0 x1) 128#32 (k1_pay8 x0 x1) (k1_pay9 x0 x1) k1_pay10) (k1_pay27 (k1_pay16 (k1_pay6 x0 x1))) prev : FVec Ideal S1x1x64x128 .f32) (ValueIdx.ix4 (0 : Fin 1) (0 : Fin 1) hi lo)
      = prev (ValueIdx.ix4 (0 : Fin 1) (0 : Fin 1) hi lo) + tileSum x0 x1 3 (hi.val * 128 + lo.val)
  p4 : ∀ (prev : Vec Ideal S1x1x64x128 .f32) (hi : Fin 64) (lo : Fin 128),
    (k1_pay29 (k1_pay12 (k1_pay7 x0 x1) 128#32 (k1_pay8 x0 x1) (k1_pay9 x0 x1) k1_pay10) (k1_pay13 (k1_pay7 x0 x1) 128#32 (k1_pay8 x0 x1) (k1_pay9 x0 x1) k1_pay10) (k1_pay17 (k1_pay6 x0 x1)) prev : FVec Ideal S1x1x64x128 .f32) (ValueIdx.ix4 (0 : Fin 1) (0 : Fin 1) hi lo)
      = prev (ValueIdx.ix4 (0 : Fin 1) (0 : Fin 1) hi lo) + tileSum x0 x1 4 (hi.val * 128 + lo.val)
  p5 : ∀ (prev : Vec Ideal S1x1x64x128 .f32) (hi : Fin 64) (lo : Fin 128),
    (k1_pay30 (k1_pay12 (k1_pay7 x0 x1) 128#32 (k1_pay8 x0 x1) (k1_pay9 x0 x1) k1_pay10) (k1_pay13 (k1_pay7 x0 x1) 128#32 (k1_pay8 x0 x1) (k1_pay9 x0 x1) k1_pay10) (k1_pay18 (k1_pay6 x0 x1)) prev : FVec Ideal S1x1x64x128 .f32) (ValueIdx.ix4 (0 : Fin 1) (0 : Fin 1) hi lo)
      = prev (ValueIdx.ix4 (0 : Fin 1) (0 : Fin 1) hi lo) + tileSum x0 x1 5 (hi.val * 128 + lo.val)
  p6 : ∀ (prev : Vec Ideal S1x1x64x128 .f32) (hi : Fin 64) (lo : Fin 128),
    (k1_pay31 (k1_pay12 (k1_pay7 x0 x1) 128#32 (k1_pay8 x0 x1) (k1_pay9 x0 x1) k1_pay10) (k1_pay13 (k1_pay7 x0 x1) 128#32 (k1_pay8 x0 x1) (k1_pay9 x0 x1) k1_pay10) (k1_pay19 (k1_pay6 x0 x1)) prev : FVec Ideal S1x1x64x128 .f32) (ValueIdx.ix4 (0 : Fin 1) (0 : Fin 1) hi lo)
      = prev (ValueIdx.ix4 (0 : Fin 1) (0 : Fin 1) hi lo) + tileSum x0 x1 6 (hi.val * 128 + lo.val)
  p7 : ∀ (prev : Vec Ideal S1x1x64x128 .f32) (hi : Fin 64) (lo : Fin 128),
    (k1_pay32 (k1_pay12 (k1_pay7 x0 x1) 128#32 (k1_pay8 x0 x1) (k1_pay9 x0 x1) k1_pay10) (k1_pay13 (k1_pay7 x0 x1) 128#32 (k1_pay8 x0 x1) (k1_pay9 x0 x1) k1_pay10) (k1_pay20 (k1_pay6 x0 x1)) prev : FVec Ideal S1x1x64x128 .f32) (ValueIdx.ix4 (0 : Fin 1) (0 : Fin 1) hi lo)
      = prev (ValueIdx.ix4 (0 : Fin 1) (0 : Fin 1) hi lo) + tileSum x0 x1 7 (hi.val * 128 + lo.val)
  p8 : ∀ (prev : Vec Ideal S1x1x64x128 .f32) (hi : Fin 64) (lo : Fin 128),
    (k1_pay1 (k1_pay33 (k1_pay12 (k1_pay7 x0 x1) 128#32 (k1_pay8 x0 x1) (k1_pay9 x0 x1) k1_pay10) (k1_pay13 (k1_pay7 x0 x1) 128#32 (k1_pay8 x0 x1) (k1_pay9 x0 x1) k1_pay10) (k1_pay21 (k1_pay6 x0 x1)) prev) : FVec Ideal S1x1x64x128 .f32) (ValueIdx.ix4 (0 : Fin 1) (0 : Fin 1) hi lo)
      = prev (ValueIdx.ix4 (0 : Fin 1) (0 : Fin 1) hi lo) + tileSum x0 x1 8 (hi.val * 128 + lo.val)
  p9 : ∀ (prev : Vec Ideal S1x1x64x128 .f32) (hi : Fin 64) (lo : Fin 128),
    (k1_pay2 (k1_pay12 (k1_pay7 x0 x1) 128#32 (k1_pay8 x0 x1) (k1_pay9 x0 x1) k1_pay10) (k1_pay13 (k1_pay7 x0 x1) 128#32 (k1_pay8 x0 x1) (k1_pay9 x0 x1) k1_pay10) (k1_pay22 (k1_pay6 x0 x1)) prev : FVec Ideal S1x1x64x128 .f32) (ValueIdx.ix4 (0 : Fin 1) (0 : Fin 1) hi lo)
      = prev (ValueIdx.ix4 (0 : Fin 1) (0 : Fin 1) hi lo) + tileSum x0 x1 9 (hi.val * 128 + lo.val)

theorem hz3_1 : (![0, 0, 0] : Fin 3 → Nat) = fun _ => 0 := funext fun a => by fin_cases a <;> rfl

/-- An index of a slice is `(0, 0, hi, lo)`. -/
theorem slice_idx (x : S1x1x64x128.Idx) : ∃ (hi : Fin 64) (lo : Fin 128), x = ValueIdx.ix4 (0 : Fin 1) (0 : Fin 1) hi lo := by
  refine ⟨x 2, x 3, ?_⟩
  funext d
  apply Fin.ext
  have h0 : (x 0).val < 1 := (x 0).isLt
  have h1 : (x 1).val < 1 := (x 1).isLt
  match d with
  | ⟨0, _⟩ => show (x 0).val = 0; omega
  | ⟨1, _⟩ => show (x 1).val = 0; omega
  | ⟨2, _⟩ => rfl
  | ⟨3, _⟩ => rfl

/-- ONE SLICE OF A LATER TILE: a payload that adds the tile's contribution for quantity `f` to the slice's previous contents,
    stored into slice `f` over what the block held, agrees there with `accG`. -/
theorem piece_acc (x0 : Vec Ideal S1x2048x3 .f32) (x1 : Vec Ideal S1x1x3 .f32) (xo2 : Vec Ideal S1x10x64x128 .f32) (f : Fin 10)
    (inb : ∀ a, (![0, f.val, 0, 0] : Fin 4 → ℕ) a + (![1, 1, 64, 128] : Fin 4 → ℕ) a ≤ S1x10x64x128.size a)
    (P : Vec Ideal S1x1x64x128 .f32 → FVec Ideal S1x1x64x128 .f32)
    (hP : ∀ (prev : Vec Ideal S1x1x64x128 .f32) (hi : Fin 64) (lo : Fin 128),
      P prev (ValueIdx.ix4 (0 : Fin 1) (0 : Fin 1) hi lo)
        = prev (ValueIdx.ix4 (0 : Fin 1) (0 : Fin 1) hi lo) + tileSum x0 x1 f (hi.val * 128 + lo.val))
    (x : S1x1x64x128.Idx) :
    P (View.ld xo2 (Rect.unit (s := S1x10x64x128) ![0, f.val, 0, 0] ![1, 1, 64, 128] inb)) x
      = accG x0 x1 xo2 ((Rect.unit (s := S1x10x64x128) ![0, f.val, 0, 0] ![1, 1, 64, 128] inb).emb x) := by
  obtain ⟨hi, lo, rfl⟩ := slice_idx x
  rw [hP]
  unfold accG
  have e1 : (((Rect.unit (s := S1x10x64x128) ![0, f.val, 0, 0] ![1, 1, 64, 128] inb).emb
      (ValueIdx.ix4 (0 : Fin 1) (0 : Fin 1) hi lo)) 1 : Fin 10) = f :=
    Fin.ext (by show f.val + 1 * 0 = f.val; omega)
  have e2 : (((Rect.unit (s := S1x10x64x128) ![0, f.val, 0, 0] ![1, 1, 64, 128] inb).emb
      (ValueIdx.ix4 (0 : Fin 1) (0 : Fin 1) hi lo)) 2).val = hi.val := by
    show 0 + 1 * hi.val = hi.val; omega
  have e3 : (((Rect.unit (s := S1x10x64x128) ![0, f.val, 0, 0] ![1, 1, 64, 128] inb).emb
      (ValueIdx.ix4 (0 : Fin 1) (0 : Fin 1) hi lo)) 3).val = lo.val := by
    show 0 + 1 * lo.val = lo.val; omega
  rw [e1, e2, e3]
  rfl

/-- A LATER TILE, from the tile arithmetic. -/
theorem out1_B_eq_of (c : Dev nD) (i : grid1.Coords) (arg2 : Memref sig .tc .vmem S1x2048x3 .f32) (harg2 : arg2.IsWhole) (arg3 : Memref sig .tc .vmem S1x1x3 .f32) (harg3 : arg3.IsWhole) (arg4 : Memref sig .tc .vmem S1x10x64x128 .f32) (harg4 : arg4.IsWhole)
    (hc0 : ¬ cond1_0 i) (x0 : Vec Ideal S1x2048x3 .f32) (x1 : Vec Ideal S1x1x3 .f32) (xo2 : Vec Ideal S1x10x64x128 .f32)
    (hp : Pays x0 x1) :
    out1_B_2 (F := Ideal) c i arg2 harg2 arg3 harg3 arg4 harg4 hc0 x0 x1 xo2 = accG x0 x1 xo2 := by
  unfold out1_B_2
  rw [View.read_writes_eq_canon _ _ _ (cover1_B_2 c i arg2 harg2 arg3 harg3 arg4 harg4 hc0 x0 x1 xo2)]
  funext y
  refine View.canon_apply_of_pieces (accG x0 x1 xo2) _ ?_ y (cover1_B_2 c i arg2 harg2 arg3 harg3 arg4 harg4 hc0 x0 x1 xo2 y)
  unfold kernelRun1_B
  dsimp only
  sl_unfold_run_names
  simp only [View.readAt_eq_ld, harg2.read_unread, harg3.read_unread, harg4.read_unread,
    View.ld_unit_zero (S := S1x2048x3) hz3_1, View.ld_unit_zero (S := S1x1x3) hz3_1]
  intro p hp'
  simp only [List.mem_cons, List.not_mem_nil, or_false] at hp'
  rcases hp' with rfl | rfl | rfl | rfl | rfl | rfl | rfl | rfl | rfl | rfl
  · exact piece_acc x0 x1 xo2 9 _ (fun prev => k1_pay2 (k1_pay12 (k1_pay7 x0 x1) 128#32 (k1_pay8 x0 x1) (k1_pay9 x0 x1) k1_pay10) (k1_pay13 (k1_pay7 x0 x1) 128#32 (k1_pay8 x0 x1) (k1_pay9 x0 x1) k1_pay10) (k1_pay22 (k1_pay6 x0 x1)) prev) hp.p9
  · exact piece_acc x0 x1 xo2 8 _ (fun prev => k1_pay1 (k1_pay33 (k1_pay12 (k1_pay7 x0 x1) 128#32 (k1_pay8 x0 x1) (k1_pay9 x0 x1) k1_pay10) (k1_pay13 (k1_pay7 x0 x1) 128#32 (k1_pay8 x0 x1) (k1_pay9 x0 x1) k1_pay10) (k1_pay21 (k1_pay6 x0 x1)) prev)) hp.p8
  · exact piece_acc x0 x1 xo2 7 _ (fun prev => k1_pay32 (k1_pay12 (k1_pay7 x0 x1) 128#32 (k1_pay8 x0 x1) (k1_pay9 x0 x1) k1_pay10) (k1_pay13 (k1_pay7 x0 x1) 128#32 (k1_pay8 x0 x1) (k1_pay9 x0 x1) k1_pay10) (k1_pay20 (k1_pay6 x0 x1)) prev) hp.p7
  · exact piece_acc x0 x1 xo2 6 _ (fun prev => k1_pay31 (k1_pay12 (k1_pay7 x0 x1) 128#32 (k1_pay8 x0 x1) (k1_pay9 x0 x1) k1_pay10) (k1_pay13 (k1_pay7 x0 x1) 128#32 (k1_pay8 x0 x1) (k1_pay9 x0 x1) k1_pay10) (k1_pay19 (k1_pay6 x0 x1)) prev) hp.p6
  · exact piece_acc x0 x1 xo2 5 _ (fun prev => k1_pay30 (k1_pay12 (k1_pay7 x0 x1) 128#32 (k1_pay8 x0 x1) (k1_pay9 x0 x1) k1_pay10) (k1_pay13 (k1_pay7 x0 x1) 128#32 (k1_pay8 x0 x1) (k1_pay9 x0 x1) k1_pay10) (k1_pay18 (k1_pay6 x0 x1)) prev) hp.p5
  · exact piece_acc x0 x1 xo2 4 _ (fun prev => k1_pay29 (k1_pay12 (k1_pay7 x0 x1) 128#32 (k1_pay8 x0 x1) (k1_pay9 x0 x1) k1_pay10) (k1_pay13 (k1_pay7 x0 x1) 128#32 (k1_pay8 x0 x1) (k1_pay9 x0 x1) k1_pay10) (k1_pay17 (k1_pay6 x0 x1)) prev) hp.p4
  · exact piece_acc x0 x1 xo2 3 _ (fun prev => k1_pay28 (k1_pay12 (k1_pay7 x0 x1) 128#32 (k1_pay8 x0 x1) (k1_pay9 x0 x1) k1_pay10) (k1_pay13 (k1_pay7 x0 x1) 128#32 (k1_pay8 x0 x1) (k1_pay9 x0 x1) k1_pay10) (k1_pay27 (k1_pay16 (k1_pay6 x0 x1))) prev) hp.p3
  · exact piece_acc x0 x1 xo2 2 _ (fun prev => k1_pay26 (k1_pay12 (k1_pay7 x0 x1) 128#32 (k1_pay8 x0 x1) (k1_pay9 x0 x1) k1_pay10) (k1_pay13 (k1_pay7 x0 x1) 128#32 (k1_pay8 x0 x1) (k1_pay9 x0 x1) k1_pay10) (k1_pay15 (k1_pay6 x0 x1)) prev) hp.p2
  · exact piece_acc x0 x1 xo2 1 _ (fun prev => k1_pay25 (k1_pay12 (k1_pay7 x0 x1) 128#32 (k1_pay8 x0 x1) (k1_pay9 x0 x1) k1_pay10) (k1_pay13 (k1_pay7 x0 x1) 128#32 (k1_pay8 x0 x1) (k1_pay9 x0 x1) k1_pay10) (k1_pay14 (k1_pay6 x0 x1)) prev) hp.p1
  · exact piece_acc x0 x1 xo2 0 _ (fun prev => k1_pay24 (k1_pay23 (k1_pay7 x0 x1) 128#32 (k1_pay8 x0 x1) (k1_pay9 x0 x1) k1_pay10) prev) hp.p0

/-! ## The first tile of a cloud

The run stores zeros over the whole block, then the ten slices one after the other, each computed from a load of its slice
after the stores before it. The run names its intermediate values; they are opened one at a time. -/

theorem hz4_1 : (![0, 0, 0, 0] : Fin 4 → Nat) = fun _ => 0 := funext fun a => by fin_cases a <;> rfl

section RunNames

variable (c : Dev nD) (arg2 : Memref sig .tc .vmem S1x2048x3 .f32) (harg2 : arg2.IsWhole) (arg3 : Memref sig .tc .vmem S1x1x3 .f32) (harg3 : arg3.IsWhole)
  (x0 : Vec Ideal S1x2048x3 .f32) (x1 : Vec Ideal S1x1x3 .f32)

theorem run_r : kernelRun1_A.sl.r (F := Ideal) c arg2 harg2 arg3 harg3 x0 x1 = k1_pay6 x0 x1 := by
  unfold kernelRun1_A.sl.r
  simp only [View.readAt_eq_ld, harg2.read_unread, harg3.read_unread, View.ld_unit_zero (S := S1x2048x3) hz3_1,
    View.ld_unit_zero (S := S1x1x3) hz3_1]
theorem run_r1 : kernelRun1_A.sl.r_1 (F := Ideal) c arg2 harg2 arg3 harg3 x0 x1 = k1_pay7 x0 x1 := by
  unfold kernelRun1_A.sl.r_1
  simp only [View.readAt_eq_ld, harg2.read_unread, harg3.read_unread, View.ld_unit_zero (S := S1x2048x3) hz3_1,
    View.ld_unit_zero (S := S1x1x3) hz3_1]
theorem run_r2 : kernelRun1_A.sl.r_2 (F := Ideal) c arg2 harg2 arg3 harg3 x0 x1 = k1_pay8 x0 x1 := by
  unfold kernelRun1_A.sl.r_2
  simp only [View.readAt_eq_ld, harg2.read_unread, harg3.read_unread, View.ld_unit_zero (S := S1x2048x3) hz3_1,
    View.ld_unit_zero (S := S1x1x3) hz3_1]
theorem run_r3 : kernelRun1_A.sl.r_3 (F := Ideal) c arg2 harg2 arg3 harg3 x0 x1 = k1_pay9 x0 x1 := by
  unfold kernelRun1_A.sl.r_3
  simp only [View.readAt_eq_ld, harg2.read_unread, harg3.read_unread, View.ld_unit_zero (S := S1x2048x3) hz3_1,
    View.ld_unit_zero (S := S1x1x3) hz3_1]
theorem run_r4 : kernelRun1_A.sl.r_4 (F := Ideal) c arg2 harg2 arg3 harg3 x0 x1 = k1_pay12 (k1_pay7 x0 x1) 128#32 (k1_pay8 x0 x1) (k1_pay9 x0 x1) k1_pay10 := by
  unfold kernelRun1_A.sl.r_4
  rw [run_r1, run_r2, run_r3]
theorem run_r5 : kernelRun1_A.sl.r_5 (F := Ideal) c arg2 harg2 arg3 harg3 x0 x1 = k1_pay13 (k1_pay7 x0 x1) 128#32 (k1_pay8 x0 x1) (k1_pay9 x0 x1) k1_pay10 := by
  unfold kernelRun1_A.sl.r_5
  rw [run_r1, run_r2, run_r3]
theorem run_r15 : kernelRun1_A.sl.r_15 (F := Ideal) c arg2 harg2 arg3 harg3 x0 x1 = k1_pay23 (k1_pay7 x0 x1) 128#32 (k1_pay8 x0 x1) (k1_pay9 x0 x1) k1_pay10 := by
  unfold kernelRun1_A.sl.r_15
  rw [run_r1, run_r2, run_r3]
theorem run_r6 : kernelRun1_A.sl.r_6 (F := Ideal) c arg2 harg2 arg3 harg3 x0 x1 = k1_pay14 (k1_pay6 x0 x1) := by
  unfold kernelRun1_A.sl.r_6
  rw [run_r]
theorem run_r7 : kernelRun1_A.sl.r_7 (F := Ideal) c arg2 harg2 arg3 harg3 x0 x1 = k1_pay15 (k1_pay6 x0 x1) := by
  unfold kernelRun1_A.sl.r_7
  rw [run_r]
theorem run_r8 : kernelRun1_A.sl.r_8 (F := Ideal) c arg2 harg2 arg3 harg3 x0 x1 = k1_pay16 (k1_pay6 x0 x1) := by
  unfold kernelRun1_A.sl.r_8
  rw [run_r]
theorem run_r9 : kernelRun1_A.sl.r_9 (F := Ideal) c arg2 harg2 arg3 harg3 x0 x1 = k1_pay17 (k1_pay6 x0 x1) := by
  unfold kernelRun1_A.sl.r_9
  rw [run_r]
theorem run_r10 : kernelRun1_A.sl.r_10 (F := Ideal) c arg2 harg2 arg3 harg3 x0 x1 = k1_pay18 (k1_pay6 x0 x1) := by
  unfold kernelRun1_A.sl.r_10
  rw [run_r]
theorem run_r11 : kernelRun1_A.sl.r_11 (F := Ideal) c arg2 harg2 arg3 harg3 x0 x1 = k1_pay19 (k1_pay6 x0 x1) := by
  unfold kernelRun1_A.sl.r_11
  rw [run_r]
theorem run_r12 : kernelRun1_A.sl.r_12 (F := Ideal) c arg2 harg2 arg3 harg3 x0 x1 = k1_pay20 (k1_pay6 x0 x1) := by
  unfold kernelRun1_A.sl.r_12
  rw [run_r]
theorem run_r13 : kernelRun1_A.sl.r_13 (F := Ideal) c arg2 harg2 arg3 harg3 x0 x1 = k1_pay21 (k1_pay6 x0 x1) := by
  unfold kernelRun1_A.sl.r_13
  rw [run_r]
theorem run_r14 : kernelRun1_A.sl.r_14 (F := Ideal) c arg2 harg2 arg3 harg3 x0 x1 = k1_pay22 (k1_pay6 x0 x1) := by
  unfold kernelRun1_A.sl.r_14
  rw [run_r]
theorem run_r16 : kernelRun1_A.sl.r_16 (F := Ideal) c arg2 harg2 arg3 harg3 x0 x1 = k1_pay27 (k1_pay16 (k1_pay6 x0 x1)) := by
  unfold kernelRun1_A.sl.r_16
  rw [run_r8]

end RunNames

/-- The stores made so far at the first tile, slices `0 … k − 1` after the zeros: the block reads the tile's contribution on
    the slices stored and zero on the others. -/
structure Good (x0 : Vec Ideal S1x2048x3 .f32) (x1 : Vec Ideal S1x1x3 .f32)
    (L : List (View.Piece (Elt Ideal) S1x10x64x128 .f32)) (k : ℕ) : Prop where
  zero : ∀ y : S1x10x64x128.Idx, k ≤ (y 1).val → (View.canon L y : EReal) = 0
  done : ∀ y : S1x10x64x128.Idx, (y 1).val < k → View.canon L y = firstG x0 x1 y

/-- An index lies in slice `k` exactly when its second coordinate is `k`. -/
theorem mem_slice (k : Fin 10)
    (inb : ∀ a, (![0, k.val, 0, 0] : Fin 4 → ℕ) a + (![1, 1, 64, 128] : Fin 4 → ℕ) a ≤ S1x10x64x128.size a)
    (y : S1x10x64x128.Idx) :
    y ∈ (Rect.unit (s := S1x10x64x128) ![0, k.val, 0, 0] ![1, 1, 64, 128] inb).set ↔ (y 1).val = k.val := by
  rw [Rect.mem_set_unit]
  have h0 : (y 0).val < 1 := (y 0).isLt
  have h2 : (y 2).val < 64 := (y 2).isLt
  have h3 : (y 3).val < 128 := (y 3).isLt
  constructor
  · intro h
    have h1 : k.val ≤ (y 1).val ∧ (y 1).val < k.val + 1 := h 1
    omega
  · intro h a
    match a with
    | ⟨0, _⟩ => show 0 ≤ (y 0).val ∧ (y 0).val < 0 + 1; omega
    | ⟨1, _⟩ => show k.val ≤ (y 1).val ∧ (y 1).val < k.val + 1; omega
    | ⟨2, _⟩ => show 0 ≤ (y 2).val ∧ (y 2).val < 0 + 64; omega
    | ⟨3, _⟩ => show 0 ≤ (y 3).val ∧ (y 3).val < 0 + 128; omega

/-- An index of slice `k` is the slice's own `(0, 0, hi, lo)`. -/
theorem slice_emb (k : Fin 10)
    (inb : ∀ a, (![0, k.val, 0, 0] : Fin 4 → ℕ) a + (![1, 1, 64, 128] : Fin 4 → ℕ) a ≤ S1x10x64x128.size a)
    (y : S1x10x64x128.Idx) (hk : (y 1).val = k.val) :
    ∃ (hi : Fin 64) (lo : Fin 128),
      y = (Rect.unit (s := S1x10x64x128) ![0, k.val, 0, 0] ![1, 1, 64, 128] inb).emb
        (ValueIdx.ix4 (0 : Fin 1) (0 : Fin 1) hi lo) := by
  have h0 : (y 0).val < 1 := (y 0).isLt
  refine ⟨⟨(y 2).val, (y 2).isLt⟩, ⟨(y 3).val, (y 3).isLt⟩, ?_⟩
  funext a
  apply Fin.ext
  match a with
  | ⟨0, _⟩ => show (y 0).val = 0 + 1 * 0; omega
  | ⟨1, _⟩ => show (y 1).val = k.val + 1 * 0; omega
  | ⟨2, _⟩ => show (y 2).val = 0 + 1 * (y 2).val; omega
  | ⟨3, _⟩ => show (y 3).val = 0 + 1 * (y 3).val; omega

/-- ONE MORE SLICE: over stores that are good up to slice `k`, a store into slice `k` of a payload that adds the tile's
    contribution for quantity `k` to what a load of the slice reads (zero) is good up to `k + 1`. -/
theorem good_step (x0 : Vec Ideal S1x2048x3 .f32) (x1 : Vec Ideal S1x1x3 .f32) (v : View sig .tc .vmem S1x10x64x128 .f32)
    (k : Fin 10)
    (inb : ∀ a, (![0, k.val, 0, 0] : Fin 4 → ℕ) a + (![1, 1, 64, 128] : Fin 4 → ℕ) a ≤ S1x10x64x128.size a)
    (P : Vec Ideal S1x1x64x128 .f32 → FVec Ideal S1x1x64x128 .f32)
    (hP : ∀ (prev : Vec Ideal S1x1x64x128 .f32) (hi : Fin 64) (lo : Fin 128),
      P prev (ValueIdx.ix4 (0 : Fin 1) (0 : Fin 1) hi lo)
        = prev (ValueIdx.ix4 (0 : Fin 1) (0 : Fin 1) hi lo) + tileSum x0 x1 k (hi.val * 128 + lo.val))
    (L : List (View.Piece (Elt Ideal) S1x10x64x128 .f32)) (hL : Good x0 x1 L k.val) :
    Good x0 x1 ((⟨Rect.unit (s := S1x10x64x128) ![0, k.val, 0, 0] ![1, 1, 64, 128] inb,
        P (v.readCov L (Rect.unit (s := S1x10x64x128) ![0, k.val, 0, 0] ![1, 1, 64, 128] inb).toLoadRect)⟩ :
          View.Piece (Elt Ideal) S1x10x64x128 .f32) :: L) (k.val + 1) := by
  constructor
  · intro y hy
    rw [View.canon_cons_of_not_mem _ _ (by rw [mem_slice k inb y]; omega)]
    exact hL.zero y (by omega)
  · intro y hy
    by_cases hk : (y 1).val = k.val
    · obtain ⟨hi, lo, rfl⟩ := slice_emb k inb y hk
      rw [View.canon_cons_emb, hP, View.readCov_eq_canon']
      have hz : (View.canon L ((Rect.unit (s := S1x10x64x128) ![0, k.val, 0, 0] ![1, 1, 64, 128] inb).toLoadRect.idx
          (ValueIdx.ix4 (0 : Fin 1) (0 : Fin 1) hi lo)) : EReal) = 0 :=
        hL.zero _ (by show k.val ≤ k.val + 1 * 0; omega)
      show (View.canon L ((Rect.unit (s := S1x10x64x128) ![0, k.val, 0, 0] ![1, 1, 64, 128] inb).toLoadRect.idx
          (ValueIdx.ix4 (0 : Fin 1) (0 : Fin 1) hi lo)) : EReal) + _ = _
      rw [hz, zero_add]
      unfold firstG
      have e1 : (((Rect.unit (s := S1x10x64x128) ![0, k.val, 0, 0] ![1, 1, 64, 128] inb).emb
          (ValueIdx.ix4 (0 : Fin 1) (0 : Fin 1) hi lo)) 1 : Fin 10) = k :=
        Fin.ext (by show k.val + 1 * 0 = k.val; omega)
      have e2 : (((Rect.unit (s := S1x10x64x128) ![0, k.val, 0, 0] ![1, 1, 64, 128] inb).emb
          (ValueIdx.ix4 (0 : Fin 1) (0 : Fin 1) hi lo)) 2).val = hi.val := by
        show 0 + 1 * hi.val = hi.val; omega
      have e3 : (((Rect.unit (s := S1x10x64x128) ![0, k.val, 0, 0] ![1, 1, 64, 128] inb).emb
          (ValueIdx.ix4 (0 : Fin 1) (0 : Fin 1) hi lo)) 3).val = lo.val := by
        show 0 + 1 * lo.val = lo.val; omega
      rw [e1, e2, e3]
    · rw [View.canon_cons_of_not_mem _ _ (by rw [mem_slice k inb y]; exact hk)]
      exact hL.done y (by omega)

section FirstTile

variable (c : Dev nD) (arg2 : Memref sig .tc .vmem S1x2048x3 .f32) (harg2 : arg2.IsWhole) (arg3 : Memref sig .tc .vmem S1x1x3 .f32) (harg3 : arg3.IsWhole)
  (arg4 : Memref sig .tc .vmem S1x10x64x128 .f32) (x0 : Vec Ideal S1x2048x3 .f32) (x1 : Vec Ideal S1x1x3 .f32)

/-- After the zeros alone every entry reads zero. -/
theorem good_1 : Good x0 x1 (kernelRun1_A.sl.H2_1 (F := Ideal)) 0 := by
  constructor
  · intro y _
    unfold kernelRun1_A.sl.H2_1
    rw [View.canon_unit_zero hz4_1]
    show Ideal.ofBits .f32 0x00000000#32 = 0
    exact Ideal.ofBits_zero_f32
  · intro y hy
    exact absurd hy (Nat.not_lt_zero _)

variable (hp : Pays x0 x1)
include hp

theorem good_2 : Good x0 x1 (kernelRun1_A.sl.H2_2 (F := Ideal) c arg2 harg2 arg3 harg3 arg4 x0 x1) 1 := by
  unfold kernelRun1_A.sl.H2_2 kernelRun1_A.sl.v93
  rw [run_r15 c arg2 harg2 arg3 harg3 x0 x1]
  exact good_step x0 x1 arg4.view 0 _ (fun prev => k1_pay24 (k1_pay23 (k1_pay7 x0 x1) 128#32 (k1_pay8 x0 x1) (k1_pay9 x0 x1) k1_pay10) prev) hp.p0 _ (good_1 x0 x1)

theorem good_3 : Good x0 x1 (kernelRun1_A.sl.H2_3 (F := Ideal) c arg2 harg2 arg3 harg3 arg4 x0 x1) 2 := by
  unfold kernelRun1_A.sl.H2_3 kernelRun1_A.sl.v104
  rw [run_r4 c arg2 harg2 arg3 harg3 x0 x1, run_r5 c arg2 harg2 arg3 harg3 x0 x1, run_r6 c arg2 harg2 arg3 harg3 x0 x1]
  exact good_step x0 x1 arg4.view 1 _ (fun prev => k1_pay25 (k1_pay12 (k1_pay7 x0 x1) 128#32 (k1_pay8 x0 x1) (k1_pay9 x0 x1) k1_pay10) (k1_pay13 (k1_pay7 x0 x1) 128#32 (k1_pay8 x0 x1) (k1_pay9 x0 x1) k1_pay10) (k1_pay14 (k1_pay6 x0 x1)) prev) hp.p1 _ (good_2 c arg2 harg2 arg3 harg3 arg4 x0 x1 hp)

theorem good_4 : Good x0 x1 (kernelRun1_A.sl.H2_4 (F := Ideal) c arg2 harg2 arg3 harg3 arg4 x0 x1) 3 := by
  unfold kernelRun1_A.sl.H2_4 kernelRun1_A.sl.v115
  rw [run_r4 c arg2 harg2 arg3 harg3 x0 x1, run_r5 c arg2 harg2 arg3 harg3 x0 x1, run_r7 c arg2 harg2 arg3 harg3 x0 x1]
  exact good_step x0 x1 arg4.view 2 _ (fun prev => k1_pay26 (k1_pay12 (k1_pay7 x0 x1) 128#32 (k1_pay8 x0 x1) (k1_pay9 x0 x1) k1_pay10) (k1_pay13 (k1_pay7 x0 x1) 128#32 (k1_pay8 x0 x1) (k1_pay9 x0 x1) k1_pay10) (k1_pay15 (k1_pay6 x0 x1)) prev) hp.p2 _ (good_3 c arg2 harg2 arg3 harg3 arg4 x0 x1 hp)

theorem good_5 : Good x0 x1 (kernelRun1_A.sl.H2_5 (F := Ideal) c arg2 harg2 arg3 harg3 arg4 x0 x1) 4 := by
  unfold kernelRun1_A.sl.H2_5 kernelRun1_A.sl.v126
  rw [run_r4 c arg2 harg2 arg3 harg3 x0 x1, run_r5 c arg2 harg2 arg3 harg3 x0 x1, run_r16 c arg2 harg2 arg3 harg3 x0 x1]
  exact good_step x0 x1 arg4.view 3 _ (fun prev => k1_pay28 (k1_pay12 (k1_pay7 x0 x1) 128#32 (k1_pay8 x0 x1) (k1_pay9 x0 x1) k1_pay10) (k1_pay13 (k1_pay7 x0 x1) 128#32 (k1_pay8 x0 x1) (k1_pay9 x0 x1) k1_pay10) (k1_pay27 (k1_pay16 (k1_pay6 x0 x1))) prev) hp.p3 _ (good_4 c arg2 harg2 arg3 harg3 arg4 x0 x1 hp)

theorem good_6 : Good x0 x1 (kernelRun1_A.sl.H2_6 (F := Ideal) c arg2 harg2 arg3 harg3 arg4 x0 x1) 5 := by
  unfold kernelRun1_A.sl.H2_6 kernelRun1_A.sl.v137
  rw [run_r4 c arg2 harg2 arg3 harg3 x0 x1, run_r5 c arg2 harg2 arg3 harg3 x0 x1, run_r9 c arg2 harg2 arg3 harg3 x0 x1]
  exact good_step x0 x1 arg4.view 4 _ (fun prev => k1_pay29 (k1_pay12 (k1_pay7 x0 x1) 128#32 (k1_pay8 x0 x1) (k1_pay9 x0 x1) k1_pay10) (k1_pay13 (k1_pay7 x0 x1) 128#32 (k1_pay8 x0 x1) (k1_pay9 x0 x1) k1_pay10) (k1_pay17 (k1_pay6 x0 x1)) prev) hp.p4 _ (good_5 c arg2 harg2 arg3 harg3 arg4 x0 x1 hp)

theorem good_7 : Good x0 x1 (kernelRun1_A.sl.H2_7 (F := Ideal) c arg2 harg2 arg3 harg3 arg4 x0 x1) 6 := by
  unfold kernelRun1_A.sl.H2_7 kernelRun1_A.sl.v148
  rw [run_r4 c arg2 harg2 arg3 harg3 x0 x1, run_r5 c arg2 harg2 arg3 harg3 x0 x1, run_r10 c arg2 harg2 arg3 harg3 x0 x1]
  exact good_step x0 x1 arg4.view 5 _ (fun prev => k1_pay30 (k1_pay12 (k1_pay7 x0 x1) 128#32 (k1_pay8 x0 x1) (k1_pay9 x0 x1) k1_pay10) (k1_pay13 (k1_pay7 x0 x1) 128#32 (k1_pay8 x0 x1) (k1_pay9 x0 x1) k1_pay10) (k1_pay18 (k1_pay6 x0 x1)) prev) hp.p5 _ (good_6 c arg2 harg2 arg3 harg3 arg4 x0 x1 hp)

theorem good_8 : Good x0 x1 (kernelRun1_A.sl.H2_8 (F := Ideal) c arg2 harg2 arg3 harg3 arg4 x0 x1) 7 := by
  unfold kernelRun1_A.sl.H2_8 kernelRun1_A.sl.v159
  rw [run_r4 c arg2 harg2 arg3 harg3 x0 x1, run_r5 c arg2 harg2 arg3 harg3 x0 x1, run_r11 c arg2 harg2 arg3 harg3 x0 x1]
  exact good_step x0 x1 arg4.view 6 _ (fun prev => k1_pay31 (k1_pay12 (k1_pay7 x0 x1) 128#32 (k1_pay8 x0 x1) (k1_pay9 x0 x1) k1_pay10) (k1_pay13 (k1_pay7 x0 x1) 128#32 (k1_pay8 x0 x1) (k1_pay9 x0 x1) k1_pay10) (k1_pay19 (k1_pay6 x0 x1)) prev) hp.p6 _ (good_7 c arg2 harg2 arg3 harg3 arg4 x0 x1 hp)

theorem good_9 : Good x0 x1 (kernelRun1_A.sl.H2_9 (F := Ideal) c arg2 harg2 arg3 harg3 arg4 x0 x1) 8 := by
  unfold kernelRun1_A.sl.H2_9 kernelRun1_A.sl.v170
  rw [run_r4 c arg2 harg2 arg3 harg3 x0 x1, run_r5 c arg2 harg2 arg3 harg3 x0 x1, run_r12 c arg2 harg2 arg3 harg3 x0 x1]
  exact good_step x0 x1 arg4.view 7 _ (fun prev => k1_pay32 (k1_pay12 (k1_pay7 x0 x1) 128#32 (k1_pay8 x0 x1) (k1_pay9 x0 x1) k1_pay10) (k1_pay13 (k1_pay7 x0 x1) 128#32 (k1_pay8 x0 x1) (k1_pay9 x0 x1) k1_pay10) (k1_pay20 (k1_pay6 x0 x1)) prev) hp.p7 _ (good_8 c arg2 harg2 arg3 harg3 arg4 x0 x1 hp)

theorem good_10 : Good x0 x1 (kernelRun1_A.sl.H2_10 (F := Ideal) c arg2 harg2 arg3 harg3 arg4 x0 x1) 9 := by
  unfold kernelRun1_A.sl.H2_10 kernelRun1_A.sl.r_17 kernelRun1_A.sl.v181
  rw [run_r4 c arg2 harg2 arg3 harg3 x0 x1, run_r5 c arg2 harg2 arg3 harg3 x0 x1, run_r13 c arg2 harg2 arg3 harg3 x0 x1]
  exact good_step x0 x1 arg4.view 8 _ (fun prev => k1_pay1 (k1_pay33 (k1_pay12 (k1_pay7 x0 x1) 128#32 (k1_pay8 x0 x1) (k1_pay9 x0 x1) k1_pay10) (k1_pay13 (k1_pay7 x0 x1) 128#32 (k1_pay8 x0 x1) (k1_pay9 x0 x1) k1_pay10) (k1_pay21 (k1_pay6 x0 x1)) prev)) hp.p8 _ (good_9 c arg2 harg2 arg3 harg3 arg4 x0 x1 hp)

/-- All ten slices stored: the block reads the tile's contribution everywhere. -/
theorem good_all : Good x0 x1
    ((⟨Rect.unit (s := S1x10x64x128) ![0, 9, 0, 0] ![1, 1, 64, 128] inb_S1x10x64x128_S1x1x64x128_0_9_0_0,
      k1_pay2 (kernelRun1_A.sl.r_4 (F := Ideal) c arg2 harg2 arg3 harg3 x0 x1) (kernelRun1_A.sl.r_5 (F := Ideal) c arg2 harg2 arg3 harg3 x0 x1) (kernelRun1_A.sl.r_14 (F := Ideal) c arg2 harg2 arg3 harg3 x0 x1) (kernelRun1_A.sl.v192 (F := Ideal) c arg2 harg2 arg3 harg3 arg4 x0 x1)⟩ :
        View.Piece (Elt Ideal) S1x10x64x128 .f32) :: kernelRun1_A.sl.H2_10 (F := Ideal) c arg2 harg2 arg3 harg3 arg4 x0 x1) 10 := by
  unfold kernelRun1_A.sl.v192
  rw [run_r4 c arg2 harg2 arg3 harg3 x0 x1, run_r5 c arg2 harg2 arg3 harg3 x0 x1, run_r14 c arg2 harg2 arg3 harg3 x0 x1]
  exact good_step x0 x1 arg4.view 9 _ (fun prev => k1_pay2 (k1_pay12 (k1_pay7 x0 x1) 128#32 (k1_pay8 x0 x1) (k1_pay9 x0 x1) k1_pay10) (k1_pay13 (k1_pay7 x0 x1) 128#32 (k1_pay8 x0 x1) (k1_pay9 x0 x1) k1_pay10) (k1_pay22 (k1_pay6 x0 x1)) prev) hp.p9 _ (good_10 c arg2 harg2 arg3 harg3 arg4 x0 x1 hp)

end FirstTile

/-- THE FIRST TILE OF A CLOUD, from the tile arithmetic. -/
theorem out1_A_eq_of (c : Dev nD) (i : grid1.Coords) (arg2 : Memref sig .tc .vmem S1x2048x3 .f32) (harg2 : arg2.IsWhole) (arg3 : Memref sig .tc .vmem S1x1x3 .f32) (harg3 : arg3.IsWhole) (arg4 : Memref sig .tc .vmem S1x10x64x128 .f32) (harg4 : arg4.IsWhole)
    (hc0 : cond1_0 i) (x0 : Vec Ideal S1x2048x3 .f32) (x1 : Vec Ideal S1x1x3 .f32) (hp : Pays x0 x1) :
    out1_A_2 (F := Ideal) c i arg2 harg2 arg3 harg3 arg4 harg4 hc0 x0 x1 = firstG x0 x1 := by
  unfold out1_A_2
  rw [View.read_writes_eq_canon _ _ _ (cover1_A_2 c i arg2 harg2 arg3 harg3 arg4 harg4 hc0 x0 x1)]
  funext y
  unfold kernelRun1_A
  dsimp only
  exact (good_all c arg2 harg2 arg3 harg3 arg4 x0 x1 hp).done y (by have h : (y 1).val < 10 := (y 1).isLt; exact h)

/-- The tile arithmetic holds. -/
theorem pays (x0 : Vec Ideal S1x2048x3 .f32) (x1 : Vec Ideal S1x1x3 .f32) : Pays x0 x1 :=
  ⟨Cert.TilePay.pay_0 x0 x1, Cert.TilePay.pay_1 x0 x1, Cert.TilePay.pay_2 x0 x1, Cert.TilePay.pay_3 x0 x1, Cert.TilePay.pay_4 x0 x1, Cert.TilePay.pay_5 x0 x1, Cert.TilePay.pay_6 x0 x1, Cert.TilePay.pay_7 x0 x1, Cert.TilePay.pay_8 x0 x1, Cert.TilePay.pay_9 x0 x1⟩

theorem out1_B_eq (c : Dev nD) (i : grid1.Coords) (arg2 : Memref sig .tc .vmem S1x2048x3 .f32) (harg2 : arg2.IsWhole) (arg3 : Memref sig .tc .vmem S1x1x3 .f32) (harg3 : arg3.IsWhole) (arg4 : Memref sig .tc .vmem S1x10x64x128 .f32) (harg4 : arg4.IsWhole)
    (hc0 : ¬ cond1_0 i) (x0 : Vec Ideal S1x2048x3 .f32) (x1 : Vec Ideal S1x1x3 .f32) (xo2 : Vec Ideal S1x10x64x128 .f32) :
    out1_B_2 (F := Ideal) c i arg2 harg2 arg3 harg3 arg4 harg4 hc0 x0 x1 xo2 = accG x0 x1 xo2 :=
  out1_B_eq_of c i arg2 harg2 arg3 harg3 arg4 harg4 hc0 x0 x1 xo2 (pays x0 x1)

theorem out1_A_eq (c : Dev nD) (i : grid1.Coords) (arg2 : Memref sig .tc .vmem S1x2048x3 .f32) (harg2 : arg2.IsWhole) (arg3 : Memref sig .tc .vmem S1x1x3 .f32) (harg3 : arg3.IsWhole) (arg4 : Memref sig .tc .vmem S1x10x64x128 .f32) (harg4 : arg4.IsWhole)
    (hc0 : cond1_0 i) (x0 : Vec Ideal S1x2048x3 .f32) (x1 : Vec Ideal S1x1x3 .f32) :
    out1_A_2 (F := Ideal) c i arg2 harg2 arg3 harg3 arg4 harg4 hc0 x0 x1 = firstG x0 x1 :=
  out1_A_eq_of c i arg2 harg2 arg3 harg3 arg4 harg4 hc0 x0 x1 (pays x0 x1)

end Cert.KernelIdeal.Hand

end
-- ==== Proof.KIdealValue1Sum.lean ====
/-
  The histogram as a sum over tiles. A cloud's 262144 points are 128 tiles of 2048; the quantity `f` summed over the
  points of cloud `b` in cell number `v` (`Spec.Khist`) is the sum of the tiles' contributions, and the sum over the first
  `k + 1` tiles is the sum over the first `k` plus tile `k`'s. A tile given as its own 2048 rows and the cloud's corner
  (`TileSpec.tileSum`) contributes exactly the terms of its rows.
-/
import proofs.«134341_j34419867910943_2_alg».proof.Proof.Spec
import proofs.«134341_j34419867910943_2_alg».proof.Proof.TileSpec

noncomputable section

namespace Cert.HistSum

open Idealize.ShloMosaic Idealize.ShloMosaic.ValueIdx Cert.Spec Cert.TileSpec

variable (x : SX.Idx → EReal) (b : Fin 8) (f : Fin 10) (v : ℕ)

/-- Point `n`'s term in quantity `f`'s sum for cell number `v`; zero past the cloud's points. -/
def rowF (n : ℕ) : EReal :=
  if h : n < 262144 then (if flatAt x b ⟨n, h⟩ = v then feat x b ⟨n, h⟩ f else 0) else 0

theorem Khist_eq_range : Khist x b f v = ∑ n ∈ Finset.range 262144, rowF x b f v n := by
  unfold Khist
  rw [← Fin.sum_univ_eq_sum_range (rowF x b f v) 262144]
  refine Finset.sum_congr rfl fun n _ => ?_
  unfold rowF
  rw [dif_pos n.isLt]

/-- The sum over the first `k + 1` tiles. -/
def part (k : ℕ) : EReal := ∑ n ∈ Finset.range (2048 * (k + 1)), rowF x b f v n
/-- Tile `k`'s contribution. -/
def tileK (k : ℕ) : EReal := ∑ r ∈ Finset.range 2048, rowF x b f v (2048 * k + r)

theorem part_zero : part x b f v 0 = tileK x b f v 0 := by
  unfold part tileK
  refine Finset.sum_congr rfl fun r _ => ?_
  rw [Nat.mul_zero, Nat.zero_add]

theorem part_succ (k : ℕ) : part x b f v (k + 1) = part x b f v k + tileK x b f v (k + 1) := by
  unfold part tileK
  rw [show 2048 * (k + 1 + 1) = 2048 * (k + 1) + 2048 from by ring, Finset.sum_range_add]

theorem part_last : part x b f v 127 = Khist x b f v := by
  rw [Khist_eq_range]
  rfl

/-- At the first tile the partial sum is the tile's contribution. -/
theorem tileK_eq_part_of_zero (k : ℕ) (hk : k = 0) : tileK x b f v k = part x b f v k := by
  subst hk; exact (part_zero x b f v).symm

/-- A later tile's contribution added to the partial sum before it. -/
theorem part_step (k k' : ℕ) (hk : k' = k + 1) (p : EReal) (hp : p = part x b f v k) :
    p + tileK x b f v k' = part x b f v k' := by
  subst hk; subst hp; exact (part_succ x b f v k).symm

/-- After the last tile the partial sum is the whole histogram entry. -/
theorem part_eq_Khist_of_last (k : ℕ) (hk : k = 127) : part x b f v k = Khist x b f v := by
  subst hk; exact part_last x b f v

theorem Khist_congr {b' : Fin 8} {f' : Fin 10} {v' : ℕ} (hb : b = b') (hf : f.val = f'.val) (hv : v = v') :
    Khist x b f v = Khist x b' f' v' := by
  obtain rfl := hb; obtain rfl := Fin.ext hf; obtain rfl := hv; rfl

/-- A tile that is rows `2048 k …` of cloud `b`, against the cloud's corner, contributes those rows' terms. -/
theorem tileSum_eq (k : ℕ) (hk : k < 128) (x0 : ST.Idx → EReal) (x1 : SC.Idx → EReal)
    (h0 : ∀ (r : Fin 2048) (a : Fin 3), x0 (ix3 0 r a) = x (ix3 b ⟨2048 * k + r.val, by have := r.isLt; omega⟩ a))
    (h1 : ∀ a : Fin 3, x1 (ix3 0 0 a) = minc x b a) :
    tileSum x0 x1 f v = tileK x b f v k := by
  unfold tileSum tileK
  rw [← Fin.sum_univ_eq_sum_range (fun r => rowF x b f v (2048 * k + r)) 2048]
  refine Finset.sum_congr rfl fun r _ => ?_
  have hn : 2048 * k + r.val < 262144 := by have := r.isLt; omega
  unfold rowF
  rw [dif_pos hn]
  have hc : ∀ a, tCell x0 x1 r a = cellAt x b ⟨2048 * k + r.val, hn⟩ a := fun a => by
    unfold tCell cellAt; rw [h0, h1]
  have hz : ∀ a, tCellZ x0 x1 r a = cellZAt x b ⟨2048 * k + r.val, hn⟩ a := fun a => by
    unfold tCellZ cellZAt; rw [h0, h1]
  have hfl : tFlat x0 x1 r = flatAt x b ⟨2048 * k + r.val, hn⟩ := by
    unfold tFlat flatAt; rw [hc, hc, hc]
  have hd : ∀ a, tD x0 x1 r a = dAt x b ⟨2048 * k + r.val, hn⟩ a := fun a => by
    unfold tD dAt; rw [h0, h1, hz]
  have hft : tFeat x0 x1 r f = feat x b ⟨2048 * k + r.val, hn⟩ f := by
    unfold tFeat feat; simp only [hd]
  rw [hfl, hft]

end Cert.HistSum

end
-- ==== Proof.KIdealValue1.lean ====
/-
  THE HISTOGRAM ARRAY. The second kernel walks 8 clouds × 128 tiles of 2048 points. At a tile its input blocks are the
  tile's rows of the cloud array and the cloud's corner, so what the tile adds to the output block's entry for quantity
  `f` and cell number `v` is the sum of `f` over the tile's points lying in cell `v`. The output block therefore holds,
  after tile `k` of a cloud, the sum over the cloud's first `k + 1` tiles (induction on the grid point: the first tile of a
  cloud starts from nothing, a later one adds to what the point before left). It is written back after the cloud's last
  tile, holding the sum over all 262144 points: the specification's histogram. The eight write-backs, one per cloud, cover
  the array.
-/
import proofs.«134341_j34419867910943_2_alg».proof.Proof.KIdealValue1Out
import proofs.«134341_j34419867910943_2_alg».proof.Proof.KIdealValue1Sum
import proofs.«134341_j34419867910943_2_alg».proof.Proof.Spec

set_option maxRecDepth 16384

noncomputable section

namespace Cert.KernelIdeal.Hand

open Cert.KernelIdeal Cert.KernelIdeal.Gen
open Idealize.ShloMosaic Idealize.ShloMosaic.TcCoe Idealize.ShloMosaic.ValueIdx
open Idealize.SL.Sem
open Idealize.ShloMosaic.Pipeline (Dat Cfg Window)
open Cert.TileSpec Cert.HistSum

variable (V : (c : Dev nD) → (b : Ref sig .tc) → Buf (Elt Ideal) ((c : Thread nD τ).loc b)) (c : Dev nD)

theorem tlt (t : Fin cfg1.N) : t.val < 1024 := lt_of_lt_of_eq t.isLt (show cfg1.N = 1024 from N_1)

/-- The printed index maps, decided over the grid: point `t` is tile `t % 128` of cloud `t / 128`. -/
theorem idx_facts1 : ∀ t : Fin cfg1.N,
    win1_0.index t (0 : Fin 3) = t.val / 128 ∧ win1_0.index t (1 : Fin 3) = t.val % 128 ∧ win1_0.index t (2 : Fin 3) = 0
    ∧ win1_1.index t (0 : Fin 3) = t.val / 128 ∧ win1_1.index t (1 : Fin 3) = 0 ∧ win1_1.index t (2 : Fin 3) = 0
    ∧ win1_2.index t (0 : Fin 4) = t.val / 128 ∧ win1_2.index t (1 : Fin 4) = 0 ∧ win1_2.index t (2 : Fin 4) = 0
    ∧ win1_2.index t (3 : Fin 4) = 0 :=
  (by decide +kernel : ∀ t : Fin grid1.N, _)

/-- The cloud a grid point works on. -/
abbrev cloudOf (t : Fin cfg1.N) : Fin 8 := ⟨t.val / 128, by have := tlt t; omega⟩

/-! ## The input blocks are the arrays' rows -/

/-- Row `r` of the points block at point `t` is point `2048 (t % 128) + r` of cloud `t / 128`. -/
theorem iblk1_0_apply (t : Fin cfg1.N) (r : Fin 2048) (a : Fin 3) :
    (iblk1 V c 0 t : Vec Ideal S1x2048x3 .f32) (ix3 0 r a)
      = V c main_arg0 (ix3 (cloudOf t) ⟨2048 * (t.val % 128) + r.val, by have := r.isLt; omega⟩ a) := by
  obtain ⟨e0, e1, e2, -⟩ := idx_facts1 t
  unfold iblk1
  rw [View.read_apply]
  show V c main_arg0 _ = V c main_arg0 _
  congr 1
  funext ax
  apply Fin.ext
  match ax with
  | ⟨0, _⟩ => show win1_0.index t 0 * 1 + 1 * 0 = t.val / 128; rw [e0]; omega
  | ⟨1, _⟩ => show win1_0.index t 1 * 2048 + 1 * r.val = 2048 * (t.val % 128) + r.val; rw [e1]; omega
  | ⟨2, _⟩ => show win1_0.index t 2 * 3 + 1 * a.val = a.val; rw [e2]; omega

/-- The corner block at point `t` is the corner of cloud `t / 128`. -/
theorem iblk1_apply (t : Fin cfg1.N) (a : Fin 3) :
    (iblk1 V c 1 t : Vec Ideal S1x1x3 .f32) (ix3 0 0 a) = V c main_v0 (ix3 (cloudOf t) 0 a) := by
  obtain ⟨-, -, -, e0, e1, e2, -⟩ := idx_facts1 t
  unfold iblk1
  rw [View.read_apply]
  show V c main_v0 _ = V c main_v0 _
  congr 1
  funext ax
  apply Fin.ext
  match ax with
  | ⟨0, _⟩ => show win1_1.index t 0 * 1 + 1 * 0 = t.val / 128; rw [e0]; omega
  | ⟨1, _⟩ => show win1_1.index t 1 * 1 + 1 * 0 = 0; rw [e1]
  | ⟨2, _⟩ => show win1_1.index t 2 * 3 + 1 * a.val = a.val; rw [e2]; omega

/-- What the tile at point `t` contributes: the terms of its 2048 rows. -/
theorem tile_at (hmin : V c main_v0 = Cert.Spec.mincArr (V c main_arg0)) (t : Fin cfg1.N) (f : Fin 10) (v : ℕ) :
    tileSum (iblk1 V c 0 t) (iblk1 V c 1 t) f v = tileK (V c main_arg0) (cloudOf t) f v (t.val % 128) :=
  tileSum_eq (V c main_arg0) (cloudOf t) f v (t.val % 128) (Nat.mod_lt _ (by norm_num)) (iblk1 V c 0 t) (iblk1 V c 1 t)
    (fun r a => iblk1_0_apply V c t r a)
    (fun a => (iblk1_apply V c t a).trans (congrFun hmin _))

/-! ## The output block after each point -/

/-- The first tile of a cloud leaves its own contribution. -/
theorem outsAt1_first (hmin : V c main_v0 = Cert.Spec.mincArr (V c main_arg0)) (t : Fin cfg1.N) (h0 : t.val % 128 = 0)
    (j : S1x10x64x128.Idx) :
    outsAt1 V c t.val t.isLt j
      = part (V c main_arg0) (cloudOf t) (j 1) ((j 2).val * 128 + (j 3).val) (t.val % 128) := by
  have e1 : outsAt1 V c t.val t.isLt = firstG (iblk1 V c 0 t) (iblk1 V c 1 t) :=
    (outsAt1_A V c t h0).trans
      (out1_A_eq c (grid1.coords t) (ms1_0 t) (hs1_0 t) (ms1_1 t) (hs1_1 t) (ms1_2 t) (hs1_2 t) ((hcond1_0 t).mpr h0)
        (iblk1 V c 0 t) (iblk1 V c 1 t))
  rw [e1]
  show tileSum (iblk1 V c 0 t) (iblk1 V c 1 t) (j 1) ((j 2).val * 128 + (j 3).val) = _
  exact (tile_at V c hmin t (j 1) ((j 2).val * 128 + (j 3).val)).trans
    (tileK_eq_part_of_zero (V c main_arg0) (cloudOf t) (j 1) ((j 2).val * 128 + (j 3).val) (t.val % 128) h0)

/-- A later tile adds its contribution to what the point before left. -/
theorem outsAt1_later (hmin : V c main_v0 = Cert.Spec.mincArr (V c main_arg0)) (t : Fin cfg1.N) (h0 : ¬t.val % 128 = 0)
    (j : S1x10x64x128.Idx) :
    outsAt1 V c t.val t.isLt j
      = outsAt1 V c (t.val - 1) (Nat.lt_of_le_of_lt (Nat.sub_le _ _) t.isLt) j
        + tileK (V c main_arg0) (cloudOf t) (j 1) ((j 2).val * 128 + (j 3).val) (t.val % 128) := by
  have e1 : outsAt1 V c t.val t.isLt
      = accG (iblk1 V c 0 t) (iblk1 V c 1 t) (outsAt1 V c (t.val - 1) (Nat.lt_of_le_of_lt (Nat.sub_le _ _) t.isLt)) :=
    (outsAt1_B V c t h0).trans
      (out1_B_eq c (grid1.coords t) (ms1_0 t) (hs1_0 t) (ms1_1 t) (hs1_1 t) (ms1_2 t) (hs1_2 t)
        (fun h => h0 ((hcond1_0 t).mp h)) (iblk1 V c 0 t) (iblk1 V c 1 t)
        (outsAt1 V c (t.val - 1) (Nat.lt_of_le_of_lt (Nat.sub_le _ _) t.isLt)))
  rw [e1]
  show outsAt1 V c (t.val - 1) _ j + tileSum (iblk1 V c 0 t) (iblk1 V c 1 t) (j 1) ((j 2).val * 128 + (j 3).val) = _
  exact congrArg (fun z => outsAt1 V c (t.val - 1) (Nat.lt_of_le_of_lt (Nat.sub_le _ _) t.isLt) j + z)
    (tile_at V c hmin t (j 1) ((j 2).val * 128 + (j 3).val))

/-- THE RUNNING SUM: after point `n` the output block holds the sum over the first `n % 128 + 1` tiles of cloud `n / 128`. -/
theorem outsAt1_eq (hmin : V c main_v0 = Cert.Spec.mincArr (V c main_arg0)) :
    ∀ (n : ℕ) (hn : n < cfg1.N) (j : S1x10x64x128.Idx),
      outsAt1 V c n hn j = part (V c main_arg0) (cloudOf ⟨n, hn⟩) (j 1) ((j 2).val * 128 + (j 3).val) (n % 128) := by
  intro n
  induction n with
  | zero => intro hn j; exact outsAt1_first V c hmin ⟨0, hn⟩ rfl j
  | succ n ih =>
    intro hn j
    by_cases h0 : (n + 1) % 128 = 0
    · exact outsAt1_first V c hmin ⟨n + 1, hn⟩ h0 j
    · have hb : cloudOf ⟨n, Nat.lt_of_succ_lt hn⟩ = cloudOf ⟨n + 1, hn⟩ :=
        Fin.ext (by show n / 128 = (n + 1) / 128; omega)
      have hk : (n + 1) % 128 = n % 128 + 1 := by omega
      refine (outsAt1_later V c hmin ⟨n + 1, hn⟩ h0 j).trans ?_
      exact part_step (V c main_arg0) (cloudOf ⟨n + 1, hn⟩) (j 1) ((j 2).val * 128 + (j 3).val) (n % 128) ((n + 1) % 128) hk
        (outsAt1 V c n (Nat.lt_of_succ_lt hn) j)
        ((ih (Nat.lt_of_succ_lt hn) j).trans
          (congrArg (fun b => part (V c main_arg0) b (j 1) ((j 2).val * 128 + (j 3).val) (n % 128)) hb))

/-! ## The write-backs and the array -/

set_option maxRecDepth 200000 in
/-- WHAT A CLOUD'S LAST TILE WRITES BACK is that cloud's block of the specification's histogram. -/
theorem flushed1_eq (hmin : V c main_v0 = Cert.Spec.mincArr (V c main_arg0)) (t : Fin cfg1.N)
    (hf : (cfg1.win 2).flush t = true) :
    (dat1 V c).flushed 2 t = ((cfg1.win 2).blk t).view.read (Elt Ideal) (Cert.Spec.histArr (V c main_arg0)) := by
  have h127 : t.val % 128 = 127 := (flush1_2 t).mp hf
  obtain ⟨-, -, -, -, -, -, e0, e1, e2, e3⟩ := idx_facts1 t
  show (cfg1.win 2).cut (grid1.coords t) ((dat1 V c).after 2 t) = _
  rw [after1_2]
  funext j
  rw [View.read_apply, cast_eq]
  unfold Cert.Spec.histArr
  have hj0 : (j 0).val < 1 := (j 0).isLt
  refine (outsAt1_eq V c hmin t.val t.isLt ((cfg1.win 2).xinj (grid1.coords t) j)).trans ?_
  refine (part_eq_Khist_of_last (V c main_arg0) (cloudOf t) _ _ (t.val % 128) h127).trans ?_
  refine Khist_congr (V c main_arg0) (cloudOf t) _ _ (b' := ((cfg1.win 2).blk t).view.emb j 0)
    (f' := ((cfg1.win 2).blk t).view.emb j 1)
    (v' := (((cfg1.win 2).blk t).view.emb j 2).val * 128 + (((cfg1.win 2).blk t).view.emb j 3).val) (Fin.ext ?_) ?_ ?_
  · show t.val / 128 = win1_2.index t 0 * 1 + 1 * (j 0).val
    rw [e0]; omega
  · show (j 1).val = win1_2.index t 1 * 10 + 1 * (j 1).val
    rw [e1]; omega
  · show (j 2).val * 128 + (j 3).val = (win1_2.index t 2 * 64 + 1 * (j 2).val) * 128 + (win1_2.index t 3 * 128 + 1 * (j 3).val)
    rw [e2, e3]; omega

/-- Every entry of the array is in the block some cloud's last tile writes back. -/
theorem cover1 (i : S8x10x64x128.Idx) :
    ∃ t : Fin cfg1.N, (cfg1.win 2).flush t = true ∧ i ∈ ((cfg1.win 2).blk t).view.set := by
  have hi0 : (i 0).val < 8 := (i 0).isLt
  have hi1 : (i 1).val < 10 := (i 1).isLt
  have hi2 : (i 2).val < 64 := (i 2).isLt
  have hi3 : (i 3).val < 128 := (i 3).isLt
  have ht : 128 * (i 0).val + 127 < cfg1.N := by rw [show cfg1.N = 1024 from N_1]; omega
  obtain ⟨-, -, -, -, -, -, e0, e1, e2, e3⟩ := idx_facts1 ⟨128 * (i 0).val + 127, ht⟩
  refine ⟨⟨128 * (i 0).val + 127, ht⟩, (flush1_2 _).mpr (by show (128 * (i 0).val + 127) % 128 = 127; omega), ?_⟩
  show i ∈ ((View.whole main_v1).slice (win1_2.rect ⟨128 * (i 0).val + 127, ht⟩)).set
  rw [View.set_slice_whole, Rect.mem_set_unit]
  intro a
  match a with
  | ⟨0, _⟩ =>
    show win1_2.index ⟨128 * (i 0).val + 127, ht⟩ 0 * 1 ≤ (i 0).val
      ∧ (i 0).val < win1_2.index ⟨128 * (i 0).val + 127, ht⟩ 0 * 1 + 1
    rw [e0]; show (128 * (i 0).val + 127) / 128 * 1 ≤ (i 0).val ∧ (i 0).val < (128 * (i 0).val + 127) / 128 * 1 + 1; omega
  | ⟨1, _⟩ =>
    show win1_2.index ⟨128 * (i 0).val + 127, ht⟩ 1 * 10 ≤ (i 1).val
      ∧ (i 1).val < win1_2.index ⟨128 * (i 0).val + 127, ht⟩ 1 * 10 + 10
    rw [e1]; omega
  | ⟨2, _⟩ =>
    show win1_2.index ⟨128 * (i 0).val + 127, ht⟩ 2 * 64 ≤ (i 2).val
      ∧ (i 2).val < win1_2.index ⟨128 * (i 0).val + 127, ht⟩ 2 * 64 + 64
    rw [e2]; omega
  | ⟨3, _⟩ =>
    show win1_2.index ⟨128 * (i 0).val + 127, ht⟩ 3 * 128 ≤ (i 3).val
      ∧ (i 3).val < win1_2.index ⟨128 * (i 0).val + 127, ht⟩ 3 * 128 + 128
    rw [e3]; omega

/-- THE HISTOGRAM ARRAY after the second kernel is the specification's histogram of the cloud array. -/
theorem final1 (V : (c : Dev nD) → (b : Ref sig .tc) → Buf (Elt Ideal) ((c : Thread nD τ).loc b)) (c : Dev nD)
    (hmin : V c main_v0 = Cert.Spec.mincArr (V c main_arg0)) :
    (dat1 (F := Ideal) V c).arrAt 2 cfg1.N = Cert.Spec.histArr (V c main_arg0) :=
  (dat1 V c).arrAt_eq_of_cover 2 (Cert.Spec.histArr (V c main_arg0)) (fun t hf => flushed1_eq V c hmin t hf)
    (fun i => cover1 i)

end Cert.KernelIdeal.Hand

end
-- ==== Proof.TailTableCat.lean ====
/-
  The three concatenations of the table's host operations, as operations of the printed program, with what each leaves in
  its own buffer (the concatenation of its operands' contents) and in every other buffer (what was there).
-/
import proofs.«134341_j34419867910943_2_alg».proof.Proof.Gen.KernelIdeal.Regions
import Idealize.ShloMosaic.PureOps.Ideal

set_option maxRecDepth 4000

noncomputable section
namespace Cert.TailTable
open Idealize.ShloMosaic Idealize.ShloMosaic.TcCoe
open Cert.KernelIdeal Cert.KernelIdeal.Gen

/-- The six products side by side. -/
abbrev cat51 : HloOp τ sig (Elt Ideal) :=
  StableHlo.nary ![main_v45, main_v46, main_v47, main_v48, main_v49, main_v50] main_v51 (fun u => concatenate S8x8192x6 2 [⟨S8x8192x1, u 0⟩, ⟨S8x8192x1, u 1⟩, ⟨S8x8192x1, u 2⟩, ⟨S8x8192x1, u 3⟩, ⟨S8x8192x1, u 4⟩, ⟨S8x8192x1, u 5⟩] concatenates_S8x8192x1_S8x8192x1_S8x8192x1_S8x8192x1_S8x8192x1_S8x8192x1_S8x8192x6_d2)
/-- The three digits side by side. -/
abbrev cat61 : HloOp τ sig (Elt Ideal) :=
  StableHlo.nary ![main_v58, main_v59, main_v60] main_v61 (fun u => concatenate S8192x3 1 [⟨S8192x1, u 0⟩, ⟨S8192x1, u 1⟩, ⟨S8192x1, u 2⟩] concatenates_S8192x1_S8192x1_S8192x1_S8192x3_d1)
/-- The nine second moments side by side. -/
abbrev cat97 : HloOp τ sig (Elt Ideal) :=
  StableHlo.nary ![main_v88, main_v89, main_v90, main_v91, main_v92, main_v93, main_v94, main_v95, main_v96] main_v97 (fun u => concatenate S8x8192x9 2 [⟨S8x8192x1, u 0⟩, ⟨S8x8192x1, u 1⟩, ⟨S8x8192x1, u 2⟩, ⟨S8x8192x1, u 3⟩, ⟨S8x8192x1, u 4⟩, ⟨S8x8192x1, u 5⟩, ⟨S8x8192x1, u 6⟩, ⟨S8x8192x1, u 7⟩, ⟨S8x8192x1, u 8⟩] concatenates_S8x8192x1_S8x8192x1_S8x8192x1_S8x8192x1_S8x8192x1_S8x8192x1_S8x8192x1_S8x8192x1_S8x8192x1_S8x8192x9_d2)

variable (F : Valuation τ sig (Elt Ideal))

theorem cat51_result :
    cat51.result F (no_index (Proc.devRef .tc main_v51)) =
      concatenate S8x8192x6 2 [⟨S8x8192x1, F (Proc.devRef .tc main_v45)⟩, ⟨S8x8192x1, F (Proc.devRef .tc main_v46)⟩,
        ⟨S8x8192x1, F (Proc.devRef .tc main_v47)⟩, ⟨S8x8192x1, F (Proc.devRef .tc main_v48)⟩,
        ⟨S8x8192x1, F (Proc.devRef .tc main_v49)⟩, ⟨S8x8192x1, F (Proc.devRef .tc main_v50)⟩]
        concatenates_S8x8192x1_S8x8192x1_S8x8192x1_S8x8192x1_S8x8192x1_S8x8192x1_S8x8192x6_d2 :=
  StableHlo.nary_result ..
theorem cat51_result_ne {r : Ref sig .tc} (h : r ≠ main_v51) :
    cat51.result F (no_index (Proc.devRef .tc r)) = F (Proc.devRef .tc r) := StableHlo.nary_result_ne' _ _ _ _ _ h

theorem cat61_result :
    cat61.result F (no_index (Proc.devRef .tc main_v61)) =
      concatenate S8192x3 1 [⟨S8192x1, F (Proc.devRef .tc main_v58)⟩, ⟨S8192x1, F (Proc.devRef .tc main_v59)⟩,
        ⟨S8192x1, F (Proc.devRef .tc main_v60)⟩] concatenates_S8192x1_S8192x1_S8192x1_S8192x3_d1 :=
  StableHlo.nary_result ..
theorem cat61_result_ne {r : Ref sig .tc} (h : r ≠ main_v61) :
    cat61.result F (no_index (Proc.devRef .tc r)) = F (Proc.devRef .tc r) := StableHlo.nary_result_ne' _ _ _ _ _ h

theorem cat97_result :
    cat97.result F (no_index (Proc.devRef .tc main_v97)) =
      concatenate S8x8192x9 2 [⟨S8x8192x1, F (Proc.devRef .tc main_v88)⟩, ⟨S8x8192x1, F (Proc.devRef .tc main_v89)⟩,
        ⟨S8x8192x1, F (Proc.devRef .tc main_v90)⟩, ⟨S8x8192x1, F (Proc.devRef .tc main_v91)⟩,
        ⟨S8x8192x1, F (Proc.devRef .tc main_v92)⟩, ⟨S8x8192x1, F (Proc.devRef .tc main_v93)⟩,
        ⟨S8x8192x1, F (Proc.devRef .tc main_v94)⟩, ⟨S8x8192x1, F (Proc.devRef .tc main_v95)⟩,
        ⟨S8x8192x1, F (Proc.devRef .tc main_v96)⟩]
        concatenates_S8x8192x1_S8x8192x1_S8x8192x1_S8x8192x1_S8x8192x1_S8x8192x1_S8x8192x1_S8x8192x1_S8x8192x1_S8x8192x9_d2 :=
  StableHlo.nary_result ..
theorem cat97_result_ne {r : Ref sig .tc} (h : r ≠ main_v97) :
    cat97.result F (no_index (Proc.devRef .tc r)) = F (Proc.devRef .tc r) := StableHlo.nary_result_ne' _ _ _ _ _ h

/-- What a buffer holds after a line of operations, by one pass over the line: each operation's result at its own buffer is its
    function of its operands' contents, and at any other buffer what was there. -/
macro "table_results" : tactic =>
  `(tactic| (simp (disch := decide) only [StableHlo.after_cons, StableHlo.after_nil,
      StableHlo.nullary_result', StableHlo.unary_result', StableHlo.binary_result', StableHlo.ternary_result',
      StableHlo.quaternary_result', StableHlo.reshape_result',
      StableHlo.nullary_result_ne', StableHlo.unary_result_ne', StableHlo.binary_result_ne', StableHlo.ternary_result_ne',
      StableHlo.quaternary_result_ne', StableHlo.reshape_result_ne',
      cat51_result, cat51_result_ne, cat61_result, cat61_result_ne, cat97_result, cat97_result_ne]))

end Cert.TailTable
-- ==== Proof.TailTableLayout.lean ====
/-
  The table's layout operations read at an index, over literal shapes and abstract contents: the histogram re-laid as
  [cloud, cell number, quantity]; a slice of the last axis; the unit last axis dropped and added; a column, a scalar, a row table
  and a per-cloud row spread over the cells; and the concatenations along the last axis read piece by piece.
-/
import Idealize.ShloMosaic.Lib.Pipeline.Value
import Idealize.ShloMosaic.Lib.ValueIdx
namespace Cert.TailTable
open Idealize.ShloMosaic Idealize.ShloMosaic.ValueIdx
variable {α : Type}

/-- The histogram [cloud, quantity, hi, lo] transposed to [cloud, hi, lo, quantity] and flattened to [cloud, cell number, quantity]
    reads, at cell number `v`, the histogram at `hi = v / 128`, `lo = v % 128`. -/
theorem hist3_apply (x : (⟨4, ![8, 10, 64, 128]⟩ : Shape).Idx → α)
    (ht : (⟨4, ![8, 10, 64, 128]⟩ : Shape).Transposes [0, 2, 3, 1] ⟨4, ![8, 64, 128, 10]⟩)
    (hs : (⟨4, ![8, 64, 128, 10]⟩ : Shape).ShapeCasts ⟨3, ![8, 8192, 10]⟩)
    (b : Fin 8) (v : Fin 8192) (f : Fin 10) :
    shapeCast ⟨3, ![8, 8192, 10]⟩ (transpose ⟨4, ![8, 64, 128, 10]⟩ [0, 2, 3, 1] x ht) hs (ix3 b v f)
      = x (ix4 b f (⟨v.val / 128, by omega⟩ : Fin 64) (⟨v.val % 128, by omega⟩ : Fin 128)) := by
  refine (shapeCast_apply _ hs (ix3 b v f) (ix4 b (⟨v.val / 128, by omega⟩ : Fin 64) (⟨v.val % 128, by omega⟩ : Fin 128) f) ?_).trans ?_
  · rw [Shape.rowMajor_val_four, Shape.rowMajor_val_three]
    show ((b.val * 64 + v.val / 128) * 128 + v.val % 128) * 10 + f.val = (b.val * 8192 + v.val) * 10 + f.val
    omega
  · exact transpose_apply _ x ht _ _ (fun b' => match b' with
      | ⟨0, _⟩ => rfl | ⟨1, _⟩ => rfl | ⟨2, _⟩ => rfl | ⟨3, _⟩ => rfl)

/-- A slice of the last axis from offset `o`. -/
theorem slice3_apply {n k : Nat} (o : Nat) (x : (⟨3, ![8, 8192, n]⟩ : Shape).Idx → α)
    (h : (⟨3, ![8, 8192, n]⟩ : Shape).Slices ![0, 0, o] ⟨3, ![8, 8192, k]⟩)
    (b : Fin 8) (v : Fin 8192) (a : Fin k) (a' : Fin n) (ha : a'.val = o + a.val) :
    extractStridedSlice ⟨3, ![8, 8192, k]⟩ ![0, 0, o] x h (ix3 b v a) = x (ix3 b v a') :=
  extractStridedSlice_apply _ x h _ _ (fun c => match c with
    | ⟨0, _⟩ => by show b.val = 0 + b.val; omega
    | ⟨1, _⟩ => by show v.val = 0 + v.val; omega
    | ⟨2, _⟩ => ha)

/-- The unit last axis dropped. -/
theorem drop1_apply (x : (⟨3, ![8, 8192, 1]⟩ : Shape).Idx → α)
    (h : (⟨3, ![8, 8192, 1]⟩ : Shape).ShapeCasts ⟨2, ![8, 8192]⟩) (b : Fin 8) (v : Fin 8192) :
    shapeCast ⟨2, ![8, 8192]⟩ x h (ix2 b v) = x (ix3 b v (0 : Fin 1)) := by
  refine shapeCast_apply x h _ _ ?_
  rw [Shape.rowMajor_val_three, Shape.rowMajor_val_two]
  show (b.val * 8192 + v.val) * 1 + 0 = b.val * 8192 + v.val
  omega

/-- One column of the last axis as a [cloud, cell number] array. -/
theorem pick_apply {n : Nat} (o : Nat) (x : (⟨3, ![8, 8192, n]⟩ : Shape).Idx → α)
    (h1 : (⟨3, ![8, 8192, n]⟩ : Shape).Slices ![0, 0, o] ⟨3, ![8, 8192, 1]⟩)
    (h2 : (⟨3, ![8, 8192, 1]⟩ : Shape).ShapeCasts ⟨2, ![8, 8192]⟩)
    (b : Fin 8) (v : Fin 8192) (a' : Fin n) (ha : a'.val = o) :
    shapeCast ⟨2, ![8, 8192]⟩ (extractStridedSlice ⟨3, ![8, 8192, 1]⟩ ![0, 0, o] x h1) h2 (ix2 b v) = x (ix3 b v a') :=
  (drop1_apply _ h2 b v).trans (slice3_apply o x h1 b v 0 a' (by rw [ha]; rfl))

/-- A unit last axis added. -/
theorem add1_apply (x : (⟨2, ![8, 8192]⟩ : Shape).Idx → α)
    (h : (⟨2, ![8, 8192]⟩ : Shape).BroadcastsInDim ⟨3, ![8, 8192, 1]⟩ ![0, 1]) (b : Fin 8) (v : Fin 8192) (z : Fin 1) :
    broadcastInDim ⟨3, ![8, 8192, 1]⟩ ![0, 1] h x (ix3 b v z) = x (ix2 b v) :=
  broadcastInDim_apply _ h x _ _ (fun a => match a with | ⟨0, _⟩ => rfl | ⟨1, _⟩ => rfl)

/-- A column spread along the last axis. -/
theorem lane_apply {n : Nat} (x : (⟨3, ![8, 8192, 1]⟩ : Shape).Idx → α)
    (h : (⟨3, ![8, 8192, 1]⟩ : Shape).BroadcastsInDim ⟨3, ![8, 8192, n]⟩ ![0, 1, 2]) (b : Fin 8) (v : Fin 8192) (a : Fin n) :
    broadcastInDim ⟨3, ![8, 8192, n]⟩ ![0, 1, 2] h x (ix3 b v a) = x (ix3 b v (0 : Fin 1)) :=
  broadcastInDim_apply _ h x _ _ (fun a' => match a' with | ⟨0, _⟩ => rfl | ⟨1, _⟩ => rfl | ⟨2, _⟩ => rfl)

/-- A scalar spread over a shape. -/
theorem scalar_apply {t : Shape} (x : (⟨0, ![]⟩ : Shape).Idx → α) (h : (⟨0, ![]⟩ : Shape).BroadcastsInDim t ![]) (j : t.Idx) :
    broadcastInDim t ![] h x j = x ix0 :=
  broadcastInDim_apply _ h x j ix0 (fun a => a.elim0)

/-- A table [cell number, axis] spread over the clouds. -/
theorem rows_apply (x : (⟨2, ![8192, 3]⟩ : Shape).Idx → α)
    (h1 : (⟨2, ![8192, 3]⟩ : Shape).BroadcastsInDim ⟨3, ![1, 8192, 3]⟩ ![1, 2])
    (h2 : (⟨3, ![1, 8192, 3]⟩ : Shape).BroadcastsInDim ⟨3, ![8, 8192, 3]⟩ ![0, 1, 2]) (b : Fin 8) (v : Fin 8192) (a : Fin 3) :
    broadcastInDim ⟨3, ![8, 8192, 3]⟩ ![0, 1, 2] h2 (broadcastInDim ⟨3, ![1, 8192, 3]⟩ ![1, 2] h1 x) (ix3 b v a) = x (ix2 v a) := by
  refine (broadcastInDim_apply _ h2 _ _ (ix3 (0 : Fin 1) v a) (fun a' => match a' with
    | ⟨0, _⟩ => rfl | ⟨1, _⟩ => rfl | ⟨2, _⟩ => rfl)).trans ?_
  exact broadcastInDim_apply _ h1 x _ _ (fun a' => match a' with | ⟨0, _⟩ => rfl | ⟨1, _⟩ => rfl)

/-- A per-cloud row [cloud, 1, axis] spread over the cells. -/
theorem cloud_apply (x : (⟨3, ![8, 1, 3]⟩ : Shape).Idx → α)
    (h : (⟨3, ![8, 1, 3]⟩ : Shape).BroadcastsInDim ⟨3, ![8, 8192, 3]⟩ ![0, 1, 2]) (b : Fin 8) (v : Fin 8192) (a : Fin 3) :
    broadcastInDim ⟨3, ![8, 8192, 3]⟩ ![0, 1, 2] h x (ix3 b v a) = x (ix3 b (0 : Fin 1) a) :=
  broadcastInDim_apply _ h x _ _ (fun a' => match a' with | ⟨0, _⟩ => rfl | ⟨1, _⟩ => rfl | ⟨2, _⟩ => rfl)

/-- A vector over the cells as a column. -/
theorem col_apply (x : (⟨1, ![8192]⟩ : Shape).Idx → α)
    (h : (⟨1, ![8192]⟩ : Shape).BroadcastsInDim ⟨2, ![8192, 1]⟩ ![0]) (v : Fin 8192) (z : Fin 1) :
    broadcastInDim ⟨2, ![8192, 1]⟩ ![0] h x (ix2 v z) = x (ix1 v) :=
  broadcastInDim_apply _ h x _ _ (fun a => match a with | ⟨0, _⟩ => rfl)

/-- One piece of a concatenation of columns [8, 8192, 1] along the last axis: piece `k` at column `k`. -/
theorem catCol_apply {N : Nat} (xs : List ((s : Shape) × (s.Idx → α)))
    (h : Shape.Concatenates (xs.map (·.1)) ⟨3, ![8, 8192, N]⟩ 2) (b : Fin 8) (v : Fin 8192) (q : Fin N)
    (hk : q.val < xs.length) (x₁ : (⟨3, ![8, 8192, 1]⟩ : Shape).Idx → α) (hxk : xs[q.val] = ⟨⟨3, ![8, 8192, 1]⟩, x₁⟩)
    (hpre : (((xs.take q.val).map (·.1)).map fun s => if h : s.rank = 3 then s.size ((2 : Fin 3).cast h.symm) else 0).sum = q.val) :
    concatenate ⟨3, ![8, 8192, N]⟩ 2 xs h (ix3 b v q) = x₁ (ix3 b v (0 : Fin 1)) :=
  concatenate_apply_piece 2 xs h _ q.val hk _ x₁ hxk rfl q.val hpre (ix3 b v (0 : Fin 1))
    (fun b' hb' => match b', hb' with
      | ⟨0, _⟩, _ => rfl | ⟨1, _⟩, _ => rfl | ⟨2, _⟩, hb' => absurd rfl hb') rfl

/-- One piece of a concatenation of columns [8192, 1] along the last axis. -/
theorem catCol2_apply {N : Nat} (xs : List ((s : Shape) × (s.Idx → α)))
    (h : Shape.Concatenates (xs.map (·.1)) ⟨2, ![8192, N]⟩ 1) (v : Fin 8192) (q : Fin N)
    (hk : q.val < xs.length) (x₁ : (⟨2, ![8192, 1]⟩ : Shape).Idx → α) (hxk : xs[q.val] = ⟨⟨2, ![8192, 1]⟩, x₁⟩)
    (hpre : (((xs.take q.val).map (·.1)).map fun s => if h : s.rank = 2 then s.size ((1 : Fin 2).cast h.symm) else 0).sum = q.val) :
    concatenate ⟨2, ![8192, N]⟩ 1 xs h (ix2 v q) = x₁ (ix2 v (0 : Fin 1)) :=
  concatenate_apply_piece 1 xs h _ q.val hk _ x₁ hxk rfl q.val hpre (ix2 v (0 : Fin 1))
    (fun b' hb' => match b', hb' with
      | ⟨0, _⟩, _ => rfl | ⟨1, _⟩, hb' => absurd rfl hb') rfl

/-- The means and the moments side by side: an entry below 3 is a mean. -/
theorem cat12_left (x : (⟨3, ![8, 8192, 3]⟩ : Shape).Idx → α) (y : (⟨3, ![8, 8192, 9]⟩ : Shape).Idx → α)
    (h : Shape.Concatenates [⟨3, ![8, 8192, 3]⟩, ⟨3, ![8, 8192, 9]⟩] ⟨3, ![8, 8192, 12]⟩ 2)
    (b : Fin 8) (v : Fin 8192) (k : Fin 12) (hk : k.val < 3) :
    concatenate ⟨3, ![8, 8192, 12]⟩ 2 [⟨⟨3, ![8, 8192, 3]⟩, x⟩, ⟨⟨3, ![8, 8192, 9]⟩, y⟩] h (ix3 b v k)
      = x (ix3 b v (⟨k.val, hk⟩ : Fin 3)) :=
  concatenate_pair_apply_left 2 x y h _ rfl (ix3 b v (⟨k.val, hk⟩ : Fin 3))
    (fun b' => match b' with | ⟨0, _⟩ => rfl | ⟨1, _⟩ => rfl | ⟨2, _⟩ => rfl)

/-- The means and the moments side by side: an entry from 3 on is a moment, 3 less. -/
theorem cat12_right (x : (⟨3, ![8, 8192, 3]⟩ : Shape).Idx → α) (y : (⟨3, ![8, 8192, 9]⟩ : Shape).Idx → α)
    (h : Shape.Concatenates [⟨3, ![8, 8192, 3]⟩, ⟨3, ![8, 8192, 9]⟩] ⟨3, ![8, 8192, 12]⟩ 2)
    (b : Fin 8) (v : Fin 8192) (k : Fin 12) (hk : 3 ≤ k.val) :
    concatenate ⟨3, ![8, 8192, 12]⟩ 2 [⟨⟨3, ![8, 8192, 3]⟩, x⟩, ⟨⟨3, ![8, 8192, 9]⟩, y⟩] h (ix3 b v k)
      = y (ix3 b v (⟨k.val - 3, by omega⟩ : Fin 9)) :=
  concatenate_pair_apply_right 2 x y h _ rfl rfl (ix3 b v (⟨k.val - 3, by omega⟩ : Fin 9))
    (fun b' hb' => match b', hb' with
      | ⟨0, _⟩, _ => rfl | ⟨1, _⟩, _ => rfl | ⟨2, _⟩, hb' => absurd rfl hb')
    (by show (k.val - 3) + 3 = k.val; omega)

end Cert.TailTable
-- ==== Proof.TailTableHist.lean ====
/-
  The first stretch of the table's host operations: from the histogram to the mean and the six second moments of the
  cell-local coordinates. For cloud `b` and cell number `v` the histogram row is `H (b, f, v / 128, v % 128)`, `f` the quantity;
  the count is raised to at least one, the three sums and the six product sums are divided by it, and the six products of the
  means are taken off the product sums.
-/
import proofs.«134341_j34419867910943_2_alg».proof.Proof.TailTableCat
import proofs.«134341_j34419867910943_2_alg».proof.Proof.TailTableLayout
import proofs.«134341_j34419867910943_2_alg».proof.Proof.Spec

set_option maxRecDepth 4000

noncomputable section
namespace Cert.TailTable
open Idealize.ShloMosaic Idealize.ShloMosaic.ValueIdx Idealize.ShloMosaic.TcCoe
open Cert.KernelIdeal Cert.KernelIdeal.Gen

/-- Where the histogram keeps quantity `f` of cell number `v` of cloud `b`. -/
abbrev hidx (b : Fin 8) (f : Fin 10) (v : Fin 8192) : S8x10x64x128.Idx :=
  ix4 b f (⟨v.val / 128, by omega⟩ : Fin 64) (⟨v.val % 128, by omega⟩ : Fin 128)

/-- The stretch in three pieces: up to the two quotients; the six products of means; their concatenation and the subtraction. -/
abbrev opsA : List (HloOp τ sig (Elt Ideal)) := hostOps2.take 14
abbrev opsB : List (HloOp τ sig (Elt Ideal)) := (hostOps2.drop 14).take 36
abbrev opsC : List (HloOp τ sig (Elt Ideal)) := hostOps2.drop 50

theorem hostOps2_split : (hostOps2 : List (HloOp τ sig (Elt Ideal))) = opsA ++ (opsB ++ opsC) := rfl

variable (V : Valuation τ sig (Elt Ideal))

/-- The histogram a valuation holds. -/
abbrev histOf : S8x10x64x128.Idx → EReal := V (Proc.devRef .tc main_v1)
/-- The count raised to at least one. -/
def cntOf (b : Fin 8) (v : Fin 8192) : EReal := max (histOf V (hidx b 0 v)) Spec.one
/-- The mean of the cell-local coordinate `a`. -/
def meanOf (b : Fin 8) (v : Fin 8192) (a : Fin 3) : EReal := Ideal.div (histOf V (hidx b ⟨a.val + 1, by omega⟩ v)) (cntOf V b v)
/-- The mean of the product `q`. -/
def prodOf (b : Fin 8) (v : Fin 8192) (q : Fin 6) : EReal := Ideal.div (histOf V (hidx b ⟨q.val + 4, by omega⟩ v)) (cntOf V b v)

theorem A_cnt (b : Fin 8) (v : Fin 8192) (n : Nat) (a : Fin n)
    (h1) (h2) (h3) (h4) (h5) (h6) (h7) :
    broadcastInDim (⟨3, ![8, 8192, n]⟩ : Shape) ![0, 1, 2] h1
        (broadcastInDim S8x8192x1 ![0, 1] h2
          (maximumf (F := Ideal)
            (fun i => shapeCast (⟨2, ![8, 8192]⟩ : Shape)
                (extractStridedSlice S8x8192x1 ![0, 0, 0]
                  (fun i => shapeCast (⟨3, ![8, 8192, 10]⟩ : Shape) (transpose S8x64x128x10 [0, 2, 3, 1] (histOf V) h3) h4 i) h5) h6 i)
            (broadcastInDim S8x8192 ![] h7 (constant (F := Ideal) S_ FTy.f32 1065353216#32)))) (ix3 b v a)
      = cntOf V b v := by
  refine (lane_apply _ _ b v a).trans ?_
  refine (add1_apply _ _ b v 0).trans ?_
  refine congrArg₂ max ?_ ?_
  · refine (pick_apply 0 _ _ _ b v 0 rfl).trans ?_
    exact hist3_apply _ _ _ b v 0
  · exact scalar_apply _ _ _

theorem A12 (b : Fin 8) (v : Fin 8192) (a : Fin 3) :
    (StableHlo.after opsA V (Proc.devRef .tc main_v12) : S8x8192x3.Idx → EReal) (ix3 b v a) = meanOf V b v a := by
  simp only [opsA, hostOps2, List.take_succ_cons, List.take_zero]
  table_results
  refine congrArg₂ Ideal.div ?_ ?_
  · refine (slice3_apply 1 _ _ b v a ⟨a.val + 1, by omega⟩ (by show a.val + 1 = 1 + a.val; omega)).trans ?_
    exact hist3_apply _ _ _ b v _
  · exact A_cnt V b v 3 a _ _ _ _ _ _ _

theorem A14 (b : Fin 8) (v : Fin 8192) (q : Fin 6) :
    (StableHlo.after opsA V (Proc.devRef .tc main_v14) : S8x8192x6.Idx → EReal) (ix3 b v q) = prodOf V b v q := by
  simp only [opsA, hostOps2, List.take_succ_cons, List.take_zero]
  table_results
  refine congrArg₂ Ideal.div ?_ ?_
  · refine (slice3_apply 4 _ _ b v q ⟨q.val + 4, by omega⟩ (by show q.val + 4 = 4 + q.val; omega)).trans ?_
    exact hist3_apply _ _ _ b v _
  · exact A_cnt V b v 6 q _ _ _ _ _ _ _

/-! ## The six products of means -/

/-- The means a valuation holds. -/
abbrev m12 : S8x8192x3.Idx → EReal := V (Proc.devRef .tc main_v12)

theorem B_keep12 : StableHlo.after opsB V (Proc.devRef .tc main_v12) = V (Proc.devRef .tc main_v12) := by
  simp only [opsB, hostOps2, List.drop_succ_cons, List.drop_zero, List.take_succ_cons, List.take_zero]
  table_results
theorem B_keep14 : StableHlo.after opsB V (Proc.devRef .tc main_v14) = V (Proc.devRef .tc main_v14) := by
  simp only [opsB, hostOps2, List.drop_succ_cons, List.drop_zero, List.take_succ_cons, List.take_zero]
  table_results

theorem B45 (b : Fin 8) (v : Fin 8192) :
    (StableHlo.after opsB V (Proc.devRef .tc main_v45) : S8x8192x1.Idx → EReal) (ix3 b v 0) = m12 V (ix3 b v 0) * m12 V (ix3 b v 0) := by
  simp only [opsB, hostOps2, List.drop_succ_cons, List.drop_zero, List.take_succ_cons, List.take_zero]
  table_results
  refine (add1_apply _ _ b v 0).trans ?_
  exact congrArg₂ (· * ·) (pick_apply 0 _ _ _ b v 0 rfl) (pick_apply 0 _ _ _ b v 0 rfl)
theorem B46 (b : Fin 8) (v : Fin 8192) :
    (StableHlo.after opsB V (Proc.devRef .tc main_v46) : S8x8192x1.Idx → EReal) (ix3 b v 0) = m12 V (ix3 b v 0) * m12 V (ix3 b v 1) := by
  simp only [opsB, hostOps2, List.drop_succ_cons, List.drop_zero, List.take_succ_cons, List.take_zero]
  table_results
  refine (add1_apply _ _ b v 0).trans ?_
  exact congrArg₂ (· * ·) (pick_apply 0 _ _ _ b v 0 rfl) (pick_apply 1 _ _ _ b v 1 rfl)
theorem B47 (b : Fin 8) (v : Fin 8192) :
    (StableHlo.after opsB V (Proc.devRef .tc main_v47) : S8x8192x1.Idx → EReal) (ix3 b v 0) = m12 V (ix3 b v 0) * m12 V (ix3 b v 2) := by
  simp only [opsB, hostOps2, List.drop_succ_cons, List.drop_zero, List.take_succ_cons, List.take_zero]
  table_results
  refine (add1_apply _ _ b v 0).trans ?_
  exact congrArg₂ (· * ·) (pick_apply 0 _ _ _ b v 0 rfl) (pick_apply 2 _ _ _ b v 2 rfl)
theorem B48 (b : Fin 8) (v : Fin 8192) :
    (StableHlo.after opsB V (Proc.devRef .tc main_v48) : S8x8192x1.Idx → EReal) (ix3 b v 0) = m12 V (ix3 b v 1) * m12 V (ix3 b v 1) := by
  simp only [opsB, hostOps2, List.drop_succ_cons, List.drop_zero, List.take_succ_cons, List.take_zero]
  table_results
  refine (add1_apply _ _ b v 0).trans ?_
  exact congrArg₂ (· * ·) (pick_apply 1 _ _ _ b v 1 rfl) (pick_apply 1 _ _ _ b v 1 rfl)
theorem B49 (b : Fin 8) (v : Fin 8192) :
    (StableHlo.after opsB V (Proc.devRef .tc main_v49) : S8x8192x1.Idx → EReal) (ix3 b v 0) = m12 V (ix3 b v 1) * m12 V (ix3 b v 2) := by
  simp only [opsB, hostOps2, List.drop_succ_cons, List.drop_zero, List.take_succ_cons, List.take_zero]
  table_results
  refine (add1_apply _ _ b v 0).trans ?_
  exact congrArg₂ (· * ·) (pick_apply 1 _ _ _ b v 1 rfl) (pick_apply 2 _ _ _ b v 2 rfl)
theorem B50 (b : Fin 8) (v : Fin 8192) :
    (StableHlo.after opsB V (Proc.devRef .tc main_v50) : S8x8192x1.Idx → EReal) (ix3 b v 0) = m12 V (ix3 b v 2) * m12 V (ix3 b v 2) := by
  simp only [opsB, hostOps2, List.drop_succ_cons, List.drop_zero, List.take_succ_cons, List.take_zero]
  table_results
  refine (add1_apply _ _ b v 0).trans ?_
  exact congrArg₂ (· * ·) (pick_apply 2 _ _ _ b v 2 rfl) (pick_apply 2 _ _ _ b v 2 rfl)

/-! ## The products side by side, taken off the product means -/

theorem C_keep12 : StableHlo.after opsC V (Proc.devRef .tc main_v12) = V (Proc.devRef .tc main_v12) := by
  simp only [opsC, hostOps2, List.drop_succ_cons, List.drop_zero]
  table_results

/-- The product means a valuation holds. -/
abbrev m14 : S8x8192x6.Idx → EReal := V (Proc.devRef .tc main_v14)
/-- The six columns a valuation holds. -/
abbrev colsOf : Fin 6 → S8x8192x1.Idx → EReal :=
  ![V (Proc.devRef .tc main_v45), V (Proc.devRef .tc main_v46), V (Proc.devRef .tc main_v47),
    V (Proc.devRef .tc main_v48), V (Proc.devRef .tc main_v49), V (Proc.devRef .tc main_v50)]

theorem C52 (b : Fin 8) (v : Fin 8192) (q : Fin 6) :
    (StableHlo.after opsC V (Proc.devRef .tc main_v52) : S8x8192x6.Idx → EReal) (ix3 b v q)
      = m14 V (ix3 b v q) - colsOf V q (ix3 b v 0) := by
  simp only [opsC, hostOps2, List.drop_succ_cons, List.drop_zero]
  table_results
  show (m14 V (ix3 b v q) : EReal) - (concatenate _ _ _ _ (ix3 b v q) : EReal) = _
  refine congrArg (fun t : EReal => m14 V (ix3 b v q) - t) ?_
  match q with
  | ⟨0, _⟩ => exact catCol_apply _ _ b v _ (by show (0 : Nat) < 6; omega) _ rfl rfl
  | ⟨1, _⟩ => exact catCol_apply _ _ b v _ (by show (1 : Nat) < 6; omega) _ rfl rfl
  | ⟨2, _⟩ => exact catCol_apply _ _ b v _ (by show (2 : Nat) < 6; omega) _ rfl rfl
  | ⟨3, _⟩ => exact catCol_apply _ _ b v _ (by show (3 : Nat) < 6; omega) _ rfl rfl
  | ⟨4, _⟩ => exact catCol_apply _ _ b v _ (by show (4 : Nat) < 6; omega) _ rfl rfl
  | ⟨5, _⟩ => exact catCol_apply _ _ b v _ (by show (5 : Nat) < 6; omega) _ rfl rfl

/-! ## The stretch as a whole -/

theorem after_hostOps2 : StableHlo.after hostOps2 V = StableHlo.after opsC (StableHlo.after opsB (StableHlo.after opsA V)) := by
  rw [hostOps2_split, StableHlo.after_append, StableHlo.after_append]

/-- After the stretch, the means. -/
theorem hist_v12 (b : Fin 8) (v : Fin 8192) (a : Fin 3) :
    (StableHlo.after hostOps2 V (Proc.devRef .tc main_v12) : S8x8192x3.Idx → EReal) (ix3 b v a) = meanOf V b v a := by
  rw [after_hostOps2, C_keep12, B_keep12]
  exact A12 V b v a

/-- After the stretch, the six second moments. -/
theorem hist_v52 (b : Fin 8) (v : Fin 8192) (q : Fin 6) :
    (StableHlo.after hostOps2 V (Proc.devRef .tc main_v52) : S8x8192x6.Idx → EReal) (ix3 b v q)
      = prodOf V b v q - meanOf V b v (Spec.pairs6 q).1 * meanOf V b v (Spec.pairs6 q).2 := by
  rw [after_hostOps2]
  refine (C52 _ b v q).trans ?_
  refine congrArg₂ (· - ·) ((congrFun (B_keep14 _) _).trans (A14 V b v q)) ?_
  match q with
  | ⟨0, _⟩ => exact (B45 _ b v).trans (congrArg₂ (· * ·) (A12 V b v 0) (A12 V b v 0))
  | ⟨1, _⟩ => exact (B46 _ b v).trans (congrArg₂ (· * ·) (A12 V b v 0) (A12 V b v 1))
  | ⟨2, _⟩ => exact (B47 _ b v).trans (congrArg₂ (· * ·) (A12 V b v 0) (A12 V b v 2))
  | ⟨3, _⟩ => exact (B48 _ b v).trans (congrArg₂ (· * ·) (A12 V b v 1) (A12 V b v 1))
  | ⟨4, _⟩ => exact (B49 _ b v).trans (congrArg₂ (· * ·) (A12 V b v 1) (A12 V b v 2))
  | ⟨5, _⟩ => exact (B50 _ b v).trans (congrArg₂ (· * ·) (A12 V b v 2) (A12 V b v 2))

/-- After the stretch, the cell numbers `0 … 8191` and the divisor 400. -/
theorem hist_v53 (v : Fin 8192) :
    (StableHlo.after hostOps2 V (Proc.devRef .tc main_v53) : S8192.Idx → BitVec 32) (ix1 v) = BitVec.ofNat 32 v.val := by
  rw [after_hostOps2]
  simp only [opsC, hostOps2, List.drop_succ_cons, List.drop_zero]
  table_results
  rfl
theorem hist_c :
    (StableHlo.after hostOps2 V (Proc.devRef .tc main_c) : S_.Idx → BitVec 32) ix0 = 400#32 := by
  rw [after_hostOps2]
  simp only [opsC, hostOps2, List.drop_succ_cons, List.drop_zero]
  table_results
  rfl

end Cert.TailTable
-- ==== Proof.TailTableDigits.lean ====
/-
  The three digits of a cell number in base 20, as the host program computes them on 32-bit words: division rounding down by
  400 and by 20, and the remainder by 20 with the divisor's sign. For a cell number below 8192 every word involved is small and
  nonnegative, so the signed operations are the natural-number ones and no correction term fires.
-/
import Idealize.ShloMosaic.PureOps.Ideal
namespace Cert.TailTable
open Idealize.ShloMosaic

/-- The sign of a word, as the host program computes it. -/
def sgn (x : BitVec 32) : BitVec 32 := if x = 0 then 0 else if x.msb then -1 else 1

/-- Division rounding down, as the host program spells it: the quotient rounded toward zero, less one when the signs differ and
    the division is not exact. -/
def fdivW (x d : BitVec 32) : BitVec 32 :=
  Scalar.select (IntOp.andi (IntOp.cmpi .ne (sgn x) (sgn d)) (IntOp.cmpi .ne (IntOp.remsi .host x d) 0#32))
    (IntOp.subi (IntOp.divsi .host x d) 1#32) (IntOp.divsi .host x d)

/-- The divisor of the remainder: one in place of zero. -/
def remDiv (d : BitVec 32) : BitVec 32 := Scalar.select (IntOp.cmpi .eq d 0#32) 1#32 d

/-- The remainder with the divisor's sign, as the host program spells it, for the divisor `d'`. -/
def fremW (x d' : BitVec 32) : BitVec 32 :=
  Scalar.select (IntOp.andi (IntOp.cmpi .ne (IntOp.cmpi .slt (IntOp.remsi .host x d') 0#32) (IntOp.cmpi .slt d' 0#32))
      (IntOp.cmpi .ne (IntOp.remsi .host x d') 0#32))
    (IntOp.addi (IntOp.remsi .host x d') d') (IntOp.remsi .host x d')

theorem toNat_small (n : Nat) (h : n < 8192) : (BitVec.ofNat 32 n).toNat = n := by
  rw [BitVec.toNat_ofNat]; omega

theorem msb_small (n : Nat) (h : n < 8192) : (BitVec.ofNat 32 n).msb = false := by
  rw [BitVec.msb_eq_false_iff_two_mul_lt, toNat_small n h]; omega

/-- The quotient rounded toward zero of a small word by a small positive word is the natural-number quotient. -/
theorem divsi_small (n d : Nat) (h : n < 8192) (hd0 : 0 < d) (hd : d < 8192) :
    IntOp.divsi .host (BitVec.ofNat 32 n) (BitVec.ofNat 32 d) = BitVec.ofNat 32 (n / d) := by
  have hdn : (BitVec.ofNat 32 d).toNat = d := toNat_small d hd
  have hnc : ¬ IntOp.SDivCorner (BitVec.ofNat 32 n) (BitVec.ofNat 32 d) := by
    rintro (h0 | ⟨_, h1⟩)
    · have := congrArg BitVec.toNat h0; rw [hdn] at this; simp at this; omega
    · have := congrArg BitVec.toNat h1; rw [hdn] at this; simp at this; omega
  unfold IntOp.divsi
  rw [if_neg hnc, BitVec.sdiv_eq, msb_small n h, msb_small d hd]
  apply BitVec.eq_of_toNat_eq
  show (BitVec.ofNat 32 n / BitVec.ofNat 32 d).toNat = _
  rw [BitVec.toNat_udiv, toNat_small n h, hdn, toNat_small (n / d) (Nat.lt_of_le_of_lt (Nat.div_le_self n d) h)]

/-- The remainder of the dividend's sign of a small word by a small positive word is the natural-number remainder. -/
theorem remsi_small (n d : Nat) (h : n < 8192) (hd0 : 0 < d) (hd : d < 8192) :
    IntOp.remsi .host (BitVec.ofNat 32 n) (BitVec.ofNat 32 d) = BitVec.ofNat 32 (n % d) := by
  have hdn : (BitVec.ofNat 32 d).toNat = d := toNat_small d hd
  have hnc : ¬ IntOp.SDivCorner (BitVec.ofNat 32 n) (BitVec.ofNat 32 d) := by
    rintro (h0 | ⟨_, h1⟩)
    · have := congrArg BitVec.toNat h0; rw [hdn] at this; simp at this; omega
    · have := congrArg BitVec.toNat h1; rw [hdn] at this; simp at this; omega
  unfold IntOp.remsi
  rw [if_neg hnc, BitVec.srem_eq, msb_small n h, msb_small d hd]
  apply BitVec.eq_of_toNat_eq
  show (BitVec.ofNat 32 n % BitVec.ofNat 32 d).toNat = _
  rw [BitVec.toNat_umod, toNat_small n h, hdn, toNat_small (n % d) (Nat.lt_of_le_of_lt (Nat.mod_le n d) h)]

theorem sgn_small (n : Nat) (h : n < 8192) (h0 : 0 < n) : sgn (BitVec.ofNat 32 n) = 1#32 := by
  have hne : BitVec.ofNat 32 n ≠ 0 := by
    intro e; have := congrArg BitVec.toNat e; rw [toNat_small n h] at this; simp at this; omega
  unfold sgn
  rw [if_neg hne, msb_small n h]; rfl

/-- Division rounding down of a small word by a small positive word is the natural-number quotient. -/
theorem fdivW_small (n d : Nat) (h : n < 8192) (hd0 : 0 < d) (hd : d < 8192) :
    fdivW (BitVec.ofNat 32 n) (BitVec.ofNat 32 d) = BitVec.ofNat 32 (n / d) := by
  unfold fdivW
  rw [divsi_small n d h hd0 hd, remsi_small n d h hd0 hd, sgn_small d hd hd0]
  rcases Nat.eq_zero_or_pos n with rfl | hn
  · -- zero: its sign differs from the divisor's, but the division is exact
    have e : (0 % d) = 0 := Nat.zero_mod d
    rw [e]
    have e2 : IntOp.cmpi .ne (BitVec.ofNat 32 0) 0#32 = 0#1 := by decide
    rw [e2]
    have e3 : ∀ a : BitVec 1, IntOp.andi a 0#1 = 0#1 := by decide
    rw [e3]
    exact if_neg (by decide)
  · rw [sgn_small n h hn]
    have e2 : IntOp.cmpi .ne (1#32) 1#32 = 0#1 := by decide
    rw [e2]
    have e3 : ∀ a : BitVec 1, IntOp.andi 0#1 a = 0#1 := by decide
    rw [e3]
    exact if_neg (by decide)

/-- The remainder with the divisor's sign of a small word by a small positive word is the natural-number remainder. -/
theorem fremW_small (n d : Nat) (h : n < 8192) (hd0 : 0 < d) (hd : d < 8192) :
    fremW (BitVec.ofNat 32 n) (BitVec.ofNat 32 d) = BitVec.ofNat 32 (n % d) := by
  unfold fremW
  rw [remsi_small n d h hd0 hd]
  have hr : n % d < 8192 := Nat.lt_of_le_of_lt (Nat.mod_le n d) h
  have s1 : IntOp.cmpi .slt (BitVec.ofNat 32 (n % d)) 0#32 = 0#1 := by
    show BitVec.ofBool ((BitVec.ofNat 32 (n % d)).slt 0#32) = 0#1
    rw [BitVec.slt_eq_decide, BitVec.toInt_eq_toNat_of_msb (msb_small _ hr), toNat_small _ hr]
    have : ¬ ((n % d : Nat) : Int) < (0#32 : BitVec 32).toInt := by
      have : (0#32 : BitVec 32).toInt = 0 := by decide
      rw [this]; omega
    rw [decide_eq_false this]; rfl
  have s2 : IntOp.cmpi .slt (BitVec.ofNat 32 d) 0#32 = 0#1 := by
    show BitVec.ofBool ((BitVec.ofNat 32 d).slt 0#32) = 0#1
    rw [BitVec.slt_eq_decide, BitVec.toInt_eq_toNat_of_msb (msb_small _ hd), toNat_small _ hd]
    have : ¬ ((d : Nat) : Int) < (0#32 : BitVec 32).toInt := by
      have : (0#32 : BitVec 32).toInt = 0 := by decide
      rw [this]; omega
    rw [decide_eq_false this]; rfl
  rw [s1, s2]
  have e2 : IntOp.cmpi .ne (0#1) 0#1 = 0#1 := by decide
  rw [e2]
  have e3 : ∀ a : BitVec 1, IntOp.andi 0#1 a = 0#1 := by decide
  rw [e3]
  exact if_neg (by decide)

theorem remDiv_20 : remDiv 20#32 = 20#32 := by decide

/-- A small word read signed is the number. -/
theorem toInt_small (n : Nat) (h : n < 8192) : (BitVec.ofNat 32 n).toInt = (n : Int) := by
  rw [BitVec.toInt_eq_toNat_of_msb (msb_small n h), toNat_small n h]

end Cert.TailTable
-- ==== Proof.TailTableInt.lean ====
/-
  Stretches two to eight of the table's host operations: the three digits of every cell number `v = 0 … 8191` in base 20, computed
  on 32-bit words by two divisions rounding down (by 400 and by 20) and two remainders by 20. Starting from any buffer
  contents that hold the cell numbers and the divisor 400, the three result buffers hold `v / 400`, `(v / 20) % 20`, `v % 20`,
  and every buffer these stretches do not write is as it was.
-/
import proofs.«134341_j34419867910943_2_alg».proof.Proof.TailTableCat
import proofs.«134341_j34419867910943_2_alg».proof.Proof.TailTableLayout
import proofs.«134341_j34419867910943_2_alg».proof.Proof.TailTableDigits

set_option maxRecDepth 4000

noncomputable section
namespace Cert.TailTable
open Idealize.ShloMosaic Idealize.ShloMosaic.ValueIdx Idealize.ShloMosaic.TcCoe
open Cert.KernelIdeal Cert.KernelIdeal.Gen

/-- A scalar spread over the cell numbers. -/
theorem bcastS {β : Type} (y : S_.Idx → β) (v : Fin 8192) : broadcastInDim S8192 ![] bcast_S_S8192 y (ix1 v) = y ix0 :=
  scalar_apply y _ _

variable (U : Valuation τ sig (Elt Ideal))

/-- The vectors of words over the cell numbers, and the scalar words, that a valuation holds. -/
abbrev i53 : S8192.Idx → BitVec 32 := U (Proc.devRef .tc main_v53)
abbrev i54 : S8192.Idx → BitVec 32 := U (Proc.devRef .tc main_v54)
abbrev i55 : S8192.Idx → BitVec 32 := U (Proc.devRef .tc main_v55)
abbrev i56 : S8192.Idx → BitVec 32 := U (Proc.devRef .tc main_v56)
abbrev i57 : S8192.Idx → BitVec 32 := U (Proc.devRef .tc main_v57)
abbrev sC : S_.Idx → BitVec 32 := U (Proc.devRef .tc main_c)
abbrev sC0 : S_.Idx → BitVec 32 := U (Proc.devRef .tc main_c_0)
abbrev sC1 : S_.Idx → BitVec 32 := U (Proc.devRef .tc main_c_1)
abbrev sC2 : S_.Idx → BitVec 32 := U (Proc.devRef .tc main_c_2)

/-- One division rounding down: the result buffer holds the quotient of the operand buffers' words. -/
theorem call0_v54 (v : Fin 8192) :
    i54 (StableHlo.after hostOps2_1 U) (ix1 v) = fdivW (i53 U (ix1 v)) (sC U ix0) := by
  show (StableHlo.after hostOps2_1 U (Proc.devRef .tc main_v54) : S8192.Idx → BitVec 32) (ix1 v) = _
  table_results
  simp only [StableHlo.TRef.toBuf, StableHlo.TRef.ofBuf, cast_eq, id]
  simp only [select, andi, cmpi, subi, Host.divsi, Host.remsi, signi]
  repeat rw [bcastS _ v]
  rfl
theorem call1_v55 (v : Fin 8192) :
    i55 (StableHlo.after hostOps2_3 U) (ix1 v) = fdivW (i53 U (ix1 v)) (sC0 U ix0) := by
  show (StableHlo.after hostOps2_3 U (Proc.devRef .tc main_v55) : S8192.Idx → BitVec 32) (ix1 v) = _
  table_results
  simp only [StableHlo.TRef.toBuf, StableHlo.TRef.ofBuf, cast_eq, id]
  simp only [select, andi, cmpi, subi, Host.divsi, Host.remsi, signi]
  repeat rw [bcastS _ v]
  rfl
/-- One remainder: the result buffer holds the remainder of the operand buffers' words. -/
theorem call2_v56 (v : Fin 8192) :
    i56 (StableHlo.after hostOps2_5 U) (ix1 v) = fremW (i55 U (ix1 v)) (remDiv (sC1 U ix0)) := by
  show (StableHlo.after hostOps2_5 U (Proc.devRef .tc main_v56) : S8192.Idx → BitVec 32) (ix1 v) = _
  table_results
  simp only [StableHlo.TRef.toBuf, StableHlo.TRef.ofBuf, cast_eq, id]
  simp only [select, andi, cmpi, addi, Host.remsi]
  repeat rw [bcastS _ v]
  rfl
theorem call3_v57 (v : Fin 8192) :
    i57 (StableHlo.after hostOps2_7 U) (ix1 v) = fremW (i53 U (ix1 v)) (remDiv (sC2 U ix0)) := by
  show (StableHlo.after hostOps2_7 U (Proc.devRef .tc main_v57) : S8192.Idx → BitVec 32) (ix1 v) = _
  table_results
  simp only [StableHlo.TRef.toBuf, StableHlo.TRef.ofBuf, cast_eq, id]
  simp only [select, andi, cmpi, addi, Host.remsi]
  repeat rw [bcastS _ v]
  rfl

/-- The three divisors 20. -/
theorem c0_20 : sC0 (StableHlo.after hostOps2_2 U) ix0 = 20#32 := by
  show (StableHlo.after hostOps2_2 U (Proc.devRef .tc main_c_0) : S_.Idx → BitVec 32) ix0 = _
  table_results
  rfl
theorem c1_20 : sC1 (StableHlo.after hostOps2_4 U) ix0 = 20#32 := by
  show (StableHlo.after hostOps2_4 U (Proc.devRef .tc main_c_1) : S_.Idx → BitVec 32) ix0 = _
  table_results
  rfl
theorem c2_20 : sC2 (StableHlo.after hostOps2_6 U) ix0 = 20#32 := by
  show (StableHlo.after hostOps2_6 U (Proc.devRef .tc main_c_2) : S_.Idx → BitVec 32) ix0 = _
  table_results
  rfl

/-- The buffers after each of the seven stretches, from `U`. -/
abbrev U4 : Valuation τ sig (Elt Ideal) := StableHlo.after hostOps2_1 U
abbrev U5 : Valuation τ sig (Elt Ideal) := StableHlo.after hostOps2_2 (U4 U)
abbrev U6 : Valuation τ sig (Elt Ideal) := StableHlo.after hostOps2_3 (U5 U)
abbrev U7 : Valuation τ sig (Elt Ideal) := StableHlo.after hostOps2_4 (U6 U)
abbrev U8 : Valuation τ sig (Elt Ideal) := StableHlo.after hostOps2_5 (U7 U)
abbrev U9 : Valuation τ sig (Elt Ideal) := StableHlo.after hostOps2_6 (U8 U)
abbrev U10 : Valuation τ sig (Elt Ideal) := StableHlo.after hostOps2_7 (U9 U)

theorem U4_keep (r : Ref sig .tc) (h : r ∉ hostOps2_1_W) : U4 U (Proc.devRef .tc r) = U (Proc.devRef .tc r) :=
  StableHlo.after_of_writes_sub hostOps2_1 _ hostOps2_1_writes h
theorem U5_keep (r : Ref sig .tc) (h : r ∉ hostOps2_2_W) : U5 U (Proc.devRef .tc r) = U4 U (Proc.devRef .tc r) :=
  StableHlo.after_of_writes_sub hostOps2_2 _ hostOps2_2_writes h
theorem U6_keep (r : Ref sig .tc) (h : r ∉ hostOps2_3_W) : U6 U (Proc.devRef .tc r) = U5 U (Proc.devRef .tc r) :=
  StableHlo.after_of_writes_sub hostOps2_3 _ hostOps2_3_writes h
theorem U7_keep (r : Ref sig .tc) (h : r ∉ hostOps2_4_W) : U7 U (Proc.devRef .tc r) = U6 U (Proc.devRef .tc r) :=
  StableHlo.after_of_writes_sub hostOps2_4 _ hostOps2_4_writes h
theorem U8_keep (r : Ref sig .tc) (h : r ∉ hostOps2_5_W) : U8 U (Proc.devRef .tc r) = U7 U (Proc.devRef .tc r) :=
  StableHlo.after_of_writes_sub hostOps2_5 _ hostOps2_5_writes h
theorem U9_keep (r : Ref sig .tc) (h : r ∉ hostOps2_6_W) : U9 U (Proc.devRef .tc r) = U8 U (Proc.devRef .tc r) :=
  StableHlo.after_of_writes_sub hostOps2_6 _ hostOps2_6_writes h
theorem U10_keep (r : Ref sig .tc) (h : r ∉ hostOps2_7_W) : U10 U (Proc.devRef .tc r) = U9 U (Proc.devRef .tc r) :=
  StableHlo.after_of_writes_sub hostOps2_7 _ hostOps2_7_writes h

/-- A buffer none of the seven stretches writes is as it was. -/
theorem U10_keep_all (r : Ref sig .tc) (h1 : r ∉ hostOps2_1_W) (h2 : r ∉ hostOps2_2_W) (h3 : r ∉ hostOps2_3_W)
    (h4 : r ∉ hostOps2_4_W) (h5 : r ∉ hostOps2_5_W) (h6 : r ∉ hostOps2_6_W) (h7 : r ∉ hostOps2_7_W) :
    U10 U (Proc.devRef .tc r) = U (Proc.devRef .tc r) :=
  (U10_keep U r h7).trans ((U9_keep U r h6).trans ((U8_keep U r h5).trans ((U7_keep U r h4).trans
    ((U6_keep U r h3).trans ((U5_keep U r h2).trans (U4_keep U r h1))))))

variable (h53 : ∀ v : Fin 8192, i53 U (ix1 v) = BitVec.ofNat 32 v.val) (hc : sC U ix0 = 400#32)
include h53 hc

/-- The first digit. -/
theorem digit0 (v : Fin 8192) : i54 (U10 U) (ix1 v) = BitVec.ofNat 32 (v.val / 400) := by
  have e : U10 U (Proc.devRef .tc main_v54) = U4 U (Proc.devRef .tc main_v54) :=
    (U10_keep U _ (by decide)).trans ((U9_keep U _ (by decide)).trans ((U8_keep U _ (by decide)).trans
      ((U7_keep U _ (by decide)).trans ((U6_keep U _ (by decide)).trans (U5_keep U _ (by decide))))))
  show (U10 U (Proc.devRef .tc main_v54) : S8192.Idx → BitVec 32) (ix1 v) = _
  rw [e]
  refine (call0_v54 U v).trans ?_
  rw [h53 v, hc]
  exact fdivW_small v.val 400 v.isLt (by decide) (by decide)

omit hc in
/-- The second digit. -/
theorem digit1 (v : Fin 8192) : i56 (U10 U) (ix1 v) = BitVec.ofNat 32 ((v.val / 20) % 20) := by
  have e : U10 U (Proc.devRef .tc main_v56) = U8 U (Proc.devRef .tc main_v56) :=
    (U10_keep U _ (by decide)).trans (U9_keep U _ (by decide))
  show (U10 U (Proc.devRef .tc main_v56) : S8192.Idx → BitVec 32) (ix1 v) = _
  rw [e]
  refine (call2_v56 (U7 U) v).trans ?_
  have e55 : i55 (U7 U) (ix1 v) = BitVec.ofNat 32 (v.val / 20) := by
    show (U7 U (Proc.devRef .tc main_v55) : S8192.Idx → BitVec 32) (ix1 v) = _
    rw [U7_keep U _ (by decide)]
    refine (call1_v55 (U5 U) v).trans ?_
    have e53 : i53 (U5 U) (ix1 v) = BitVec.ofNat 32 v.val := by
      show (U5 U (Proc.devRef .tc main_v53) : S8192.Idx → BitVec 32) (ix1 v) = _
      rw [U5_keep U _ (by decide), U4_keep U _ (by decide)]
      exact h53 v
    rw [e53, c0_20 (U4 U)]
    exact fdivW_small v.val 20 v.isLt (by decide) (by decide)
  rw [e55, c1_20 (U6 U), remDiv_20]
  exact fremW_small (v.val / 20) 20 (Nat.lt_of_le_of_lt (Nat.div_le_self _ _) v.isLt) (by decide) (by decide)

omit hc in
/-- The third digit. -/
theorem digit2 (v : Fin 8192) : i57 (U10 U) (ix1 v) = BitVec.ofNat 32 (v.val % 20) := by
  show (StableHlo.after hostOps2_7 (U9 U) (Proc.devRef .tc main_v57) : S8192.Idx → BitVec 32) (ix1 v) = _
  refine (call3_v57 (U9 U) v).trans ?_
  have e53 : i53 (U9 U) (ix1 v) = BitVec.ofNat 32 v.val := by
    show (U9 U (Proc.devRef .tc main_v53) : S8192.Idx → BitVec 32) (ix1 v) = _
    rw [U9_keep U _ (by decide), U8_keep U _ (by decide), U7_keep U _ (by decide), U6_keep U _ (by decide),
      U5_keep U _ (by decide), U4_keep U _ (by decide)]
    exact h53 v
  rw [e53, c2_20 (U8 U), remDiv_20]
  exact fremW_small v.val 20 v.isLt (by decide) (by decide)

end Cert.TailTable
-- ==== Proof.TailTableAsm.lean ====
/-
  The last stretch of the table's host operations: the cell corners `digit · h`, the means moved back
  (`mean + corner + cloud corner`), the nine second moments placed symmetrically, and the table's twelve entries side by side.
  Stated over any buffer contents `W` before the stretch: entry `k` of cell number `v` of cloud `b` is, for `k < 3`,
  `W's mean (b, v, k) + digit word k of v, read signed, times h + W's cloud corner (b, k)`, and for `k ≥ 3` W's second moment
  number `sym9 (k − 3)`.
-/
import proofs.«134341_j34419867910943_2_alg».proof.Proof.TailTableCat
import proofs.«134341_j34419867910943_2_alg».proof.Proof.TailTableLayout
import proofs.«134341_j34419867910943_2_alg».proof.Proof.Spec

set_option maxRecDepth 4000

noncomputable section
namespace Cert.TailTable
open Idealize.ShloMosaic Idealize.ShloMosaic.ValueIdx Idealize.ShloMosaic.TcCoe
open Cert.KernelIdeal Cert.KernelIdeal.Gen

/-- The stretch in five pieces: the digit columns; their concatenation up to the means; the nine columns of moments; their
    concatenation; the table. -/
abbrev opsE1 : List (HloOp τ sig (Elt Ideal)) := hostOps2_8.take 3
abbrev opsE2 : List (HloOp τ sig (Elt Ideal)) := (hostOps2_8.drop 3).take 10
abbrev opsE3 : List (HloOp τ sig (Elt Ideal)) := (hostOps2_8.drop 13).take 27
abbrev opsE4 : List (HloOp τ sig (Elt Ideal)) := (hostOps2_8.drop 40).take 1
abbrev opsE5 : List (HloOp τ sig (Elt Ideal)) := hostOps2_8.drop 41

theorem hostOps2_8_split :
    (hostOps2_8 : List (HloOp τ sig (Elt Ideal))) = opsE1 ++ (opsE2 ++ (opsE3 ++ (opsE4 ++ opsE5))) := rfl

variable (W : Valuation τ sig (Elt Ideal))

/-- What a valuation holds in the buffers the stretch reads and passes along. -/
abbrev w12 : S8x8192x3.Idx → EReal := W (Proc.devRef .tc main_v12)
abbrev w52 : S8x8192x6.Idx → EReal := W (Proc.devRef .tc main_v52)
abbrev w0 : S8x1x3.Idx → EReal := W (Proc.devRef .tc main_v0)
abbrev w69 : S8x8192x3.Idx → EReal := W (Proc.devRef .tc main_v69)
abbrev w97 : S8x8192x9.Idx → EReal := W (Proc.devRef .tc main_v97)
/-- The three digit vectors, and the three digit columns. -/
abbrev wdig : Fin 3 → S8192.Idx → BitVec 32 :=
  ![W (Proc.devRef .tc main_v54), W (Proc.devRef .tc main_v56), W (Proc.devRef .tc main_v57)]
abbrev wcol : Fin 3 → S8192x1.Idx → BitVec 32 :=
  ![W (Proc.devRef .tc main_v58), W (Proc.devRef .tc main_v59), W (Proc.devRef .tc main_v60)]
/-- The nine moment columns. -/
abbrev wmom : Fin 9 → S8x8192x1.Idx → EReal :=
  ![W (Proc.devRef .tc main_v88), W (Proc.devRef .tc main_v89), W (Proc.devRef .tc main_v90), W (Proc.devRef .tc main_v91),
    W (Proc.devRef .tc main_v92), W (Proc.devRef .tc main_v93), W (Proc.devRef .tc main_v94), W (Proc.devRef .tc main_v95),
    W (Proc.devRef .tc main_v96)]

/-! ## The digit columns -/

theorem E1_col (v : Fin 8192) (a : Fin 3) : wcol (StableHlo.after opsE1 W) a (ix2 v 0) = wdig W a (ix1 v) := by
  match a with
  | ⟨0, _⟩ =>
    show (StableHlo.after opsE1 W (Proc.devRef .tc main_v58) : S8192x1.Idx → BitVec 32) (ix2 v 0) = _
    simp only [opsE1, hostOps2_8, List.take_succ_cons, List.take_zero]
    table_results
    exact col_apply _ _ v 0
  | ⟨1, _⟩ =>
    show (StableHlo.after opsE1 W (Proc.devRef .tc main_v59) : S8192x1.Idx → BitVec 32) (ix2 v 0) = _
    simp only [opsE1, hostOps2_8, List.take_succ_cons, List.take_zero]
    table_results
    exact col_apply _ _ v 0
  | ⟨2, _⟩ =>
    show (StableHlo.after opsE1 W (Proc.devRef .tc main_v60) : S8192x1.Idx → BitVec 32) (ix2 v 0) = _
    simp only [opsE1, hostOps2_8, List.take_succ_cons, List.take_zero]
    table_results
    exact col_apply _ _ v 0

theorem E1_keep12 : StableHlo.after opsE1 W (Proc.devRef .tc main_v12) = W (Proc.devRef .tc main_v12) := by
  simp only [opsE1, hostOps2_8, List.take_succ_cons, List.take_zero]
  table_results
theorem E1_keep52 : StableHlo.after opsE1 W (Proc.devRef .tc main_v52) = W (Proc.devRef .tc main_v52) := by
  simp only [opsE1, hostOps2_8, List.take_succ_cons, List.take_zero]
  table_results
theorem E1_keep0 : StableHlo.after opsE1 W (Proc.devRef .tc main_v0) = W (Proc.devRef .tc main_v0) := by
  simp only [opsE1, hostOps2_8, List.take_succ_cons, List.take_zero]
  table_results

/-! ## The means moved back -/

theorem E2_v69 (b : Fin 8) (v : Fin 8192) (a : Fin 3) :
    w69 (StableHlo.after opsE2 W) (ix3 b v a)
      = w12 W (ix3 b v a) + (((wcol W a (ix2 v 0)).toInt : ℝ) : EReal) * Spec.h + w0 W (ix3 b 0 a) := by
  show (StableHlo.after opsE2 W (Proc.devRef .tc main_v69) : S8x8192x3.Idx → EReal) (ix3 b v a) = _
  simp only [opsE2, hostOps2_8, List.drop_succ_cons, List.drop_zero, List.take_succ_cons, List.take_zero]
  table_results
  refine congrArg₂ (fun s t : EReal => s + t) (congrArg₂ (fun s t : EReal => s + t) rfl ?_) (cloud_apply _ _ b v a)
  refine (rows_apply _ _ _ b v a).trans ?_
  refine congrArg₂ (fun s t : EReal => s * t) ?_ (scalar_apply _ _ _)
  refine congrArg (fun w : BitVec 32 => ((w.toInt : ℝ) : EReal)) ?_
  match a with
  | ⟨0, _⟩ => exact catCol2_apply _ _ v _ (by show (0 : Nat) < 3; omega) _ rfl rfl
  | ⟨1, _⟩ => exact catCol2_apply _ _ v _ (by show (1 : Nat) < 3; omega) _ rfl rfl
  | ⟨2, _⟩ => exact catCol2_apply _ _ v _ (by show (2 : Nat) < 3; omega) _ rfl rfl

theorem E2_keep52 : StableHlo.after opsE2 W (Proc.devRef .tc main_v52) = W (Proc.devRef .tc main_v52) := by
  simp only [opsE2, hostOps2_8, List.drop_succ_cons, List.drop_zero, List.take_succ_cons, List.take_zero]
  table_results

/-! ## The nine moment columns -/

theorem E3_keep69 : StableHlo.after opsE3 W (Proc.devRef .tc main_v69) = W (Proc.devRef .tc main_v69) := by
  simp only [opsE3, hostOps2_8, List.drop_succ_cons, List.drop_zero, List.take_succ_cons, List.take_zero]
  table_results

theorem E3_mom (b : Fin 8) (v : Fin 8192) (r : Fin 9) :
    wmom (StableHlo.after opsE3 W) r (ix3 b v 0) = w52 W (ix3 b v (Spec.sym9 r)) := by
  match r with
  | ⟨0, _⟩ =>
    show (StableHlo.after opsE3 W (Proc.devRef .tc main_v88) : S8x8192x1.Idx → EReal) (ix3 b v 0) = _
    simp only [opsE3, hostOps2_8, List.drop_succ_cons, List.drop_zero, List.take_succ_cons, List.take_zero]
    table_results
    exact (add1_apply _ _ b v 0).trans (pick_apply 0 _ _ _ b v _ rfl)
  | ⟨1, _⟩ =>
    show (StableHlo.after opsE3 W (Proc.devRef .tc main_v89) : S8x8192x1.Idx → EReal) (ix3 b v 0) = _
    simp only [opsE3, hostOps2_8, List.drop_succ_cons, List.drop_zero, List.take_succ_cons, List.take_zero]
    table_results
    exact (add1_apply _ _ b v 0).trans (pick_apply 1 _ _ _ b v _ rfl)
  | ⟨2, _⟩ =>
    show (StableHlo.after opsE3 W (Proc.devRef .tc main_v90) : S8x8192x1.Idx → EReal) (ix3 b v 0) = _
    simp only [opsE3, hostOps2_8, List.drop_succ_cons, List.drop_zero, List.take_succ_cons, List.take_zero]
    table_results
    exact (add1_apply _ _ b v 0).trans (pick_apply 2 _ _ _ b v _ rfl)
  | ⟨3, _⟩ =>
    show (StableHlo.after opsE3 W (Proc.devRef .tc main_v91) : S8x8192x1.Idx → EReal) (ix3 b v 0) = _
    simp only [opsE3, hostOps2_8, List.drop_succ_cons, List.drop_zero, List.take_succ_cons, List.take_zero]
    table_results
    exact (add1_apply _ _ b v 0).trans (pick_apply 1 _ _ _ b v _ rfl)
  | ⟨4, _⟩ =>
    show (StableHlo.after opsE3 W (Proc.devRef .tc main_v92) : S8x8192x1.Idx → EReal) (ix3 b v 0) = _
    simp only [opsE3, hostOps2_8, List.drop_succ_cons, List.drop_zero, List.take_succ_cons, List.take_zero]
    table_results
    exact (add1_apply _ _ b v 0).trans (pick_apply 3 _ _ _ b v _ rfl)
  | ⟨5, _⟩ =>
    show (StableHlo.after opsE3 W (Proc.devRef .tc main_v93) : S8x8192x1.Idx → EReal) (ix3 b v 0) = _
    simp only [opsE3, hostOps2_8, List.drop_succ_cons, List.drop_zero, List.take_succ_cons, List.take_zero]
    table_results
    exact (add1_apply _ _ b v 0).trans (pick_apply 4 _ _ _ b v _ rfl)
  | ⟨6, _⟩ =>
    show (StableHlo.after opsE3 W (Proc.devRef .tc main_v94) : S8x8192x1.Idx → EReal) (ix3 b v 0) = _
    simp only [opsE3, hostOps2_8, List.drop_succ_cons, List.drop_zero, List.take_succ_cons, List.take_zero]
    table_results
    exact (add1_apply _ _ b v 0).trans (pick_apply 2 _ _ _ b v _ rfl)
  | ⟨7, _⟩ =>
    show (StableHlo.after opsE3 W (Proc.devRef .tc main_v95) : S8x8192x1.Idx → EReal) (ix3 b v 0) = _
    simp only [opsE3, hostOps2_8, List.drop_succ_cons, List.drop_zero, List.take_succ_cons, List.take_zero]
    table_results
    exact (add1_apply _ _ b v 0).trans (pick_apply 4 _ _ _ b v _ rfl)
  | ⟨8, _⟩ =>
    show (StableHlo.after opsE3 W (Proc.devRef .tc main_v96) : S8x8192x1.Idx → EReal) (ix3 b v 0) = _
    simp only [opsE3, hostOps2_8, List.drop_succ_cons, List.drop_zero, List.take_succ_cons, List.take_zero]
    table_results
    exact (add1_apply _ _ b v 0).trans (pick_apply 5 _ _ _ b v _ rfl)

/-! ## The nine moments side by side, and the table -/

theorem E4_keep69 : StableHlo.after opsE4 W (Proc.devRef .tc main_v69) = W (Proc.devRef .tc main_v69) := by
  simp only [opsE4, hostOps2_8, List.drop_succ_cons, List.drop_zero, List.take_succ_cons, List.take_zero]
  table_results

theorem E4_v97 (b : Fin 8) (v : Fin 8192) (r : Fin 9) :
    w97 (StableHlo.after opsE4 W) (ix3 b v r) = wmom W r (ix3 b v 0) := by
  show (StableHlo.after opsE4 W (Proc.devRef .tc main_v97) : S8x8192x9.Idx → EReal) (ix3 b v r) = _
  simp only [opsE4, hostOps2_8, List.drop_succ_cons, List.drop_zero, List.take_succ_cons, List.take_zero]
  table_results
  match r with
  | ⟨0, _⟩ => exact catCol_apply _ _ b v _ (by show (0 : Nat) < 9; omega) _ rfl rfl
  | ⟨1, _⟩ => exact catCol_apply _ _ b v _ (by show (1 : Nat) < 9; omega) _ rfl rfl
  | ⟨2, _⟩ => exact catCol_apply _ _ b v _ (by show (2 : Nat) < 9; omega) _ rfl rfl
  | ⟨3, _⟩ => exact catCol_apply _ _ b v _ (by show (3 : Nat) < 9; omega) _ rfl rfl
  | ⟨4, _⟩ => exact catCol_apply _ _ b v _ (by show (4 : Nat) < 9; omega) _ rfl rfl
  | ⟨5, _⟩ => exact catCol_apply _ _ b v _ (by show (5 : Nat) < 9; omega) _ rfl rfl
  | ⟨6, _⟩ => exact catCol_apply _ _ b v _ (by show (6 : Nat) < 9; omega) _ rfl rfl
  | ⟨7, _⟩ => exact catCol_apply _ _ b v _ (by show (7 : Nat) < 9; omega) _ rfl rfl
  | ⟨8, _⟩ => exact catCol_apply _ _ b v _ (by show (8 : Nat) < 9; omega) _ rfl rfl

theorem E5_left (b : Fin 8) (v : Fin 8192) (k : Fin 12) (hk : k.val < 3) :
    (StableHlo.after opsE5 W (Proc.devRef .tc main_v98) : S8x8192x12.Idx → EReal) (ix3 b v k) = w69 W (ix3 b v ⟨k.val, hk⟩) := by
  simp only [opsE5, hostOps2_8, List.drop_succ_cons, List.drop_zero]
  table_results
  exact cat12_left _ _ _ b v k hk
theorem E5_right (b : Fin 8) (v : Fin 8192) (k : Fin 12) (hk : 3 ≤ k.val) :
    (StableHlo.after opsE5 W (Proc.devRef .tc main_v98) : S8x8192x12.Idx → EReal) (ix3 b v k)
      = w97 W (ix3 b v ⟨k.val - 3, by omega⟩) := by
  simp only [opsE5, hostOps2_8, List.drop_succ_cons, List.drop_zero]
  table_results
  exact cat12_right _ _ _ b v k hk

/-! ## The stretch as a whole -/

theorem after_hostOps2_8 : StableHlo.after hostOps2_8 W
    = StableHlo.after opsE5 (StableHlo.after opsE4 (StableHlo.after opsE3 (StableHlo.after opsE2 (StableHlo.after opsE1 W)))) := by
  rw [hostOps2_8_split, StableHlo.after_append, StableHlo.after_append, StableHlo.after_append, StableHlo.after_append]

/-- A mean entry of the table. -/
theorem table_mean (b : Fin 8) (v : Fin 8192) (k : Fin 12) (hk : k.val < 3) :
    (StableHlo.after hostOps2_8 W (Proc.devRef .tc main_v98) : S8x8192x12.Idx → EReal) (ix3 b v k)
      = w12 W (ix3 b v ⟨k.val, hk⟩) + (((wdig W ⟨k.val, hk⟩ (ix1 v)).toInt : ℝ) : EReal) * Spec.h + w0 W (ix3 b 0 ⟨k.val, hk⟩) := by
  rw [after_hostOps2_8]
  refine (E5_left _ b v k hk).trans ?_
  refine (congrFun (E4_keep69 _) _).trans ((congrFun (E3_keep69 _) _).trans ?_)
  refine (E2_v69 _ b v ⟨k.val, hk⟩).trans ?_
  refine congrArg₂ (fun s t : EReal => s + t)
    (congrArg₂ (fun s t : EReal => s + t) (congrFun (E1_keep12 W) _) ?_) (congrFun (E1_keep0 W) _)
  exact congrArg (fun w : BitVec 32 => ((w.toInt : ℝ) : EReal) * Spec.h) (E1_col W v ⟨k.val, hk⟩)

/-- A moment entry of the table. -/
theorem table_mom (b : Fin 8) (v : Fin 8192) (k : Fin 12) (hk : 3 ≤ k.val) :
    (StableHlo.after hostOps2_8 W (Proc.devRef .tc main_v98) : S8x8192x12.Idx → EReal) (ix3 b v k)
      = w52 W (ix3 b v (Spec.sym9 ⟨k.val - 3, by omega⟩)) := by
  rw [after_hostOps2_8]
  refine (E5_right _ b v k hk).trans ?_
  refine (E4_v97 _ b v _).trans ?_
  refine (E3_mom _ b v _).trans ?_
  exact (congrFun (E2_keep52 _) _).trans (congrFun (E1_keep52 W) _)

end Cert.TailTable
-- ==== Proof.TailTable.lean ====
/-
  The kernel program's table. After the two kernels have left the per-cloud corners `minc` and the per-cell histogram `Khist`,
  the host operations up to the table compute, for cloud `b`, cell number `v` and entry `k`:
  for `k < 3` the mean of the cell-local coordinate moved back, `Khist (k+1) / max (Khist 0) 1 + digit k v · h + minc b k`;
  for `k ≥ 3` the second moment `Khist (q+4) / max (Khist 0) 1 − mean_i · mean_j` with `q = sym9 (k − 3)`, `(i, j) = pairs6 q`.
  This is `Spec.distsAt`. The buffers the later stretches leave alone carry the table to the end of the program.
-/
import proofs.«134341_j34419867910943_2_alg».proof.Proof.TailTableHist
import proofs.«134341_j34419867910943_2_alg».proof.Proof.TailTableInt
import proofs.«134341_j34419867910943_2_alg».proof.Proof.TailTableAsm

set_option maxRecDepth 4000

noncomputable section
namespace Cert.TailTable
open Idealize.ShloMosaic Idealize.ShloMosaic.ValueIdx Idealize.ShloMosaic.TcCoe
open Cert.KernelIdeal Cert.KernelIdeal.Gen

/-! ## The histogram's quotients are the specification's -/

section Quotients
variable (V : Valuation τ sig (Elt Ideal)) (x : Spec.SX.Idx → EReal) (hH : histOf V = Spec.histArr x)
include hH

theorem histOf_eq (b : Fin 8) (f : Fin 10) (v : Fin 8192) : histOf V (hidx b f v) = Spec.Khist x b f v.val := by
  rw [hH]
  show Spec.Khist x b f (v.val / 128 * 128 + v.val % 128) = _
  rw [Nat.div_add_mod']

theorem cntOf_eq (b : Fin 8) (v : Fin 8192) : cntOf V b v = Spec.Kcntc x b v.val := by
  unfold cntOf Spec.Kcntc
  rw [histOf_eq V x hH]

theorem meanOf_eq (b : Fin 8) (v : Fin 8192) (a : Fin 3) : meanOf V b v a = Spec.KmeanD x b v.val a := by
  unfold meanOf Spec.KmeanD
  rw [histOf_eq V x hH, cntOf_eq V x hH]

theorem prodOf_eq (b : Fin 8) (v : Fin 8192) (q : Fin 6) :
    prodOf V b v q = Ideal.div (Spec.Khist x b ⟨q.val + 4, by omega⟩ v.val) (Spec.Kcntc x b v.val) := by
  unfold prodOf
  rw [histOf_eq V x hH, cntOf_eq V x hH]

end Quotients

/-! ## The table -/

variable (m : (ℓ : Loc nD τ sig) → Buf (Elt Ideal) ℓ) (outs : Outs (F := Ideal)) (c : Dev nD)

/-- The later stretches leave the table alone. -/
theorem V16_table : V16 m outs c (Proc.devRef .tc main_v98)
    = StableHlo.after hostOps2_8 (V10 m outs c) (Proc.devRef .tc main_v98) :=
  (V16_of m outs c main_v98 (by decide)).trans ((V15_of m outs c main_v98 (by decide)).trans
    ((V14_of m outs c main_v98 (by decide)).trans ((V13_of m outs c main_v98 (by decide)).trans
      (V12_of m outs c main_v98 (by decide)))))

/-- The seven digit stretches leave the means, the moments and the cloud corners alone. -/
theorem V10_v12 : V10 m outs c (Proc.devRef .tc main_v12) = V3 m outs c (Proc.devRef .tc main_v12) :=
  U10_keep_all (V3 m outs c) main_v12 (by decide) (by decide) (by decide) (by decide) (by decide) (by decide) (by decide)
theorem V10_v52 : V10 m outs c (Proc.devRef .tc main_v52) = V3 m outs c (Proc.devRef .tc main_v52) :=
  U10_keep_all (V3 m outs c) main_v52 (by decide) (by decide) (by decide) (by decide) (by decide) (by decide) (by decide)
theorem V10_v0 : V10 m outs c (Proc.devRef .tc main_v0) = outs 1 main_v0 c :=
  (U10_keep_all (V3 m outs c) main_v0 (by decide) (by decide) (by decide) (by decide) (by decide) (by decide) (by decide)).trans
    ((V3_of m outs c main_v0 (by decide)).trans ((V2_of m outs c main_v0 (by decide)).trans (Function.update_self ..)))
theorem V2_v1 : V2 m outs c (Proc.devRef .tc main_v1) = outs 2 main_v1 c := Function.update_self ..

/-- The general form: for any point array `x` whose corners and histogram the two kernels left. -/
theorem table_eq_of (x : Spec.SX.Idx → EReal)
    (h0 : (outs 1 main_v0 c : Spec.SM.Idx → EReal) = Spec.mincArr x)
    (h1 : (outs 2 main_v1 c : Spec.SH.Idx → EReal) = Spec.histArr x) :
    (V16 m outs c (Proc.devRef .tc main_v98) : S8x8192x12.Idx → EReal)
      = fun j : S8x8192x12.Idx => Spec.distsAt x (j 0) (j 1).val (j 2) := by
  have hH : histOf (V2 m outs c) = Spec.histArr x := (V2_v1 m outs c).trans h1
  funext j
  obtain ⟨b, v, k, rfl⟩ : ∃ (b : Fin 8) (v : Fin 8192) (k : Fin 12), j = ix3 b v k := ⟨j 0, j 1, j 2, eq_ix3 j⟩
  show (V16 m outs c (Proc.devRef .tc main_v98) : S8x8192x12.Idx → EReal) (ix3 b v k) = Spec.distsAt x b v.val k
  rw [V16_table]
  by_cases hk : k.val < 3
  · refine (table_mean (V10 m outs c) b v k hk).trans ?_
    unfold Spec.distsAt
    rw [dif_pos hk]
    unfold Spec.Kmean
    refine congrArg₂ (fun s t : EReal => s + t) (congrArg₂ (fun s t : EReal => s + t) ?_ ?_) ?_
    · -- the mean of the cell-local coordinate
      refine (congrFun (V10_v12 m outs c) _).trans ?_
      exact (hist_v12 (V2 m outs c) b v ⟨k.val, hk⟩).trans (meanOf_eq _ x hH b v _)
    · -- the cell corner
      refine congrArg (fun t : EReal => t * Spec.h) ?_
      have h53 : ∀ u : Fin 8192, i53 (V3 m outs c) (ix1 u) = BitVec.ofNat 32 u.val := fun u => hist_v53 (V2 m outs c) u
      have hc : sC (V3 m outs c) ix0 = 400#32 := hist_c (V2 m outs c)
      have hd : ((wdig (V10 m outs c) ⟨k.val, hk⟩ (ix1 v)).toInt : ℤ) = ((Spec.digit ⟨k.val, hk⟩ v.val : ℕ) : ℤ) := by
        match k, hk with
        | ⟨0, _⟩, _ =>
          show ((i54 (U10 (V3 m outs c)) (ix1 v)).toInt : ℤ) = _
          rw [digit0 (V3 m outs c) h53 hc v]
          exact toInt_small _ (Nat.lt_of_le_of_lt (Nat.div_le_self _ _) v.isLt)
        | ⟨1, _⟩, _ =>
          show ((i56 (U10 (V3 m outs c)) (ix1 v)).toInt : ℤ) = _
          rw [digit1 (V3 m outs c) h53 v]
          exact toInt_small _ (Nat.lt_of_le_of_lt (Nat.mod_le _ _) (Nat.lt_of_le_of_lt (Nat.div_le_self _ _) v.isLt))
        | ⟨2, _⟩, _ =>
          show ((i57 (U10 (V3 m outs c)) (ix1 v)).toInt : ℤ) = _
          rw [digit2 (V3 m outs c) h53 v]
          exact toInt_small _ (Nat.lt_of_le_of_lt (Nat.mod_le _ _) v.isLt)
      rw [hd, Int.cast_natCast]
    · -- the cloud corner
      refine (congrFun (V10_v0 m outs c) _).trans ?_
      rw [h0]
      rfl
  · have hk3 : 3 ≤ k.val := Nat.le_of_not_lt hk
    refine (table_mom (V10 m outs c) b v k hk3).trans ?_
    unfold Spec.distsAt
    rw [dif_neg hk]
    unfold Spec.Kcov6
    refine (congrFun (V10_v52 m outs c) _).trans ?_
    refine (hist_v52 (V2 m outs c) b v _).trans ?_
    rw [prodOf_eq _ x hH, meanOf_eq _ x hH, meanOf_eq _ x hH]

/-- THE TABLE: what the kernel program holds in its table buffer at the end, for the launch's point array. -/
theorem table_eq
    (h0 : outs 1 main_v0 c = Cert.Spec.mincArr (m ((c : Thread nD τ).loc main_arg0)))
    (h1 : outs 2 main_v1 c = Cert.Spec.histArr (m ((c : Thread nD τ).loc main_arg0))) :
    V16 m outs c (Proc.devRef .tc main_v98)
      = fun j : S8x8192x12.Idx => Cert.Spec.distsAt (m ((c : Thread nD τ).loc main_arg0)) (j 0) (j 1).val (j 2) :=
  table_eq_of m outs c (m ((c : Thread nD τ).loc main_arg0)) h0 h1

end Cert.TailTable
-- ==== Proof.TailLookupOps.lean ====
/-
  The last six stretches of the kernel program's host tail, each as one function of the arrays it reads.

  A sampled point is read out of the cloud by a gather along the point axis (`take0`), moved to the cloud's corner,
  divided by the cell size, floored and converted (`precell`), brought into `0 … 19` (`clipf`), the three cells read as
  digits in base 20 and spread over the twelve result entries (`flatIdx`), and the table of per-cell results is read
  at that cell number by a second gather (`take1`). Both gathers first add the axis length to a negative index and
  replace a row whose index is still outside the axis by a fill constant.
-/
import proofs.«134341_j34419867910943_2_alg».proof.Proof.Gen.KernelIdeal.Regions
import proofs.«134341_j34419867910943_2_alg».proof.Proof.Spec
import Idealize.ShloMosaic.Lib.ReduceAll

set_option maxRecDepth 1568

noncomputable section

namespace Cert.TailLookup

open Idealize.ShloMosaic Idealize.ShloMosaic.TcCoe
open Cert.KernelIdeal Cert.KernelIdeal.Gen

/-! ## The gather of the sampled points -/

/-- A negative index counts from the end of the point axis. -/
def nidx0 (i : IVec S8x4096x1 32) : IVec S8x4096x1 32 :=
  select (cmpi .slt i (broadcastInDim S8x4096x1 ![] bcast_S_S8x4096x1 (constantI S_ 32 0#32)))
    (addi i (broadcastInDim S8x4096x1 ![] bcast_S_S8x4096x1 (constantI S_ 32 262144#32))) i

/-- Whether the index, so normalised, names a point. -/
def mask0 (i4 : IVec S8x4096x1 32) : IVec S8x4096 1 :=
  Host.reduce IntOp.andi
    (andi (cmpi .sge i4 (broadcastInDim S8x4096x1 ![] bcast_S_S8x4096x1 (constantI S_ 32 0#32)))
      (cmpi .sle i4 (broadcastInDim S8x4096x1 ![0, 1, 2] bcast_S1x1x1_S8x4096x1_0_1_2
        (broadcastInDim S1x1x1 ![2] bcast_S1_S1x1x1_2 (constantI S1 32 262143#32)))))
    (constantI S_ 1 1#1) reducesTo_S8x4096x1_S8x4096_d2 h_S_

/-- The sampled points: the gathered rows where the index names a point, the fill constant elsewhere. -/
def take0 (x : FVec Ideal S8x262144x3 .f32) (i : IVec S8x4096x1 32) : FVec Ideal S8x4096x3 .f32 :=
  select (broadcastInDim S8x4096x3 ![0, 1] bcast_S8x4096_S8x4096x3_0_1 (mask0 (nidx0 i)))
    (Host.gather gather_S8x262144x3_S8x4096x1_S8x4096x3_2_1_0_0_1_2_113 x (nidx0 i))
    (broadcastInDim S8x4096x3 ![] bcast_S_S8x4096x3 (constant (F := Ideal) S_ .f32 0x7FC00000#32))

set_option maxRecDepth 100000 in
set_option maxHeartbeats 4000000 in
theorem s9 (V : Valuation τ sig (Elt Ideal)) :
    StableHlo.after (hostOps2_9 (F := Ideal)) V (Proc.devRef .tc main_v100)
      = take0 (V (Proc.devRef .tc main_arg0)) (V (Proc.devRef .tc main_v99)) := by
  dsimp only [hostOps2_9]
  after_results_simp
  unfold take0 mask0 nidx0
  rfl

/-! ## The cells -/

/-- Point minus corner, over the cell size, floored, as a 32-bit integer. -/
def precell (p : FVec Ideal S8x4096x3 .f32) (mn : FVec Ideal S8x1x3 .f32) : IVec S8x4096x3 32 :=
  fptosi 32 (Host.floor (Host.divf (subf p (broadcastInDim S8x4096x3 ![0, 1, 2] bcast_S8x1x3_S8x4096x3_0_1_2 mn))
    (broadcastInDim S8x4096x3 ![] bcast_S_S8x4096x3 (constant (F := Ideal) S_ .f32 0x3D4CCCCD#32))))

theorem s10 (V : Valuation τ sig (Elt Ideal)) :
    StableHlo.after (hostOps2_10 (F := Ideal)) V (Proc.devRef .tc main_v106)
      = precell (V (Proc.devRef .tc main_v100)) (V (Proc.devRef .tc main_v0)) := by
  dsimp only [hostOps2_10]
  after_results_simp
  rfl

theorem s10_lo (V : Valuation τ sig (Elt Ideal)) :
    StableHlo.after (hostOps2_10 (F := Ideal)) V (Proc.devRef .tc main_c_5) = constantI S_ 32 0#32 := by
  dsimp only [hostOps2_10]
  after_results_simp

theorem s10_hi (V : Valuation τ sig (Elt Ideal)) :
    StableHlo.after (hostOps2_10 (F := Ideal)) V (Proc.devRef .tc main_c_6) = constantI S_ 32 19#32 := by
  dsimp only [hostOps2_10]
  after_results_simp

/-- Brought into `lo … hi`. -/
def clipf (a : IVec S8x4096x3 32) (lo hi : IVec S_ 32) : IVec S8x4096x3 32 :=
  minsi (broadcastInDim S8x4096x3 ![] bcast_S_S8x4096x3 hi) (maxsi (broadcastInDim S8x4096x3 ![] bcast_S_S8x4096x3 lo) a)

theorem s11 (V : Valuation τ sig (Elt Ideal)) :
    StableHlo.after (hostOps2_11 (F := Ideal)) V (Proc.devRef .tc main_v107)
      = clipf (V (Proc.devRef .tc main_v106)) (V (Proc.devRef .tc main_c_5)) (V (Proc.devRef .tc main_c_6)) := by
  dsimp only [hostOps2_11]
  after_results_simp
  rfl

/-! ## The cell number -/

/-- The cells along axis 0, 1, 2 of every sampled point. -/
def comp0 (c : IVec S8x4096x3 32) : IVec S8x4096 32 :=
  shapeCast S8x4096 (extractStridedSlice S8x4096x1 ![0, 0, 0] c slices_S8x4096x3_S8x4096x1_0_0_0) shapeCasts_S8x4096x1_S8x4096
def comp1 (c : IVec S8x4096x3 32) : IVec S8x4096 32 :=
  shapeCast S8x4096 (extractStridedSlice S8x4096x1 ![0, 0, 1] c slices_S8x4096x3_S8x4096x1_0_0_1) shapeCasts_S8x4096x1_S8x4096
def comp2 (c : IVec S8x4096x3 32) : IVec S8x4096 32 :=
  shapeCast S8x4096 (extractStridedSlice S8x4096x1 ![0, 0, 2] c slices_S8x4096x3_S8x4096x1_0_0_2) shapeCasts_S8x4096x1_S8x4096

/-- The three cells read as digits in base 20. -/
def flat2 (c : IVec S8x4096x3 32) : IVec S8x4096 32 :=
  addi (muli (addi (muli (comp0 c) (broadcastInDim S8x4096 ![] bcast_S_S8x4096 (constantI S_ 32 20#32))) (comp1 c))
    (broadcastInDim S8x4096 ![] bcast_S_S8x4096 (constantI S_ 32 20#32))) (comp2 c)

/-- The cell number, once per result entry. -/
def flatIdx (c : IVec S8x4096x3 32) : IVec S8x4096x12 32 :=
  broadcastInDim S8x4096x12 ![0, 1, 2] bcast_S8x4096x1_S8x4096x12_0_1_2
    (broadcastInDim S8x4096x1 ![0, 1] bcast_S8x4096_S8x4096x1_0_1 (flat2 c))

theorem s12 (V : Valuation τ sig (Elt Ideal)) :
    StableHlo.after (hostOps2_12 (F := Ideal)) V (Proc.devRef .tc main_v121) = flatIdx (V (Proc.devRef .tc main_v107)) := by
  dsimp only [hostOps2_12]
  after_results_simp
  rfl

/-! ## The gather of the table -/

/-- A negative row index counts from the end of the table. -/
def nidx1 (i : IVec S8x4096x12 32) : IVec S8x4096x12x1 32 :=
  shapeCast S8x4096x12x1
    (select (cmpi .slt i (broadcastInDim S8x4096x12 ![] bcast_S_S8x4096x12 (constantI S_ 32 0#32)))
      (addi i (broadcastInDim S8x4096x12 ![] bcast_S_S8x4096x12 (constantI S_ 32 8192#32))) i)
    shapeCasts_S8x4096x12_S8x4096x12x1

/-- Whether the row index, so normalised, names a row. -/
def mask1 (i5 : IVec S8x4096x12x1 32) : IVec S8x4096x12 1 :=
  Host.reduce IntOp.andi
    (andi (cmpi .sge i5 (broadcastInDim S8x4096x12x1 ![] bcast_S_S8x4096x12x1 (constantI S_ 32 0#32)))
      (cmpi .sle i5 (broadcastInDim S8x4096x12x1 ![0, 1, 2, 3] bcast_S1x1x1x1_S8x4096x12x1_0_1_2_3
        (broadcastInDim S1x1x1x1 ![3] bcast_S1_S1x1x1x1_3 (constantI S1 32 8191#32)))))
    (constantI S_ 1 1#1) reducesTo_S8x4096x12x1_S8x4096x12_d3 h_S_

/-- The table read at the row indices: the gathered entries where the index names a row, the fill constant elsewhere. -/
def take1 (x : FVec Ideal S8x8192x12 .f32) (i : IVec S8x4096x12 32) : FVec Ideal S8x4096x12 .f32 :=
  select (mask1 (nidx1 i))
    (Host.gather gather_S8x8192x12_S8x4096x12x1_S8x4096x12_n_1_02_02_1_3_111 x (nidx1 i))
    (broadcastInDim S8x4096x12 ![] bcast_S_S8x4096x12 (constant (F := Ideal) S_ .f32 0x7FC00000#32))

set_option maxRecDepth 100000 in
set_option maxHeartbeats 4000000 in
theorem s13 (V : Valuation τ sig (Elt Ideal)) :
    StableHlo.after (hostOps2_13 (F := Ideal)) V (Proc.devRef .tc main_v122)
      = take1 (V (Proc.devRef .tc main_v98)) (V (Proc.devRef .tc main_v121)) := by
  dsimp only [hostOps2_13]
  after_results_simp
  simp only [StableHlo.TRef.toBuf, StableHlo.TRef.ofBuf, cast_eq]
  unfold take1 mask1 nidx1
  rfl

end Cert.TailLookup

end
-- ==== Proof.TailLookupBits.lean ====
/-
  Facts about 32-bit words used by the lookup: signed comparisons of a word in a known range, the signed maximum and
  minimum read as integers, three digits below 20 combined in base 20 without wrapping, and a reduction by `and` of
  an array of ones.
-/
import Idealize.ShloMosaic.PureOps.Ideal
import Idealize.ShloMosaic.Lib.ReduceAll

namespace Cert.TailLookup

open Idealize.ShloMosaic

/-- A word that is non-negative read signed reads the same unsigned. -/
theorem toInt_eq_toNat {a : BitVec 32} (h : 0 ≤ a.toInt) : a.toInt = (a.toNat : ℤ) := by
  have hlt := a.isLt
  rw [BitVec.toInt_eq_toNat_cond] at h ⊢
  split_ifs at h ⊢ with hc
  · rfl
  · omega

theorem toNat_lt_of_toInt {a : BitVec 32} {n : ℕ} (h0 : 0 ≤ a.toInt) (h1 : a.toInt < n) : a.toNat < n := by
  have := toInt_eq_toNat h0
  omega

theorem toInt_toNat_eq {a : BitVec 32} (h : 0 ≤ a.toInt) : a.toInt.toNat = a.toNat := by
  have := toInt_eq_toNat h
  omega

/-! ## Comparisons -/

theorem cmpi_slt_zero {a : BitVec 32} (h : 0 ≤ a.toInt) : IntOp.cmpi .slt a 0#32 = 0#1 := by
  have e : a.slt 0#32 = false := by
    simp only [BitVec.slt, BitVec.toInt_zero, decide_eq_false_iff_not, not_lt]
    exact h
  simp only [IntOp.cmpi, e]
  rfl

theorem cmpi_sge_zero {a : BitVec 32} (h : 0 ≤ a.toInt) : IntOp.cmpi .sge a 0#32 = 1#1 := by
  have e : (0#32).sle a = true := by
    simp only [BitVec.sle, BitVec.toInt_zero, decide_eq_true_eq]
    exact h
  simp only [IntOp.cmpi, e]
  rfl

theorem cmpi_sle_of_le {a b : BitVec 32} (h : a.toInt ≤ b.toInt) : IntOp.cmpi .sle a b = 1#1 := by
  have e : a.sle b = true := by
    simp only [BitVec.sle, decide_eq_true_eq]
    exact h
  simp only [IntOp.cmpi, e]
  rfl

/-! ## Signed maximum and minimum -/

theorem toInt_maxsi (x y : BitVec 32) : (IntOp.maxsi x y).toInt = max x.toInt y.toInt := by
  unfold IntOp.maxsi
  by_cases h : y.slt x = true
  · rw [if_pos h]
    simp only [BitVec.slt, decide_eq_true_eq] at h
    omega
  · rw [if_neg h]
    simp only [BitVec.slt, decide_eq_true_eq, not_lt] at h
    omega

theorem toInt_minsi (x y : BitVec 32) : (IntOp.minsi x y).toInt = min x.toInt y.toInt := by
  unfold IntOp.minsi
  by_cases h : x.slt y = true
  · rw [if_pos h]
    simp only [BitVec.slt, decide_eq_true_eq] at h
    omega
  · rw [if_neg h]
    simp only [BitVec.slt, decide_eq_true_eq, not_lt] at h
    omega

/-! ## Three digits in base 20 -/

theorem flat_toNat {c0 c1 c2 : BitVec 32} (h0 : c0.toNat < 20) (h1 : c1.toNat < 20) (h2 : c2.toNat < 20) :
    (IntOp.addi (IntOp.muli (IntOp.addi (IntOp.muli c0 20#32) c1) 20#32) c2).toNat
      = (c0.toNat * 20 + c1.toNat) * 20 + c2.toNat := by
  simp only [IntOp.addi, IntOp.muli, BitVec.toNat_add, BitVec.toNat_mul, BitVec.toNat_ofNat]
  omega

/-- A word below `2 ^ 31` read unsigned is non-negative read signed, with the same value. -/
theorem toInt_of_toNat_lt {a : BitVec 32} (h : a.toNat < 2147483648) : a.toInt = (a.toNat : ℤ) := by
  rw [BitVec.toInt_eq_toNat_cond]
  split_ifs with hc
  · rfl
  · omega

/-! ## A reduction by `and` of ones -/

theorem foldl_andi_one {ι : Type} (f : ι → BitVec 1) (hf : ∀ n, f n = 1#1) :
    ∀ (l : List ι), l.foldl (fun r n => IntOp.andi r (f n)) 1#1 = 1#1
  | [] => rfl
  | a :: l => by
    rw [List.foldl_cons, hf a]
    exact foldl_andi_one f hf l

/-- A `stablehlo.reduce` by `and`, from one, of an array of ones is one everywhere. -/
theorem reduce_andi_one {s t u : Shape} {axes : List (Fin s.rank)} (x : s.Idx → BitVec 1) (init : u.Idx → BitVec 1)
    (h : s.ReducesTo axes t) (hu : 0 < u.numel) (hx : ∀ i, x i = 1#1) (hinit : ∀ k, init k = 1#1) (j : t.Idx) :
    Host.reduce IntOp.andi x init h hu j = 1#1 := by
  rw [Host.reduce_eq_foldl, hinit]
  exact foldl_andi_one x hx _

end Cert.TailLookup
-- ==== Proof.TailLookupCells.lean ====
/-
  The cells of a sampled point, read at an index: point minus corner over the cell size, floored, converted and brought
  into `0 … 19`, is the specification's `cellZ` read signed; the three cells combined in base 20 do not wrap, so the
  word's value is the specification's `flat3` of the cells.
-/
import proofs.«134341_j34419867910943_2_alg».proof.Proof.TailLookupOps
import proofs.«134341_j34419867910943_2_alg».proof.Proof.TailLookupBits
import Idealize.ShloMosaic.Lib.Pipeline.Value

set_option maxRecDepth 1568

noncomputable section

namespace Cert.TailLookup

open Idealize.ShloMosaic Idealize.ShloMosaic.TcCoe Idealize.ShloMosaic.ValueIdx
open Cert.KernelIdeal Cert.KernelIdeal.Gen

/-! ## Broadcasts read at an index -/

theorem bc_scalar3 {α : Type} (v : S_.Idx → α) (j : S8x4096x3.Idx) :
    broadcastInDim S8x4096x3 ![] bcast_S_S8x4096x3 v j = v ix0 :=
  broadcastInDim_apply (![] : Fin 0 → Fin 3) bcast_S_S8x4096x3 v j ix0 (fun a => a.elim0)

theorem bc_scalar2 {α : Type} (v : S_.Idx → α) (j : S8x4096.Idx) :
    broadcastInDim S8x4096 ![] bcast_S_S8x4096 v j = v ix0 :=
  broadcastInDim_apply (![] : Fin 0 → Fin 2) bcast_S_S8x4096 v j ix0 (fun a => a.elim0)

/-- The corner of cloud `b`, spread over its sampled points. -/
theorem bc_corner {α : Type} (mn : S8x1x3.Idx → α) (b : Fin 8) (m : Fin 4096) (a : Fin 3) :
    broadcastInDim S8x4096x3 ![0, 1, 2] bcast_S8x1x3_S8x4096x3_0_1_2 mn (ix3 b m a) = mn (ix3 b 0 a) :=
  broadcastInDim_apply _ bcast_S8x1x3_S8x4096x3_0_1_2 mn (ix3 b m a) (ix3 b 0 a)
    (fun a' => match a' with | ⟨0, _⟩ => rfl | ⟨1, _⟩ => rfl | ⟨2, _⟩ => rfl)

/-! ## The cells -/

theorem precell_apply (p : FVec Ideal S8x4096x3 .f32) (mn : FVec Ideal S8x1x3 .f32) (b : Fin 8) (m : Fin 4096) (a : Fin 3) :
    precell p mn (ix3 b m a)
      = Ideal.fptosi 32 (Ideal.liftRound Int.floor (Ideal.div (p (ix3 b m a) - mn (ix3 b 0 a)) Spec.h)) := by
  have e1 := bc_corner mn b m a
  have e2 : broadcastInDim S8x4096x3 ![] bcast_S_S8x4096x3 (constant (F := Ideal) S_ .f32 0x3D4CCCCD#32) (ix3 b m a) = Spec.h :=
    bc_scalar3 _ _
  show Ideal.fptosi 32 (Ideal.liftRound Int.floor (Ideal.div
    (p (ix3 b m a) - broadcastInDim S8x4096x3 ![0, 1, 2] bcast_S8x1x3_S8x4096x3_0_1_2 mn (ix3 b m a))
    (broadcastInDim S8x4096x3 ![] bcast_S_S8x4096x3 (constant (F := Ideal) S_ .f32 0x3D4CCCCD#32) (ix3 b m a)))) = _
  rw [e1, e2]

theorem clipf_apply (a : IVec S8x4096x3 32) (j : S8x4096x3.Idx) :
    clipf a (constantI S_ 32 0#32) (constantI S_ 32 19#32) j = IntOp.minsi 19#32 (IntOp.maxsi 0#32 (a j)) := by
  show IntOp.minsi (broadcastInDim S8x4096x3 ![] bcast_S_S8x4096x3 (constantI S_ 32 19#32) j)
    (IntOp.maxsi (broadcastInDim S8x4096x3 ![] bcast_S_S8x4096x3 (constantI S_ 32 0#32) j) (a j)) = _
  rw [bc_scalar3, bc_scalar3]
  rfl

/-- The clipped cell, read signed, is the specification's. -/
theorem cell_toInt (p : FVec Ideal S8x4096x3 .f32) (mn : FVec Ideal S8x1x3 .f32) (b : Fin 8) (m : Fin 4096) (a : Fin 3) :
    (clipf (precell p mn) (constantI S_ 32 0#32) (constantI S_ 32 19#32) (ix3 b m a)).toInt
      = Spec.cellZ (p (ix3 b m a)) (mn (ix3 b 0 a)) := by
  rw [clipf_apply, toInt_minsi, toInt_maxsi, precell_apply]
  rfl

/-- Read unsigned it is the specification's cell. -/
theorem cell_toNat (p : FVec Ideal S8x4096x3 .f32) (mn : FVec Ideal S8x1x3 .f32) (b : Fin 8) (m : Fin 4096) (a : Fin 3) :
    (clipf (precell p mn) (constantI S_ 32 0#32) (constantI S_ 32 19#32) (ix3 b m a)).toNat
      = Spec.cell (p (ix3 b m a)) (mn (ix3 b 0 a)) := by
  have h := cell_toInt p mn b m a
  have h0 := Spec.cellZ_nonneg (p (ix3 b m a)) (mn (ix3 b 0 a))
  have e := toInt_eq_toNat (a := clipf (precell p mn) (constantI S_ 32 0#32) (constantI S_ 32 19#32) (ix3 b m a)) (by rw [h]; exact h0)
  unfold Spec.cell
  omega

/-! ## The three cells of a point, and the cell number -/

theorem comp0_apply (c : IVec S8x4096x3 32) (b : Fin 8) (m : Fin 4096) : comp0 c (ix2 b m) = c (ix3 b m 0) := by
  unfold comp0
  refine (shapeCast_apply _ shapeCasts_S8x4096x1_S8x4096 (ix2 b m) (ix3 b m 0) ?_).trans ?_
  · rw [Shape.rowMajor_val_three, Shape.rowMajor_val_two]
    show (b.val * 4096 + m.val) * 1 + 0 = b.val * 4096 + m.val
    omega
  · exact extractStridedSlice_apply _ c slices_S8x4096x3_S8x4096x1_0_0_0 (ix3 b m 0) (ix3 b m 0)
      (fun a => match a with | ⟨0, _⟩ => by show b.val = 0 + b.val; omega
                             | ⟨1, _⟩ => by show m.val = 0 + m.val; omega
                             | ⟨2, _⟩ => by show 0 = 0 + 0; omega)

theorem comp1_apply (c : IVec S8x4096x3 32) (b : Fin 8) (m : Fin 4096) : comp1 c (ix2 b m) = c (ix3 b m 1) := by
  unfold comp1
  refine (shapeCast_apply _ shapeCasts_S8x4096x1_S8x4096 (ix2 b m) (ix3 b m 0) ?_).trans ?_
  · rw [Shape.rowMajor_val_three, Shape.rowMajor_val_two]
    show (b.val * 4096 + m.val) * 1 + 0 = b.val * 4096 + m.val
    omega
  · exact extractStridedSlice_apply _ c slices_S8x4096x3_S8x4096x1_0_0_1 (ix3 b m 0) (ix3 b m 1)
      (fun a => match a with | ⟨0, _⟩ => by show b.val = 0 + b.val; omega
                             | ⟨1, _⟩ => by show m.val = 0 + m.val; omega
                             | ⟨2, _⟩ => by show 1 = 1 + 0; omega)

theorem comp2_apply (c : IVec S8x4096x3 32) (b : Fin 8) (m : Fin 4096) : comp2 c (ix2 b m) = c (ix3 b m 2) := by
  unfold comp2
  refine (shapeCast_apply _ shapeCasts_S8x4096x1_S8x4096 (ix2 b m) (ix3 b m 0) ?_).trans ?_
  · rw [Shape.rowMajor_val_three, Shape.rowMajor_val_two]
    show (b.val * 4096 + m.val) * 1 + 0 = b.val * 4096 + m.val
    omega
  · exact extractStridedSlice_apply _ c slices_S8x4096x3_S8x4096x1_0_0_2 (ix3 b m 0) (ix3 b m 2)
      (fun a => match a with | ⟨0, _⟩ => by show b.val = 0 + b.val; omega
                             | ⟨1, _⟩ => by show m.val = 0 + m.val; omega
                             | ⟨2, _⟩ => by show 2 = 2 + 0; omega)

theorem flat2_apply (c : IVec S8x4096x3 32) (b : Fin 8) (m : Fin 4096) :
    flat2 c (ix2 b m)
      = IntOp.addi (IntOp.muli (IntOp.addi (IntOp.muli (c (ix3 b m 0)) 20#32) (c (ix3 b m 1))) 20#32) (c (ix3 b m 2)) := by
  show IntOp.addi (IntOp.muli (IntOp.addi (IntOp.muli (comp0 c (ix2 b m))
      (broadcastInDim S8x4096 ![] bcast_S_S8x4096 (constantI S_ 32 20#32) (ix2 b m))) (comp1 c (ix2 b m)))
    (broadcastInDim S8x4096 ![] bcast_S_S8x4096 (constantI S_ 32 20#32) (ix2 b m))) (comp2 c (ix2 b m)) = _
  rw [comp0_apply, comp1_apply, comp2_apply, bc_scalar2]
  rfl

/-- The cell number, spread over the twelve result entries. -/
theorem flatIdx_apply (c : IVec S8x4096x3 32) (b : Fin 8) (m : Fin 4096) (k : Fin 12) :
    flatIdx c (ix3 b m k) = flat2 c (ix2 b m) := by
  unfold flatIdx
  refine (broadcastInDim_apply _ bcast_S8x4096x1_S8x4096x12_0_1_2 _ (ix3 b m k) (ix3 b m 0)
    (fun a => match a with | ⟨0, _⟩ => rfl | ⟨1, _⟩ => rfl | ⟨2, _⟩ => rfl)).trans ?_
  exact broadcastInDim_apply _ bcast_S8x4096_S8x4096x1_0_1 _ (ix3 b m 0) (ix2 b m)
    (fun a => match a with | ⟨0, _⟩ => rfl | ⟨1, _⟩ => rfl)

end Cert.TailLookup

end
-- ==== Proof.TailLookupGather.lean ====
/-
  The two gathers of the lookup, read at an index.

  A gather with one batching axis (the cloud), one collapsed axis carrying the start index (the point) and one offset
  axis (the coordinate) reads, at `(b, m, a)`, the operand at `(b, n, a)` with `n` the start index at `(b, m)` read signed
  and clamped into the axis. With two batching axes (cloud and entry) and the row axis collapsed it reads, at `(b, m, k)`,
  the operand at `(b, n, k)`. When every index is inside its axis the normalisation leaves it unchanged, the in-range mask
  is one everywhere, the clamp is the identity and the fill constant is never selected.
-/
import proofs.«134341_j34419867910943_2_alg».proof.Proof.TailLookupOps
import proofs.«134341_j34419867910943_2_alg».proof.Proof.TailLookupBits
import Idealize.ShloMosaic.Lib.Pipeline.Value

set_option maxRecDepth 1568

noncomputable section

namespace Cert.TailLookup

open Idealize.ShloMosaic Idealize.ShloMosaic.TcCoe Idealize.ShloMosaic.ValueIdx
open Cert.KernelIdeal Cert.KernelIdeal.Gen

/-! ## Scalars spread over the index arrays -/

theorem bc_scalar31 {α : Type} (v : S_.Idx → α) (j : S8x4096x1.Idx) :
    broadcastInDim S8x4096x1 ![] bcast_S_S8x4096x1 v j = v ix0 :=
  broadcastInDim_apply (![] : Fin 0 → Fin 3) bcast_S_S8x4096x1 v j ix0 (fun a => a.elim0)

theorem bc_scalar312 {α : Type} (v : S_.Idx → α) (j : S8x4096x12.Idx) :
    broadcastInDim S8x4096x12 ![] bcast_S_S8x4096x12 v j = v ix0 :=
  broadcastInDim_apply (![] : Fin 0 → Fin 3) bcast_S_S8x4096x12 v j ix0 (fun a => a.elim0)

theorem bc_scalar4 {α : Type} (v : S_.Idx → α) (j : S8x4096x12x1.Idx) :
    broadcastInDim S8x4096x12x1 ![] bcast_S_S8x4096x12x1 v j = v ix0 :=
  broadcastInDim_apply (![] : Fin 0 → Fin 4) bcast_S_S8x4096x12x1 v j ix0 (fun a => a.elim0)

/-- The last point of a cloud, spread over the index array. -/
theorem bc_hi0 (j : S8x4096x1.Idx) :
    broadcastInDim S8x4096x1 ![0, 1, 2] bcast_S1x1x1_S8x4096x1_0_1_2
      (broadcastInDim S1x1x1 ![2] bcast_S1_S1x1x1_2 (constantI S1 32 262143#32)) j = 262143#32 := by
  refine (broadcastInDim_apply _ bcast_S1x1x1_S8x4096x1_0_1_2 _ j (ix3 0 0 0)
    (fun a => match a with | ⟨0, _⟩ => rfl | ⟨1, _⟩ => rfl | ⟨2, _⟩ => rfl)).trans ?_
  exact broadcastInDim_apply _ bcast_S1_S1x1x1_2 _ (ix3 0 0 0) (ix1 0) (fun a => match a with | ⟨0, _⟩ => rfl)

/-- The last row of the table, spread over the index array. -/
theorem bc_hi1 (j : S8x4096x12x1.Idx) :
    broadcastInDim S8x4096x12x1 ![0, 1, 2, 3] bcast_S1x1x1x1_S8x4096x12x1_0_1_2_3
      (broadcastInDim S1x1x1x1 ![3] bcast_S1_S1x1x1x1_3 (constantI S1 32 8191#32)) j = 8191#32 := by
  refine (broadcastInDim_apply _ bcast_S1x1x1x1_S8x4096x12x1_0_1_2_3 _ j (ix4 0 0 0 0)
    (fun a => match a with | ⟨0, _⟩ => rfl | ⟨1, _⟩ => rfl | ⟨2, _⟩ => rfl | ⟨3, _⟩ => rfl)).trans ?_
  exact broadcastInDim_apply _ bcast_S1_S1x1x1x1_3 _ (ix4 0 0 0 0) (ix1 0) (fun a => match a with | ⟨0, _⟩ => rfl)

/-! ## The gather of the sampled points -/

abbrev d0 := gather_S8x262144x3_S8x4096x1_S8x4096x3_2_1_0_0_1_2_113

theorem d0_siIdx (b : Fin 8) (m : Fin 4096) (a : Fin 3) (c : Fin d0.startIndexMap.length) :
    d0.siIdx (ix3 b m a) c = ix3 b m 0 := by
  funext ax
  refine Fin.ext ?_
  match ax with
  | ⟨0, _⟩ => rfl
  | ⟨1, _⟩ => rfl
  | ⟨2, _⟩ =>
    show c.val = 0
    have := c.isLt
    have hl : d0.startIndexMap.length = 1 := rfl
    omega

theorem d0_ax0 (idx : IVec S8x4096x1 32) (b : Fin 8) (m : Fin 4096) (a : Fin 3) :
    d0.start (ix3 b m a) idx 0 + d0.batchCoord (ix3 b m a) 0 + d0.offCoord (ix3 b m a) 0 = b.val := by
  rw [GatherDims.start_batching d0 _ _ _ (by decide), GatherDims.offCoord_eq_zero d0 _ _ (by decide)]
  have : d0.batchCoord (ix3 b m a) 0 = b.val := rfl
  omega

theorem d0_ax1 (idx : IVec S8x4096x1 32) (b : Fin 8) (m : Fin 4096) (a : Fin 3) :
    d0.start (ix3 b m a) idx 1 + d0.batchCoord (ix3 b m a) 1 + d0.offCoord (ix3 b m a) 1
      = min (idx (ix3 b m 0)).toInt.toNat 262143 := by
  rw [GatherDims.batchCoord_eq_zero d0 _ _ (by decide), GatherDims.offCoord_eq_zero d0 _ _ (by decide)]
  have : d0.start (ix3 b m a) idx 1 = min (idx (ix3 b m 0)).toInt.toNat 262143 := by
    unfold GatherDims.start
    rw [dif_pos (by decide), d0_siIdx]
    rfl
  omega

theorem d0_ax2 (idx : IVec S8x4096x1 32) (b : Fin 8) (m : Fin 4096) (a : Fin 3) :
    d0.start (ix3 b m a) idx 2 + d0.batchCoord (ix3 b m a) 2 + d0.offCoord (ix3 b m a) 2 = a.val := by
  rw [GatherDims.batchCoord_eq_zero d0 _ _ (by decide)]
  have h1 : d0.start (ix3 b m a) idx 2 = 0 := by
    unfold GatherDims.start
    rw [dif_neg (by decide)]
  have h2 : d0.offCoord (ix3 b m a) 2 = a.val := rfl
  omega

/-- THE FIRST GATHER READ AT `(b, m, a)`: point `n` of cloud `b`, `n` the start index read signed and clamped. -/
theorem gather0_apply {α : Type} (x : S8x262144x3.Idx → α) (idx : IVec S8x4096x1 32) (b : Fin 8) (m : Fin 4096) (a : Fin 3)
    (n : Fin 262144) (hn : n.val = min (idx (ix3 b m 0)).toInt.toNat 262143) :
    Host.gather d0 x idx (ix3 b m a) = x (ix3 b n a) := by
  unfold Host.gather
  congr 1
  funext ax
  refine Fin.ext ?_
  show d0.start (ix3 b m a) idx ax + d0.batchCoord (ix3 b m a) ax + d0.offCoord (ix3 b m a) ax = (ix3 b n a ax).val
  match ax with
  | ⟨0, _⟩ => exact d0_ax0 idx b m a
  | ⟨1, _⟩ => exact (d0_ax1 idx b m a).trans hn.symm
  | ⟨2, _⟩ => exact d0_ax2 idx b m a

/-- An index that is not negative is left as it is. -/
theorem nidx0_apply (i : IVec S8x4096x1 32) (j : S8x4096x1.Idx) (h : 0 ≤ (i j).toInt) : nidx0 i j = i j := by
  show Scalar.select (IntOp.cmpi .slt (i j) (broadcastInDim S8x4096x1 ![] bcast_S_S8x4096x1 (constantI S_ 32 0#32) j))
    (IntOp.addi (i j) (broadcastInDim S8x4096x1 ![] bcast_S_S8x4096x1 (constantI S_ 32 262144#32) j)) (i j) = i j
  rw [bc_scalar31]
  show Scalar.select (IntOp.cmpi .slt (i j) 0#32) _ (i j) = i j
  rw [cmpi_slt_zero h, select_zero]

/-- Indices all naming points: the mask is one. -/
theorem mask0_one (n : IVec S8x4096x1 32) (hn : ∀ j, 0 ≤ (n j).toInt ∧ (n j).toInt < 262144) (j : S8x4096.Idx) :
    mask0 n j = 1#1 := by
  unfold mask0
  refine reduce_andi_one _ _ _ _ (fun k => ?_) (fun _ => rfl) j
  show IntOp.andi (IntOp.cmpi .sge (n k) (broadcastInDim S8x4096x1 ![] bcast_S_S8x4096x1 (constantI S_ 32 0#32) k))
    (IntOp.cmpi .sle (n k) (broadcastInDim S8x4096x1 ![0, 1, 2] bcast_S1x1x1_S8x4096x1_0_1_2
      (broadcastInDim S1x1x1 ![2] bcast_S1_S1x1x1_2 (constantI S1 32 262143#32)) k)) = 1#1
  rw [bc_scalar31, bc_hi0]
  show IntOp.andi (IntOp.cmpi .sge (n k) 0#32) (IntOp.cmpi .sle (n k) 262143#32) = 1#1
  rw [cmpi_sge_zero (hn k).1, cmpi_sle_of_le (by have := (hn k).2; show (n k).toInt ≤ (262143#32).toInt; rw [show (262143#32).toInt = 262143 from by decide]; omega)]
  rfl

/-- The sampled-index array with its unit axis. -/
theorem bcI_apply (I : IVec S8x4096 32) (j : S8x4096x1.Idx) :
    broadcastInDim S8x4096x1 ![0, 1] bcast_S8x4096_S8x4096x1_0_1 I j = I (ix2 (j 0) (j 1)) :=
  broadcastInDim_apply _ bcast_S8x4096_S8x4096x1_0_1 I j (ix2 (j 0) (j 1))
    (fun a => match a with | ⟨0, _⟩ => rfl | ⟨1, _⟩ => rfl)

/-- THE SAMPLED POINTS: under in-range indices the first gather's result is the specification's sampled point. -/
theorem take0_apply (x : FVec Ideal S8x262144x3 .f32) (I : IVec S8x4096 32) (hI : Spec.InRange I)
    (b : Fin 8) (m : Fin 4096) (a : Fin 3) :
    take0 x (broadcastInDim S8x4096x1 ![0, 1] bcast_S8x4096_S8x4096x1_0_1 I) (ix3 b m a) = Spec.ptAt x I b m a := by
  have hi : ∀ j, 0 ≤ ((broadcastInDim S8x4096x1 ![0, 1] bcast_S8x4096_S8x4096x1_0_1 I) j).toInt
      ∧ ((broadcastInDim S8x4096x1 ![0, 1] bcast_S8x4096_S8x4096x1_0_1 I) j).toInt < 262144 := fun j => by
    rw [bcI_apply]; exact hI (j 0) (j 1)
  have hn : ∀ j, nidx0 (broadcastInDim S8x4096x1 ![0, 1] bcast_S8x4096_S8x4096x1_0_1 I) j
      = I (ix2 (j 0) (j 1)) := fun j => by rw [nidx0_apply _ j (hi j).1, bcI_apply]
  have hm := mask0_one (nidx0 (broadcastInDim S8x4096x1 ![0, 1] bcast_S8x4096_S8x4096x1_0_1 I))
    (fun j => by rw [hn]; exact hI (j 0) (j 1)) (ix2 b m)
  have hb : broadcastInDim S8x4096x3 ![0, 1] bcast_S8x4096_S8x4096x3_0_1
      (mask0 (nidx0 (broadcastInDim S8x4096x1 ![0, 1] bcast_S8x4096_S8x4096x1_0_1 I))) (ix3 b m a) = 1#1 :=
    (broadcastInDim_apply _ bcast_S8x4096_S8x4096x3_0_1 _ (ix3 b m a) (ix2 b m)
      (fun a' => match a' with | ⟨0, _⟩ => rfl | ⟨1, _⟩ => rfl)).trans hm
  have h0 := (hI b m).1
  have h1 := (hI b m).2
  have hlt : (I (ix2 b m)).toNat < 262144 := toNat_lt_of_toInt h0 h1
  have hg := gather0_apply x (nidx0 (broadcastInDim S8x4096x1 ![0, 1] bcast_S8x4096_S8x4096x1_0_1 I)) b m a
    ⟨(I (ix2 b m)).toNat, hlt⟩ (by
      rw [hn]
      show (I (ix2 b m)).toNat = min (I (ix2 b m)).toInt.toNat 262143
      rw [toInt_toNat_eq h0]
      omega)
  unfold take0
  rw [select_apply, hb, select_one, hg]
  unfold Spec.ptAt
  rw [dif_pos hlt]

/-! ## The gather of the table -/

abbrev d1 := gather_S8x8192x12_S8x4096x12x1_S8x4096x12_n_1_02_02_1_3_111

theorem d1_siIdx (b : Fin 8) (m : Fin 4096) (k : Fin 12) (c : Fin d1.startIndexMap.length) :
    d1.siIdx (ix3 b m k) c = ix4 b m k 0 := by
  funext ax
  refine Fin.ext ?_
  match ax with
  | ⟨0, _⟩ => rfl
  | ⟨1, _⟩ => rfl
  | ⟨2, _⟩ => rfl
  | ⟨3, _⟩ =>
    show c.val = 0
    have := c.isLt
    have hl : d1.startIndexMap.length = 1 := rfl
    omega

theorem d1_ax0 (idx : IVec S8x4096x12x1 32) (b : Fin 8) (m : Fin 4096) (k : Fin 12) :
    d1.start (ix3 b m k) idx 0 + d1.batchCoord (ix3 b m k) 0 + d1.offCoord (ix3 b m k) 0 = b.val := by
  rw [GatherDims.start_batching d1 _ _ _ (by decide), GatherDims.offCoord_eq_zero d1 _ _ (by decide)]
  have : d1.batchCoord (ix3 b m k) 0 = b.val := rfl
  omega

theorem d1_ax1 (idx : IVec S8x4096x12x1 32) (b : Fin 8) (m : Fin 4096) (k : Fin 12) :
    d1.start (ix3 b m k) idx 1 + d1.batchCoord (ix3 b m k) 1 + d1.offCoord (ix3 b m k) 1
      = min (idx (ix4 b m k 0)).toInt.toNat 8191 := by
  rw [GatherDims.batchCoord_eq_zero d1 _ _ (by decide), GatherDims.offCoord_eq_zero d1 _ _ (by decide)]
  have : d1.start (ix3 b m k) idx 1 = min (idx (ix4 b m k 0)).toInt.toNat 8191 := by
    unfold GatherDims.start
    rw [dif_pos (by decide), d1_siIdx]
    rfl
  omega

theorem d1_ax2 (idx : IVec S8x4096x12x1 32) (b : Fin 8) (m : Fin 4096) (k : Fin 12) :
    d1.start (ix3 b m k) idx 2 + d1.batchCoord (ix3 b m k) 2 + d1.offCoord (ix3 b m k) 2 = k.val := by
  rw [GatherDims.start_batching d1 _ _ _ (by decide), GatherDims.offCoord_eq_zero d1 _ _ (by decide)]
  have : d1.batchCoord (ix3 b m k) 2 = k.val := rfl
  omega

/-- THE SECOND GATHER READ AT `(b, m, k)`: entry `k` of row `n` of cloud `b`'s table, `n` the start index read signed
    and clamped. -/
theorem gather1_apply {α : Type} (x : S8x8192x12.Idx → α) (idx : IVec S8x4096x12x1 32) (b : Fin 8) (m : Fin 4096) (k : Fin 12)
    (n : Fin 8192) (hn : n.val = min (idx (ix4 b m k 0)).toInt.toNat 8191) :
    Host.gather d1 x idx (ix3 b m k) = x (ix3 b n k) := by
  unfold Host.gather
  congr 1
  funext ax
  refine Fin.ext ?_
  show d1.start (ix3 b m k) idx ax + d1.batchCoord (ix3 b m k) ax + d1.offCoord (ix3 b m k) ax = (ix3 b n k ax).val
  match ax with
  | ⟨0, _⟩ => exact d1_ax0 idx b m k
  | ⟨1, _⟩ => exact (d1_ax1 idx b m k).trans hn.symm
  | ⟨2, _⟩ => exact d1_ax2 idx b m k

/-- A row index that is not negative is left as it is (and given its unit axis). -/
theorem nidx1_apply (i : IVec S8x4096x12 32) (j : S8x4096x12x1.Idx) (h : 0 ≤ (i (ix3 (j 0) (j 1) (j 2))).toInt) :
    nidx1 i j = i (ix3 (j 0) (j 1) (j 2)) := by
  unfold nidx1
  refine (shapeCast_apply _ shapeCasts_S8x4096x12_S8x4096x12x1 j (ix3 (j 0) (j 1) (j 2)) ?_).trans ?_
  · rw [Shape.rowMajor_val_three, Shape.rowMajor_val_four]
    have h3 : (j 3).val < 1 := (j 3).isLt
    show ((j 0).val * 4096 + (j 1).val) * 12 + (j 2).val = (((j 0).val * 4096 + (j 1).val) * 12 + (j 2).val) * 1 + (j 3).val
    omega
  · show Scalar.select (IntOp.cmpi .slt (i (ix3 (j 0) (j 1) (j 2)))
        (broadcastInDim S8x4096x12 ![] bcast_S_S8x4096x12 (constantI S_ 32 0#32) (ix3 (j 0) (j 1) (j 2))))
      (IntOp.addi (i (ix3 (j 0) (j 1) (j 2)))
        (broadcastInDim S8x4096x12 ![] bcast_S_S8x4096x12 (constantI S_ 32 8192#32) (ix3 (j 0) (j 1) (j 2))))
      (i (ix3 (j 0) (j 1) (j 2))) = _
    rw [bc_scalar312]
    show Scalar.select (IntOp.cmpi .slt (i (ix3 (j 0) (j 1) (j 2))) 0#32) _ _ = _
    rw [cmpi_slt_zero h, select_zero]

/-- Row indices all naming rows: the mask is one. -/
theorem mask1_one (n : IVec S8x4096x12x1 32) (hn : ∀ j, 0 ≤ (n j).toInt ∧ (n j).toInt < 8192) (j : S8x4096x12.Idx) :
    mask1 n j = 1#1 := by
  unfold mask1
  refine reduce_andi_one _ _ _ _ (fun k => ?_) (fun _ => rfl) j
  show IntOp.andi (IntOp.cmpi .sge (n k) (broadcastInDim S8x4096x12x1 ![] bcast_S_S8x4096x12x1 (constantI S_ 32 0#32) k))
    (IntOp.cmpi .sle (n k) (broadcastInDim S8x4096x12x1 ![0, 1, 2, 3] bcast_S1x1x1x1_S8x4096x12x1_0_1_2_3
      (broadcastInDim S1x1x1x1 ![3] bcast_S1_S1x1x1x1_3 (constantI S1 32 8191#32)) k)) = 1#1
  rw [bc_scalar4, bc_hi1]
  show IntOp.andi (IntOp.cmpi .sge (n k) 0#32) (IntOp.cmpi .sle (n k) 8191#32) = 1#1
  rw [cmpi_sge_zero (hn k).1, cmpi_sle_of_le (by have := (hn k).2; show (n k).toInt ≤ (8191#32).toInt; rw [show (8191#32).toInt = 8191 from by decide]; omega)]
  rfl

/-- THE TABLE LOOKED UP: under in-range row indices the second gather's result is the table's row. -/
theorem take1_apply (T : FVec Ideal S8x8192x12 .f32) (i : IVec S8x4096x12 32)
    (hi : ∀ j, 0 ≤ (i j).toInt ∧ (i j).toInt < 8192) (b : Fin 8) (m : Fin 4096) (k : Fin 12)
    (n : Fin 8192) (hn : n.val = (i (ix3 b m k)).toNat) :
    take1 T i (ix3 b m k) = T (ix3 b n k) := by
  have hnx : ∀ j : S8x4096x12x1.Idx, nidx1 i j = i (ix3 (j 0) (j 1) (j 2)) := fun j => nidx1_apply i j (hi _).1
  have hm := mask1_one (nidx1 i) (fun j => by rw [hnx]; exact hi _) (ix3 b m k)
  have h0 := (hi (ix3 b m k)).1
  have h1 := (hi (ix3 b m k)).2
  have hlt : (i (ix3 b m k)).toNat < 8192 := toNat_lt_of_toInt h0 h1
  have hg := gather1_apply T (nidx1 i) b m k n (by
    rw [hnx]
    show n.val = min (i (ix3 b m k)).toInt.toNat 8191
    rw [toInt_toNat_eq h0]
    omega)
  unfold take1
  rw [select_apply, hm, select_one, hg]

end Cert.TailLookup

end
-- ==== Proof.TailLookupFrame.lean ====
/-
  What the stretches of host operations before the lookup leave alone: the two arguments keep their launch contents,
  the corners keep what the first kernel left, and the table is not written after it is built. The sampled-index array
  with its unit axis is the last operation of the stretch that builds the table.
-/
import proofs.«134341_j34419867910943_2_alg».proof.Proof.TailLookupOps
import Idealize.ShloMosaic.Lib.Pipeline.Value

set_option maxRecDepth 1568

noncomputable section

namespace Cert.TailLookup

open Idealize.ShloMosaic Idealize.ShloMosaic.TcCoe Idealize.ShloMosaic.ValueIdx
open Cert.KernelIdeal Cert.KernelIdeal.Gen

variable (m : (ℓ : Loc nD τ sig) → Buf (Elt Ideal) ℓ) (outs : Outs (F := Ideal)) (c : Dev nD)

/-- The table is not written by the last stretch. -/
theorem table_frame : V16 m outs c (Proc.devRef .tc main_v98) = V15 m outs c (Proc.devRef .tc main_v98) :=
  StableHlo.after_of_writes_sub hostOps2_13 (V15 m outs c) hostOps2_13_writes (by decide)

/-- The corners, when the point is moved to its cloud's corner, are what the first kernel left. -/
theorem corner_frame : V12 m outs c (Proc.devRef .tc main_v0) = outs 1 main_v0 c :=
  (StableHlo.after_of_writes_sub hostOps2_9 (V11 m outs c) hostOps2_9_writes (by decide)).trans <|
  (StableHlo.after_of_writes_sub hostOps2_8 (V10 m outs c) hostOps2_8_writes (by decide)).trans <|
  (StableHlo.after_of_writes_sub hostOps2_7 (V9 m outs c) hostOps2_7_writes (by decide)).trans <|
  (StableHlo.after_of_writes_sub hostOps2_6 (V8 m outs c) hostOps2_6_writes (by decide)).trans <|
  (StableHlo.after_of_writes_sub hostOps2_5 (V7 m outs c) hostOps2_5_writes (by decide)).trans <|
  (StableHlo.after_of_writes_sub hostOps2_4 (V6 m outs c) hostOps2_4_writes (by decide)).trans <|
  (StableHlo.after_of_writes_sub hostOps2_3 (V5 m outs c) hostOps2_3_writes (by decide)).trans <|
  (StableHlo.after_of_writes_sub hostOps2_2 (V4 m outs c) hostOps2_2_writes (by decide)).trans <|
  (StableHlo.after_of_writes_sub hostOps2_1 (V3 m outs c) hostOps2_1_writes (by decide)).trans <|
  (StableHlo.after_of_writes_sub hostOps2 (V2 m outs c) hostOps2_writes (by decide)).trans <|
  (Function.update_of_ne (by decide) _ _).trans (Function.update_self _ _ _)

/-- The cloud array, when the sampled points are gathered, is the launch's. -/
theorem x_frame : V11 m outs c (Proc.devRef .tc main_arg0) = m ((c : Thread nD τ).loc main_arg0) :=
  (StableHlo.after_of_writes_sub hostOps2_8 (V10 m outs c) hostOps2_8_writes (by decide)).trans <|
  (StableHlo.after_of_writes_sub hostOps2_7 (V9 m outs c) hostOps2_7_writes (by decide)).trans <|
  (StableHlo.after_of_writes_sub hostOps2_6 (V8 m outs c) hostOps2_6_writes (by decide)).trans <|
  (StableHlo.after_of_writes_sub hostOps2_5 (V7 m outs c) hostOps2_5_writes (by decide)).trans <|
  (StableHlo.after_of_writes_sub hostOps2_4 (V6 m outs c) hostOps2_4_writes (by decide)).trans <|
  (StableHlo.after_of_writes_sub hostOps2_3 (V5 m outs c) hostOps2_3_writes (by decide)).trans <|
  (StableHlo.after_of_writes_sub hostOps2_2 (V4 m outs c) hostOps2_2_writes (by decide)).trans <|
  (StableHlo.after_of_writes_sub hostOps2_1 (V3 m outs c) hostOps2_1_writes (by decide)).trans <|
  (StableHlo.after_of_writes_sub hostOps2 (V2 m outs c) hostOps2_writes (by decide)).trans <|
  (Function.update_of_ne (by decide) _ _).trans (Function.update_of_ne (by decide) _ _)

/-- The sampled-index array before the stretch that gives it its unit axis is the launch's. -/
theorem i_frame : V10 m outs c (Proc.devRef .tc main_arg1) = m ((c : Thread nD τ).loc main_arg1) :=
  (StableHlo.after_of_writes_sub hostOps2_7 (V9 m outs c) hostOps2_7_writes (by decide)).trans <|
  (StableHlo.after_of_writes_sub hostOps2_6 (V8 m outs c) hostOps2_6_writes (by decide)).trans <|
  (StableHlo.after_of_writes_sub hostOps2_5 (V7 m outs c) hostOps2_5_writes (by decide)).trans <|
  (StableHlo.after_of_writes_sub hostOps2_4 (V6 m outs c) hostOps2_4_writes (by decide)).trans <|
  (StableHlo.after_of_writes_sub hostOps2_3 (V5 m outs c) hostOps2_3_writes (by decide)).trans <|
  (StableHlo.after_of_writes_sub hostOps2_2 (V4 m outs c) hostOps2_2_writes (by decide)).trans <|
  (StableHlo.after_of_writes_sub hostOps2_1 (V3 m outs c) hostOps2_1_writes (by decide)).trans <|
  (StableHlo.after_of_writes_sub hostOps2 (V2 m outs c) hostOps2_writes (by decide)).trans <|
  (Function.update_of_ne (by decide) _ _).trans (Function.update_of_ne (by decide) _ _)

/-- The sampled-index array with its unit axis: the last operation of the stretch that builds the table. -/
theorem s8 (V : Valuation τ sig (Elt Ideal)) :
    StableHlo.after (hostOps2_8 (F := Ideal)) V (Proc.devRef .tc main_v99)
      = broadcastInDim S8x4096x1 ![0, 1] bcast_S8x4096_S8x4096x1_0_1 (V (Proc.devRef .tc main_arg1)) := by
  dsimp only [hostOps2_8]
  after_results_simp

end Cert.TailLookup

end
-- ==== Proof.TailLookup.lean ====
/-
  THE LOOKUP. The kernel program's result is its table of per-cell results read, for each sampled point, at the row
  numbered by the point's cell: the sampled point is the specification's `ptAt`, its three clipped cells the
  specification's `cell`s, their base-20 number the specification's `vAt` (below 8000, so inside the table's 8192 rows),
  and the second gather reads that row.
-/
import proofs.«134341_j34419867910943_2_alg».proof.Proof.TailLookupCells
import proofs.«134341_j34419867910943_2_alg».proof.Proof.TailLookupGather
import proofs.«134341_j34419867910943_2_alg».proof.Proof.TailLookupFrame
import Idealize.ShloMosaic.Lib.Pipeline.Value

set_option maxRecDepth 1568

noncomputable section

namespace Cert.TailLookup

open Idealize.ShloMosaic Idealize.ShloMosaic.TcCoe Idealize.ShloMosaic.ValueIdx
open Cert.KernelIdeal Cert.KernelIdeal.Gen

/-- The row index the second gather is given is the sampled point's cell number. -/
theorem idx_toNat (x : FVec Ideal S8x262144x3 .f32) (I : IVec S8x4096 32) (hI : Spec.InRange I)
    (b : Fin 8) (m : Fin 4096) (k : Fin 12) :
    (flatIdx (clipf (precell (take0 x (broadcastInDim S8x4096x1 ![0, 1] bcast_S8x4096_S8x4096x1_0_1 I)) (Spec.mincArr x))
      (constantI S_ 32 0#32) (constantI S_ 32 19#32)) (ix3 b m k)).toNat = Spec.vAt x I b m := by
  rw [flatIdx_apply, flat2_apply]
  have c0 := cell_toNat (take0 x (broadcastInDim S8x4096x1 ![0, 1] bcast_S8x4096_S8x4096x1_0_1 I)) (Spec.mincArr x) b m 0
  have c1 := cell_toNat (take0 x (broadcastInDim S8x4096x1 ![0, 1] bcast_S8x4096_S8x4096x1_0_1 I)) (Spec.mincArr x) b m 1
  have c2 := cell_toNat (take0 x (broadcastInDim S8x4096x1 ![0, 1] bcast_S8x4096_S8x4096x1_0_1 I)) (Spec.mincArr x) b m 2
  rw [take0_apply x I hI] at c0 c1 c2
  rw [flat_toNat (by rw [c0]; exact Spec.cell_lt _ _) (by rw [c1]; exact Spec.cell_lt _ _) (by rw [c2]; exact Spec.cell_lt _ _),
    c0, c1, c2]
  rfl

/-- The lookup over plain arrays. -/
theorem lookup_core (x : FVec Ideal S8x262144x3 .f32) (I : IVec S8x4096 32) (hI : Spec.InRange I)
    (T : FVec Ideal S8x8192x12 .f32) :
    take1 T (flatIdx (clipf (precell (take0 x (broadcastInDim S8x4096x1 ![0, 1] bcast_S8x4096_S8x4096x1_0_1 I)) (Spec.mincArr x))
        (constantI S_ 32 0#32) (constantI S_ 32 19#32)))
      = fun j : S8x4096x12.Idx => T (ix3 (j 0) ⟨Spec.vAt x I (j 0) (j 1), Spec.vAt_lt x I (j 0) (j 1)⟩ (j 2)) := by
  funext j
  refine (congrArg (take1 T _) (eq_ix3 j)).trans (take1_apply T _ (fun j' => ?_) (j 0) (j 1) (j 2) ⟨_, _⟩ ?_)
  · obtain ⟨b', m', k', rfl⟩ : ∃ (b' : Fin 8) (m' : Fin 4096) (k' : Fin 12), j' = ix3 b' m' k' :=
      ⟨j' 0, j' 1, j' 2, eq_ix3 j'⟩
    have e := idx_toNat x I hI b' m' k'
    have hv : Spec.vAt x I b' m' < 8192 := Spec.vAt_lt x I b' m'
    have e2 := toInt_of_toNat_lt (a := flatIdx (clipf (precell (take0 x (broadcastInDim S8x4096x1 ![0, 1] bcast_S8x4096_S8x4096x1_0_1 I))
      (Spec.mincArr x)) (constantI S_ 32 0#32) (constantI S_ 32 19#32)) (ix3 b' m' k')) (by rw [e]; omega)
    rw [e2, e]
    constructor <;> omega
  · exact (idx_toNat x I hI (j 0) (j 1) (j 2)).symm

/-- THE KERNEL PROGRAM'S RESULT is its table read at the sampled points' cell numbers. -/
theorem lookup_eq (m : (ℓ : Loc nD τ sig) → Buf (Elt Ideal) ℓ) (outs : Outs (F := Ideal)) (c : Dev nD)
    (h0 : outs 1 main_v0 c = Cert.Spec.mincArr (m ((c : Thread nD τ).loc main_arg0)))
    (hidx : Cert.Spec.InRange (m ((c : Thread nD τ).loc main_arg1)))
    (T : S8x8192x12.Idx → EReal) (hT : V16 m outs c (Proc.devRef .tc main_v98) = T) :
    V16 m outs c (Proc.devRef .tc main_v122)
      = fun j : S8x4096x12.Idx => T (ix3 (j 0)
          ⟨Cert.Spec.vAt (m ((c : Thread nD τ).loc main_arg0)) (m ((c : Thread nD τ).loc main_arg1)) (j 0) (j 1),
            Cert.Spec.vAt_lt (m ((c : Thread nD τ).loc main_arg0)) (m ((c : Thread nD τ).loc main_arg1)) (j 0) (j 1)⟩ (j 2)) := by
  have e13 : V16 m outs c (Proc.devRef .tc main_v122)
      = take1 (V15 m outs c (Proc.devRef .tc main_v98)) (V15 m outs c (Proc.devRef .tc main_v121)) := s13 _
  have eT : V15 m outs c (Proc.devRef .tc main_v98) = T := (table_frame m outs c).symm.trans hT
  have e12 : V15 m outs c (Proc.devRef .tc main_v121) = flatIdx (V14 m outs c (Proc.devRef .tc main_v107)) := s12 _
  have e11 : V14 m outs c (Proc.devRef .tc main_v107)
      = clipf (V13 m outs c (Proc.devRef .tc main_v106)) (V13 m outs c (Proc.devRef .tc main_c_5))
          (V13 m outs c (Proc.devRef .tc main_c_6)) := s11 _
  have e10 : V13 m outs c (Proc.devRef .tc main_v106)
      = precell (V12 m outs c (Proc.devRef .tc main_v100)) (V12 m outs c (Proc.devRef .tc main_v0)) := s10 _
  have elo : V13 m outs c (Proc.devRef .tc main_c_5) = constantI S_ 32 0#32 := s10_lo _
  have ehi : V13 m outs c (Proc.devRef .tc main_c_6) = constantI S_ 32 19#32 := s10_hi _
  have e9 : V12 m outs c (Proc.devRef .tc main_v100)
      = take0 (V11 m outs c (Proc.devRef .tc main_arg0)) (V11 m outs c (Proc.devRef .tc main_v99)) := s9 _
  have e0 : V12 m outs c (Proc.devRef .tc main_v0) = Spec.mincArr (m ((c : Thread nD τ).loc main_arg0)) :=
    (corner_frame m outs c).trans h0
  have eX : V11 m outs c (Proc.devRef .tc main_arg0) = m ((c : Thread nD τ).loc main_arg0) := x_frame m outs c
  have e8 : V11 m outs c (Proc.devRef .tc main_v99)
      = broadcastInDim S8x4096x1 ![0, 1] bcast_S8x4096_S8x4096x1_0_1 (V10 m outs c (Proc.devRef .tc main_arg1)) := s8 _
  have eI : V10 m outs c (Proc.devRef .tc main_arg1) = m ((c : Thread nD τ).loc main_arg1) := i_frame m outs c
  rw [e13, eT, e12, e11, e10, elo, ehi, e9, e0, eX, e8, eI]
  exact lookup_core _ _ hidx T

end Cert.TailLookup

end
-- ==== Proof.RefSideCell.lean ====
/-
  The integer chains of the reference, read signed: a point's cell along an axis, its cell number, its row in the table of all clouds.
-/
import proofs.«134341_j34419867910943_2_alg».proof.Proof.Spec

noncomputable section

namespace Cert.RefSide

open Idealize.ShloMosaic Idealize.ShloMosaic.ValueIdx

/-- The cell of a coordinate, as the program computes it: convert the floor of the quotient, raise to 0, lower to 19. -/
def cellW (p mn : EReal) : BitVec 32 :=
  IntOp.minsi 19#32 (IntOp.maxsi 0#32 (Ideal.fptosi 32 (Ideal.liftRound Int.floor (Ideal.div (p - mn) Spec.h))))

theorem toInt_minsi (a b : BitVec 32) : (IntOp.minsi a b).toInt = min a.toInt b.toInt := by
  unfold IntOp.minsi
  by_cases hs : a.slt b
  · rw [if_pos hs]; rw [BitVec.slt_iff_toInt_lt] at hs; omega
  · rw [if_neg hs]; rw [BitVec.slt_iff_toInt_lt] at hs; omega

theorem toInt_maxsi (a b : BitVec 32) : (IntOp.maxsi a b).toInt = max a.toInt b.toInt := by
  unfold IntOp.maxsi
  by_cases hs : b.slt a
  · rw [if_pos hs]; rw [BitVec.slt_iff_toInt_lt] at hs; omega
  · rw [if_neg hs]; rw [BitVec.slt_iff_toInt_lt] at hs; omega

/-- Read signed, the program's cell is the formula's. -/
theorem cellW_toInt (p mn : EReal) : (cellW p mn).toInt = Spec.cellZ p mn := by
  unfold cellW Spec.cellZ
  rw [toInt_minsi, toInt_maxsi]
  rfl

theorem cellW_toNat (p mn : EReal) : (cellW p mn).toNat = Spec.cell p mn := by
  have h := cellW_toInt p mn
  have h0 := Spec.cellZ_nonneg p mn
  have h1 := Spec.cellZ_le p mn
  unfold Spec.cell
  have := BitVec.toInt_eq_toNat_cond (cellW p mn)
  split at this <;> omega

theorem cellW_lt (p mn : EReal) : (cellW p mn).toNat < 20 := by
  rw [cellW_toNat]; exact Spec.cell_lt p mn

/-- Three cells as one cell number, in the program's 32-bit arithmetic. -/
def flatW (c0 c1 c2 : BitVec 32) : BitVec 32 :=
  IntOp.addi (IntOp.muli (IntOp.addi (IntOp.muli c0 20#32) c1) 20#32) c2

/-- Cells below 20 do not wrap. -/
theorem flatW_toNat (c0 c1 c2 : BitVec 32) (h0 : c0.toNat < 20) (h1 : c1.toNat < 20) (h2 : c2.toNat < 20) :
    (flatW c0 c1 c2).toNat = Spec.flat3 c0.toNat c1.toNat c2.toNat := by
  unfold flatW Spec.flat3 IntOp.addi IntOp.muli
  simp only [BitVec.toNat_add, BitVec.toNat_mul, BitVec.toNat_ofNat]
  omega

/-- The row of the table of all clouds: the cell number plus 8000 times the cloud. -/
def segW (c0 c1 c2 : BitVec 32) (b : Nat) : BitVec 32 :=
  IntOp.addi (flatW c0 c1 c2) (IntOp.muli (BitVec.ofNat 32 b) 8000#32)

theorem segW_toInt (c0 c1 c2 : BitVec 32) (b : Nat) (hb : b < 8) (h0 : c0.toNat < 20) (h1 : c1.toNat < 20) (h2 : c2.toNat < 20) :
    (segW c0 c1 c2 b).toInt = ((b * 8000 + Spec.flat3 c0.toNat c1.toNat c2.toNat : Nat) : Int) := by
  have hf := flatW_toNat c0 c1 c2 h0 h1 h2
  have hlt := Spec.flat3_lt h0 h1 h2
  have hn : (segW c0 c1 c2 b).toNat = b * 8000 + Spec.flat3 c0.toNat c1.toNat c2.toNat := by
    unfold segW IntOp.addi IntOp.muli
    simp only [BitVec.toNat_add, BitVec.toNat_mul, BitVec.toNat_ofNat, hf]
    omega
  have := BitVec.toInt_eq_toNat_cond (segW c0 c1 c2 b)
  split at this <;> omega

end Cert.RefSide

end
-- ==== Proof.RefSideSum.lean ====
/-
  A sum over the rows of all clouds laid end to end, keeping the rows of one segment, is a sum over the points of one cloud.
-/
import Mathlib.Algebra.BigOperators.Fin
import Mathlib.Data.EReal.Basic
import Mathlib.Algebra.BigOperators.Group.Finset.Sigma

noncomputable section

namespace Cert.RefSide

open scoped BigOperators

/-- Row `b * 262144 + n`: point `n` of cloud `b`. -/
def rowOf (b : Fin 8) (n : Fin 262144) : Fin 2097152 :=
  ⟨b.val * 262144 + n.val, by have := b.isLt; have := n.isLt; omega⟩

/-- The rows are the pairs (cloud, point). -/
def rowEquiv : Fin 8 × Fin 262144 ≃ Fin 2097152 where
  toFun p := rowOf p.1 p.2
  invFun r := (⟨r.val / 262144, by have := r.isLt; omega⟩, ⟨r.val % 262144, by omega⟩)
  left_inv p := by
    obtain ⟨b, n⟩ := p
    have hb := b.isLt
    have hn := n.isLt
    refine Prod.ext (Fin.ext ?_) (Fin.ext ?_)
    · show (b.val * 262144 + n.val) / 262144 = b.val; omega
    · show (b.val * 262144 + n.val) % 262144 = n.val; omega
  right_inv r := by
    refine Fin.ext ?_
    show r.val / 262144 * 262144 + r.val % 262144 = r.val
    omega

theorem sum_rows {M : Type*} [AddCommMonoid M] (F : Fin 2097152 → M) :
    ∑ r, F r = ∑ b : Fin 8, ∑ n : Fin 262144, F (rowOf b n) := by
  rw [← Equiv.sum_comp rowEquiv F, Fintype.sum_prod_type]
  rfl

/-- Keeping the rows whose segment number is `b * 8000 + v`, when row `(b', n)` has segment number
    `b' * 8000 + g b' n` with `g` below 8000: only cloud `b` contributes, its points with `g b n = v`. -/
theorem sum_seg {M : Type*} [AddCommMonoid M] (seg : Fin 2097152 → ℤ) (u : Fin 2097152 → M) (g : Fin 8 → Fin 262144 → ℕ)
    (hg : ∀ b n, g b n < 8000)
    (hseg : ∀ b n, seg (rowOf b n) = ((b.val * 8000 + g b n : ℕ) : ℤ)) (b : Fin 8) (v : ℕ) (hv : v < 8000) :
    (∑ r, if seg r = ((b.val * 8000 + v : ℕ) : ℤ) then u r else 0)
      = ∑ n, if g b n = v then u (rowOf b n) else 0 := by
  rw [sum_rows]
  rw [Finset.sum_eq_single b]
  · refine Finset.sum_congr rfl fun n _ => ?_
    rw [hseg]
    refine if_congr ?_ rfl rfl
    constructor
    · intro h; have := Int.ofNat.inj h; omega
    · intro h; rw [h]
  · intro b' _ hb'
    refine Finset.sum_eq_zero fun n _ => ?_
    rw [hseg, if_neg]
    intro h
    have h' : b'.val * 8000 + g b' n = b.val * 8000 + v := by exact_mod_cast h
    have := hg b' n
    apply hb'
    apply Fin.ext
    omega
  · intro h; exact absurd (Finset.mem_univ b) h

end Cert.RefSide

end
-- ==== Proof.RefSideSeg.lean ====
/-
  The reference's integer stages read at a point: its three cells, its cell number, its row in the table of all clouds.
-/
import proofs.«134341_j34419867910943_2_alg».proof.Proof.RefReadP
import proofs.«134341_j34419867910943_2_alg».proof.Proof.RefSideCell
import proofs.«134341_j34419867910943_2_alg».proof.Proof.RefSideSum

noncomputable section

namespace Cert.RefSide

open Idealize.ShloMosaic Idealize.ShloMosaic.ValueIdx Cert.ReferenceIdeal Cert.ReferenceIdeal.Read

/-- The clouds. -/
abbrev XT : Type := (⟨S8x262144x3, .f32⟩ : BufTy).Contents (Elt Ideal)
/-- The sampled indices. -/
abbrev IT : Type := (⟨S8x4096, .i32⟩ : BufTy).Contents (Elt Ideal)

/-- A point's cell along an axis: the chain subtract, divide, floor, convert, raise to 0, lower to 19 at one index. -/
theorem v8_at (x : XT) (b : Fin 8) (n : Fin 262144) (a : Fin 3) :
    val_main_v8 (F := Ideal) x (ix3 b n a) = cellW (x (ix3 b n a)) (val_main_v0 (F := Ideal) x (ix2 b a)) := by
  rw [val_main_v8_apply, val_main_call0_v4_apply, val_main_call0_v3_apply, val_main_c_1_apply,
    val_main_call0_v2_apply, val_main_call0_v1_apply, val_main_call0_v0_apply, val_main_c_apply,
    val_main_v7_apply, val_main_v6_apply, val_main_v5_apply, val_main_v4_apply, val_main_cst_0_apply,
    val_main_v3_apply, val_main_v2_apply, val_main_v1_apply]
  have e : idx_main_v1 (idx_main_v2 (ix3 b n a)) = ix2 b a := by
    funext d; match d with | ⟨0, _⟩ => rfl | ⟨1, _⟩ => rfl
  rw [e]
  rfl

theorem idx_v10 (b : Fin 8) (n : Fin 262144) : idx_main_v10 (ix2 b n) = ix3 b n (0 : Fin 1) := by
  have hb := b.isLt
  have hn := n.isLt
  funext d
  match d with
  | ⟨0, _⟩ => exact Fin.ext (show (b.val * 262144 + n.val) / 262144 = b.val by omega)
  | ⟨1, _⟩ => exact Fin.ext (show (b.val * 262144 + n.val) / 1 % 262144 = n.val by omega)
  | ⟨2, _⟩ => rfl

/-- A point's cell number: slice the three cells, multiply and add in 32-bit words. -/
theorem v20_at (x : XT) (b : Fin 8) (n : Fin 262144) :
    val_main_v20 (F := Ideal) x (ix2 b n)
      = flatW (val_main_v8 (F := Ideal) x (ix3 b n 0)) (val_main_v8 (F := Ideal) x (ix3 b n 1)) (val_main_v8 (F := Ideal) x (ix3 b n 2)) := by
  rw [val_main_v20_apply, val_main_v17_apply, val_main_v15_apply, val_main_v12_apply, val_main_v10_apply, val_main_v9_apply,
    val_main_v11_apply, val_main_c_2_apply, val_main_v14_apply, val_main_v13_apply, val_main_v16_apply, val_main_c_3_apply,
    val_main_v19_apply, val_main_v18_apply]
  have h10 : idx_main_v10 (ix2 b n) = ix3 b n (0 : Fin 1) := idx_v10 b n
  have h14 : idx_main_v14 (ix2 b n) = ix3 b n (0 : Fin 1) := idx_v10 b n
  have h19 : idx_main_v19 (ix2 b n) = ix3 b n (0 : Fin 1) := idx_v10 b n
  rw [h10, h14, h19]
  have e0 : idx_main_v9 (ix3 b n (0 : Fin 1)) = ix3 b n (0 : Fin 3) := by
    funext d; match d with | ⟨0, _⟩ => rfl | ⟨1, _⟩ => rfl | ⟨2, _⟩ => rfl
  have e1 : idx_main_v13 (ix3 b n (0 : Fin 1)) = ix3 b n (1 : Fin 3) := by
    funext d; match d with | ⟨0, _⟩ => rfl | ⟨1, _⟩ => rfl | ⟨2, _⟩ => rfl
  have e2 : idx_main_v18 (ix3 b n (0 : Fin 1)) = ix3 b n (2 : Fin 3) := by
    funext d; match d with | ⟨0, _⟩ => rfl | ⟨1, _⟩ => rfl | ⟨2, _⟩ => rfl
  rw [e0, e1, e2]
  rfl

/-- A point's row in the table of all clouds: its cell number plus 8000 times its cloud. -/
theorem v26_at (x : XT) (b : Fin 8) (n : Fin 262144) :
    val_main_v26 (F := Ideal) x (ix2 b n)
      = segW (val_main_v8 (F := Ideal) x (ix3 b n 0)) (val_main_v8 (F := Ideal) x (ix3 b n 1)) (val_main_v8 (F := Ideal) x (ix3 b n 2)) b.val := by
  rw [val_main_v26_apply, val_main_v25_apply, val_main_v24_apply, val_main_v22_apply, val_main_v21_apply, val_main_v23_apply,
    val_main_c_4_apply, v20_at]
  rfl

theorem idx_v27 (b : Fin 8) (n : Fin 262144) : idx_main_v27 (ix1 (rowOf b n)) = ix2 b n := by
  have hb := b.isLt
  have hn := n.isLt
  funext d
  match d with
  | ⟨0, _⟩ => exact Fin.ext (show (b.val * 262144 + n.val) / 262144 = b.val by omega)
  | ⟨1, _⟩ => exact Fin.ext (show (b.val * 262144 + n.val) % 262144 = n.val by omega)

/-- The segment number of row `b * 262144 + n`, read signed, when the program's minimum is the clouds' corner. -/
theorem seg_toInt (x : XT) (hmin : ∀ b a, val_main_v0 (F := Ideal) x (ix2 b a) = Spec.minc x b a) (b : Fin 8) (n : Fin 262144) :
    (val_main_v27 (F := Ideal) x (ix1 (rowOf b n))).toInt = ((b.val * 8000 + Spec.flatAt x b n : ℕ) : ℤ) := by
  rw [val_main_v27_apply, idx_v27, v26_at, v8_at, v8_at, v8_at, hmin, hmin, hmin]
  rw [segW_toInt _ _ _ _ b.isLt (cellW_lt _ _) (cellW_lt _ _) (cellW_lt _ _), cellW_toNat, cellW_toNat, cellW_toNat]
  rfl

end Cert.RefSide

end
-- ==== Proof.LibRowGatherScatter.lean ====
/-
  Row gathers and row scatters read at an index.

  `x[idx]` of an array whose first axis has `N` rows, at a flat list of `R` row numbers carried as an `[R, 1]`
  array of start indices, is a `stablehlo.gather` whose result row `r` is operand row `idx[r, 0]`, the start read
  as a signed integer and clamped into `[0, N - 1]` (a flat operand `[N]`, or a matrix `[N, C]` whose rows are
  taken whole).  The accumulating scatter with the same dimension numbers (`segment_sum`: row `r` of the
  updates is added to operand row `idx[r, 0]`, read signed and NOT clamped, an update whose row number leaves
  `[0, N)` being dropped) is, at the extended reals, the operand's element plus the sum over the update rows
  that name this row:  out[p] = x[p] + ∑ r, [idx r = p] · upd[r]   (flat), and
  out[p, q] = x[p, q] + ∑ r, [idx r = p] · upd[r, q]   (rows of width `C`).
-/
import Idealize.ShloMosaic.PureOps.Ideal
import Idealize.ShloMosaic.Lib.ValueIdx

noncomputable section

namespace Idealize.ShloMosaic.RowOps

open Idealize.ShloMosaic Idealize.ShloMosaic.ValueIdx

variable {α : Type}

/-! ## The dimension numbers -/

/-- `x[idx]` of a flat operand `[N]` at `R` row numbers `[R, 1]`: result `[R]`. -/
abbrev rowGather1 (N R : Nat) (wf : GatherDims.WF ⟨1, ![N]⟩ ⟨2, ![R, 1]⟩ ⟨1, ![R]⟩ [] [0] [] [0] [] 1 ![1]) :
    GatherDims ⟨1, ![N]⟩ ⟨2, ![R, 1]⟩ ⟨1, ![R]⟩ where
  offsetDims := []
  collapsedSliceDims := [0]
  operandBatchingDims := []
  startIndicesBatchingDims := []
  startIndexMap := [0]
  indexVectorDim := 1
  sliceSizes := ![1]
  wf := wf

/-- `x[idx]` of a matrix `[N, C]` at `R` row numbers `[R, 1]`, rows taken whole: result `[R, C]`. -/
abbrev rowGather2 (N C R : Nat) (wf : GatherDims.WF ⟨2, ![N, C]⟩ ⟨2, ![R, 1]⟩ ⟨2, ![R, C]⟩ [1] [0] [] [0] [] 1 ![1, C]) :
    GatherDims ⟨2, ![N, C]⟩ ⟨2, ![R, 1]⟩ ⟨2, ![R, C]⟩ where
  offsetDims := [1]
  collapsedSliceDims := [0]
  operandBatchingDims := []
  startIndicesBatchingDims := []
  startIndexMap := [0]
  indexVectorDim := 1
  sliceSizes := ![1, C]
  wf := wf

/-- The scatter of `R` scalars into a flat operand `[N]` at `R` row numbers `[R, 1]`. -/
abbrev rowScatter1 (N R : Nat) (wf : ScatterDims.WF ⟨1, ![N]⟩ ⟨2, ![R, 1]⟩ ⟨1, ![R]⟩ [] [0] [0] 1) :
    ScatterDims ⟨1, ![N]⟩ ⟨2, ![R, 1]⟩ ⟨1, ![R]⟩ where
  updateWindowDims := []
  insertedWindowDims := [0]
  scatterDimsToOperandDims := [0]
  indexVectorDim := 1
  wf := wf

/-- The scatter of `R` rows of width `C` into a matrix `[N, C]` at `R` row numbers `[R, 1]`. -/
abbrev rowScatter2 (N C R : Nat) (wf : ScatterDims.WF ⟨2, ![N, C]⟩ ⟨2, ![R, 1]⟩ ⟨2, ![R, C]⟩ [1] [0] [0] 1) :
    ScatterDims ⟨2, ![N, C]⟩ ⟨2, ![R, 1]⟩ ⟨2, ![R, C]⟩ where
  updateWindowDims := [1]
  insertedWindowDims := [0]
  scatterDimsToOperandDims := [0]
  indexVectorDim := 1
  wf := wf

/-! ## The gathers at an index -/

/-- Row `r` of a flat row gather: the operand at the row number `idx[r, 0]`, read signed and clamped. -/
theorem gather_rows1_apply {N R w : Nat} (hN : 0 < N)
    (wf : GatherDims.WF ⟨1, ![N]⟩ ⟨2, ![R, 1]⟩ ⟨1, ![R]⟩ [] [0] [] [0] [] 1 ![1])
    (x : (⟨1, ![N]⟩ : Shape).Idx → α) (idx : IVec ⟨2, ![R, 1]⟩ w) (y : (⟨1, ![R]⟩ : Shape).Idx) :
    Host.gather (rowGather1 N R wf) x idx y
      = x (ix1 ⟨min (idx (ix2 (y 0) (0 : Fin 1))).toInt.toNat (N - 1), by omega⟩) := by
  unfold Host.gather
  congr 1
  funext a
  obtain rfl : a = 0 := Subsingleton.elim _ _
  refine Fin.ext ?_
  show (rowGather1 N R wf).start y idx 0 + (rowGather1 N R wf).batchCoord y 0 + (rowGather1 N R wf).offCoord y 0 = _
  rw [GatherDims.batchCoord_eq_zero _ _ _ List.not_mem_nil,
    GatherDims.offCoord_eq_zero _ _ _ (fun h => ((GatherDims.mem_sKept _ _).mp h).1 (List.mem_singleton.mpr rfl))]
  simp only [Nat.add_zero]
  unfold GatherDims.start
  rw [dif_pos (show (0 : Fin 1) ∈ (rowGather1 N R wf).startIndexMap from List.mem_singleton.mpr rfl)]
  have hsi : (rowGather1 N R wf).siIdx y ⟨List.idxOf (0 : Fin 1) (rowGather1 N R wf).startIndexMap,
      List.idxOf_lt_length_iff.2 (List.mem_singleton.mpr rfl)⟩ = ix2 (y 0) (0 : Fin 1) := by
    funext b; refine Fin.ext ?_
    match b with
    | ⟨0, _⟩ => rfl
    | ⟨1, _⟩ => rfl
  rw [hsi]
  rfl

/-- Element `(r, q)` of a whole-row gather: the operand at row `idx[r, 0]` (read signed and clamped), column `q`. -/
theorem gather_rows2_apply {N C R w : Nat} (hN : 0 < N)
    (wf : GatherDims.WF ⟨2, ![N, C]⟩ ⟨2, ![R, 1]⟩ ⟨2, ![R, C]⟩ [1] [0] [] [0] [] 1 ![1, C])
    (x : (⟨2, ![N, C]⟩ : Shape).Idx → α) (idx : IVec ⟨2, ![R, 1]⟩ w) (y : (⟨2, ![R, C]⟩ : Shape).Idx) :
    Host.gather (rowGather2 N C R wf) x idx y
      = x (ix2 ⟨min (idx (ix2 (y 0) (0 : Fin 1))).toInt.toNat (N - 1), by omega⟩ (y 1)) := by
  unfold Host.gather
  congr 1
  funext a
  refine Fin.ext ?_
  match a with
  | ⟨0, _⟩ =>
    show (rowGather2 N C R wf).start y idx 0 + (rowGather2 N C R wf).batchCoord y 0 + (rowGather2 N C R wf).offCoord y 0 = _
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 2) ∈ (rowGather2 N C R wf).startIndexMap from List.mem_singleton.mpr rfl)]
    have hsi : (rowGather2 N C R wf).siIdx y ⟨List.idxOf (0 : Fin 2) (rowGather2 N C R wf).startIndexMap,
        List.idxOf_lt_length_iff.2 (List.mem_singleton.mpr rfl)⟩ = ix2 (y 0) (0 : Fin 1) := by
      funext b; refine Fin.ext ?_
      match b with
      | ⟨0, _⟩ => rfl
      | ⟨1, _⟩ => rfl
    rw [hsi]
    rfl
  | ⟨1, _⟩ =>
    show (rowGather2 N C R wf).start y idx 1 + (rowGather2 N C R wf).batchCoord y 1 + (rowGather2 N C R wf).offCoord y 1 = (y 1).val
    rw [GatherDims.batchCoord_eq_zero _ _ _ List.not_mem_nil]
    unfold GatherDims.start
    rw [dif_neg (show ¬ (1 : Fin 2) ∈ ([0] : List (Fin 2)) by decide)]
    simp only [Nat.zero_add, Nat.add_zero]
    rfl

/-! ## Where a scattered row lands -/

/-- Update `j` of a flat row scatter lands on element `p` exactly when its row number, read signed, is `p`. -/
theorem scatter_rows1_lands {N R w : Nat} (wf : ScatterDims.WF ⟨1, ![N]⟩ ⟨2, ![R, 1]⟩ ⟨1, ![R]⟩ [] [0] [0] 1)
    (idx : IVec ⟨2, ![R, 1]⟩ w) (j : (⟨1, ![R]⟩ : Shape).Idx) (p : Fin N) :
    (rowScatter1 N R wf).resultIdx? j idx = some (ix1 p) ↔ (idx (ix2 (j 0) (0 : Fin 1))).toInt = (p.val : ℤ) := by
  have hsi : (rowScatter1 N R wf).siIdx j ⟨List.idxOf (0 : Fin 1) (rowScatter1 N R wf).scatterDimsToOperandDims,
      List.idxOf_lt_length_iff.2 (List.mem_singleton.mpr rfl)⟩ = ix2 (j 0) (0 : Fin 1) := by
    funext b; refine Fin.ext ?_
    match b with
    | ⟨0, _⟩ => rfl
    | ⟨1, _⟩ => rfl
  have hstart : ∀ a : Fin 1, (rowScatter1 N R wf).start j idx a = (idx (ix2 (j 0) (0 : Fin 1))).toInt := by
    intro a
    obtain rfl : a = 0 := Subsingleton.elim _ _
    unfold ScatterDims.start
    rw [dif_pos (show (0 : Fin 1) ∈ (rowScatter1 N R wf).scatterDimsToOperandDims from List.mem_singleton.mpr rfl), hsi]
    rfl
  have hwin : ∀ a : Fin 1, (rowScatter1 N R wf).window j a = 0 := by
    intro a
    obtain rfl : a = 0 := Subsingleton.elim _ _
    unfold ScatterDims.window
    rw [dif_neg (show ¬ (0 : Fin 1) ∈ ((⟨1, ![N]⟩ : Shape).kept [0]) by simp [Shape.kept])]
  unfold ScatterDims.resultIdx?
  split
  · next h =>
    have h0 := h 0
    rw [hstart, hwin] at h0
    rw [Option.some.injEq]
    constructor
    · intro e
      have := congrArg (fun f => (f 0).val) e
      simp only [hstart, hwin] at this
      change ((idx (ix2 (j 0) (0 : Fin 1))).toInt + ((0 : Nat) : ℤ)).toNat = p.val at this
      omega
    · intro e
      funext a
      obtain rfl : a = 0 := Subsingleton.elim _ _
      refine Fin.ext ?_
      show ((rowScatter1 N R wf).start j idx 0 + ((rowScatter1 N R wf).window j 0 : ℤ)).toNat = p.val
      rw [hstart, hwin]; omega
  · next h =>
    constructor
    · intro e; cases e
    · intro e
      exfalso; apply h
      intro a
      obtain rfl : a = 0 := Subsingleton.elim _ _
      rw [hstart, hwin]
      have := p.isLt
      show 0 ≤ _ + ((0 : Nat) : ℤ) ∧ _ + ((0 : Nat) : ℤ) < ((N : Nat) : ℤ)
      omega

/-- Update `j` of a whole-row scatter lands on element `(p, q)` exactly when its row number, read signed, is `p`
    and its column is `q`. -/
theorem scatter_rows2_lands {N C R w : Nat} (wf : ScatterDims.WF ⟨2, ![N, C]⟩ ⟨2, ![R, 1]⟩ ⟨2, ![R, C]⟩ [1] [0] [0] 1)
    (idx : IVec ⟨2, ![R, 1]⟩ w) (j : (⟨2, ![R, C]⟩ : Shape).Idx) (p : Fin N) (q : Fin C) :
    (rowScatter2 N C R wf).resultIdx? j idx = some (ix2 p q)
      ↔ (idx (ix2 (j 0) (0 : Fin 1))).toInt = (p.val : ℤ) ∧ j 1 = q := by
  have hsi : (rowScatter2 N C R wf).siIdx j ⟨List.idxOf (0 : Fin 2) (rowScatter2 N C R wf).scatterDimsToOperandDims,
      List.idxOf_lt_length_iff.2 (List.mem_singleton.mpr rfl)⟩ = ix2 (j 0) (0 : Fin 1) := by
    funext b; refine Fin.ext ?_
    match b with
    | ⟨0, _⟩ => rfl
    | ⟨1, _⟩ => rfl
  have hstart0 : (rowScatter2 N C R wf).start j idx 0 = (idx (ix2 (j 0) (0 : Fin 1))).toInt := by
    unfold ScatterDims.start
    rw [dif_pos (show (0 : Fin 2) ∈ (rowScatter2 N C R wf).scatterDimsToOperandDims from List.mem_singleton.mpr rfl), hsi]
    rfl
  have hstart1 : (rowScatter2 N C R wf).start j idx 1 = 0 := by
    unfold ScatterDims.start
    rw [dif_neg (show ¬ (1 : Fin 2) ∈ ([0] : List (Fin 2)) by decide)]
  have hwin0 : (rowScatter2 N C R wf).window j 0 = 0 := by
    unfold ScatterDims.window
    rw [dif_neg (show ¬ (0 : Fin 2) ∈ ((⟨2, ![N, C]⟩ : Shape).kept [0]) by simp [Shape.kept])]
  have hwin1 : (rowScatter2 N C R wf).window j 1 = (j 1).val := by
    unfold ScatterDims.window
    rw [dif_pos (show (1 : Fin 2) ∈ ((⟨2, ![N, C]⟩ : Shape).kept [0]) by simp [Shape.kept])]
    rfl
  unfold ScatterDims.resultIdx?
  split
  · next h =>
    have h0 := h 0
    rw [hstart0, hwin0] at h0
    rw [Option.some.injEq]
    constructor
    · intro e
      have e0 := congrArg (fun f => (f 0).val) e
      have e1 := congrArg (fun f => (f 1).val) e
      simp only [hstart0, hwin0, hstart1, hwin1] at e0 e1
      change ((idx (ix2 (j 0) (0 : Fin 1))).toInt + ((0 : Nat) : ℤ)).toNat = p.val at e0
      change ((0 : ℤ) + (((j 1).val : Nat) : ℤ)).toNat = q.val at e1
      refine ⟨by omega, Fin.ext (by omega)⟩
    · rintro ⟨e, rfl⟩
      funext a
      refine Fin.ext ?_
      match a with
      | ⟨0, _⟩ =>
        show ((rowScatter2 N C R wf).start j idx 0 + ((rowScatter2 N C R wf).window j 0 : ℤ)).toNat = p.val
        rw [hstart0, hwin0]; omega
      | ⟨1, _⟩ =>
        show ((rowScatter2 N C R wf).start j idx 1 + ((rowScatter2 N C R wf).window j 1 : ℤ)).toNat = (j 1).val
        rw [hstart1, hwin1]; omega
  · next h =>
    constructor
    · intro e; cases e
    · rintro ⟨e, rfl⟩
      exfalso; apply h
      intro a
      match a with
      | ⟨0, _⟩ =>
        show 0 ≤ (rowScatter2 N C R wf).start j idx 0 + ((rowScatter2 N C R wf).window j 0 : ℤ)
          ∧ (rowScatter2 N C R wf).start j idx 0 + ((rowScatter2 N C R wf).window j 0 : ℤ) < ((N : Nat) : ℤ)
        rw [hstart0, hwin0]
        have := p.isLt
        omega
      | ⟨1, _⟩ =>
        show 0 ≤ (rowScatter2 N C R wf).start j idx 1 + ((rowScatter2 N C R wf).window j 1 : ℤ)
          ∧ (rowScatter2 N C R wf).start j idx 1 + ((rowScatter2 N C R wf).window j 1 : ℤ) < ((C : Nat) : ℤ)
        rw [hstart1, hwin1]
        have : (j 1).val < C := (j 1).isLt
        omega

/-! ## The accumulating scatters at an index -/

/-- A flat index is its one coordinate. -/
def idxEquiv1 {n : Nat} : (⟨1, ![n]⟩ : Shape).Idx ≃ Fin n where
  toFun j := j 0
  invFun a := ix1 a
  left_inv j := (eq_ix1 j).symm
  right_inv _ := rfl

theorem sum_idx1 {M : Type*} [AddCommMonoid M] {n : Nat} (f : (⟨1, ![n]⟩ : Shape).Idx → M) :
    ∑ j, f j = ∑ a : Fin n, f (ix1 a) :=
  (Equiv.sum_comp idxEquiv1.symm f).symm

/-- THE FLAT ROW SCATTER AT `p`: the operand's element plus the updates whose row number is `p`. -/
theorem scatterAdd_rows1_apply {N R w : Nat} (wf : ScatterDims.WF ⟨1, ![N]⟩ ⟨2, ![R, 1]⟩ ⟨1, ![R]⟩ [] [0] [0] 1)
    (x : (⟨1, ![N]⟩ : Shape).Idx → EReal) (idx : IVec ⟨2, ![R, 1]⟩ w) (upd : (⟨1, ![R]⟩ : Shape).Idx → EReal) (p : Fin N) :
    Ideal.hostScatterAdd (rowScatter1 N R wf) x idx upd (ix1 p)
      = x (ix1 p) + ∑ r : Fin R, if (idx (ix2 r (0 : Fin 1))).toInt = (p.val : ℤ) then upd (ix1 r) else 0 := by
  unfold Ideal.hostScatterAdd
  congr 1
  rw [Finset.sum_filter, sum_idx1]
  refine Finset.sum_congr rfl fun r _ => ?_
  exact if_congr (scatter_rows1_lands wf idx (ix1 r) p) rfl rfl

/-- THE WHOLE-ROW SCATTER AT `(p, q)`: the operand's element plus column `q` of the update rows whose row number is `p`. -/
theorem scatterAdd_rows2_apply {N C R w : Nat} (wf : ScatterDims.WF ⟨2, ![N, C]⟩ ⟨2, ![R, 1]⟩ ⟨2, ![R, C]⟩ [1] [0] [0] 1)
    (x : (⟨2, ![N, C]⟩ : Shape).Idx → EReal) (idx : IVec ⟨2, ![R, 1]⟩ w) (upd : (⟨2, ![R, C]⟩ : Shape).Idx → EReal)
    (p : Fin N) (q : Fin C) :
    Ideal.hostScatterAdd (rowScatter2 N C R wf) x idx upd (ix2 p q)
      = x (ix2 p q) + ∑ r : Fin R, if (idx (ix2 r (0 : Fin 1))).toInt = (p.val : ℤ) then upd (ix2 r q) else 0 := by
  unfold Ideal.hostScatterAdd
  congr 1
  rw [Finset.sum_filter, sum_idx2]
  refine Finset.sum_congr rfl fun r _ => ?_
  have key : ∀ c : Fin C, (rowScatter2 N C R wf).resultIdx? (ix2 r c) idx = some (ix2 p q)
      ↔ ((idx (ix2 r (0 : Fin 1))).toInt = (p.val : ℤ) ∧ c = q) := fun c => scatter_rows2_lands wf idx (ix2 r c) p q
  rw [Finset.sum_congr rfl (fun c _ => if_congr (key c) rfl rfl)]
  by_cases hr : (idx (ix2 r (0 : Fin 1))).toInt = (p.val : ℤ)
  · simp only [hr, true_and, if_true]
    rw [Finset.sum_ite_eq' Finset.univ q (fun c => upd (ix2 r c))]
    simp
  · simp only [hr, false_and, if_false, Finset.sum_const_zero]

end Idealize.ShloMosaic.RowOps

end
-- ==== Proof.RefSideScatterA.lean ====
/-
  The three accumulating scatters of the reference read at an entry: the operand's element plus the updates of the rows whose segment number is the entry's row.
-/
import proofs.«134341_j34419867910943_2_alg».proof.Proof.RefSideSeg
import proofs.«134341_j34419867910943_2_alg».proof.Proof.LibRowGatherScatter

noncomputable section

namespace Cert.RefSide

open Idealize.ShloMosaic Idealize.ShloMosaic.ValueIdx Cert.ReferenceIdeal Cert.ReferenceIdeal.Read

theorem v32_unfold (x : XT) : val_main_v32 (F := Ideal) x = Ideal.hostScatterAdd scatter_S64000_S2097152x1_S2097152_n_0_0_1
    (val_main_v30 (F := Ideal)) (val_main_v31 (F := Ideal) x) (val_main_v29 (F := Ideal)) := rfl
theorem scatter1_eq : (scatter_S64000_S2097152x1_S2097152_n_0_0_1 : ScatterDims S64000 S2097152x1 S2097152)
    = RowOps.rowScatter1 64000 2097152 Gen.scatter_S64000_S2097152x1_S2097152_n_0_0_1_wf := rfl

/-- The count at row `p`. -/
theorem v32_read (x : XT) (p : Fin 64000) :
    val_main_v32 (F := Ideal) x (ix1 p) = val_main_v30 (F := Ideal) (ix1 p)
      + ∑ r : Fin 2097152, if (val_main_v31 (F := Ideal) x (ix2 r (0 : Fin 1))).toInt = (p.val : ℤ) then val_main_v29 (F := Ideal) (ix1 r) else 0 := by
  rw [v32_unfold, scatter1_eq]
  exact RowOps.scatterAdd_rows1_apply (N := 64000) (R := 2097152) Gen.scatter_S64000_S2097152x1_S2097152_n_0_0_1_wf
    (val_main_v30 (F := Ideal)) (val_main_v31 (F := Ideal) x) (val_main_v29 (F := Ideal)) p

theorem v35_unfold (x : XT) : val_main_v35 (F := Ideal) x = Ideal.hostScatterAdd scatter_S64000x3_S2097152x1_S2097152x3_1_0_0_1
    (val_main_v33 (F := Ideal)) (val_main_v34 (F := Ideal) x) (val_main_v28 (F := Ideal) x) := rfl
theorem scatter3_eq : (scatter_S64000x3_S2097152x1_S2097152x3_1_0_0_1 : ScatterDims S64000x3 S2097152x1 S2097152x3)
    = RowOps.rowScatter2 64000 3 2097152 Gen.scatter_S64000x3_S2097152x1_S2097152x3_1_0_0_1_wf := rfl

/-- The sums of coordinates at row `p`, column `a`. -/
theorem v35_read (x : XT) (p : Fin 64000) (a : Fin 3) :
    val_main_v35 (F := Ideal) x (ix2 p a) = val_main_v33 (F := Ideal) (ix2 p a)
      + ∑ r : Fin 2097152, if (val_main_v34 (F := Ideal) x (ix2 r (0 : Fin 1))).toInt = (p.val : ℤ) then val_main_v28 (F := Ideal) x (ix2 r a) else 0 := by
  rw [v35_unfold, scatter3_eq]
  exact RowOps.scatterAdd_rows2_apply (N := 64000) (C := 3) (R := 2097152) Gen.scatter_S64000x3_S2097152x1_S2097152x3_1_0_0_1_wf
    (val_main_v33 (F := Ideal)) (val_main_v34 (F := Ideal) x) (val_main_v28 (F := Ideal) x) p a

theorem v44_unfold (x : XT) : val_main_v44 (F := Ideal) x = Ideal.hostScatterAdd scatter_S64000x9_S2097152x1_S2097152x9_1_0_0_1
    (val_main_v42 (F := Ideal)) (val_main_v43 (F := Ideal) x) (val_main_v41 (F := Ideal) x) := rfl
theorem scatter9_eq : (scatter_S64000x9_S2097152x1_S2097152x9_1_0_0_1 : ScatterDims S64000x9 S2097152x1 S2097152x9)
    = RowOps.rowScatter2 64000 9 2097152 Gen.scatter_S64000x9_S2097152x1_S2097152x9_1_0_0_1_wf := rfl

/-- The sums of products at row `p`, column `q`. -/
theorem v44_read (x : XT) (p : Fin 64000) (q : Fin 9) :
    val_main_v44 (F := Ideal) x (ix2 p q) = val_main_v42 (F := Ideal) (ix2 p q)
      + ∑ r : Fin 2097152, if (val_main_v43 (F := Ideal) x (ix2 r (0 : Fin 1))).toInt = (p.val : ℤ) then val_main_v41 (F := Ideal) x (ix2 r q) else 0 := by
  rw [v44_unfold, scatter9_eq]
  exact RowOps.scatterAdd_rows2_apply (N := 64000) (C := 9) (R := 2097152) Gen.scatter_S64000x9_S2097152x1_S2097152x9_1_0_0_1_wf
    (val_main_v42 (F := Ideal)) (val_main_v43 (F := Ideal) x) (val_main_v41 (F := Ideal) x) p q

end Cert.RefSide

end
-- ==== Proof.RefSideScatter.lean ====
/-
  The three accumulating scatters of the reference, read at a row of the table: the sums of ones, of coordinates and of products over the points of one cloud lying in one cell.
-/
import proofs.«134341_j34419867910943_2_alg».proof.Proof.RefSideScatterA
import proofs.«134341_j34419867910943_2_alg».proof.Proof.LibRowGatherScatter
import Idealize.ShloMosaic.PureOps.Ideal.Laws

noncomputable section

namespace Cert.RefSide

open Idealize.ShloMosaic Idealize.ShloMosaic.ValueIdx Cert.ReferenceIdeal Cert.ReferenceIdeal.Read

theorem idx_v31 (r : Fin 2097152) : idx_main_v31 (ix2 r (0 : Fin 1)) = ix1 r := by
  funext d; match d with | ⟨0, _⟩ => rfl

/-- The segment number at the row `(b, n)` of the start indices, read signed. -/
theorem segIdx_toInt (x : XT) (hmin : ∀ b a, val_main_v0 (F := Ideal) x (ix2 b a) = Spec.minc x b a) (b : Fin 8) (n : Fin 262144) :
    (val_main_v27 (F := Ideal) x (idx_main_v31 (ix2 (rowOf b n) (0 : Fin 1)))).toInt = ((b.val * 8000 + Spec.flatAt x b n : ℕ) : ℤ) := by
  rw [idx_v31]; exact seg_toInt x hmin b n

/-- The row of cloud `b`, cell number `v`. -/
def tableRow (b : Fin 8) (v : ℕ) (hv : v < 8000) : Fin 64000 := ⟨b.val * 8000 + v, by have := b.isLt; omega⟩

theorem idx_v28 (b : Fin 8) (n : Fin 262144) (a : Fin 3) : idx_main_v28 (ix2 (rowOf b n) a) = ix3 b n a := by
  have hb := b.isLt
  have hn := n.isLt
  have ha := a.isLt
  funext d
  match d with
  | ⟨0, _⟩ => exact Fin.ext (show ((b.val * 262144 + n.val) * 3 + a.val) / 786432 = b.val by omega)
  | ⟨1, _⟩ => exact Fin.ext (show ((b.val * 262144 + n.val) * 3 + a.val) / 3 % 262144 = n.val by omega)
  | ⟨2, _⟩ => exact Fin.ext (show ((b.val * 262144 + n.val) * 3 + a.val) % 3 = a.val by omega)

theorem idx_v41 (r : Fin 2097152) (q : Fin 9) :
    idx_main_v41 (ix2 r q) = ix3 r (⟨q.val / 3, by omega⟩ : Fin 3) (⟨q.val % 3, by omega⟩ : Fin 3) := by
  have hr := r.isLt
  have hq := q.isLt
  funext d
  match d with
  | ⟨0, _⟩ => exact Fin.ext (show (r.val * 9 + q.val) / 9 = r.val by omega)
  | ⟨1, _⟩ => exact Fin.ext (show (r.val * 9 + q.val) / 3 % 3 = q.val / 3 by omega)
  | ⟨2, _⟩ => exact Fin.ext (show (r.val * 9 + q.val) % 3 = q.val % 3 by omega)

/-- One product of coordinates of a row of points. -/
theorem v41_at (x : XT) (b : Fin 8) (n : Fin 262144) (q : Fin 9) :
    val_main_v41 (F := Ideal) x (ix2 (rowOf b n) q)
      = x (ix3 b n (⟨q.val / 3, by omega⟩ : Fin 3)) * x (ix3 b n (⟨q.val % 3, by omega⟩ : Fin 3)) := by
  rw [val_main_v41_apply, idx_v41, val_main_v40_apply, val_main_v38_apply, val_main_v36_apply, val_main_v39_apply, val_main_v37_apply]
  have e1 : idx_main_v36 (idx_main_v38 (ix3 (rowOf b n) (⟨q.val / 3, by omega⟩ : Fin 3) (⟨q.val % 3, by omega⟩ : Fin 3)))
      = ix2 (rowOf b n) (⟨q.val / 3, by omega⟩ : Fin 3) := by
    funext d; match d with | ⟨0, _⟩ => rfl | ⟨1, _⟩ => rfl
  have e2 : idx_main_v37 (idx_main_v39 (ix3 (rowOf b n) (⟨q.val / 3, by omega⟩ : Fin 3) (⟨q.val % 3, by omega⟩ : Fin 3)))
      = ix2 (rowOf b n) (⟨q.val % 3, by omega⟩ : Fin 3) := by
    funext d; match d with | ⟨0, _⟩ => rfl | ⟨1, _⟩ => rfl
  rw [e1, e2, val_main_v28_apply, val_main_v28_apply, idx_v28, idx_v28]
  rfl

section
variable (x : XT) (hmin : ∀ b a, val_main_v0 (F := Ideal) x (ix2 b a) = Spec.minc x b a)
include hmin

/-- The count: ones scattered by segment number. -/
theorem v32_at (b : Fin 8) (v : ℕ) (hv : v < 8000) :
    val_main_v32 (F := Ideal) x (ix1 (tableRow b v hv)) = Spec.Rcnt x b v := by
  rw [v32_read]
  rw [val_main_v30_apply, val_main_cst_6_apply]
  have hz : (FloatOps.ofBits (F := Ideal) .f32 0x00000000#32 : EReal) = 0 := Idealize.ShloMosaic.Ideal.ofBits_zero_f32
  rw [hz, zero_add]
  have hs := sum_seg (M := EReal) (fun r => (val_main_v31 (F := Ideal) x (ix2 r (0 : Fin 1))).toInt)
    (fun r => val_main_v29 (F := Ideal) (ix1 r)) (fun b n => Spec.flatAt x b n)
    (fun b n => Spec.flat3_lt (Spec.cell_lt _ _) (Spec.cell_lt _ _) (Spec.cell_lt _ _))
    (fun b n => (congrArg BitVec.toInt (val_main_v31_apply (F := Ideal) x (ix2 (rowOf b n) (0 : Fin 1)))).trans (segIdx_toInt x hmin b n)) b v hv
  refine hs.trans ?_
  unfold Spec.Rcnt
  refine Finset.sum_congr rfl fun n _ => ?_
  rw [val_main_v29_apply, val_main_cst_5_apply]
  rfl

/-- The sums of coordinates: the points scattered by segment number. -/
theorem v35_at (b : Fin 8) (v : ℕ) (hv : v < 8000) (a : Fin 3) :
    val_main_v35 (F := Ideal) x (ix2 (tableRow b v hv) a) = Spec.Rs1 x b v a := by
  rw [v35_read]
  rw [val_main_v33_apply, val_main_cst_7_apply]
  have hz : (FloatOps.ofBits (F := Ideal) .f32 0x00000000#32 : EReal) = 0 := Idealize.ShloMosaic.Ideal.ofBits_zero_f32
  rw [hz, zero_add]
  have hs := sum_seg (M := EReal) (fun r => (val_main_v34 (F := Ideal) x (ix2 r (0 : Fin 1))).toInt)
    (fun r => val_main_v28 (F := Ideal) x (ix2 r a)) (fun b n => Spec.flatAt x b n)
    (fun b n => Spec.flat3_lt (Spec.cell_lt _ _) (Spec.cell_lt _ _) (Spec.cell_lt _ _))
    (fun b n => (congrArg BitVec.toInt (val_main_v34_apply (F := Ideal) x (ix2 (rowOf b n) (0 : Fin 1)))).trans (segIdx_toInt x hmin b n)) b v hv
  refine hs.trans ?_
  unfold Spec.Rs1
  refine Finset.sum_congr rfl fun n _ => ?_
  rw [val_main_v28_apply, idx_v28]

/-- The sums of products: the products scattered by segment number. -/
theorem v44_at (b : Fin 8) (v : ℕ) (hv : v < 8000) (q : Fin 9) :
    val_main_v44 (F := Ideal) x (ix2 (tableRow b v hv) q)
      = Spec.Rs2 x b v (⟨q.val / 3, by omega⟩ : Fin 3) (⟨q.val % 3, by omega⟩ : Fin 3) := by
  rw [v44_read]
  rw [val_main_v42_apply, val_main_cst_8_apply]
  have hz : (FloatOps.ofBits (F := Ideal) .f32 0x00000000#32 : EReal) = 0 := Idealize.ShloMosaic.Ideal.ofBits_zero_f32
  rw [hz, zero_add]
  have hs := sum_seg (M := EReal) (fun r => (val_main_v43 (F := Ideal) x (ix2 r (0 : Fin 1))).toInt)
    (fun r => val_main_v41 (F := Ideal) x (ix2 r q)) (fun b n => Spec.flatAt x b n)
    (fun b n => Spec.flat3_lt (Spec.cell_lt _ _) (Spec.cell_lt _ _) (Spec.cell_lt _ _))
    (fun b n => (congrArg BitVec.toInt (val_main_v43_apply (F := Ideal) x (ix2 (rowOf b n) (0 : Fin 1)))).trans (segIdx_toInt x hmin b n)) b v hv
  refine hs.trans ?_
  unfold Spec.Rs2
  refine Finset.sum_congr rfl fun n _ => ?_
  rw [v41_at x]

end

end Cert.RefSide

end
-- ==== Proof.RefSideTable.lean ====
/-
  The reference's table of all clouds read at a row: three means and nine second moments about them.
-/
import proofs.«134341_j34419867910943_2_alg».proof.Proof.RefSideScatter

noncomputable section

namespace Cert.RefSide

open Idealize.ShloMosaic Idealize.ShloMosaic.ValueIdx Cert.ReferenceIdeal Cert.ReferenceIdeal.Read

theorem idx_v57 (r : Fin 64000) (q : Fin 9) :
    idx_main_v57 (ix2 r q) = ix3 r (⟨q.val / 3, by omega⟩ : Fin 3) (⟨q.val % 3, by omega⟩ : Fin 3) := by
  have hr := r.isLt
  have hq := q.isLt
  funext d
  match d with
  | ⟨0, _⟩ => exact Fin.ext (show (r.val * 9 + q.val) / 9 = r.val by omega)
  | ⟨1, _⟩ => exact Fin.ext (show (r.val * 9 + q.val) / 3 % 3 = q.val / 3 by omega)
  | ⟨2, _⟩ => exact Fin.ext (show (r.val * 9 + q.val) % 3 = q.val % 3 by omega)

theorem idx_v60 (b : Fin 8) (c0 c1 c2 : Fin 20) (k : Fin 12) :
    idx_main_v60 (ix5 b c0 c1 c2 k)
      = ix2 (tableRow b (Spec.flat3 c0.val c1.val c2.val) (Spec.flat3_lt c0.isLt c1.isLt c2.isLt)) k := by
  have hb := b.isLt
  have h0 := c0.isLt
  have h1 := c1.isLt
  have h2 := c2.isLt
  have hk := k.isLt
  funext d
  match d with
  | ⟨0, _⟩ =>
    refine Fin.ext ?_
    show ((((b.val * 20 + c0.val) * 20 + c1.val) * 20 + c2.val) * 12 + k.val) / 12 = b.val * 8000 + ((c0.val * 20 + c1.val) * 20 + c2.val)
    omega
  | ⟨1, _⟩ =>
    refine Fin.ext ?_
    show ((((b.val * 20 + c0.val) * 20 + c1.val) * 20 + c2.val) * 12 + k.val) % 12 = k.val
    omega

section
variable (x : XT) (hmin : ∀ b a, val_main_v0 (F := Ideal) x (ix2 b a) = Spec.minc x b a)
include hmin

/-- The count raised to at least one. -/
theorem v46_at (b : Fin 8) (v : ℕ) (hv : v < 8000) :
    val_main_v46 (F := Ideal) x (ix1 (tableRow b v hv)) = Spec.Rcntc x b v := by
  rw [val_main_v46_apply, v32_at x hmin, val_main_v45_apply, val_main_cst_9_apply]
  rfl

/-- The means. -/
theorem v49_at (b : Fin 8) (v : ℕ) (hv : v < 8000) (a : Fin 3) :
    val_main_v49 (F := Ideal) x (ix2 (tableRow b v hv) a) = Spec.Rmean x b v a := by
  rw [val_main_v49_apply, v35_at x hmin, val_main_v48_apply, val_main_v47_apply]
  have e : idx_main_v47 (idx_main_v48 (ix2 (tableRow b v hv) a)) = ix1 (tableRow b v hv) := by
    funext d; match d with | ⟨0, _⟩ => rfl
  rw [e, v46_at x hmin]
  rfl

/-- The second moments about the means. -/
theorem v58_at (b : Fin 8) (v : ℕ) (hv : v < 8000) (q : Fin 9) :
    val_main_v58 (F := Ideal) x (ix2 (tableRow b v hv) q)
      = Spec.Rcov x b v (⟨q.val / 3, by omega⟩ : Fin 3) (⟨q.val % 3, by omega⟩ : Fin 3) := by
  rw [val_main_v58_apply, val_main_v51_apply, v44_at x hmin, val_main_v50_apply, val_main_v47_apply]
  have e : idx_main_v47 (idx_main_v50 (ix2 (tableRow b v hv) q)) = ix1 (tableRow b v hv) := by
    funext d; match d with | ⟨0, _⟩ => rfl
  rw [e, v46_at x hmin]
  rw [val_main_v57_apply, idx_v57, val_main_v56_apply, val_main_v54_apply, val_main_v52_apply, val_main_v55_apply, val_main_v53_apply]
  have e1 : idx_main_v52 (idx_main_v54 (ix3 (tableRow b v hv) (⟨q.val / 3, by omega⟩ : Fin 3) (⟨q.val % 3, by omega⟩ : Fin 3)))
      = ix2 (tableRow b v hv) (⟨q.val / 3, by omega⟩ : Fin 3) := by
    funext d; match d with | ⟨0, _⟩ => rfl | ⟨1, _⟩ => rfl
  have e2 : idx_main_v53 (idx_main_v55 (ix3 (tableRow b v hv) (⟨q.val / 3, by omega⟩ : Fin 3) (⟨q.val % 3, by omega⟩ : Fin 3)))
      = ix2 (tableRow b v hv) (⟨q.val % 3, by omega⟩ : Fin 3) := by
    funext d; match d with | ⟨0, _⟩ => rfl | ⟨1, _⟩ => rfl
  rw [e1, e2, v49_at x hmin, v49_at x hmin]
  rfl

/-- A row of the table: the three means, then the nine moments. -/
theorem v59_at (b : Fin 8) (v : ℕ) (hv : v < 8000) (k : Fin 12) :
    val_main_v59 (F := Ideal) x (ix2 (tableRow b v hv) k)
      = if hk : k.val < 3 then Spec.Rmean x b v ⟨k.val, hk⟩
        else Spec.Rcov x b v ⟨(k.val - 3) / 3, by omega⟩ ⟨(k.val - 3) % 3, by omega⟩ := by
  have hk12 := k.isLt
  by_cases hk : k.val < 3
  · rw [dif_pos hk, ← v49_at x hmin b v hv ⟨k.val, hk⟩]
    unfold val_main_v59
    refine concatenate_pair_apply_left (t := S64000x12) (s₁ := S64000x3) (s₂ := S64000x9) (1 : Fin S64000x12.rank) _ _ _ (ix2 (tableRow b v hv) k)
      (rfl : S64000x3.rank = S64000x12.rank) (ix2 (tableRow b v hv) (⟨k.val, hk⟩ : Fin 3)) ?_
    intro d
    match d with
    | ⟨0, _⟩ => rfl
    | ⟨1, _⟩ => rfl
  · rw [dif_neg hk]
    have h9 : k.val - 3 < 9 := by omega
    rw [← v58_at x hmin b v hv ⟨k.val - 3, h9⟩]
    unfold val_main_v59
    refine concatenate_pair_apply_right (t := S64000x12) (s₁ := S64000x3) (s₂ := S64000x9) (1 : Fin S64000x12.rank) _ _ _ (ix2 (tableRow b v hv) k)
      (rfl : S64000x3.rank = S64000x12.rank) (rfl : S64000x9.rank = S64000x12.rank)
      (ix2 (tableRow b v hv) (⟨k.val - 3, h9⟩ : Fin 9)) ?_ ?_
    · intro d hd
      match d with
      | ⟨0, _⟩ => rfl
      | ⟨1, _⟩ => exact absurd rfl hd
    · show k.val - 3 + 3 = k.val
      omega

/-- The table with its rows split by cloud and by the three cells. -/
theorem v60_at (b : Fin 8) (c0 c1 c2 : Fin 20) (k : Fin 12) :
    val_main_v60 (F := Ideal) x (ix5 b c0 c1 c2 k)
      = if hk : k.val < 3 then Spec.Rmean x b (Spec.flat3 c0.val c1.val c2.val) ⟨k.val, hk⟩
        else Spec.Rcov x b (Spec.flat3 c0.val c1.val c2.val) ⟨(k.val - 3) / 3, by omega⟩ ⟨(k.val - 3) % 3, by omega⟩ := by
  rw [val_main_v60_apply, idx_v60, v59_at x hmin]

end

end Cert.RefSide

end
-- ==== Proof.RefSidePick.lean ====
/-
  The four start coordinates of the reference's table lookup: the cloud number and the sampled point's three cells, each already inside its axis.
-/
import proofs.«134341_j34419867910943_2_alg».proof.Proof.RefSideSeg

noncomputable section

namespace Cert.RefSide

open Idealize.ShloMosaic Idealize.ShloMosaic.ValueIdx Cert.ReferenceIdeal Cert.ReferenceIdeal.Read

/-- A word that reads nonnegative is not below zero. -/
theorem cmpi_slt_zero (w : BitVec 32) (h : 0 ≤ w.toInt) : IntOp.cmpi .slt w 0#32 = 0#1 := by
  have hs : w.slt 0#32 = false := by
    rw [← Bool.not_eq_true, BitVec.slt_iff_toInt_lt]
    have : (0#32 : BitVec 32).toInt = 0 := rfl
    omega
  show BitVec.ofBool (w.slt 0#32) = 0#1
  rw [hs]
  rfl

theorem toInt_ofNat_small (n : Nat) (h : n < 2147483648) : (BitVec.ofNat 32 n).toInt = (n : ℤ) := by
  have h1 : (BitVec.ofNat 32 n).toNat = n := by rw [BitVec.toNat_ofNat]; omega
  have := BitVec.toInt_eq_toNat_cond (BitVec.ofNat 32 n)
  rw [h1] at this
  split at this <;> omega

/-- The cloud number, wrapped if negative: it is not. -/
theorem v82_at (b : Fin 8) : val_main_v82 (F := Ideal) (ix2 b (0 : Fin 1)) = BitVec.ofNat 32 b.val := by
  rw [val_main_v82_apply, val_main_v79_apply, val_main_v71_apply, val_main_v70_apply, val_main_v78_apply, val_main_c_13_apply]
  have e : ((idx_main_v71 (ix2 b (0 : Fin 1))) 0).val = b.val := rfl
  rw [e, cmpi_slt_zero _ (by rw [toInt_ofNat_small _ (by have := b.isLt; omega)]; omega), select_zero]

theorem v99_at (b : Fin 8) (m : Fin 4096) : val_main_v99 (F := Ideal) (ix3 b m (0 : Fin 1)) = BitVec.ofNat 32 b.val := by
  rw [val_main_v99_apply, val_main_v98_apply]
  have e : idx_main_v98 (idx_main_v99 (ix3 b m (0 : Fin 1))) = ix2 b (0 : Fin 1) := by
    funext d; match d with | ⟨0, _⟩ => rfl | ⟨1, _⟩ => rfl
  rw [e, v82_at]

theorem idx_v73 (b : Fin 8) (m : Fin 4096) : idx_main_v73 (ix2 b m) = ix3 b m (0 : Fin 1) := by
  have hb := b.isLt
  have hm := m.isLt
  funext d
  match d with
  | ⟨0, _⟩ => exact Fin.ext (show (b.val * 4096 + m.val) / 4096 = b.val by omega)
  | ⟨1, _⟩ => exact Fin.ext (show (b.val * 4096 + m.val) / 1 % 4096 = m.val by omega)
  | ⟨2, _⟩ => rfl

theorem cellW_nonneg (p mn : EReal) : 0 ≤ (cellW p mn).toInt := by
  rw [cellW_toInt]; exact Spec.cellZ_nonneg _ _

section
variable (x : XT) (idx : IT)
  (hmin : ∀ b a, val_main_v0 (F := Ideal) x (ix2 b a) = Spec.minc x b a)
  (hpt : ∀ b m a, val_main_v62 (F := Ideal) x idx (ix3 b m a) = Spec.ptAt x idx b m a)
include hmin hpt

/-- The sampled point's cell along an axis. -/
theorem v69_at (b : Fin 8) (m : Fin 4096) (a : Fin 3) :
    val_main_v69 (F := Ideal) x idx (ix3 b m a) = cellW (Spec.ptAt x idx b m a) (Spec.minc x b a) := by
  rw [val_main_v69_apply, val_main_call2_v4_apply, val_main_call2_v3_apply, val_main_c_12_apply,
    val_main_call2_v2_apply, val_main_call2_v1_apply, val_main_call2_v0_apply, val_main_c_11_apply,
    val_main_v68_apply, val_main_v67_apply, val_main_v66_apply, val_main_v65_apply, val_main_cst_10_apply,
    val_main_v64_apply, val_main_v63_apply, val_main_v1_apply]
  have e : idx_main_v1 (idx_main_v63 (ix3 b m a)) = ix2 b a := by
    funext d; match d with | ⟨0, _⟩ => rfl | ⟨1, _⟩ => rfl
  rw [e, hpt, hmin]
  rfl

/-- The three cell coordinates, wrapped if negative: they are not. -/
theorem v87_at (b : Fin 8) (m : Fin 4096) :
    val_main_v87 (F := Ideal) x idx (ix2 b m) = cellW (Spec.ptAt x idx b m 0) (Spec.minc x b 0) := by
  rw [val_main_v87_apply, val_main_v84_apply, val_main_v73_apply, val_main_v72_apply, val_main_v83_apply, val_main_c_15_apply]
  have e1 : idx_main_v73 (ix2 b m) = ix3 b m (0 : Fin 1) := idx_v73 b m
  have e2 : idx_main_v72 (ix3 b m (0 : Fin 1)) = ix3 b m (0 : Fin 3) := by
    funext d; match d with | ⟨0, _⟩ => rfl | ⟨1, _⟩ => rfl | ⟨2, _⟩ => rfl
  rw [e1, e2, v69_at x idx hmin hpt, cmpi_slt_zero _ (cellW_nonneg _ _), select_zero]

theorem v92_at (b : Fin 8) (m : Fin 4096) :
    val_main_v92 (F := Ideal) x idx (ix2 b m) = cellW (Spec.ptAt x idx b m 1) (Spec.minc x b 1) := by
  rw [val_main_v92_apply, val_main_v89_apply, val_main_v75_apply, val_main_v74_apply, val_main_v88_apply, val_main_c_17_apply]
  have e1 : idx_main_v75 (ix2 b m) = ix3 b m (0 : Fin 1) := idx_v73 b m
  have e2 : idx_main_v74 (ix3 b m (0 : Fin 1)) = ix3 b m (1 : Fin 3) := by
    funext d; match d with | ⟨0, _⟩ => rfl | ⟨1, _⟩ => rfl | ⟨2, _⟩ => rfl
  rw [e1, e2, v69_at x idx hmin hpt, cmpi_slt_zero _ (cellW_nonneg _ _), select_zero]

theorem v97_at (b : Fin 8) (m : Fin 4096) :
    val_main_v97 (F := Ideal) x idx (ix2 b m) = cellW (Spec.ptAt x idx b m 2) (Spec.minc x b 2) := by
  rw [val_main_v97_apply, val_main_v94_apply, val_main_v77_apply, val_main_v76_apply, val_main_v93_apply, val_main_c_19_apply]
  have e1 : idx_main_v77 (ix2 b m) = ix3 b m (0 : Fin 1) := idx_v73 b m
  have e2 : idx_main_v76 (ix3 b m (0 : Fin 1)) = ix3 b m (2 : Fin 3) := by
    funext d; match d with | ⟨0, _⟩ => rfl | ⟨1, _⟩ => rfl | ⟨2, _⟩ => rfl
  rw [e1, e2, v69_at x idx hmin hpt, cmpi_slt_zero _ (cellW_nonneg _ _), select_zero]

end

end Cert.RefSide

end
-- ==== Proof.RefSideStart.lean ====
/-
  The start indices of the reference's table lookup, the four columns joined: the cloud number and the sampled point's three cells.
-/
import proofs.«134341_j34419867910943_2_alg».proof.Proof.RefSidePick

noncomputable section

namespace Cert.RefSide

open Idealize.ShloMosaic Idealize.ShloMosaic.ValueIdx Cert.ReferenceIdeal Cert.ReferenceIdeal.Read

section
variable (x : XT) (idx : IT)
  (hmin : ∀ b a, val_main_v0 (F := Ideal) x (ix2 b a) = Spec.minc x b a)
  (hpt : ∀ b m a, val_main_v62 (F := Ideal) x idx (ix3 b m a) = Spec.ptAt x idx b m a)

theorem v103_at0 (b : Fin 8) (m : Fin 4096) :
    val_main_v103 (F := Ideal) x idx (ix3 b m (0 : Fin 4)) = BitVec.ofNat 32 b.val := by
  unfold val_main_v103
  refine (concatenate_apply_piece (2 : Fin S8x4096x4.rank) _ _ (ix3 b m (0 : Fin 4)) 0 (by show (0 : ℕ) < 4; omega) S8x4096x1
    (val_main_v99 (F := Ideal)) rfl rfl 0 rfl (ix3 b m (0 : Fin 1)) ?_ ?_).trans (v99_at b m)
  · intro d hd
    match d with
    | ⟨0, _⟩ => rfl
    | ⟨1, _⟩ => rfl
    | ⟨2, _⟩ => exact absurd rfl hd
  · rfl

include hmin hpt

theorem v103_at1 (b : Fin 8) (m : Fin 4096) :
    val_main_v103 (F := Ideal) x idx (ix3 b m (1 : Fin 4)) = cellW (Spec.ptAt x idx b m 0) (Spec.minc x b 0) := by
  have e : idx_main_v100 (ix3 b m (0 : Fin 1)) = ix2 b m := by
    funext d; match d with | ⟨0, _⟩ => rfl | ⟨1, _⟩ => rfl
  rw [← v87_at x idx hmin hpt b m, ← e, ← val_main_v100_apply]
  unfold val_main_v103
  refine concatenate_apply_piece (2 : Fin S8x4096x4.rank) _ _ (ix3 b m (1 : Fin 4)) 1 (by show (1 : ℕ) < 4; omega) S8x4096x1
    (val_main_v100 (F := Ideal) x idx) rfl rfl 1 rfl (ix3 b m (0 : Fin 1)) ?_ ?_
  · intro d hd
    match d with
    | ⟨0, _⟩ => rfl
    | ⟨1, _⟩ => rfl
    | ⟨2, _⟩ => exact absurd rfl hd
  · rfl

theorem v103_at2 (b : Fin 8) (m : Fin 4096) :
    val_main_v103 (F := Ideal) x idx (ix3 b m (2 : Fin 4)) = cellW (Spec.ptAt x idx b m 1) (Spec.minc x b 1) := by
  have e : idx_main_v101 (ix3 b m (0 : Fin 1)) = ix2 b m := by
    funext d; match d with | ⟨0, _⟩ => rfl | ⟨1, _⟩ => rfl
  rw [← v92_at x idx hmin hpt b m, ← e, ← val_main_v101_apply]
  unfold val_main_v103
  refine concatenate_apply_piece (2 : Fin S8x4096x4.rank) _ _ (ix3 b m (2 : Fin 4)) 2 (by show (2 : ℕ) < 4; omega) S8x4096x1
    (val_main_v101 (F := Ideal) x idx) rfl rfl 2 rfl (ix3 b m (0 : Fin 1)) ?_ ?_
  · intro d hd
    match d with
    | ⟨0, _⟩ => rfl
    | ⟨1, _⟩ => rfl
    | ⟨2, _⟩ => exact absurd rfl hd
  · rfl

theorem v103_at3 (b : Fin 8) (m : Fin 4096) :
    val_main_v103 (F := Ideal) x idx (ix3 b m (3 : Fin 4)) = cellW (Spec.ptAt x idx b m 2) (Spec.minc x b 2) := by
  have e : idx_main_v102 (ix3 b m (0 : Fin 1)) = ix2 b m := by
    funext d; match d with | ⟨0, _⟩ => rfl | ⟨1, _⟩ => rfl
  rw [← v97_at x idx hmin hpt b m, ← e, ← val_main_v102_apply]
  unfold val_main_v103
  refine concatenate_apply_piece (2 : Fin S8x4096x4.rank) _ _ (ix3 b m (3 : Fin 4)) 3 (by show (3 : ℕ) < 4; omega) S8x4096x1
    (val_main_v102 (F := Ideal) x idx) rfl rfl 3 rfl (ix3 b m (0 : Fin 1)) ?_ ?_
  · intro d hd
    match d with
    | ⟨0, _⟩ => rfl
    | ⟨1, _⟩ => rfl
    | ⟨2, _⟩ => exact absurd rfl hd
  · rfl

end

end Cert.RefSide

end
-- ==== Proof.RefSideGather.lean ====
/-
  The table lookup read at an index: a gather of whole rows of twelve out of a five-axis table at four start coordinates.
-/
import Idealize.ShloMosaic.PureOps.Ideal
import Idealize.ShloMosaic.Lib.ValueIdx

noncomputable section

namespace Cert.RefSide

open Idealize.ShloMosaic Idealize.ShloMosaic.ValueIdx

variable {α : Type}

/-- The lookup's dimension numbers: result axis 2 is the offset axis, the table's first four axes are collapsed and named,
    in order, by the four components of a start index, which lie along axis 2 of the start indices. -/
abbrev tableGather (wf : GatherDims.WF ⟨5, ![8, 20, 20, 20, 12]⟩ ⟨3, ![8, 4096, 4]⟩ ⟨3, ![8, 4096, 12]⟩ [2] [0, 1, 2, 3] []
      [0, 1, 2, 3] [] 2 ![1, 1, 1, 1, 12]) :
    GatherDims ⟨5, ![8, 20, 20, 20, 12]⟩ ⟨3, ![8, 4096, 4]⟩ ⟨3, ![8, 4096, 12]⟩ where
  offsetDims := [2]
  collapsedSliceDims := [0, 1, 2, 3]
  operandBatchingDims := []
  startIndicesBatchingDims := []
  startIndexMap := [0, 1, 2, 3]
  indexVectorDim := 2
  sliceSizes := ![1, 1, 1, 1, 12]
  wf := wf

/-- Entry `(b, m, k)` of the lookup: the table at the four start coordinates `I[b, m, ·]`, each read signed and clamped
    into its axis, and column `k`. -/
theorem gather_table_apply (wf : GatherDims.WF ⟨5, ![8, 20, 20, 20, 12]⟩ ⟨3, ![8, 4096, 4]⟩ ⟨3, ![8, 4096, 12]⟩ [2] [0, 1, 2, 3] []
      [0, 1, 2, 3] [] 2 ![1, 1, 1, 1, 12])
    (T : (⟨5, ![8, 20, 20, 20, 12]⟩ : Shape).Idx → α) (I : IVec ⟨3, ![8, 4096, 4]⟩ 32) (b : Fin 8) (m : Fin 4096) (k : Fin 12) :
    Host.gather (tableGather wf) T I (ix3 b m k)
      = T (ix5 (⟨min (I (ix3 b m (0 : Fin 4))).toInt.toNat 7, by omega⟩ : Fin 8)
              (⟨min (I (ix3 b m (1 : Fin 4))).toInt.toNat 19, by omega⟩ : Fin 20)
              (⟨min (I (ix3 b m (2 : Fin 4))).toInt.toNat 19, by omega⟩ : Fin 20)
              (⟨min (I (ix3 b m (3 : Fin 4))).toInt.toNat 19, by omega⟩ : Fin 20) k) := by
  unfold Host.gather
  congr 1
  funext a
  refine Fin.ext ?_
  have hsi : ∀ (c : Fin 4) (hc : c.val < (tableGather wf).startIndexMap.length),
      (tableGather wf).siIdx (ix3 b m k) ⟨c.val, hc⟩ = ix3 b m c := by
    intro c hc
    funext e; refine Fin.ext ?_
    match e with
    | ⟨0, _⟩ => rfl
    | ⟨1, _⟩ => rfl
    | ⟨2, _⟩ => rfl
  have hcoll : ∀ a : Fin 5, a ∈ ([0, 1, 2, 3] : List (Fin 5)) → (tableGather wf).offCoord (ix3 b m k) a = 0 := fun a ha =>
    GatherDims.offCoord_eq_zero _ _ _ (fun h => ((GatherDims.mem_sKept _ _).mp h).1 ha)
  have hm : ∀ a : Fin 5, a ∈ ([0, 1, 2, 3] : List (Fin 5)) → a ∈ (tableGather wf).startIndexMap := fun _ h => h
  have hl : (tableGather wf).startIndexMap.length = 4 := rfl
  match a with
  | ⟨0, _⟩ =>
    show (tableGather wf).start (ix3 b m k) I 0 + (tableGather wf).batchCoord (ix3 b m k) 0 + (tableGather wf).offCoord (ix3 b m k) 0 = _
    rw [GatherDims.batchCoord_eq_zero _ _ _ List.not_mem_nil, hcoll 0 (by decide)]
    simp only [Nat.add_zero]
    unfold GatherDims.start
    rw [dif_pos (hm 0 (by decide))]
    have := hsi 0 (by rw [hl]; decide)
    rw [show (⟨List.idxOf (0 : Fin 5) (tableGather wf).startIndexMap, List.idxOf_lt_length_iff.2 (hm 0 (by decide))⟩ : Fin (tableGather wf).startIndexMap.length) = ⟨(0 : Fin 4).val, by rw [hl]; decide⟩ from rfl, this]
    rfl
  | ⟨1, _⟩ =>
    show (tableGather wf).start (ix3 b m k) I 1 + (tableGather wf).batchCoord (ix3 b m k) 1 + (tableGather wf).offCoord (ix3 b m k) 1 = _
    rw [GatherDims.batchCoord_eq_zero _ _ _ List.not_mem_nil, hcoll 1 (by decide)]
    simp only [Nat.add_zero]
    unfold GatherDims.start
    rw [dif_pos (hm 1 (by decide))]
    have := hsi 1 (by rw [hl]; decide)
    rw [show (⟨List.idxOf (1 : Fin 5) (tableGather wf).startIndexMap, List.idxOf_lt_length_iff.2 (hm 1 (by decide))⟩ : Fin (tableGather wf).startIndexMap.length) = ⟨(1 : Fin 4).val, by rw [hl]; decide⟩ from rfl, this]
    rfl
  | ⟨2, _⟩ =>
    show (tableGather wf).start (ix3 b m k) I 2 + (tableGather wf).batchCoord (ix3 b m k) 2 + (tableGather wf).offCoord (ix3 b m k) 2 = _
    rw [GatherDims.batchCoord_eq_zero _ _ _ List.not_mem_nil, hcoll 2 (by decide)]
    simp only [Nat.add_zero]
    unfold GatherDims.start
    rw [dif_pos (hm 2 (by decide))]
    have := hsi 2 (by rw [hl]; decide)
    rw [show (⟨List.idxOf (2 : Fin 5) (tableGather wf).startIndexMap, List.idxOf_lt_length_iff.2 (hm 2 (by decide))⟩ : Fin (tableGather wf).startIndexMap.length) = ⟨(2 : Fin 4).val, by rw [hl]; decide⟩ from rfl, this]
    rfl
  | ⟨3, _⟩ =>
    show (tableGather wf).start (ix3 b m k) I 3 + (tableGather wf).batchCoord (ix3 b m k) 3 + (tableGather wf).offCoord (ix3 b m k) 3 = _
    rw [GatherDims.batchCoord_eq_zero _ _ _ List.not_mem_nil, hcoll 3 (by decide)]
    simp only [Nat.add_zero]
    unfold GatherDims.start
    rw [dif_pos (hm 3 (by decide))]
    have := hsi 3 (by rw [hl]; decide)
    rw [show (⟨List.idxOf (3 : Fin 5) (tableGather wf).startIndexMap, List.idxOf_lt_length_iff.2 (hm 3 (by decide))⟩ : Fin (tableGather wf).startIndexMap.length) = ⟨(3 : Fin 4).val, by rw [hl]; decide⟩ from rfl, this]
    rfl
  | ⟨4, _⟩ =>
    show (tableGather wf).start (ix3 b m k) I 4 + (tableGather wf).batchCoord (ix3 b m k) 4 + (tableGather wf).offCoord (ix3 b m k) 4 = k.val
    rw [GatherDims.batchCoord_eq_zero _ _ _ List.not_mem_nil]
    unfold GatherDims.start
    rw [dif_neg (show ¬ (4 : Fin 5) ∈ ([0, 1, 2, 3] : List (Fin 5)) by decide)]
    simp only [Nat.zero_add, Nat.add_zero]
    rfl

/-- The same, with the four clamped start coordinates named. -/
theorem gather_table_apply' (wf : GatherDims.WF ⟨5, ![8, 20, 20, 20, 12]⟩ ⟨3, ![8, 4096, 4]⟩ ⟨3, ![8, 4096, 12]⟩ [2] [0, 1, 2, 3] []
      [0, 1, 2, 3] [] 2 ![1, 1, 1, 1, 12])
    (T : (⟨5, ![8, 20, 20, 20, 12]⟩ : Shape).Idx → α) (I : IVec ⟨3, ![8, 4096, 4]⟩ 32) (b : Fin 8) (m : Fin 4096) (k : Fin 12)
    (c0 : Fin 8) (c1 c2 c3 : Fin 20)
    (h0 : min (I (ix3 b m (0 : Fin 4))).toInt.toNat 7 = c0.val) (h1 : min (I (ix3 b m (1 : Fin 4))).toInt.toNat 19 = c1.val)
    (h2 : min (I (ix3 b m (2 : Fin 4))).toInt.toNat 19 = c2.val) (h3 : min (I (ix3 b m (3 : Fin 4))).toInt.toNat 19 = c3.val) :
    Host.gather (tableGather wf) T I (ix3 b m k) = T (ix5 c0 c1 c2 c3 k) := by
  refine (gather_table_apply wf T I b m k).trans (congrArg T ?_)
  funext d
  match d with
  | ⟨0, _⟩ => exact Fin.ext h0
  | ⟨1, _⟩ => exact Fin.ext h1
  | ⟨2, _⟩ => exact Fin.ext h2
  | ⟨3, _⟩ => exact Fin.ext h3
  | ⟨4, _⟩ => rfl

end Cert.RefSide

end
-- ==== Proof.RefSidePtA.lean ====
/-
  The minimum over the middle axis of an 8 x 262144 x 3 array, read at an index.

  From the initial value +infinity, the minimum over the middle axis at (b, a) is the infimum, over the 262144
  coordinates n of that axis, of the element (b, n, a): the indices that drop to (b, a) are (b, n, a), and a fold of
  the binary minimum from the top element over a finite set is that set's infimum.
-/
import Idealize.ShloMosaic.PureOps.Ideal.Laws
import Idealize.ShloMosaic.Lib.ValueIdx
import Idealize.ShloMosaic.Lib.Affine

noncomputable section

namespace Cert.RefSide

open Idealize.ShloMosaic Idealize.ShloMosaic.ValueIdx

abbrev SX3 : Shape := ⟨3, ![8, 262144, 3]⟩
abbrev S83 : Shape := ⟨2, ![8, 3]⟩
abbrev S0 : Shape := ⟨0, ![]⟩

theorem redX : SX3.Reduces [1] S83 := by decide

/-- Inserting the coordinate n on the middle axis of the index (b, a). -/
theorem lift_redX (b : Fin 8) (a : Fin 3) (n : Fin 262144) : redX.lift (ix2 b a) n = ix3 b n a := by
  funext c
  apply Fin.ext
  match c with
  | ⟨0, _⟩ => rfl
  | ⟨1, _⟩ => rfl
  | ⟨2, _⟩ => rfl

/-- The minimum over the middle axis from +infinity is the infimum over that axis. -/
theorem reduce_min_eq_inf (x : SX3.Idx → EReal) (init : S0.Idx → EReal) (hinit : ∀ i, init i = ⊤)
    (h' : SX3.ReducesTo [1] S83) (hu : 0 < S0.numel) (b : Fin 8) (a : Fin 3) :
    Host.reduce (FloatOps.minimumf (F := Ideal) (φ := .f32)) x init h' hu (ix2 b a)
      = Finset.univ.inf fun n : Fin 262144 => x (ix3 b n a) := by
  rw [Host.reduce_eq_fold_single _ x init h' redX hu (ix2 b a), hinit]
  have hc : (x ∘ redX.lift (ix2 b a)) = fun n : Fin 262144 => x (ix3 b n a) := by
    funext n
    exact congrArg x (lift_redX b a n)
  rw [hc]
  rfl

end Cert.RefSide

end
-- ==== Proof.RefSidePtB.lean ====
/-
  The conjunction over a last axis of size one, and the gather of take_along_axis, read at an index.

  * the conjunction over the last axis (of size one) of a [B, M, 1] array of bits is the initial bit and the one element;
  * the gather with operand [B, N, C], start indices [B, M, 1], batching axis 0 on both, collapsed axis 1, rows of C
    kept whole, reads the operand at (b, clamp idx[b, m, 0], c), the start index read signed and clamped to [0, N - 1].
-/
import Idealize.ShloMosaic.PureOps.Ideal.Laws
import Idealize.ShloMosaic.Lib.ValueIdx
import Idealize.ShloMosaic.Lib.Affine

noncomputable section

namespace Cert.RefSide

open Idealize.ShloMosaic Idealize.ShloMosaic.ValueIdx

variable {α : Type}

abbrev SI1 : Shape := ⟨3, ![8, 4096, 1]⟩
abbrev SI2 : Shape := ⟨2, ![8, 4096]⟩

theorem redI : SI1.Reduces [2] SI2 := by decide

/-- Inserting the one coordinate of the last axis into the index (b, m). -/
theorem lift_redI (b : Fin 8) (m : Fin 4096) (k : Fin 1) : redI.lift (ix2 b m) k = ix3 b m (0 : Fin 1) := by
  funext c
  apply Fin.ext
  match c with
  | ⟨0, _⟩ => rfl
  | ⟨1, _⟩ => rfl
  | ⟨2, _⟩ =>
    show k.val = 0
    omega

/-- A fold over the one-element index set is one application of the operation. -/
theorem fold_fin_one {β : Type} (op : β → β → β) [Std.Commutative op] [Std.Associative op] (b0 : β) (f : Fin 1 → β) :
    (Finset.univ : Finset (Fin 1)).fold op b0 f = op (f 0) b0 := by
  rw [Finset.univ_unique, Finset.fold_singleton]
  rfl

/-- The conjunction over the last axis, of size one: the initial bit and the one element. -/
theorem reduce_and_one (v : IVec SI1 1) (init : (⟨0, ![]⟩ : Shape).Idx → BitVec 1)
    (h' : SI1.ReducesTo [2] SI2) (hu : 0 < (⟨0, ![]⟩ : Shape).numel) (b : Fin 8) (m : Fin 4096) :
    Host.reduce IntOp.andi v init h' hu (ix2 b m)
      = IntOp.andi (init (Shape.Idx.first hu)) (v (ix3 b m (0 : Fin 1))) := by
  rw [Host.reduce_eq_fold_single _ v init h' redI hu (ix2 b m)]
  refine (fold_fin_one IntOp.andi (init (Shape.Idx.first hu)) (v ∘ redI.lift (ix2 b m))).trans ?_
  show IntOp.andi (v (redI.lift (ix2 b m) (0 : Fin 1))) (init (Shape.Idx.first hu)) = _
  rw [lift_redI, Std.Commutative.comm (op := IntOp.andi (w := 1))]

/-! ## The gather -/

/-- take_along_axis's dimension numbers: operand [B, N, C], start indices [B, M, 1], result [B, M, C]. -/
abbrev takeAlong (B N C M : Nat)
    (wf : GatherDims.WF ⟨3, ![B, N, C]⟩ ⟨3, ![B, M, 1]⟩ ⟨3, ![B, M, C]⟩ [2] [1] [0] [1] [0] 2 ![1, 1, C]) :
    GatherDims ⟨3, ![B, N, C]⟩ ⟨3, ![B, M, 1]⟩ ⟨3, ![B, M, C]⟩ where
  offsetDims := [2]
  collapsedSliceDims := [1]
  operandBatchingDims := [0]
  startIndicesBatchingDims := [0]
  startIndexMap := [1]
  indexVectorDim := 2
  sliceSizes := ![1, 1, C]
  wf := wf

/-- Element (b, m, c) of the gather: the operand at (b, idx[b, m, 0] read signed and clamped, c). -/
theorem gather_takeAlong_apply {B N C M w : Nat} (hN : 0 < N)
    (wf : GatherDims.WF ⟨3, ![B, N, C]⟩ ⟨3, ![B, M, 1]⟩ ⟨3, ![B, M, C]⟩ [2] [1] [0] [1] [0] 2 ![1, 1, C])
    (x : (⟨3, ![B, N, C]⟩ : Shape).Idx → α) (idx : IVec ⟨3, ![B, M, 1]⟩ w) (y : (⟨3, ![B, M, C]⟩ : Shape).Idx) :
    Host.gather (takeAlong B N C M wf) x idx y
      = x (ix3 (y 0) ⟨min (idx (ix3 (y 0) (y 1) (0 : Fin 1))).toInt.toNat (N - 1), by omega⟩ (y 2)) := by
  unfold Host.gather
  congr 1
  funext a
  refine Fin.ext ?_
  match a with
  | ⟨0, _⟩ =>
    show (takeAlong B N C M wf).start y idx 0 + (takeAlong B N C M wf).batchCoord y 0
      + (takeAlong B N C M wf).offCoord y 0 = (y 0).val
    rw [GatherDims.offCoord_eq_zero _ _ _ (fun h => ((GatherDims.mem_sKept _ _).mp h).2 (List.mem_singleton.mpr rfl))]
    unfold GatherDims.start
    rw [dif_neg (show ¬ (0 : Fin 3) ∈ ([1] : List (Fin 3)) by decide)]
    simp only [Nat.zero_add, Nat.add_zero]
    unfold GatherDims.batchCoord
    rw [dif_pos (show (0 : Fin 3) ∈ ([0] : List (Fin 3)) from List.mem_singleton.mpr rfl)]
    rfl
  | ⟨1, _⟩ =>
    show (takeAlong B N C M wf).start y idx 1 + (takeAlong B N C M wf).batchCoord y 1
      + (takeAlong B N C M wf).offCoord y 1 = _
    rw [GatherDims.batchCoord_eq_zero _ _ _ (show ¬ (1 : Fin 3) ∈ ([0] : List (Fin 3)) by decide),
      GatherDims.offCoord_eq_zero _ _ _ (fun h => ((GatherDims.mem_sKept _ _).mp h).1 (List.mem_singleton.mpr rfl))]
    simp only [Nat.add_zero]
    unfold GatherDims.start
    rw [dif_pos (show (1 : Fin 3) ∈ (takeAlong B N C M wf).startIndexMap from List.mem_singleton.mpr rfl)]
    have hsi : (takeAlong B N C M wf).siIdx y ⟨List.idxOf (1 : Fin 3) (takeAlong B N C M wf).startIndexMap,
        List.idxOf_lt_length_iff.2 (List.mem_singleton.mpr rfl)⟩ = ix3 (y 0) (y 1) (0 : Fin 1) := by
      funext c; refine Fin.ext ?_
      match c with
      | ⟨0, _⟩ => rfl
      | ⟨1, _⟩ => rfl
      | ⟨2, _⟩ => rfl
    rw [hsi]
    rfl
  | ⟨2, _⟩ =>
    show (takeAlong B N C M wf).start y idx 2 + (takeAlong B N C M wf).batchCoord y 2
      + (takeAlong B N C M wf).offCoord y 2 = (y 2).val
    rw [GatherDims.batchCoord_eq_zero _ _ _ (show ¬ (2 : Fin 3) ∈ ([0] : List (Fin 3)) by decide)]
    unfold GatherDims.start
    rw [dif_neg (show ¬ (2 : Fin 3) ∈ ([1] : List (Fin 3)) by decide)]
    simp only [Nat.zero_add, Nat.add_zero]
    rfl

end Cert.RefSide

end
-- ==== Proof.RefSidePt.lean ====
/-
  Two values of the reference read at an index.

  * Its first value, the minimum of the 262144 points of each cloud along each axis, is the corner `Cert.Spec.minc`.
  * The value of take_along_axis — the sampled points — is `Cert.Spec.ptAt` when every sampled index names a point:
    the index is not negative, so it is not shifted by the cloud's size; it passes both range tests, so the gathered
    element is kept and not replaced; and the gather reads the cloud's point at the index, which the clamp to
    [0, 262143] leaves alone.
-/
import proofs.«134341_j34419867910943_2_alg».proof.Proof.RefReadP
import proofs.«134341_j34419867910943_2_alg».proof.Proof.Spec
import proofs.«134341_j34419867910943_2_alg».proof.Proof.RefSidePtA
import proofs.«134341_j34419867910943_2_alg».proof.Proof.RefSidePtB

noncomputable section

namespace Cert.RefSide

open Idealize.ShloMosaic Idealize.ShloMosaic.ValueIdx Cert.ReferenceIdeal Cert.ReferenceIdeal.Gen

/-- The word of +infinity is the top of the extended reals. -/
theorem ofBits_pinf : Ideal.ofBits .f32 0x7F800000#32 = ⊤ := by
  simp [Ideal.ofBits, Ideal.ieee]

/-- The reference's first value at (b, a): the least of the cloud's coordinates along axis a. -/
theorem minc_eq (x : (⟨Cert.ReferenceIdeal.S8x262144x3, .f32⟩ : BufTy).Contents (Elt Ideal)) (b : Fin 8) (a : Fin 3) :
    Cert.ReferenceIdeal.Read.val_main_v0 (F := Ideal) x (ix2 b a) = Cert.Spec.minc x b a := by
  unfold Cert.ReferenceIdeal.Read.val_main_v0 Cert.Spec.minc
  exact reduce_min_eq_inf x _ (fun _ => ofBits_pinf) _ _ b a

/-- A word whose signed value is not negative has that value as its unsigned one. -/
theorem toInt_eq_toNat_of_nonneg (v : BitVec 32) (h : 0 ≤ v.toInt) : v.toInt = (v.toNat : ℤ) := by
  have h1 := BitVec.toInt_eq_toNat_cond v
  have h2 := v.isLt
  split at h1 <;> omega

/-- The sampled points: under the range condition take_along_axis reads the cloud's point at the sampled index. -/
theorem pt_eq (x : (⟨Cert.ReferenceIdeal.S8x262144x3, .f32⟩ : BufTy).Contents (Elt Ideal))
    (idx : (⟨Cert.ReferenceIdeal.S8x4096, .i32⟩ : BufTy).Contents (Elt Ideal)) (hidx : Cert.Spec.InRange idx)
    (b : Fin 8) (m : Fin 4096) (a : Fin 3) :
    Cert.ReferenceIdeal.Read.val_main_v62 (F := Ideal) x idx (ix3 b m a) = Cert.Spec.ptAt x idx b m a := by
  obtain ⟨hlo, hhi⟩ := hidx b m
  have hnat := toInt_eq_toNat_of_nonneg _ hlo
  have hlt : (idx (ix2 b m)).toNat < 262144 := by omega
  have z0 : (0#32 : BitVec 32).toInt = 0 := by decide
  have zN : (262143#32 : BitVec 32).toInt = 262143 := by decide
  -- the index with a trailing axis of size one
  have h61 : Read.val_main_v61 (F := Ideal) idx (ix3 b m (0 : Fin 1)) = idx (ix2 b m) := by
    rw [Read.val_main_v61_apply]
    refine congrArg idx ?_
    funext c
    match c with
    | ⟨0, _⟩ => rfl
    | ⟨1, _⟩ => rfl
  -- not negative: not shifted
  have h4 : Read.val_main_call1_v4 (F := Ideal) idx (ix3 b m (0 : Fin 1)) = idx (ix2 b m) := by
    rw [Read.val_main_call1_v4_apply, Read.val_main_call1_v1_apply, h61, Read.val_main_call1_v0_apply,
      Read.val_main_call1_c_apply]
    have hc : IntOp.cmpi .slt (idx (ix2 b m)) 0#32 = 0#1 :=
      eq_zero_of_ne_one (fun h => by have := IntOp.cmpi_slt.mp h; rw [z0] at this; omega)
    rw [hc, select_zero]
  -- both range tests pass
  have h6 : Read.val_main_call1_v6 (F := Ideal) idx (ix3 b m (0 : Fin 1)) = 1#1 := by
    rw [Read.val_main_call1_v6_apply, h4, Read.val_main_call1_v5_apply, Read.val_main_call1_c_2_apply]
    exact IntOp.cmpi_sge.mpr (by rw [z0]; exact hlo)
  have h9 : Read.val_main_call1_v9 (F := Ideal) idx (ix3 b m (0 : Fin 1)) = 1#1 := by
    rw [Read.val_main_call1_v9_apply, h4, Read.val_main_call1_v8_apply, Read.val_main_call1_v7_apply,
      Read.val_main_call1_c_1_apply]
    exact IntOp.cmpi_sle.mpr (by rw [zN]; omega)
  have h10 : Read.val_main_call1_v10 (F := Ideal) idx (ix3 b m (0 : Fin 1)) = 1#1 := by
    rw [Read.val_main_call1_v10_apply, h6, h9]
    rfl
  have h11 : Read.val_main_call1_v11 (F := Ideal) idx (ix2 b m) = 1#1 := by
    unfold Read.val_main_call1_v11
    refine (reduce_and_one _ _ _ _ b m).trans ?_
    rw [h10]
    rfl
  have h13 : Read.val_main_call1_v13 (F := Ideal) idx (ix3 b m a) = 1#1 := by
    rw [Read.val_main_call1_v13_apply, ← h11]
    refine congrArg _ ?_
    funext c
    match c with
    | ⟨0, _⟩ => rfl
    | ⟨1, _⟩ => rfl
  -- so the gathered element is kept; the gather reads the point at the index
  rw [Read.val_main_v62_apply, h13, select_one]
  unfold Read.val_main_call1_v12
  rw [show gather_S8x262144x3_S8x4096x1_S8x4096x3_2_1_0_0_1_2_113
      = takeAlong 8 262144 3 4096 Facts₀.gather_S8x262144x3_S8x4096x1_S8x4096x3_2_1_0_0_1_2_113_wf from rfl,
    gather_takeAlong_apply (by decide)]
  unfold Cert.Spec.ptAt
  rw [dif_pos hlt]
  refine congrArg x ?_
  funext c
  match c with
  | ⟨0, _⟩ => rfl
  | ⟨1, _⟩ =>
    refine Fin.ext ?_
    show min (Read.val_main_call1_v4 (F := Ideal) idx (ix3 b m (0 : Fin 1))).toInt.toNat (262144 - 1)
      = (idx (ix2 b m)).toNat
    rw [h4]
    omega
  | ⟨2, _⟩ => rfl

end Cert.RefSide

end
-- ==== Proof.RefSide.lean ====
/-
  The reference's result, read index by index, is the formula `Cert.Spec.refOut` of its two arguments.
-/
import proofs.«134341_j34419867910943_2_alg».proof.Proof.RefSideTable
import proofs.«134341_j34419867910943_2_alg».proof.Proof.RefSideStart
import proofs.«134341_j34419867910943_2_alg».proof.Proof.RefSideGather
import proofs.«134341_j34419867910943_2_alg».proof.Proof.RefSidePt

noncomputable section

namespace Cert.RefSide

open Idealize.ShloMosaic Idealize.ShloMosaic.ValueIdx Cert.ReferenceIdeal Cert.ReferenceIdeal.Read

/-- A clamped cell is the cell. -/
theorem clamp_cell (p mn : EReal) : min (cellW p mn).toInt.toNat 19 = Spec.cell p mn := by
  rw [cellW_toInt]
  have h1 := Spec.cellZ_le p mn
  unfold Spec.cell
  omega

theorem v104_unfold (x : XT) (idx : IT) : val_main_v104 (F := Ideal) x idx
    = Host.gather gather_S8x20x20x20x12_S8x4096x4_S8x4096x12_2_0123_n_n_0123_2_111112 (val_main_v60 (F := Ideal) x) (val_main_v103 (F := Ideal) x idx) := rfl
theorem gatherT_eq : (gather_S8x20x20x20x12_S8x4096x4_S8x4096x12_2_0123_n_n_0123_2_111112 : GatherDims S8x20x20x20x12 S8x4096x4 S8x4096x12)
    = tableGather Gen.gather_S8x20x20x20x12_S8x4096x4_S8x4096x12_2_0123_n_n_0123_2_111112_wf := rfl

/-- THE REFERENCE: entry `(b, m, k)` of its result is the table of cloud `b` at the sampled point's cell number, column `k`. -/
theorem result_eq (x : XT) (idx : IT) (hidx : Cert.Spec.InRange idx) :
    Cert.ReferenceIdeal.Read.val_main_v104 (F := Ideal) x idx = Cert.Spec.refOut x idx := by
  funext j
  obtain ⟨b, m, k, rfl⟩ : ∃ b m k, j = ix3 b m k := ⟨j 0, j 1, j 2, eq_ix3 j⟩
  have hmin : ∀ b a, val_main_v0 (F := Ideal) x (ix2 b a) = Spec.minc x b a := minc_eq x
  have hpt : ∀ b m a, val_main_v62 (F := Ideal) x idx (ix3 b m a) = Spec.ptAt x idx b m a := pt_eq x idx hidx
  have h := gather_table_apply' Gen.gather_S8x20x20x20x12_S8x4096x4_S8x4096x12_2_0123_n_n_0123_2_111112_wf
    (val_main_v60 (F := Ideal) x) (val_main_v103 (F := Ideal) x idx) b m k b
    ⟨Spec.cell (Spec.ptAt x idx b m 0) (Spec.minc x b 0), Spec.cell_lt _ _⟩
    ⟨Spec.cell (Spec.ptAt x idx b m 1) (Spec.minc x b 1), Spec.cell_lt _ _⟩
    ⟨Spec.cell (Spec.ptAt x idx b m 2) (Spec.minc x b 2), Spec.cell_lt _ _⟩
    (by rw [v103_at0, toInt_ofNat_small _ (by have := b.isLt; omega)]; have := b.isLt; omega)
    (by rw [v103_at1 x idx hmin hpt]; exact clamp_cell _ _)
    (by rw [v103_at2 x idx hmin hpt]; exact clamp_cell _ _)
    (by rw [v103_at3 x idx hmin hpt]; exact clamp_cell _ _)
  rw [v104_unfold, gatherT_eq]
  refine h.trans ?_
  rw [v60_at x hmin]
  rfl

end Cert.RefSide

end
-- ==== Proof.LibShiftedMoments.lean ====
/-
  First and second moments of a finite family of real points, taken over the extended reals, do not change when
  every point is first translated.

  Let `s` be a finite nonempty set of indices, `c` its number of elements, and `x i`, `y i` real coordinates.
  With the translated coordinates `d i = x i - a`, `e i = y i - b`:

  * the mean:        (Σ d) / c + a = (Σ x) / c                                   (`mean_shift`, `mean_shift_two`)
  * the covariance:  (Σ d·e) / c − ((Σ d) / c)·((Σ e) / c)
                        = (Σ x·y) / c − ((Σ x) / c)·((Σ y) / c)                  (`cov_shift`)

  Every sum is a sum of extended reals that are real numbers, and every quotient is the extended reals' division
  `Ideal.div` by the real number `c ≠ 0`, so each side is a real number and the laws are the laws of ℝ: a sum of
  differences is the difference of the sums, and `Σ a = c · a`. Nothing here holds at an infinite coordinate
  (`⊤ − ⊤` is not `0`), which is why the points are given as reals.

  Beside them, the small facts such a histogram needs: a count is the sum of ones (`sum_one`), a count of a
  nonempty set is not raised by `max · 1` (`max_card_one`), a sum weighted by a product of two indicators is the
  sum over the indices that pass both tests (`onehot_pair_sum`), and a cell number `(i·n + j)·n + k` gives its three
  digits back by division and remainder (`digits3`), as does `h·w + l` its two (`digits2`).
-/
import Idealize.ShloMosaic.PureOps.Ideal

noncomputable section

namespace LibShiftedMoments

open Idealize.ShloMosaic

variable {ι : Type*}

/-- The inclusion of the reals in the extended reals commutes with finite sums. -/
theorem coe_sum (s : Finset ι) (f : ι → ℝ) :
    ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- The quotient of two reals, the divisor not zero, is the real quotient. -/
theorem div_coe_coe (a : ℝ) {c : ℝ} (hc : c ≠ 0) :
    Ideal.div (a : EReal) (c : EReal) = ((a / c : ℝ) : EReal) := by
  rw [Ideal.div_coe hc, ← EReal.coe_mul]
  congr 1
  ring

/-- The number of elements of a nonempty finite set, as a real, is not zero. -/
theorem card_ne_zero {s : Finset ι} (hs : s.Nonempty) : (s.card : ℝ) ≠ 0 := by
  exact_mod_cast (Finset.card_pos.mpr hs).ne'

/-- A count is the sum of ones. -/
theorem sum_one (s : Finset ι) : ∑ _i ∈ s, ((1 : ℝ) : EReal) = ((s.card : ℝ) : EReal) := by
  rw [← coe_sum]
  congr 1
  simp

/-- The count of a nonempty set is at least one, so taking its maximum with one changes nothing. -/
theorem max_card_one {s : Finset ι} (hs : s.Nonempty) :
    max ((s.card : ℝ) : EReal) ((1 : ℝ) : EReal) = ((s.card : ℝ) : EReal) := by
  apply max_eq_left
  have h : (1 : ℝ) ≤ (s.card : ℝ) := by exact_mod_cast Finset.card_pos.mpr hs
  exact_mod_cast h

/-- The count of the empty set is zero, and its maximum with one is one. -/
theorem max_zero_one : max ((0 : ℝ) : EReal) ((1 : ℝ) : EReal) = ((1 : ℝ) : EReal) := by
  apply max_eq_right
  exact_mod_cast (zero_le_one : (0 : ℝ) ≤ 1)

/-- THE MEAN. The mean of the translated points, translated back, is the mean of the points. -/
theorem mean_shift (s : Finset ι) (x d : ι → ℝ) (a : ℝ) (hd : ∀ i ∈ s, d i = x i - a) (hs : s.Nonempty) :
    Ideal.div (∑ i ∈ s, (d i : EReal)) ((s.card : ℝ) : EReal) + (a : EReal)
      = Ideal.div (∑ i ∈ s, (x i : EReal)) ((s.card : ℝ) : EReal) := by
  have hc := card_ne_zero hs
  rw [← coe_sum, ← coe_sum, div_coe_coe _ hc, div_coe_coe _ hc, ← EReal.coe_add]
  congr 1
  rw [Finset.sum_congr rfl hd, Finset.sum_sub_distrib, Finset.sum_const, nsmul_eq_mul]
  field_simp
  ring

/-- The mean again, the translation made in two steps (`d = (x − m) − k`) and undone in two (`(· + k) + m`). -/
theorem mean_shift_two (s : Finset ι) (x d : ι → ℝ) (m k : ℝ) (hd : ∀ i ∈ s, d i = x i - m - k)
    (hs : s.Nonempty) :
    Ideal.div (∑ i ∈ s, (d i : EReal)) ((s.card : ℝ) : EReal) + (k : EReal) + (m : EReal)
      = Ideal.div (∑ i ∈ s, (x i : EReal)) ((s.card : ℝ) : EReal) := by
  rw [add_assoc, ← EReal.coe_add]
  exact mean_shift s x d (k + m) (fun i hi => by rw [hd i hi]; ring) hs

/-- The sum of the products of the translated coordinates, in the sums of the untranslated ones. -/
theorem sum_shift_mul (s : Finset ι) (x y : ι → ℝ) (a b : ℝ) :
    ∑ i ∈ s, (x i - a) * (y i - b)
      = ∑ i ∈ s, x i * y i - b * ∑ i ∈ s, x i - a * ∑ i ∈ s, y i + (s.card : ℝ) * (a * b) := by
  have h : ∀ i ∈ s, (x i - a) * (y i - b) = x i * y i - b * x i - a * y i + a * b := fun i _ => by ring
  rw [Finset.sum_congr rfl h, Finset.sum_add_distrib, Finset.sum_sub_distrib, Finset.sum_sub_distrib,
    ← Finset.mul_sum, ← Finset.mul_sum, Finset.sum_const, nsmul_eq_mul]

/-- THE COVARIANCE. The second moment about the mean is the same for the translated points as for the points. -/
theorem cov_shift (s : Finset ι) (x y d e : ι → ℝ) (a b : ℝ) (hd : ∀ i ∈ s, d i = x i - a)
    (he : ∀ i ∈ s, e i = y i - b) (hs : s.Nonempty) :
    Ideal.div (∑ i ∈ s, ((d i : EReal) * (e i : EReal))) ((s.card : ℝ) : EReal)
        - Ideal.div (∑ i ∈ s, (d i : EReal)) ((s.card : ℝ) : EReal)
          * Ideal.div (∑ i ∈ s, (e i : EReal)) ((s.card : ℝ) : EReal)
      = Ideal.div (∑ i ∈ s, ((x i : EReal) * (y i : EReal))) ((s.card : ℝ) : EReal)
        - Ideal.div (∑ i ∈ s, (x i : EReal)) ((s.card : ℝ) : EReal)
          * Ideal.div (∑ i ∈ s, (y i : EReal)) ((s.card : ℝ) : EReal) := by
  have hc := card_ne_zero hs
  simp only [← EReal.coe_mul]
  rw [← coe_sum, ← coe_sum, ← coe_sum, ← coe_sum, ← coe_sum, ← coe_sum]
  simp only [div_coe_coe _ hc, ← EReal.coe_mul, ← EReal.coe_sub]
  congr 1
  have hde : ∑ i ∈ s, d i * e i = ∑ i ∈ s, (x i - a) * (y i - b) :=
    Finset.sum_congr rfl fun i hi => by rw [hd i hi, he i hi]
  have hds : ∑ i ∈ s, d i = ∑ i ∈ s, x i - (s.card : ℝ) * a := by
    rw [Finset.sum_congr rfl hd, Finset.sum_sub_distrib, Finset.sum_const, nsmul_eq_mul]
  have hes : ∑ i ∈ s, e i = ∑ i ∈ s, y i - (s.card : ℝ) * b := by
    rw [Finset.sum_congr rfl he, Finset.sum_sub_distrib, Finset.sum_const, nsmul_eq_mul]
  rw [hde, hds, hes, sum_shift_mul]
  generalize ∑ i ∈ s, x i * y i = P
  generalize ∑ i ∈ s, x i = S
  generalize ∑ i ∈ s, y i = T
  field_simp
  ring

/-- A sum weighted by the product of two indicators is the sum over the indices that pass both tests: what a
    product of two one-hot matrices, contracted over the points, leaves in one cell. -/
theorem onehot_pair_sum (s : Finset ι) (p q : ι → Prop) [DecidablePred p] [DecidablePred q] (f : ι → EReal) :
    ∑ n ∈ s, (if p n then (1 : EReal) else 0) * ((if q n then (1 : EReal) else 0) * f n)
      = ∑ n ∈ s.filter (fun n => p n ∧ q n), f n := by
  rw [Finset.sum_filter]
  refine Finset.sum_congr rfl fun n _ => ?_
  by_cases hp : p n <;> by_cases hq : q n <;> simp [hp, hq]

/-- The three digits of a cell number in base `n`. -/
theorem digits3 {n i j k : ℕ} (hj : j < n) (hk : k < n) :
    ((i * n + j) * n + k) / (n * n) = i ∧ (((i * n + j) * n + k) / n) % n = j ∧ ((i * n + j) * n + k) % n = k := by
  have hn : 0 < n := Nat.lt_of_le_of_lt (Nat.zero_le _) hj
  have h1 : ((i * n + j) * n + k) / n = i * n + j := by
    rw [Nat.add_comm, Nat.add_mul_div_right _ _ hn, Nat.div_eq_of_lt hk, Nat.zero_add]
  have h2 : (i * n + j) / n = i := by
    rw [Nat.add_comm, Nat.add_mul_div_right _ _ hn, Nat.div_eq_of_lt hj, Nat.zero_add]
  refine ⟨?_, ?_, ?_⟩
  · rw [← Nat.div_div_eq_div_mul, h1, h2]
  · rw [h1, Nat.add_comm, Nat.add_mul_mod_self_right, Nat.mod_eq_of_lt hj]
  · rw [Nat.add_comm, Nat.add_mul_mod_self_right, Nat.mod_eq_of_lt hk]

/-- The two digits of `h·w + l`, and the number from its digits. -/
theorem digits2 {w h l : ℕ} (hl : l < w) : (h * w + l) / w = h ∧ (h * w + l) - ((h * w + l) / w) * w = l := by
  have hw : 0 < w := Nat.lt_of_le_of_lt (Nat.zero_le _) hl
  have h1 : (h * w + l) / w = h := by
    rw [Nat.add_comm, Nat.add_mul_div_right _ _ hw, Nat.div_eq_of_lt hl, Nat.zero_add]
  exact ⟨h1, by rw [h1]; omega⟩

end LibShiftedMoments

end
-- ==== Proof.BridgeBasic.lean ====
/-
  The small facts the comparison of the two formulas rests on.

  * The two constants are real numbers: `one` is `1`, the cell size `h` some real.
  * A cloud's corner is one of its points' coordinates, so it is real when they all are.
  * A cell lies in `0 … 19`; as a natural number and as an integer it is the same number.
  * Three cells below twenty are the base-twenty digits of their cell number.
  * A sampled index that names a point is that point's number, and the sampled point's cell number is that point's.
-/
import proofs.«134341_j34419867910943_2_alg».proof.Proof.Spec
import proofs.«134341_j34419867910943_2_alg».proof.Proof.LibShiftedMoments

noncomputable section

namespace Cert.Bridge

open Idealize.ShloMosaic Idealize.ShloMosaic.ValueIdx Cert.Spec

/-- The constant one is the real number one. -/
theorem one_eq : Spec.one = ((1 : ℝ) : EReal) := by
  unfold Spec.one
  simp [Ideal.ofBits, Ideal.ieee, -EReal.coe_mul]
  norm_num

/-- The cell size is a real number. -/
theorem h_real : ∃ r : ℝ, Spec.h = (r : EReal) := by
  unfold Spec.h
  simp [Ideal.ofBits, Ideal.ieee, -EReal.coe_mul]

/-- A cloud's corner along an axis is one of its points' coordinates: a real number. -/
theorem minc_real {x : SX.Idx → EReal} (hfin : Finite x) (b : Fin 8) (a : Fin 3) :
    ∃ r : ℝ, minc x b a = (r : EReal) := by
  obtain ⟨n, -, hn⟩ := Finset.exists_mem_eq_inf (Finset.univ : Finset (Fin 262144)) ⟨⟨0, by norm_num⟩, Finset.mem_univ _⟩
    (fun n : Fin 262144 => x (ix3 b n a))
  obtain ⟨r, hr⟩ := hfin (ix3 b n a)
  exact ⟨r, by unfold minc; rw [hn, hr]⟩

theorem cellZ_nonneg (p mn : EReal) : 0 ≤ cellZ p mn := le_min (by norm_num) (le_max_left _ _)
theorem cellZ_le (p mn : EReal) : cellZ p mn ≤ 19 := min_le_left _ _

/-- A cell is below twenty. -/
theorem cell_lt (p mn : EReal) : cell p mn < 20 := by
  have h0 := cellZ_nonneg p mn
  have h1 := cellZ_le p mn
  unfold cell
  omega

/-- A cell as an integer and as a natural number is one real number. -/
theorem cellZ_cast (p mn : EReal) : ((cellZ p mn : ℤ) : ℝ) = ((cell p mn : ℕ) : ℝ) := by
  have h0 := cellZ_nonneg p mn
  have e : ((cell p mn : ℕ) : ℤ) = cellZ p mn := Int.toNat_of_nonneg h0
  rw [← e, Int.cast_natCast]

/-- Three cells below twenty are the digits of their cell number. -/
theorem digit_flat3 (c : Fin 3 → ℕ) (hc : ∀ a, c a < 20) (a : Fin 3) :
    digit a (flat3 (c 0) (c 1) (c 2)) = c a := by
  obtain ⟨h0, h1, h2⟩ := LibShiftedMoments.digits3 (n := 20) (i := c 0) (hc 1) (hc 2)
  norm_num at h0
  unfold digit flat3
  match a with
  | ⟨0, _⟩ => simpa using h0
  | ⟨1, _⟩ => simpa using h1
  | ⟨2, _⟩ => simpa using h2

/-- A sampled index that names a point, read unsigned, is below the number of points. -/
theorem idx_lt {idx : SI.Idx → BitVec 32} (hidx : InRange idx) (b : Fin 8) (m : Fin 4096) :
    (idx (ix2 b m)).toNat < 262144 := by
  obtain ⟨h0, h1⟩ := hidx b m
  have hlt := (idx (ix2 b m)).isLt
  rw [BitVec.toInt_eq_toNat_cond] at h0 h1
  split_ifs at h0 h1 <;> omega

/-- The sampled point's cell number is the cell number of the point its index names. -/
theorem vAt_eq (x : SX.Idx → EReal) (idx : SI.Idx → BitVec 32) (b : Fin 8) (m : Fin 4096)
    (hlt : (idx (ix2 b m)).toNat < 262144) :
    vAt x idx b m = flatAt x b ⟨(idx (ix2 b m)).toNat, hlt⟩ := by
  simp only [vAt, flatAt, cellAt, ptAt, dif_pos hlt]

end Cert.Bridge

end
-- ==== Proof.BridgeCell.lean ====
/-
  One cloud, one cell number: the kernel's mean and second moments of the cell's points are the reference's.

  Fix a cloud `b` whose coordinates are all real, and a cell number `v` that at least one point of the cloud has. Let
  `s` be the set of the cloud's points with cell number `v` (`cellSet`). Every histogram entry and every segment sum is a
  sum over `s`; the count is the number of elements of `s`, at least one. For a point of `s` the cell along each axis is
  the matching digit of `v`, so its cell-local coordinate is `d = (x − minc) − digit · h`: one translation per axis, the
  same for every point of `s`. The mean of the `d`, translated back, is the mean of the `x`, and the second moments
  about the mean do not see the translation.
-/
import proofs.«134341_j34419867910943_2_alg».proof.Proof.BridgeBasic

noncomputable section

namespace Cert.Bridge

open Idealize.ShloMosaic Idealize.ShloMosaic.ValueIdx Cert.Spec

/-- The points of cloud `b` with cell number `v`. -/
def cellSet (x : SX.Idx → EReal) (b : Fin 8) (v : ℕ) : Finset (Fin 262144) :=
  Finset.univ.filter fun n => flatAt x b n = v

theorem mem_cellSet {x : SX.Idx → EReal} {b : Fin 8} {v : ℕ} {n : Fin 262144} :
    n ∈ cellSet x b v ↔ flatAt x b n = v := by
  unfold cellSet
  rw [Finset.mem_filter]
  exact ⟨fun h => h.2, fun h => ⟨Finset.mem_univ _, h⟩⟩

/-- A sum over the cloud of what the points with cell number `v` carry is the sum over those points. -/
theorem sum_cell (x : SX.Idx → EReal) (b : Fin 8) (v : ℕ) (f : Fin 262144 → EReal) :
    (∑ n : Fin 262144, if flatAt x b n = v then f n else 0) = ∑ n ∈ cellSet x b v, f n := by
  unfold cellSet
  rw [Finset.sum_filter]

/-! ### The histogram's three kinds of entries -/

theorem feat_one (x : SX.Idx → EReal) (b : Fin 8) (n : Fin 262144) : feat x b n 0 = Spec.one := by
  unfold feat
  have h0 : (0 : Fin 10).val = 0 := rfl
  rw [if_pos h0]

theorem feat_d (x : SX.Idx → EReal) (b : Fin 8) (n : Fin 262144) (a : Fin 3) :
    feat x b n ⟨a.val + 1, by omega⟩ = dAt x b n a := by
  unfold feat
  have h0 : ¬ ((⟨a.val + 1, by omega⟩ : Fin 10).val = 0) := by
    show ¬ (a.val + 1 = 0)
    omega
  have h1 : (⟨a.val + 1, by omega⟩ : Fin 10).val < 4 := by
    show a.val + 1 < 4
    omega
  rw [if_neg h0, dif_pos h1]
  exact congrArg (dAt x b n) (Fin.ext (Nat.add_sub_cancel a.val 1))

theorem feat_p (x : SX.Idx → EReal) (b : Fin 8) (n : Fin 262144) (q : Fin 6) :
    feat x b n ⟨q.val + 4, by omega⟩ = dAt x b n (pairs6 q).1 * dAt x b n (pairs6 q).2 := by
  unfold feat
  have h0 : ¬ ((⟨q.val + 4, by omega⟩ : Fin 10).val = 0) := by
    show ¬ (q.val + 4 = 0)
    omega
  have h1 : ¬ ((⟨q.val + 4, by omega⟩ : Fin 10).val < 4) := by
    show ¬ (q.val + 4 < 4)
    omega
  rw [if_neg h0, dif_neg h1]
  have key : ∀ q' : Fin 6, q' = q →
      dAt x b n (pairs6 q').1 * dAt x b n (pairs6 q').2 = dAt x b n (pairs6 q).1 * dAt x b n (pairs6 q).2 :=
    fun _ e => by rw [e]
  exact key _ (Fin.ext (Nat.add_sub_cancel q.val 4))

/-! ### The sums, over the cell's points -/

theorem Rcnt_eq (x : SX.Idx → EReal) (b : Fin 8) (v : ℕ) :
    Rcnt x b v = (((cellSet x b v).card : ℝ) : EReal) := by
  unfold Rcnt
  rw [sum_cell, one_eq, LibShiftedMoments.sum_one]

theorem Khist0_eq (x : SX.Idx → EReal) (b : Fin 8) (v : ℕ) :
    Khist x b 0 v = (((cellSet x b v).card : ℝ) : EReal) := by
  unfold Khist
  rw [sum_cell, Finset.sum_congr rfl fun n _ => feat_one x b n, one_eq, LibShiftedMoments.sum_one]

theorem Rcntc_eq {x : SX.Idx → EReal} {b : Fin 8} {v : ℕ} (hs : (cellSet x b v).Nonempty) :
    Rcntc x b v = (((cellSet x b v).card : ℝ) : EReal) := by
  unfold Rcntc
  rw [Rcnt_eq, one_eq, LibShiftedMoments.max_card_one hs]

theorem Kcntc_eq {x : SX.Idx → EReal} {b : Fin 8} {v : ℕ} (hs : (cellSet x b v).Nonempty) :
    Kcntc x b v = (((cellSet x b v).card : ℝ) : EReal) := by
  unfold Kcntc
  rw [Khist0_eq, one_eq, LibShiftedMoments.max_card_one hs]

theorem Khist_d (x : SX.Idx → EReal) (b : Fin 8) (v : ℕ) (a : Fin 3) :
    Khist x b ⟨a.val + 1, by omega⟩ v = ∑ n ∈ cellSet x b v, dAt x b n a := by
  unfold Khist
  rw [sum_cell, Finset.sum_congr rfl fun n _ => feat_d x b n a]

theorem Khist_p (x : SX.Idx → EReal) (b : Fin 8) (v : ℕ) (q : Fin 6) :
    Khist x b ⟨q.val + 4, by omega⟩ v
      = ∑ n ∈ cellSet x b v, dAt x b n (pairs6 q).1 * dAt x b n (pairs6 q).2 := by
  unfold Khist
  rw [sum_cell, Finset.sum_congr rfl fun n _ => feat_p x b n q]

theorem Rs1_eq (x : SX.Idx → EReal) (b : Fin 8) (v : ℕ) (a : Fin 3) :
    Rs1 x b v a = ∑ n ∈ cellSet x b v, x (ix3 b n a) := by
  unfold Rs1
  rw [sum_cell]

theorem Rs2_eq (x : SX.Idx → EReal) (b : Fin 8) (v : ℕ) (i j : Fin 3) :
    Rs2 x b v i j = ∑ n ∈ cellSet x b v, x (ix3 b n i) * x (ix3 b n j) := by
  unfold Rs2
  rw [sum_cell]

/-! ### A point of the cell: its cells are the digits of the cell number -/

theorem cellZAt_cast_of_mem {x : SX.Idx → EReal} {b : Fin 8} {v : ℕ} {n : Fin 262144} (hn : n ∈ cellSet x b v)
    (a : Fin 3) : ((cellZAt x b n a : ℤ) : ℝ) = ((digit a v : ℕ) : ℝ) := by
  have hv : flatAt x b n = v := mem_cellSet.mp hn
  have hd : digit a (flatAt x b n) = cellAt x b n a :=
    digit_flat3 (fun a => cellAt x b n a) (fun a => cell_lt _ _) a
  rw [← hv, hd]
  exact cellZ_cast _ _

/-- The cell-local coordinate, along axis `a`, of a point `n` of the cell `v`, as a real number: the coordinate
    translated by the corner and by the cell's own offset. -/
def dR (xr : SX.Idx → ℝ) (b : Fin 8) (M : Fin 3 → ℝ) (hr : ℝ) (v : ℕ) (a : Fin 3) (n : Fin 262144) : ℝ :=
  xr (ix3 b n a) - M a - ((digit a v : ℕ) : ℝ) * hr

section Cell

variable {x : SX.Idx → EReal} {xr : SX.Idx → ℝ} (hx : ∀ i, x i = (xr i : EReal)) {b : Fin 8}
  {M : Fin 3 → ℝ} (hM : ∀ a, minc x b a = (M a : EReal)) {hr : ℝ} (hh : Spec.h = (hr : EReal))
  {v : ℕ}

include hx hM hh in
theorem dAt_of_mem {n : Fin 262144} (hn : n ∈ cellSet x b v) (a : Fin 3) :
    dAt x b n a = ((dR xr b M hr v a n : ℝ) : EReal) := by
  unfold dAt dR
  rw [hx, hM, hh, cellZAt_cast_of_mem hn a, ← EReal.coe_sub, ← EReal.coe_mul, ← EReal.coe_sub]

include hx hM hh in
theorem sum_d (a : Fin 3) :
    ∑ n ∈ cellSet x b v, dAt x b n a = ∑ n ∈ cellSet x b v, ((dR xr b M hr v a n : ℝ) : EReal) :=
  Finset.sum_congr rfl fun _ hn => dAt_of_mem hx hM hh hn a

include hx hM hh in
theorem sum_dd (i j : Fin 3) :
    ∑ n ∈ cellSet x b v, dAt x b n i * dAt x b n j
      = ∑ n ∈ cellSet x b v, ((dR xr b M hr v i n : ℝ) : EReal) * ((dR xr b M hr v j n : ℝ) : EReal) :=
  Finset.sum_congr rfl fun _ hn => by rw [dAt_of_mem hx hM hh hn i, dAt_of_mem hx hM hh hn j]

include hx in
theorem sum_x (a : Fin 3) :
    ∑ n ∈ cellSet x b v, x (ix3 b n a) = ∑ n ∈ cellSet x b v, ((xr (ix3 b n a) : ℝ) : EReal) :=
  Finset.sum_congr rfl fun _ _ => hx _

include hx in
theorem sum_xx (i j : Fin 3) :
    ∑ n ∈ cellSet x b v, x (ix3 b n i) * x (ix3 b n j)
      = ∑ n ∈ cellSet x b v, ((xr (ix3 b n i) : ℝ) : EReal) * ((xr (ix3 b n j) : ℝ) : EReal) :=
  Finset.sum_congr rfl fun _ _ => by rw [hx, hx]

variable (hs : (cellSet x b v).Nonempty)

include hx hM hh hs

/-- THE MEAN of the cell's points: the kernel's is the reference's. -/
theorem Kmean_eq_Rmean (a : Fin 3) : Kmean x b v a = Rmean x b v a := by
  unfold Kmean KmeanD Rmean
  rw [Khist_d, Kcntc_eq hs, Rs1_eq, Rcntc_eq hs, hh, hM, ← EReal.coe_mul, sum_d hx hM hh a, sum_x hx a]
  exact LibShiftedMoments.mean_shift_two (cellSet x b v) (fun n => xr (ix3 b n a))
    (fun n => dR xr b M hr v a n) (M a) (((digit a v : ℕ) : ℝ) * hr)
    (fun _ _ => rfl) hs

/-- The second moments about the mean, for any pair of axes: those of the cell-local coordinates are those of the
    coordinates. -/
theorem cov_core (i j : Fin 3) :
    Ideal.div (∑ n ∈ cellSet x b v, dAt x b n i * dAt x b n j) (((cellSet x b v).card : ℝ) : EReal)
        - Ideal.div (∑ n ∈ cellSet x b v, dAt x b n i) (((cellSet x b v).card : ℝ) : EReal)
          * Ideal.div (∑ n ∈ cellSet x b v, dAt x b n j) (((cellSet x b v).card : ℝ) : EReal)
      = Ideal.div (∑ n ∈ cellSet x b v, x (ix3 b n i) * x (ix3 b n j)) (((cellSet x b v).card : ℝ) : EReal)
        - Ideal.div (∑ n ∈ cellSet x b v, x (ix3 b n i)) (((cellSet x b v).card : ℝ) : EReal)
          * Ideal.div (∑ n ∈ cellSet x b v, x (ix3 b n j)) (((cellSet x b v).card : ℝ) : EReal) := by
  rw [sum_dd hx hM hh i j, sum_d hx hM hh i, sum_d hx hM hh j, sum_xx hx i j, sum_x hx i, sum_x hx j]
  exact LibShiftedMoments.cov_shift (cellSet x b v)
    (fun n => xr (ix3 b n i)) (fun n => xr (ix3 b n j))
    (fun n => dR xr b M hr v i n) (fun n => dR xr b M hr v j n)
    (M i + ((digit i v : ℕ) : ℝ) * hr) (M j + ((digit j v : ℕ) : ℝ) * hr)
    (fun _ _ => by unfold dR; ring) (fun _ _ => by unfold dR; ring) hs

/-- THE SECOND MOMENTS about the mean of the cell's points: the kernel's product `(i, j)` is the reference's. -/
theorem Kcov_eq_Rcov (q : Fin 6) : Kcov6 x b v q = Rcov x b v (pairs6 q).1 (pairs6 q).2 := by
  unfold Kcov6 KmeanD Rcov Rmean
  rw [Khist_p, Khist_d, Khist_d, Kcntc_eq hs, Rs2_eq, Rs1_eq, Rs1_eq, Rcntc_eq hs]
  exact cov_core hx hM hh hs (pairs6 q).1 (pairs6 q).2

end Cell

/-- The reference's second moments are symmetric. -/
theorem Rcov_symm (x : SX.Idx → EReal) (b : Fin 8) (v : ℕ) (i j : Fin 3) : Rcov x b v i j = Rcov x b v j i := by
  unfold Rcov Rs2
  rw [mul_comm (Rmean x b v i), Finset.sum_congr rfl fun n _ => by rw [mul_comm (x (ix3 b n i))]]

end Cert.Bridge

end
-- ==== Proof.Bridge.lean ====
/-
  The kernel's result is the reference's, entry by entry, when every coordinate is a real number and every sampled
  index names a point.

  An entry `(b, m, k)` belongs to the sampled point `m` of cloud `b`. Its index names a point `n0` of the cloud, and the
  sampled point's cell number `v` is `n0`'s: the cell `v` is not empty. For `k < 3` the entry is the mean along axis `k`
  of the cell's points, the same on both sides (`Kmean_eq_Rmean`). For `k ≥ 3` it is the second moment about the mean
  for the pair of axes `((k − 3) / 3, (k − 3) % 3)`; the kernel keeps the six pairs `i ≤ j` and reads the three below the
  diagonal from their mirror images, which is right because the second moments are symmetric (`cov_entry`).
-/
import proofs.«134341_j34419867910943_2_alg».proof.Proof.BridgeCell

noncomputable section

namespace Cert.Bridge

open Idealize.ShloMosaic Idealize.ShloMosaic.ValueIdx Cert.Spec

/-- Where the kernel finds entry `t` of the nine: at the pair `(t / 3, t % 3)` itself on and above the diagonal, at its
    mirror image below. -/
theorem pairs_sym (t : Fin 9) :
    pairs6 (sym9 t) =
      if t.val / 3 ≤ t.val % 3 then ((⟨t.val / 3, by omega⟩ : Fin 3), (⟨t.val % 3, by omega⟩ : Fin 3))
      else ((⟨t.val % 3, by omega⟩ : Fin 3), (⟨t.val / 3, by omega⟩ : Fin 3)) := by
  revert t
  decide

/-- The nine second moments: the kernel's entry `t`, found among its six products, is the reference's for the pair
    `(t / 3, t % 3)`. -/
theorem cov_entry {x : SX.Idx → EReal} {xr : SX.Idx → ℝ} (hx : ∀ i, x i = (xr i : EReal)) {b : Fin 8}
    {M : Fin 3 → ℝ} (hM : ∀ a, minc x b a = (M a : EReal)) {hr : ℝ} (hh : Spec.h = (hr : EReal))
    {v : ℕ} (hs : (cellSet x b v).Nonempty) (t : Fin 9) :
    Kcov6 x b v (sym9 t) = Rcov x b v ⟨t.val / 3, by omega⟩ ⟨t.val % 3, by omega⟩ := by
  rw [Kcov_eq_Rcov hx hM hh hs, pairs_sym t]
  split_ifs
  · exact Eq.refl _
  · exact Rcov_symm x b v _ _

/-- THE BRIDGE. On real coordinates and sampled indices that name points, the kernel's formula and the reference's
    are one function. -/
theorem kerOut_eq_refOut (x : Cert.Spec.SX.Idx → EReal) (idx : Cert.Spec.SI.Idx → BitVec 32)
    (hfin : Cert.Spec.Finite x) (hidx : Cert.Spec.InRange idx) :
    Cert.Spec.kerOut x idx = Cert.Spec.refOut x idx := by
  obtain ⟨hr, hh⟩ := h_real
  have hfin' : ∀ i, ∃ r : ℝ, x i = (r : EReal) := hfin
  choose xr hx using hfin'
  funext j
  have hlt := idx_lt hidx (j 0) (j 1)
  have hv := vAt_eq x idx (j 0) (j 1) hlt
  have hs : (cellSet x (j 0) (vAt x idx (j 0) (j 1))).Nonempty := ⟨_, mem_cellSet.mpr hv.symm⟩
  choose M hM using minc_real hfin (j 0)
  simp only [kerOut, refOut]
  by_cases hk : (j 2).val < 3
  · rw [dif_pos hk, dif_pos hk]
    exact Kmean_eq_Rmean hx hM hh hs _
  · rw [dif_neg hk, dif_neg hk]
    have h12 : (j 2).val < 12 := (j 2).isLt
    exact cov_entry hx hM hh hs ⟨(j 2).val - 3, by omega⟩

end Cert.Bridge

end
-- ==== Proof.PreFacts.lean ====
/-
  What the precondition says. The printed predicate is one bit: the conjunction of "every coordinate's absolute value is below
  +∞", "every sampled index is at least 0" and "every sampled index is below 262144", each taken over its whole array. If that
  bit is one then every coordinate is a real number (its absolute value is below the top, so it is neither infinity) and every
  sampled index, read signed, names a point.
-/
import proofs.«134341_j34419867910943_2_alg».proof.Pre_finite_inputs
import proofs.«134341_j34419867910943_2_alg».proof.Proof.Spec
import Idealize.ShloMosaic.Lib.ReduceAll
import Idealize.ShloMosaic.Lib.Affine
import Idealize.ShloMosaic.PureOps.Ideal.Laws
import Idealize.ShloMosaic.Lib.ValueIdx

noncomputable section

namespace Cert.PreFacts

open Idealize.ShloMosaic Idealize.ShloMosaic.ValueIdx Cert.Pre_finite_inputs

instance : Subsingleton S_.Idx := ⟨fun a b => funext fun d => d.elim0⟩

/-- An extended real whose absolute value is below the top is a real number. -/
theorem real_of_abs_lt_top (a : EReal) (h : max a (-a) < ⊤) : ∃ r : ℝ, a = (r : EReal) := by
  have h1 : a < ⊤ := lt_of_le_of_lt (le_max_left _ _) h
  have h2 : -a < ⊤ := lt_of_le_of_lt (le_max_right _ _) h
  induction a using EReal.rec with
  | bot => simp at h2
  | coe r => exact ⟨r, rfl⟩
  | top => simp at h1

theorem ofBool_eq_one {b : Bool} (h : BitVec.ofBool b = 1#1) : b = true := by
  cases b
  · exact absurd h (by decide)
  · rfl

/-- THE PRECONDITION, decoded. -/
theorem decode [Cert.Pre_finite_inputs.Facts] (x : FVec Ideal S8x262144x3 .f32) (idx : IVec S8x4096 32)
    (h : Cert.Pre_finite_inputs.fn (F := Ideal) x idx = fun _ => 1#1) :
    Cert.Spec.Finite x ∧ Cert.Spec.InRange idx := by
  have h0 := congrFun h ix0
  dsimp only [Cert.Pre_finite_inputs.fn, Idealize.ShloMosaic.andi] at h0
  obtain ⟨h12, h3⟩ := IntOp.andi_eq_one.mp h0
  obtain ⟨h1, h2⟩ := IntOp.andi_eq_one.mp h12
  refine ⟨fun i => ?_, fun b m => ⟨?_, ?_⟩⟩
  · have e := Host.reduce_andi_all _ _ _ _ ix0 h1 i
    have e' : Ideal.cmp .olt (max (x i) (-(x i))) (Ideal.ofBits .f32 0x7F800000#32) = 1#1 := e
    have ht : Ideal.ofBits .f32 0x7F800000#32 = (⊤ : EReal) := by simp [Ideal.ofBits, Ideal.ieee]
    rw [ht] at e'
    exact real_of_abs_lt_top _ (of_decide_eq_true (ofBool_eq_one e'))
  · have e := Host.reduce_andi_all _ _ _ _ ix0 h2 (ix2 b m)
    have e' : BitVec.ofBool ((0#32 : BitVec 32).sle (idx (ix2 b m))) = 1#1 := e
    have := ofBool_eq_one e'
    simpa [BitVec.sle] using this
  · have e := Host.reduce_andi_all _ _ _ _ ix0 h3 (ix2 b m)
    have e' : BitVec.ofBool ((idx (ix2 b m)).slt (262144#32 : BitVec 32)) = 1#1 := e
    have := ofBool_eq_one e'
    have h262 : (262144#32 : BitVec 32).toInt = 262144 := by decide
    simpa [BitVec.slt, h262] using this

end Cert.PreFacts

end
-- ==== Proof.lean ====
/-
  The certificate's five claims.

  Three frames: each program terminates, faults nowhere and leaves its two argument arrays as launched — the kernel program and
  its idealization from the two kernel regions put into the program's run, the reference from its run.
  The idealization rewrote no operation, so there is nothing to preserve.
  The equivalence, over the extended reals, for finite points and sampled indices that name a point: the kernel program's
  result is its per-cell table (mean and second moments of the points' cell-local coordinates, the mean moved back by the cell's
  corner and the cloud's corner) looked up at each sampled point's cell; the reference's is the mean and second moments of
  the points themselves in that cell; the two agree because the sampled point itself lies in its cell and moments about the
  mean do not change under a translation.
-/
import proofs.«134341_j34419867910943_2_alg».proof.Defs
import proofs.«134341_j34419867910943_2_alg».proof.Proof.Gen.Kernel
import proofs.«134341_j34419867910943_2_alg».proof.Proof.Gen.KernelIdeal
import proofs.«134341_j34419867910943_2_alg».proof.Proof.Gen.ReferenceIdeal
import proofs.«134341_j34419867910943_2_alg».proof.Proof.Gen.Pre_finite_inputs
import proofs.«134341_j34419867910943_2_alg».proof.Proof.KBitsFrame
import proofs.«134341_j34419867910943_2_alg».proof.Proof.KIdealFrame
import proofs.«134341_j34419867910943_2_alg».proof.Proof.KIdealValue0
import proofs.«134341_j34419867910943_2_alg».proof.Proof.KIdealValue1
import proofs.«134341_j34419867910943_2_alg».proof.Proof.TailTable
import proofs.«134341_j34419867910943_2_alg».proof.Proof.TailLookup
import proofs.«134341_j34419867910943_2_alg».proof.Proof.RefRunP
import proofs.«134341_j34419867910943_2_alg».proof.Proof.RefRunValP
import proofs.«134341_j34419867910943_2_alg».proof.Proof.RefSide
import proofs.«134341_j34419867910943_2_alg».proof.Proof.Bridge
import proofs.«134341_j34419867910943_2_alg».proof.Proof.PreFacts
import Idealize.ShloMosaic.Adequacy
import Idealize.ShloMosaic.Init

noncomputable section

namespace Cert.Proof

open Idealize.ShloMosaic Idealize.ShloMosaic.TcCoe Idealize.SL.Sem

theorem frame_k : Cert.frame_Kernel := fun m ρ _ => Cert.Kernel.Hand.frame m ρ
theorem frame_ki : Cert.frame_KernelIdeal := fun m ρ _ => Cert.KernelIdeal.Hand.frame m ρ
theorem frame_ri : Cert.frame_ReferenceIdeal := fun m ρ _ =>
  (θ_run Cert.ReferenceIdeal.defs _ _).mono (fun _ h c => (h c).2) (Cert.ReferenceIdeal.Value.run (F := Ideal) m ρ)
theorem preserves : Cert.preserves_Kernel_KernelIdeal := trivial

section Kernel

open Cert.KernelIdeal Cert.KernelIdeal.Gen Cert.KernelIdeal.Hand

/-- What the first region leaves in the minimum's array: the clouds' corners. -/
theorem outs_v0 (m : (ℓ : Loc nD τ sig) → Buf (Elt Ideal) ℓ) (c : Dev nD) :
    outs m 1 main_v0 c = Cert.Spec.mincArr (m ((c : Thread nD τ).loc main_arg0)) :=
  (X1_v0 m c).trans (final0 (Ve0 m) c)

/-- What the second region leaves in the histogram's array. -/
theorem outs_v1 (m : (ℓ : Loc nD τ sig) → Buf (Elt Ideal) ℓ) (c : Dev nD) :
    outs m 2 main_v1 c = Cert.Spec.histArr (m ((c : Thread nD τ).loc main_arg0)) := by
  have harg : Ve1 m c main_arg0 = m ((c : Thread nD τ).loc main_arg0) := V1_of m (outs m) c main_arg0 (by decide)
  have hmin : Ve1 m c main_v0 = Cert.Spec.mincArr (Ve1 m c main_arg0) := by
    rw [harg]; exact (V1_v0 m c).trans (final0 (Ve0 m) c)
  exact (X2_v1 m c).trans ((final1 (Ve1 m) c hmin).trans (congrArg Cert.Spec.histArr harg))

/-- The kernel program's run, read: the result is `Cert.Spec.kerOut` of the two arguments. -/
theorem kernel_run (m : (ℓ : Loc nD τ sig) → Buf (Elt Ideal) ℓ) (ρ : Dev nD → PrngReg)
    (hidx : ∀ c : Dev nD, Cert.Spec.InRange (m ((c : Thread nD τ).loc main_arg1))) :
    θ_run defs (onTc (τ := τ) (main (F := Ideal))) ⟨m, fun _ => 0, ρ⟩ (fun r => ∀ c : Dev nD,
      r.2.mem ((c.tc : Thread nD τ).loc main_v122)
          = Cert.Spec.kerOut (m ((c : Thread nD τ).loc main_arg0)) (m ((c : Thread nD τ).loc main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1)) := by
  refine (θ_run defs _ _).mono (fun _ h c => ⟨(h c).1.trans ?_, (h c).2⟩) (run_main m ρ)
  rw [Cert.TailLookup.lookup_eq m (outs m) c (outs_v0 m c) (hidx c) _
    (Cert.TailTable.table_eq m (outs m) c (outs_v0 m c) (outs_v1 m c))]
  funext j
  exact (Cert.Spec.kerOut_apply _ _ j).symm

end Kernel

/-- THE EQUIVALENCE. -/
theorem algebraic : Cert.algebraic_KernelIdeal_ReferenceIdeal := by
  intro m ρ m' ρ' hpre hagree
  have hdec := fun c => Cert.PreFacts.decode _ _ (hpre c)
  refine ⟨fun c => Cert.Spec.kerOut (m ((c.tc : Thread Cert.KernelIdeal.nD Cert.KernelIdeal.τ).loc Cert.KernelIdeal.main_arg0))
      (m ((c.tc : Thread Cert.KernelIdeal.nD Cert.KernelIdeal.τ).loc Cert.KernelIdeal.main_arg1)),
    kernel_run m ρ (fun c => (hdec c).2), ?_⟩
  refine (θ_run Cert.ReferenceIdeal.defs _ _).mono (fun _ h c => ⟨(h c).1.trans ?_, (h c).2⟩)
    (Cert.ReferenceIdeal.Read.run_val (F := Ideal) m' ρ')
  rw [(hagree c).1, (hagree c).2, Cert.RefSide.result_eq _ _ (hdec c).2]
  exact (Cert.Bridge.kerOut_eq_refOut _ _ (hdec c).1 (hdec c).2).symm

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
